-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  IdealRules.truncf_extf.Statement Cert.KernelIdeal.S700x512 .f32 .bf16
  ∧ IdealRules.truncf_extf.Statement Cert.KernelIdeal.S512x2048 .f32 .bf16
  ∧ IdealRules.truncf_extf.Statement Cert.KernelIdeal.S700x512 .f32 .bf16
  ∧ IdealRules.truncf_extf.Statement Cert.KernelIdeal.S512x2048 .f32 .bf16
  ∧ IdealRules.truncf_extf.Statement Cert.KernelIdeal.S700x2048 .f32 .bf16
  ∧ IdealRules.truncf_extf.Statement Cert.KernelIdeal.S2048x512 .f32 .bf16
  ∧ IdealRules.truncf_extf.Statement Cert.KernelIdeal.S700x2048 .f32 .bf16
  ∧ IdealRules.truncf_extf.Statement Cert.KernelIdeal.S2048x512 .f32 .bf16
  ∧ IdealRules.truncf_extf.Statement Cert.KernelIdeal.S256x512 .f32 .bf16
  ∧ IdealRules.truncf_extf.Statement Cert.KernelIdeal.S512x800 .f32 .bf16
  ∧ IdealRules.named_const.Statement Cert.KernelIdeal.κ "inv_800" .f32 0x3AA3D70A#32 ((1 / 800 : ℝ) : EReal)
  ∧ IdealRules.named_const.Statement Cert.KernelIdeal.κ "inv_800" .f32 0x3AA3D70A#32 ((1 / 800 : ℝ) : EReal)
  ∧ IdealRules.truncf_extf.Statement Cert.KernelIdeal.S256x800 .f32 .bf16
  ∧ IdealRules.truncf_extf.Statement Cert.KernelIdeal.S800x1000 .f32 .bf16
  ∧ IdealRules.named_const.Statement Cert.KernelIdeal.κ "inv_1000" .f32 0x3A83126F#32 ((1 / 1000 : ℝ) : EReal)
  ∧ IdealRules.named_const.Statement Cert.KernelIdeal.κ "inv_1000" .f32 0x3A83126F#32 ((1 / 1000 : ℝ) : EReal)
  ∧ IdealRules.truncf_extf.Statement Cert.KernelIdeal.S256x1000 .f32 .bf16
  ∧ IdealRules.truncf_extf.Statement Cert.KernelIdeal.S1000x800 .f32 .bf16
  ∧ IdealRules.named_const.Statement Cert.KernelIdeal.κ "inv_800" .f32 0x3AA3D70A#32 ((1 / 800 : ℝ) : EReal)
  ∧ IdealRules.named_const.Statement Cert.KernelIdeal.κ "inv_800" .f32 0x3AA3D70A#32 ((1 / 800 : ℝ) : EReal)
  ∧ IdealRules.named_const.Statement Cert.KernelIdeal.κ "inv_1000" .f32 0x3A83126F#32 ((1 / 1000 : ℝ) : EReal)
  ∧ IdealRules.named_const.Statement Cert.KernelIdeal.κ "inv_1000" .f32 0x3A83126F#32 ((1 / 1000 : ℝ) : EReal)
  ∧ IdealRules.named_const.Statement Cert.KernelIdeal.κ "inv_800" .f32 0x3AA3D70A#32 ((1 / 800 : ℝ) : EReal)
  ∧ IdealRules.named_const.Statement Cert.KernelIdeal.κ "inv_800" .f32 0x3AA3D70A#32 ((1 / 800 : ℝ) : EReal)
  ∧ IdealRules.named_const.Statement Cert.KernelIdeal.κ "inv_1000" .f32 0x3A83126F#32 ((1 / 1000 : ℝ) : EReal)
  ∧ IdealRules.named_const.Statement Cert.KernelIdeal.κ "inv_1000" .f32 0x3A83126F#32 ((1 / 1000 : ℝ) : EReal)
  ∧ IdealRules.named_const.Statement Cert.KernelIdeal.κ "inv_800" .f32 0x3AA3D70A#32 ((1 / 800 : ℝ) : EReal)
  ∧ IdealRules.named_const.Statement Cert.KernelIdeal.κ "inv_800" .f32 0x3AA3D70A#32 ((1 / 800 : ℝ) : EReal)
  ∧ IdealRules.named_const.Statement Cert.KernelIdeal.κ "inv_1000" .f32 0x3A83126F#32 ((1 / 1000 : ℝ) : EReal)
  ∧ IdealRules.named_const.Statement Cert.KernelIdeal.κ "inv_1000" .f32 0x3A83126F#32 ((1 / 1000 : ℝ) : EReal)
  ∧ IdealRules.named_const.Statement Cert.KernelIdeal.κ "inv_800" .f32 0x3AA3D70A#32 ((1 / 800 : ℝ) : EReal)
  ∧ IdealRules.named_const.Statement Cert.KernelIdeal.κ "inv_800" .f32 0x3AA3D70A#32 ((1 / 800 : ℝ) : EReal)
  ∧ IdealRules.named_const.Statement Cert.KernelIdeal.κ "inv_1000" .f32 0x3A83126F#32 ((1 / 1000 : ℝ) : EReal)
  ∧ IdealRules.named_const.Statement Cert.KernelIdeal.κ "inv_1000" .f32 0x3A83126F#32 ((1 / 1000 : ℝ) : EReal)
  ∧ IdealRules.named_const.Statement Cert.KernelIdeal.κ "inv_800" .f32 0x3AA3D70A#32 ((1 / 800 : ℝ) : EReal)
  ∧ IdealRules.named_const.Statement Cert.KernelIdeal.κ "inv_800" .f32 0x3AA3D70A#32 ((1 / 800 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S700x512 : Shape := ⟨2, ![700, 512]⟩
abbrev S2x50000 : Shape := ⟨2, ![2, 50000]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S512x800 : Shape := ⟨2, ![512, 800]⟩
abbrev S800 : Shape := ⟨1, ![800]⟩
abbrev S800x1000 : Shape := ⟨2, ![800, 1000]⟩
abbrev S1000 : Shape := ⟨1, ![1000]⟩
abbrev S1000x800 : Shape := ⟨2, ![1000, 800]⟩
abbrev S1024x1000 : Shape := ⟨2, ![1024, 1000]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S700x512 : S_.BroadcastsInDim S700x512 (![] : Fin 0 → Fin S700x512.rank)
  reducesTo_S700x512_S_d0_1 : S700x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x800 : S_.BroadcastsInDim S512x800 (![] : Fin 0 → Fin S512x800.rank)
  reducesTo_S512x800_S_d0_1 : S512x800.ReducesTo [0, 1] S_
  bcast_S_S800 : S_.BroadcastsInDim S800 (![] : Fin 0 → Fin S800.rank)
  reducesTo_S800_S_d0 : S800.ReducesTo [0] S_
  bcast_S_S800x1000 : S_.BroadcastsInDim S800x1000 (![] : Fin 0 → Fin S800x1000.rank)
  reducesTo_S800x1000_S_d0_1 : S800x1000.ReducesTo [0, 1] S_
  bcast_S_S1000 : S_.BroadcastsInDim S1000 (![] : Fin 0 → Fin S1000.rank)
  reducesTo_S1000_S_d0 : S1000.ReducesTo [0] S_
  bcast_S_S1000x800 : S_.BroadcastsInDim S1000x800 (![] : Fin 0 → Fin S1000x800.rank)
  reducesTo_S1000x800_S_d0_1 : S1000x800.ReducesTo [0, 1] S_
  bcast_S_S1024x1000 : S_.BroadcastsInDim S1024x1000 (![] : Fin 0 → Fin S1024x1000.rank)
  reducesTo_S1024x1000_S_d0_1 : S1024x1000.ReducesTo [0, 1] S_

variable [Facts]

def fn_part8 {F : FTy → Type} [FloatOps F] (main_v133 : IVec S_ 1) (main_v136 : IVec S800 1) : IVec S_ 1 :=
  let main_c_53 : IVec S_ 1 := constantI S_ 1 1#1
  let main_v137 : IVec S_ 1 := (fun x v => Host.reduce IntOp.andi x v reducesTo_S800_S_d0 h_S_) main_v136 main_c_53
  let main_v138 : IVec S_ 1 := andi main_v133 main_v137
  main_v138

def fn_part7 {F : FTy → Type} [FloatOps F] (main_arg26 : FVec F S800 .f32) (main_arg27 : FVec F S800 .f32) (main_arg28 : FVec F S800 .f32) (main_v118 : IVec S_ 1) (main_v119 : FVec F S1000x800 .f32) : IVec S_ 1 :=
  let main_cst_46 : FVec F S_ .f32 := constant S_ .f32 0x7F800000#32
  let main_v120 : FVec F S1000x800 .f32 := broadcastInDim S1000x800 ![] bcast_S_S1000x800 main_cst_46
  let main_v121 : IVec S1000x800 1 := cmpf .olt main_v119 main_v120
  let main_c_47 : IVec S_ 1 := constantI S_ 1 1#1
  let main_v122 : IVec S_ 1 := (fun x v => Host.reduce IntOp.andi x v reducesTo_S1000x800_S_d0_1 h_S_) main_v121 main_c_47
  let main_v123 : IVec S_ 1 := andi main_v118 main_v122
  let main_v124 : FVec F S800 .f32 := Host.absf main_arg26
  let main_cst_48 : FVec F S_ .f32 := constant S_ .f32 0x7F800000#32
  let main_v125 : FVec F S800 .f32 := broadcastInDim S800 ![] bcast_S_S800 main_cst_48
  let main_v126 : IVec S800 1 := cmpf .olt main_v124 main_v125
  let main_c_49 : IVec S_ 1 := constantI S_ 1 1#1
  let main_v127 : IVec S_ 1 := (fun x v => Host.reduce IntOp.andi x v reducesTo_S800_S_d0 h_S_) main_v126 main_c_49
  let main_v128 : IVec S_ 1 := andi main_v123 main_v127
  let main_v129 : FVec F S800 .f32 := Host.absf main_arg27
  let main_cst_50 : FVec F S_ .f32 := constant S_ .f32 0x7F800000#32
  let main_v130 : FVec F S800 .f32 := broadcastInDim S800 ![] bcast_S_S800 main_cst_50
  let main_v131 : IVec S800 1 := cmpf .olt main_v129 main_v130
  let main_c_51 : IVec S_ 1 := constantI S_ 1 1#1
  let main_v132 : IVec S_ 1 := (fun x v => Host.reduce IntOp.andi x v reducesTo_S800_S_d0 h_S_) main_v131 main_c_51
  let main_v133 : IVec S_ 1 := andi main_v128 main_v132
  let main_v134 : FVec F S800 .f32 := Host.absf main_arg28
  let main_cst_52 : FVec F S_ .f32 := constant S_ .f32 0x7F800000#32
  let main_v135 : FVec F S800 .f32 := broadcastInDim S800 ![] bcast_S_S800 main_cst_52
  let main_v136 : IVec S800 1 := cmpf .olt main_v134 main_v135
  fn_part8 (F := F) main_v133 main_v136

def fn_part6 {F : FTy → Type} [FloatOps F] (main_arg22 : FVec F S1000 .f32) (main_arg23 : FVec F S1000 .f32) (main_arg24 : FVec F S1000 .f32) (main_arg25 : FVec F S1000x800 .f32) (main_arg26 : FVec F S800 .f32) (main_arg27 : FVec F S800 .f32) (main_arg28 : FVec F S800 .f32) (main_v98 : IVec S_ 1) (main_v101 : IVec S1024x1000 1) (main_c_39 : IVec S_ 1) : IVec S_ 1 :=
  let main_v102 : IVec S_ 1 := (fun x v => Host.reduce IntOp.andi x v reducesTo_S1024x1000_S_d0_1 h_S_) main_v101 main_c_39
  let main_v103 : IVec S_ 1 := andi main_v98 main_v102
  let main_v104 : FVec F S1000 .f32 := Host.absf main_arg22
  let main_cst_40 : FVec F S_ .f32 := constant S_ .f32 0x7F800000#32
  let main_v105 : FVec F S1000 .f32 := broadcastInDim S1000 ![] bcast_S_S1000 main_cst_40
  let main_v106 : IVec S1000 1 := cmpf .olt main_v104 main_v105
  let main_c_41 : IVec S_ 1 := constantI S_ 1 1#1
  let main_v107 : IVec S_ 1 := (fun x v => Host.reduce IntOp.andi x v reducesTo_S1000_S_d0 h_S_) main_v106 main_c_41
  let main_v108 : IVec S_ 1 := andi main_v103 main_v107
  let main_v109 : FVec F S1000 .f32 := Host.absf main_arg23
  let main_cst_42 : FVec F S_ .f32 := constant S_ .f32 0x7F800000#32
  let main_v110 : FVec F S1000 .f32 := broadcastInDim S1000 ![] bcast_S_S1000 main_cst_42
  let main_v111 : IVec S1000 1 := cmpf .olt main_v109 main_v110
  let main_c_43 : IVec S_ 1 := constantI S_ 1 1#1
  let main_v112 : IVec S_ 1 := (fun x v => Host.reduce IntOp.andi x v reducesTo_S1000_S_d0 h_S_) main_v111 main_c_43
  let main_v113 : IVec S_ 1 := andi main_v108 main_v112
  let main_v114 : FVec F S1000 .f32 := Host.absf main_arg24
  let main_cst_44 : FVec F S_ .f32 := constant S_ .f32 0x7F800000#32
  let main_v115 : FVec F S1000 .f32 := broadcastInDim S1000 ![] bcast_S_S1000 main_cst_44
  let main_v116 : IVec S1000 1 := cmpf .olt main_v114 main_v115
  let main_c_45 : IVec S_ 1 := constantI S_ 1 1#1
  let main_v117 : IVec S_ 1 := (fun x v => Host.reduce IntOp.andi x v reducesTo_S1000_S_d0 h_S_) main_v116 main_c_45
  let main_v118 : IVec S_ 1 := andi main_v113 main_v117
  let main_v119 : FVec F S1000x800 .f32 := Host.absf main_arg25
  fn_part7 (F := F) main_arg26 main_arg27 main_arg28 main_v118 main_v119

def fn_part5 {F : FTy → Type} [FloatOps F] (main_arg19 : FVec F S800 .f32) (main_arg20 : FVec F S800 .f32) (main_arg21 : FVec F S1024x1000 .f32) (main_arg22 : FVec F S1000 .f32) (main_arg23 : FVec F S1000 .f32) (main_arg24 : FVec F S1000 .f32) (main_arg25 : FVec F S1000x800 .f32) (main_arg26 : FVec F S800 .f32) (main_arg27 : FVec F S800 .f32) (main_arg28 : FVec F S800 .f32) (main_v83 : IVec S_ 1) (main_v84 : FVec F S800 .f32) (main_cst_32 : FVec F S_ .f32) : IVec S_ 1 :=
  let main_v85 : FVec F S800 .f32 := broadcastInDim S800 ![] bcast_S_S800 main_cst_32
  let main_v86 : IVec S800 1 := cmpf .olt main_v84 main_v85
  let main_c_33 : IVec S_ 1 := constantI S_ 1 1#1
  let main_v87 : IVec S_ 1 := (fun x v => Host.reduce IntOp.andi x v reducesTo_S800_S_d0 h_S_) main_v86 main_c_33
  let main_v88 : IVec S_ 1 := andi main_v83 main_v87
  let main_v89 : FVec F S800 .f32 := Host.absf main_arg19
  let main_cst_34 : FVec F S_ .f32 := constant S_ .f32 0x7F800000#32
  let main_v90 : FVec F S800 .f32 := broadcastInDim S800 ![] bcast_S_S800 main_cst_34
  let main_v91 : IVec S800 1 := cmpf .olt main_v89 main_v90
  let main_c_35 : IVec S_ 1 := constantI S_ 1 1#1
  let main_v92 : IVec S_ 1 := (fun x v => Host.reduce IntOp.andi x v reducesTo_S800_S_d0 h_S_) main_v91 main_c_35
  let main_v93 : IVec S_ 1 := andi main_v88 main_v92
  let main_v94 : FVec F S800 .f32 := Host.absf main_arg20
  let main_cst_36 : FVec F S_ .f32 := constant S_ .f32 0x7F800000#32
  let main_v95 : FVec F S800 .f32 := broadcastInDim S800 ![] bcast_S_S800 main_cst_36
  let main_v96 : IVec S800 1 := cmpf .olt main_v94 main_v95
  let main_c_37 : IVec S_ 1 := constantI S_ 1 1#1
  let main_v97 : IVec S_ 1 := (fun x v => Host.reduce IntOp.andi x v reducesTo_S800_S_d0 h_S_) main_v96 main_c_37
  let main_v98 : IVec S_ 1 := andi main_v93 main_v97
  let main_v99 : FVec F S1024x1000 .f32 := Host.absf main_arg21
  let main_cst_38 : FVec F S_ .f32 := constant S_ .f32 0x7F800000#32
  let main_v100 : FVec F S1024x1000 .f32 := broadcastInDim S1024x1000 ![] bcast_S_S1024x1000 main_cst_38
  let main_v101 : IVec S1024x1000 1 := cmpf .olt main_v99 main_v100
  let main_c_39 : IVec S_ 1 := constantI S_ 1 1#1
  fn_part6 (F := F) main_arg22 main_arg23 main_arg24 main_arg25 main_arg26 main_arg27 main_arg28 main_v98 main_v101 main_c_39

def fn_part4 {F : FTy → Type} [FloatOps F] (main_arg15 : FVec F S1000 .f32) (main_arg16 : FVec F S1000 .f32) (main_arg17 : FVec F S1000x800 .f32) (main_arg18 : FVec F S800 .f32) (main_arg19 : FVec F S800 .f32) (main_arg20 : FVec F S800 .f32) (main_arg21 : FVec F S1024x1000 .f32) (main_arg22 : FVec F S1000 .f32) (main_arg23 : FVec F S1000 .f32) (main_arg24 : FVec F S1000 .f32) (main_arg25 : FVec F S1000x800 .f32) (main_arg26 : FVec F S800 .f32) (main_arg27 : FVec F S800 .f32) (main_arg28 : FVec F S800 .f32) (main_v63 : IVec S_ 1) (main_v67 : IVec S_ 1) : IVec S_ 1 :=
  let main_v68 : IVec S_ 1 := andi main_v63 main_v67
  let main_v69 : FVec F S1000 .f32 := Host.absf main_arg15
  let main_cst_26 : FVec F S_ .f32 := constant S_ .f32 0x7F800000#32
  let main_v70 : FVec F S1000 .f32 := broadcastInDim S1000 ![] bcast_S_S1000 main_cst_26
  let main_v71 : IVec S1000 1 := cmpf .olt main_v69 main_v70
  let main_c_27 : IVec S_ 1 := constantI S_ 1 1#1
  let main_v72 : IVec S_ 1 := (fun x v => Host.reduce IntOp.andi x v reducesTo_S1000_S_d0 h_S_) main_v71 main_c_27
  let main_v73 : IVec S_ 1 := andi main_v68 main_v72
  let main_v74 : FVec F S1000 .f32 := Host.absf main_arg16
  let main_cst_28 : FVec F S_ .f32 := constant S_ .f32 0x7F800000#32
  let main_v75 : FVec F S1000 .f32 := broadcastInDim S1000 ![] bcast_S_S1000 main_cst_28
  let main_v76 : IVec S1000 1 := cmpf .olt main_v74 main_v75
  let main_c_29 : IVec S_ 1 := constantI S_ 1 1#1
  let main_v77 : IVec S_ 1 := (fun x v => Host.reduce IntOp.andi x v reducesTo_S1000_S_d0 h_S_) main_v76 main_c_29
  let main_v78 : IVec S_ 1 := andi main_v73 main_v77
  let main_v79 : FVec F S1000x800 .f32 := Host.absf main_arg17
  let main_cst_30 : FVec F S_ .f32 := constant S_ .f32 0x7F800000#32
  let main_v80 : FVec F S1000x800 .f32 := broadcastInDim S1000x800 ![] bcast_S_S1000x800 main_cst_30
  let main_v81 : IVec S1000x800 1 := cmpf .olt main_v79 main_v80
  let main_c_31 : IVec S_ 1 := constantI S_ 1 1#1
  let main_v82 : IVec S_ 1 := (fun x v => Host.reduce IntOp.andi x v reducesTo_S1000x800_S_d0_1 h_S_) main_v81 main_c_31
  let main_v83 : IVec S_ 1 := andi main_v78 main_v82
  let main_v84 : FVec F S800 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_v83 main_v84 main_cst_32

def fn_part3 {F : FTy → Type} [FloatOps F] (main_arg12 : FVec F S800 .f32) (main_arg13 : FVec F S800x1000 .f32) (main_arg14 : FVec F S1000 .f32) (main_arg15 : FVec F S1000 .f32) (main_arg16 : FVec F S1000 .f32) (main_arg17 : FVec F S1000x800 .f32) (main_arg18 : FVec F S800 .f32) (main_arg19 : FVec F S800 .f32) (main_arg20 : FVec F S800 .f32) (main_arg21 : FVec F S1024x1000 .f32) (main_arg22 : FVec F S1000 .f32) (main_arg23 : FVec F S1000 .f32) (main_arg24 : FVec F S1000 .f32) (main_arg25 : FVec F S1000x800 .f32) (main_arg26 : FVec F S800 .f32) (main_arg27 : FVec F S800 .f32) (main_arg28 : FVec F S800 .f32) (main_v48 : IVec S_ 1) (main_v49 : FVec F S800 .f32) (main_v50 : FVec F S800 .f32) : IVec S_ 1 :=
  let main_v51 : IVec S800 1 := cmpf .olt main_v49 main_v50
  let main_c_19 : IVec S_ 1 := constantI S_ 1 1#1
  let main_v52 : IVec S_ 1 := (fun x v => Host.reduce IntOp.andi x v reducesTo_S800_S_d0 h_S_) main_v51 main_c_19
  let main_v53 : IVec S_ 1 := andi main_v48 main_v52
  let main_v54 : FVec F S800 .f32 := Host.absf main_arg12
  let main_cst_20 : FVec F S_ .f32 := constant S_ .f32 0x7F800000#32
  let main_v55 : FVec F S800 .f32 := broadcastInDim S800 ![] bcast_S_S800 main_cst_20
  let main_v56 : IVec S800 1 := cmpf .olt main_v54 main_v55
  let main_c_21 : IVec S_ 1 := constantI S_ 1 1#1
  let main_v57 : IVec S_ 1 := (fun x v => Host.reduce IntOp.andi x v reducesTo_S800_S_d0 h_S_) main_v56 main_c_21
  let main_v58 : IVec S_ 1 := andi main_v53 main_v57
  let main_v59 : FVec F S800x1000 .f32 := Host.absf main_arg13
  let main_cst_22 : FVec F S_ .f32 := constant S_ .f32 0x7F800000#32
  let main_v60 : FVec F S800x1000 .f32 := broadcastInDim S800x1000 ![] bcast_S_S800x1000 main_cst_22
  let main_v61 : IVec S800x1000 1 := cmpf .olt main_v59 main_v60
  let main_c_23 : IVec S_ 1 := constantI S_ 1 1#1
  let main_v62 : IVec S_ 1 := (fun x v => Host.reduce IntOp.andi x v reducesTo_S800x1000_S_d0_1 h_S_) main_v61 main_c_23
  let main_v63 : IVec S_ 1 := andi main_v58 main_v62
  let main_v64 : FVec F S1000 .f32 := Host.absf main_arg14
  let main_cst_24 : FVec F S_ .f32 := constant S_ .f32 0x7F800000#32
  let main_v65 : FVec F S1000 .f32 := broadcastInDim S1000 ![] bcast_S_S1000 main_cst_24
  let main_v66 : IVec S1000 1 := cmpf .olt main_v64 main_v65
  let main_c_25 : IVec S_ 1 := constantI S_ 1 1#1
  let main_v67 : IVec S_ 1 := (fun x v => Host.reduce IntOp.andi x v reducesTo_S1000_S_d0 h_S_) main_v66 main_c_25
  fn_part4 (F := F) main_arg15 main_arg16 main_arg17 main_arg18 main_arg19 main_arg20 main_arg21 main_arg22 main_arg23 main_arg24 main_arg25 main_arg26 main_arg27 main_arg28 main_v63 main_v67

def fn_part2 {F : FTy → Type} [FloatOps F] (main_arg8 : FVec F S2048x512 .f32) (main_arg9 : FVec F S512x800 .f32) (main_arg10 : FVec F S800 .f32) (main_arg11 : FVec F S800 .f32) (main_arg12 : FVec F S800 .f32) (main_arg13 : FVec F S800x1000 .f32) (main_arg14 : FVec F S1000 .f32) (main_arg15 : FVec F S1000 .f32) (main_arg16 : FVec F S1000 .f32) (main_arg17 : FVec F S1000x800 .f32) (main_arg18 : FVec F S800 .f32) (main_arg19 : FVec F S800 .f32) (main_arg20 : FVec F S800 .f32) (main_arg21 : FVec F S1024x1000 .f32) (main_arg22 : FVec F S1000 .f32) (main_arg23 : FVec F S1000 .f32) (main_arg24 : FVec F S1000 .f32) (main_arg25 : FVec F S1000x800 .f32) (main_arg26 : FVec F S800 .f32) (main_arg27 : FVec F S800 .f32) (main_arg28 : FVec F S800 .f32) (main_v33 : IVec S_ 1) : IVec S_ 1 :=
  let main_v34 : FVec F S2048x512 .f32 := Host.absf main_arg8
  let main_cst_12 : FVec F S_ .f32 := constant S_ .f32 0x7F800000#32
  let main_v35 : FVec F S2048x512 .f32 := broadcastInDim S2048x512 ![] bcast_S_S2048x512 main_cst_12
  let main_v36 : IVec S2048x512 1 := cmpf .olt main_v34 main_v35
  let main_c_13 : IVec S_ 1 := constantI S_ 1 1#1
  let main_v37 : IVec S_ 1 := (fun x v => Host.reduce IntOp.andi x v reducesTo_S2048x512_S_d0_1 h_S_) main_v36 main_c_13
  let main_v38 : IVec S_ 1 := andi main_v33 main_v37
  let main_v39 : FVec F S512x800 .f32 := Host.absf main_arg9
  let main_cst_14 : FVec F S_ .f32 := constant S_ .f32 0x7F800000#32
  let main_v40 : FVec F S512x800 .f32 := broadcastInDim S512x800 ![] bcast_S_S512x800 main_cst_14
  let main_v41 : IVec S512x800 1 := cmpf .olt main_v39 main_v40
  let main_c_15 : IVec S_ 1 := constantI S_ 1 1#1
  let main_v42 : IVec S_ 1 := (fun x v => Host.reduce IntOp.andi x v reducesTo_S512x800_S_d0_1 h_S_) main_v41 main_c_15
  let main_v43 : IVec S_ 1 := andi main_v38 main_v42
  let main_v44 : FVec F S800 .f32 := Host.absf main_arg10
  let main_cst_16 : FVec F S_ .f32 := constant S_ .f32 0x7F800000#32
  let main_v45 : FVec F S800 .f32 := broadcastInDim S800 ![] bcast_S_S800 main_cst_16
  let main_v46 : IVec S800 1 := cmpf .olt main_v44 main_v45
  let main_c_17 : IVec S_ 1 := constantI S_ 1 1#1
  let main_v47 : IVec S_ 1 := (fun x v => Host.reduce IntOp.andi x v reducesTo_S800_S_d0 h_S_) main_v46 main_c_17
  let main_v48 : IVec S_ 1 := andi main_v43 main_v47
  let main_v49 : FVec F S800 .f32 := Host.absf main_arg11
  let main_cst_18 : FVec F S_ .f32 := constant S_ .f32 0x7F800000#32
  let main_v50 : FVec F S800 .f32 := broadcastInDim S800 ![] bcast_S_S800 main_cst_18
  fn_part3 (F := F) main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg5 : FVec F S512x2048 .f32) (main_arg6 : FVec F S2048x512 .f32) (main_arg7 : FVec F S512 .f32) (main_arg8 : FVec F S2048x512 .f32) (main_arg9 : FVec F S512x800 .f32) (main_arg10 : FVec F S800 .f32) (main_arg11 : FVec F S800 .f32) (main_arg12 : FVec F S800 .f32) (main_arg13 : FVec F S800x1000 .f32) (main_arg14 : FVec F S1000 .f32) (main_arg15 : FVec F S1000 .f32) (main_arg16 : FVec F S1000 .f32) (main_arg17 : FVec F S1000x800 .f32) (main_arg18 : FVec F S800 .f32) (main_arg19 : FVec F S800 .f32) (main_arg20 : FVec F S800 .f32) (main_arg21 : FVec F S1024x1000 .f32) (main_arg22 : FVec F S1000 .f32) (main_arg23 : FVec F S1000 .f32) (main_arg24 : FVec F S1000 .f32) (main_arg25 : FVec F S1000x800 .f32) (main_arg26 : FVec F S800 .f32) (main_arg27 : FVec F S800 .f32) (main_arg28 : FVec F S800 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S512x2048 .f32 := Host.absf main_arg5
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048x512 .f32 := Host.absf main_arg6
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S256x512 .f32) (main_arg1 : FVec F S700x512 .f32) (main_arg2 : IVec S2x50000 32) (main_arg3 : FVec F S512x2048 .f32) (main_arg4 : FVec F S2048 .f32) (main_arg5 : FVec F S512x2048 .f32) (main_arg6 : FVec F S2048x512 .f32) (main_arg7 : FVec F S512 .f32) (main_arg8 : FVec F S2048x512 .f32) (main_arg9 : FVec F S512x800 .f32) (main_arg10 : FVec F S800 .f32) (main_arg11 : FVec F S800 .f32) (main_arg12 : FVec F S800 .f32) (main_arg13 : FVec F S800x1000 .f32) (main_arg14 : FVec F S1000 .f32) (main_arg15 : FVec F S1000 .f32) (main_arg16 : FVec F S1000 .f32) (main_arg17 : FVec F S1000x800 .f32) (main_arg18 : FVec F S800 .f32) (main_arg19 : FVec F S800 .f32) (main_arg20 : FVec F S800 .f32) (main_arg21 : FVec F S1024x1000 .f32) (main_arg22 : FVec F S1000 .f32) (main_arg23 : FVec F S1000 .f32) (main_arg24 : FVec F S1000 .f32) (main_arg25 : FVec F S1000x800 .f32) (main_arg26 : FVec F S800 .f32) (main_arg27 : FVec F S800 .f32) (main_arg28 : FVec F S800 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S700x512 .f32 := Host.absf main_arg1
  let main_cst_0 : FVec F S_ .f32 := constant S_ .f32 0x7F800000#32
  let main_v5 : FVec F S700x512 .f32 := broadcastInDim S700x512 ![] bcast_S_S700x512 main_cst_0
  let main_v6 : IVec S700x512 1 := cmpf .olt main_v4 main_v5
  let main_c_1 : IVec S_ 1 := constantI S_ 1 1#1
  let main_v7 : IVec S_ 1 := (fun x v => Host.reduce IntOp.andi x v reducesTo_S700x512_S_d0_1 h_S_) main_v6 main_c_1
  let main_v8 : IVec S_ 1 := andi main_v3 main_v7
  let main_v9 : FVec F S512x2048 .f32 := Host.absf main_arg3
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048 .f32 := Host.absf main_arg4
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S256x512 : Shape := ⟨2, ![256, 512]⟩
abbrev S700x512 : Shape := ⟨2, ![700, 512]⟩
abbrev S2x50000 : Shape := ⟨2, ![2, 50000]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S512x800 : Shape := ⟨2, ![512, 800]⟩
abbrev S800 : Shape := ⟨1, ![800]⟩
abbrev S800x1000 : Shape := ⟨2, ![800, 1000]⟩
abbrev S1000 : Shape := ⟨1, ![1000]⟩
abbrev S1000x800 : Shape := ⟨2, ![1000, 800]⟩
abbrev S1024x1000 : Shape := ⟨2, ![1024, 1000]⟩
abbrev S1x50000 : Shape := ⟨2, ![1, 50000]⟩
abbrev S50000 : Shape := ⟨1, ![50000]⟩
abbrev S_ : Shape := ⟨0, ![]⟩
abbrev S50000x1 : Shape := ⟨2, ![50000, 1]⟩
abbrev S50000x512 : Shape := ⟨2, ![50000, 512]⟩
abbrev S700 : Shape := ⟨1, ![700]⟩
abbrev S700x1 : Shape := ⟨2, ![700, 1]⟩
abbrev S1x2048 : Shape := ⟨2, ![1, 2048]⟩
abbrev S700x2048 : Shape := ⟨2, ![700, 2048]⟩
abbrev S50000x2048 : Shape := ⟨2, ![50000, 2048]⟩
abbrev S1x512 : Shape := ⟨2, ![1, 512]⟩
abbrev S1x800 : Shape := ⟨2, ![1, 800]⟩
abbrev S1x1000 : Shape := ⟨2, ![1, 1000]⟩
abbrev S256x800 : Shape := ⟨2, ![256, 800]⟩
abbrev S256 : Shape := ⟨1, ![256]⟩
abbrev S256x1 : Shape := ⟨2, ![256, 1]⟩
abbrev S256x1000 : Shape := ⟨2, ![256, 1000]⟩
abbrev S200x512 : Shape := ⟨2, ![200, 512]⟩
abbrev S500x512 : Shape := ⟨2, ![500, 512]⟩
abbrev S512x1000 : Shape := ⟨2, ![512, 1000]⟩
abbrev S512x1024 : Shape := ⟨2, ![512, 1024]⟩
abbrev S1024 : Shape := ⟨1, ![1024]⟩
abbrev S1x1024 : Shape := ⟨2, ![1, 1024]⟩
abbrev S1024x800 : Shape := ⟨2, ![1024, 800]⟩
abbrev S512x512 : Shape := ⟨2, ![512, 512]⟩
abbrev S256x200x512 : Shape := ⟨3, ![256, 200, 512]⟩
abbrev S8x512 : Shape := ⟨2, ![8, 512]⟩
abbrev S256x8x512 : Shape := ⟨3, ![256, 8, 512]⟩
abbrev S8x1024 : Shape := ⟨2, ![8, 1024]⟩
abbrev S1x1x1024 : Shape := ⟨3, ![1, 1, 1024]⟩
abbrev S128x1024 : Shape := ⟨2, ![128, 1024]⟩
abbrev S8x1x1024 : Shape := ⟨3, ![8, 1, 1024]⟩
abbrev S1x128x1024 : Shape := ⟨3, ![1, 128, 1024]⟩
abbrev S8x128x1024 : Shape := ⟨3, ![8, 128, 1024]⟩
abbrev S8x128 : Shape := ⟨2, ![8, 128]⟩
abbrev S8x128x1 : Shape := ⟨3, ![8, 128, 1]⟩
abbrev S1024x1024 : Shape := ⟨2, ![1024, 1024]⟩
abbrev S1024x1 : Shape := ⟨2, ![1024, 1]⟩
abbrev S256x1024 : Shape := ⟨2, ![256, 1024]⟩
abbrev S256x8x128 : Shape := ⟨3, ![256, 8, 128]⟩
abbrev S256x200x500 : Shape := ⟨3, ![256, 200, 500]⟩
abbrev S256x100000 : Shape := ⟨2, ![256, 100000]⟩

abbrev nBuf : Space → Nat
  | .hbm => 138
  | .vmem => 43
  | .smem => 0
  | _ => 0

abbrev hbmTy0_0 (i : Nat) : BufTy := match i % 128 with
  | 0 => ⟨S256x512, .f32⟩
  | 1 => ⟨S700x512, .f32⟩
  | 2 => ⟨S2x50000, .i32⟩
  | 3 => ⟨S512x2048, .f32⟩
  | 4 => ⟨S2048, .f32⟩
  | 5 => ⟨S512x2048, .f32⟩
  | 6 => ⟨S2048x512, .f32⟩
  | 7 => ⟨S512, .f32⟩
  | 8 => ⟨S2048x512, .f32⟩
  | 9 => ⟨S512x800, .f32⟩
  | 10 => ⟨S800, .f32⟩
  | 11 => ⟨S800, .f32⟩
  | 12 => ⟨S800, .f32⟩
  | 13 => ⟨S800x1000, .f32⟩
  | 14 => ⟨S1000, .f32⟩
  | 15 => ⟨S1000, .f32⟩
  | 16 => ⟨S1000, .f32⟩
  | 17 => ⟨S1000x800, .f32⟩
  | 18 => ⟨S800, .f32⟩
  | 19 => ⟨S800, .f32⟩
  | 20 => ⟨S800, .f32⟩
  | 21 => ⟨S1024x1000, .f32⟩
  | 22 => ⟨S1000, .f32⟩
  | 23 => ⟨S1000, .f32⟩
  | 24 => ⟨S1000, .f32⟩
  | 25 => ⟨S1000x800, .f32⟩
  | 26 => ⟨S800, .f32⟩
  | 27 => ⟨S800, .f32⟩
  | 28 => ⟨S800, .f32⟩
  | 29 => ⟨S1x50000, .i32⟩
  | 30 => ⟨S50000, .i32⟩
  | 31 => ⟨S1x50000, .i32⟩
  | 32 => ⟨S50000, .i32⟩
  | 33 => ⟨S_, .i32⟩
  | 34 => ⟨S50000, .i32⟩
  | 35 => ⟨S50000, .i1⟩
  | 36 => ⟨S_, .i32⟩
  | 37 => ⟨S50000, .i32⟩
  | 38 => ⟨S50000, .i32⟩
  | 39 => ⟨S50000, .i32⟩
  | 40 => ⟨S50000x1, .i32⟩
  | 41 => ⟨S50000x512, .f32⟩
  | 42 => ⟨S_, .f32⟩
  | 43 => ⟨S700x512, .f32⟩
  | 44 => ⟨S50000x1, .i32⟩
  | 45 => ⟨S700x512, .f32⟩
  | 46 => ⟨S_, .f32⟩
  | 47 => ⟨S50000, .f32⟩
  | 48 => ⟨S_, .f32⟩
  | 49 => ⟨S700, .f32⟩
  | 50 => ⟨S50000x1, .i32⟩
  | 51 => ⟨S700, .f32⟩
  | 52 => ⟨S_, .f32⟩
  | 53 => ⟨S700, .f32⟩
  | 54 => ⟨S700, .f32⟩
  | 55 => ⟨S700x1, .f32⟩
  | 56 => ⟨S700x512, .f32⟩
  | 57 => ⟨S700x512, .f32⟩
  | 58 => ⟨S1x2048, .f32⟩
  | 59 => ⟨S700x2048, .f32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S50000x2048, .f32⟩
  | 69 => ⟨S_, .f32⟩
  | 70 => ⟨S700x2048, .f32⟩
  | 71 => ⟨S50000x1, .i32⟩
  | 72 => ⟨S700x2048, .f32⟩
  | 73 => ⟨S_, .f32⟩
  | 74 => ⟨S50000, .f32⟩
  | 75 => ⟨S_, .f32⟩
  | 76 => ⟨S700, .f32⟩
  | 77 => ⟨S50000x1, .i32⟩
  | 78 => ⟨S700, .f32⟩
  | 79 => ⟨S_, .f32⟩
  | 80 => ⟨S700, .f32⟩
  | 81 => ⟨S700, .f32⟩
  | 82 => ⟨S700x1, .f32⟩
  | 83 => ⟨S700x2048, .f32⟩
  | 84 => ⟨S700x2048, .f32⟩
  | 85 => ⟨S1x512, .f32⟩
  | 86 => ⟨S700x512, .f32⟩
  | 87 => ⟨S1x800, .f32⟩
  | 88 => ⟨S1x800, .f32⟩
  | 89 => ⟨S1x800, .f32⟩
  | 90 => ⟨S1x1000, .f32⟩
  | 91 => ⟨S1x1000, .f32⟩
  | 92 => ⟨S1x1000, .f32⟩
  | 93 => ⟨S1x800, .f32⟩
  | 94 => ⟨S1x800, .f32⟩
  | 95 => ⟨S1x800, .f32⟩
  | 96 => ⟨S256x800, .f32⟩
  | 97 => ⟨S200x512, .f32⟩
  | 98 => ⟨S500x512, .f32⟩
  | 99 => ⟨S512x1000, .f32⟩
  | 100 => ⟨S512x1000, .f32⟩
  | 101 => ⟨S_, .i32⟩
  | 102 => ⟨S_, .f32⟩
  | 103 => ⟨S512x1024, .f32⟩
  | 104 => ⟨S512x1024, .bf16⟩
  | 105 => ⟨S_, .i32⟩
  | 106 => ⟨S_, .f32⟩
  | 107 => ⟨S512x1024, .f32⟩
  | 108 => ⟨S512x1024, .bf16⟩
  | 109 => ⟨S_, .i32⟩
  | 110 => ⟨S_, .f32⟩
  | 111 => ⟨S1024, .f32⟩
  | 112 => ⟨S1x1024, .f32⟩
  | 113 => ⟨S_, .i32⟩
  | 114 => ⟨S_, .f32⟩
  | 115 => ⟨S1024, .f32⟩
  | 116 => ⟨S1x1024, .f32⟩
  | 117 => ⟨S_, .i32⟩
  | 118 => ⟨S_, .f32⟩
  | 119 => ⟨S1024, .f32⟩
  | 120 => ⟨S1x1024, .f32⟩
  | 121 => ⟨S_, .i32⟩
  | 122 => ⟨S_, .f32⟩
  | 123 => ⟨S1024x800, .f32⟩
  | 124 => ⟨S1024x800, .bf16⟩
  | 125 => ⟨S1x800, .f32⟩
  | 126 => ⟨S1x800, .f32⟩
  | 127 => ⟨S1x800, .f32⟩
  | _ => ⟨S256x512, .f32⟩

abbrev hbmTy0_1 (i : Nat) : BufTy := match i % 128 with
  | 0 => ⟨S200x512, .bf16⟩
  | 1 => ⟨S_, .i32⟩
  | 2 => ⟨S_, .f32⟩
  | 3 => ⟨S512x512, .f32⟩
  | 4 => ⟨S512x512, .bf16⟩
  | 5 => ⟨S256x800, .bf16⟩
  | 6 => ⟨S512x1024, .f32⟩
  | 7 => ⟨S256x200x512, .f32⟩
  | 8 => ⟨S256x200x500, .f32⟩
  | 9 => ⟨S256x100000, .f32⟩
  | _ => ⟨S256x512, .f32⟩

abbrev hbmTy (i : Nat) : BufTy := match i / 128 with
  | 0 => hbmTy0_0 i
  | 1 => hbmTy0_1 i
  | _ => ⟨S256x512, .f32⟩

abbrev bufTy : (tb : Table) → Fin (tcTables nBuf tb) → BufTy
  | .hbm, ⟨i, _⟩ => hbmTy i
  | .local _ .vmem, ⟨0, _⟩ => ⟨S700x512, .f32⟩
  | .local _ .vmem, ⟨1, _⟩ => ⟨S700x512, .f32⟩
  | .local _ .vmem, ⟨2, _⟩ => ⟨S512x2048, .f32⟩
  | .local _ .vmem, ⟨3, _⟩ => ⟨S1x2048, .f32⟩
  | .local _ .vmem, ⟨4, _⟩ => ⟨S512x2048, .f32⟩
  | .local _ .vmem, ⟨5, _⟩ => ⟨S700x2048, .f32⟩
  | .local _ .vmem, ⟨6, _⟩ => ⟨S700x2048, .f32⟩
  | .local _ .vmem, ⟨7, _⟩ => ⟨S700x2048, .f32⟩
  | .local _ .vmem, ⟨8, _⟩ => ⟨S2048x512, .f32⟩
  | .local _ .vmem, ⟨9, _⟩ => ⟨S1x512, .f32⟩
  | .local _ .vmem, ⟨10, _⟩ => ⟨S2048x512, .f32⟩
  | .local _ .vmem, ⟨11, _⟩ => ⟨S700x512, .f32⟩
  | .local _ .vmem, ⟨12, _⟩ => ⟨S256x512, .f32⟩
  | .local _ .vmem, ⟨13, _⟩ => ⟨S512x800, .f32⟩
  | .local _ .vmem, ⟨14, _⟩ => ⟨S1x800, .f32⟩
  | .local _ .vmem, ⟨15, _⟩ => ⟨S1x800, .f32⟩
  | .local _ .vmem, ⟨16, _⟩ => ⟨S1x800, .f32⟩
  | .local _ .vmem, ⟨17, _⟩ => ⟨S800x1000, .f32⟩
  | .local _ .vmem, ⟨18, _⟩ => ⟨S1x1000, .f32⟩
  | .local _ .vmem, ⟨19, _⟩ => ⟨S1x1000, .f32⟩
  | .local _ .vmem, ⟨20, _⟩ => ⟨S1x1000, .f32⟩
  | .local _ .vmem, ⟨21, _⟩ => ⟨S1000x800, .f32⟩
  | .local _ .vmem, ⟨22, _⟩ => ⟨S1x800, .f32⟩
  | .local _ .vmem, ⟨23, _⟩ => ⟨S1x800, .f32⟩
  | .local _ .vmem, ⟨24, _⟩ => ⟨S1x800, .f32⟩
  | .local _ .vmem, ⟨25, _⟩ => ⟨S256x800, .f32⟩
  | .local _ .vmem, ⟨26, _⟩ => ⟨S512x512, .bf16⟩
  | .local _ .vmem, ⟨27, _⟩ => ⟨S512x1024, .bf16⟩
  | .local _ .vmem, ⟨28, _⟩ => ⟨S512x1024, .f32⟩
  | .local _ .vmem, ⟨29, _⟩ => ⟨S8x512, .bf16⟩
  | .local _ .vmem, ⟨30, _⟩ => ⟨S8x512, .bf16⟩
  | .local _ .vmem, ⟨31, _⟩ => ⟨S512x1024, .bf16⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S512x1024, .f32⟩
  | .local _ .vmem, ⟨36, _⟩ => ⟨S1024x800, .bf16⟩
  | .local _ .vmem, ⟨37, _⟩ => ⟨S1x800, .f32⟩
  | .local _ .vmem, ⟨38, _⟩ => ⟨S1x800, .f32⟩
  | .local _ .vmem, ⟨39, _⟩ => ⟨S1x800, .f32⟩
  | .local _ .vmem, ⟨40, _⟩ => ⟨S256x800, .bf16⟩
  | .local _ .vmem, ⟨41, _⟩ => ⟨S256x8x512, .f32⟩
  | .local _ .vmem, ⟨42, _⟩ => ⟨S256x8x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_c_4 : Ref sig .tc := ⟨.hbm, 60, rfl⟩
abbrev main_v25 : Ref sig .tc := ⟨.hbm, 61, rfl⟩
abbrev main_v26 : Ref sig .tc := ⟨.hbm, 62, rfl⟩
abbrev main_c_5 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_6 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_7 : Ref sig .tc := ⟨.hbm, 73, rfl⟩
abbrev main_v35 : Ref sig .tc := ⟨.hbm, 74, rfl⟩
abbrev main_cst_8 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_9 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_c_10 : Ref sig .tc := ⟨.hbm, 101, rfl⟩
abbrev main_call0_v0 : Ref sig .tc := ⟨.hbm, 102, rfl⟩
abbrev main_v60 : Ref sig .tc := ⟨.hbm, 103, rfl⟩
abbrev main_v61 : Ref sig .tc := ⟨.hbm, 104, rfl⟩
abbrev main_c_11 : Ref sig .tc := ⟨.hbm, 105, rfl⟩
abbrev main_call1_v0 : Ref sig .tc := ⟨.hbm, 106, rfl⟩
abbrev main_v62 : Ref sig .tc := ⟨.hbm, 107, rfl⟩
abbrev main_v63 : Ref sig .tc := ⟨.hbm, 108, rfl⟩
abbrev main_c_12 : Ref sig .tc := ⟨.hbm, 109, rfl⟩
abbrev main_call2_v0 : Ref sig .tc := ⟨.hbm, 110, rfl⟩
abbrev main_v64 : Ref sig .tc := ⟨.hbm, 111, rfl⟩
abbrev main_v65 : Ref sig .tc := ⟨.hbm, 112, rfl⟩
abbrev main_c_13 : Ref sig .tc := ⟨.hbm, 113, rfl⟩
abbrev main_call3_v0 : Ref sig .tc := ⟨.hbm, 114, rfl⟩
abbrev main_v66 : Ref sig .tc := ⟨.hbm, 115, rfl⟩
abbrev main_v67 : Ref sig .tc := ⟨.hbm, 116, rfl⟩
abbrev main_c_14 : Ref sig .tc := ⟨.hbm, 117, rfl⟩
abbrev main_call4_v0 : Ref sig .tc := ⟨.hbm, 118, rfl⟩
abbrev main_v68 : Ref sig .tc := ⟨.hbm, 119, rfl⟩
abbrev main_v69 : Ref sig .tc := ⟨.hbm, 120, rfl⟩
abbrev main_c_15 : Ref sig .tc := ⟨.hbm, 121, rfl⟩
abbrev main_call5_v0 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_c_16 : Ref sig .tc := ⟨.hbm, 129, rfl⟩
abbrev main_call6_v0 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg10_0 : Ref sig .tc := ⟨.vmem, 22, rfl⟩
abbrev cc2_stg11_0 : Ref sig .tc := ⟨.vmem, 23, rfl⟩
abbrev cc2_stg12_0 : Ref sig .tc := ⟨.vmem, 24, rfl⟩
abbrev cc2_stg13_0 : Ref sig .tc := ⟨.vmem, 25, rfl⟩
abbrev cc3_stg0_0 : Ref sig .tc := ⟨.vmem, 26, rfl⟩
abbrev cc3_stg1_0 : Ref sig .tc := ⟨.vmem, 27, rfl⟩
abbrev cc3_stg2_0 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg7_0 : Ref sig .tc := ⟨.vmem, 37, rfl⟩
abbrev cc4_stg8_0 : Ref sig .tc := ⟨.vmem, 38, rfl⟩
abbrev cc4_stg9_0 : Ref sig .tc := ⟨.vmem, 39, rfl⟩
abbrev cc4_stg10_0 : Ref sig .tc := ⟨.vmem, 40, rfl⟩
abbrev cc4_stg11_0 : Ref sig .tc := ⟨.vmem, 41, rfl⟩
abbrev cc4_stg11_1 : Ref sig .tc := ⟨.vmem, 42, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem10_0 : DmaSem sig := 22
abbrev cc2_sem11_0 : DmaSem sig := 23
abbrev cc2_sem12_0 : DmaSem sig := 24
abbrev cc2_sem13_0 : DmaSem sig := 25
abbrev cc3_sem0_0 : DmaSem sig := 26
abbrev cc3_sem1_0 : DmaSem sig := 27
abbrev cc3_sem2_0 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem7_0 : DmaSem sig := 37
abbrev cc4_sem8_0 : DmaSem sig := 38
abbrev cc4_sem9_0 : DmaSem sig := 39
abbrev cc4_sem10_0 : DmaSem sig := 40
abbrev cc4_sem11_0 : DmaSem sig := 41
abbrev cc4_sem11_1 : DmaSem sig := 42

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S700x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S700x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S700x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S700x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S700x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S700x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x800 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x800 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x800 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x800 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S800x1000 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1000 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1000 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1000 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1000x800 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x800 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x800 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x800 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S256x800 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S512x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage4_0 : Fin 2 → Memref sig .tc .vmem S8x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1024x800 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x800 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x800 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x800 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S256x800 .bf16 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S256x8x512 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

class Facts₀ : Prop where
  slices_S2x50000_S1x50000_0_0 : S2x50000.Slices ![0, 0] S1x50000
  shapeCasts_S1x50000_S50000 : S1x50000.ShapeCasts S50000
  slices_S2x50000_S1x50000_1_0 : S2x50000.Slices ![1, 0] S1x50000
  bcast_S_S50000 : S_.BroadcastsInDim S50000 (![] : Fin 0 → Fin S50000.rank)
  bcast_S50000_S50000x1_0 : S50000.BroadcastsInDim S50000x1 (![0] : Fin 1 → Fin S50000x1.rank)
  bcast_S_S700x512 : S_.BroadcastsInDim S700x512 (![] : Fin 0 → Fin S700x512.rank)
  bcast_S_S700 : S_.BroadcastsInDim S700 (![] : Fin 0 → Fin S700.rank)
  bcast_S700_S700x1_0 : S700.BroadcastsInDim S700x1 (![0] : Fin 1 → Fin S700x1.rank)
  bcast_S700x1_S700x512_0_1 : S700x1.BroadcastsInDim S700x512 (![0, 1] : Fin 2 → Fin S700x512.rank)
  shapeCasts_S2048_S1x2048 : S2048.ShapeCasts S1x2048
  inb_S700x512_S700x512_0_0 : ∀ a, (![0, 0] : Fin 2 → Nat) a + S700x512.size a ≤ S700x512.size a
  h_S700x512 : 0 < S700x512.numel
  shapeCasts_S700x512_S700x512 : S700x512.ShapeCasts S700x512
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S700x2048 : S1x2048.Broadcasts S700x2048
  inb_S700x2048_S700x2048_0_0 : ∀ a, (![0, 0] : Fin 2 → Nat) a + S700x2048.size a ≤ S700x2048.size a
  h_S700x2048 : 0 < S700x2048.numel
  bcast_S_S700x2048 : S_.BroadcastsInDim S700x2048 (![] : Fin 0 → Fin S700x2048.rank)
  bcast_S700x1_S700x2048_0_1 : S700x1.BroadcastsInDim S700x2048 (![0, 1] : Fin 2 → Fin S700x2048.rank)
  shapeCasts_S512_S1x512 : S512.ShapeCasts S1x512
  shapeCasts_S700x2048_S700x2048 : S700x2048.ShapeCasts S700x2048
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S700x512 : S1x512.Broadcasts S700x512
  shapeCasts_S800_S1x800 : S800.ShapeCasts S1x800
  shapeCasts_S1000_S1x1000 : S1000.ShapeCasts S1x1000
  inb_S256x512_S256x512_0_0 : ∀ a, (![0, 0] : Fin 2 → Nat) a + S256x512.size a ≤ S256x512.size a
  h_S256x512 : 0 < S256x512.numel
  inb_S512x800_S512x800_0_0 : ∀ a, (![0, 0] : Fin 2 → Nat) a + S512x800.size a ≤ S512x800.size a
  h_S512x800 : 0 < S512x800.numel
  inb_S1x800_S1x800_0_0 : ∀ a, (![0, 0] : Fin 2 → Nat) a + S1x800.size a ≤ S1x800.size a
  h_S1x800 : 0 < S1x800.numel
  shapeCasts_S1x800_S1x800 : S1x800.ShapeCasts S1x800
  broadcasts_S1x800_S256x800 : S1x800.Broadcasts S256x800
  reduces_S256x800_S256 : S256x800.Reduces [1] S256
  shapeCasts_S256_S256x1 : S256.ShapeCasts S256x1
  broadcasts_S256x1_S256x800 : S256x1.Broadcasts S256x800
  inb_S800x1000_S800x1000_0_0 : ∀ a, (![0, 0] : Fin 2 → Nat) a + S800x1000.size a ≤ S800x1000.size a
  h_S800x1000 : 0 < S800x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S256x1000 : S1x1000.Broadcasts S256x1000
  reduces_S256x1000_S256 : S256x1000.Reduces [1] S256
  broadcasts_S256x1_S256x1000 : S256x1.Broadcasts S256x1000
  inb_S1000x800_S1000x800_0_0 : ∀ a, (![0, 0] : Fin 2 → Nat) a + S1000x800.size a ≤ S1000x800.size a
  h_S1000x800 : 0 < S1000x800.numel
  inb_S256x800_S256x800_0_0 : ∀ a, (![0, 0] : Fin 2 → Nat) a + S256x800.size a ≤ S256x800.size a
  h_S256x800 : 0 < S256x800.numel
  slices_S700x512_S200x512_0_0 : S700x512.Slices ![0, 0] S200x512
  slices_S700x512_S500x512_200_0 : S700x512.Slices ![200, 0] S500x512
  slices_S1024x1000_S512x1000_0_0 : S1024x1000.Slices ![0, 0] S512x1000
  slices_S1024x1000_S512x1000_512_0 : S1024x1000.Slices ![512, 0] S512x1000
  pads_S512x1000_S512x1024_000_0240 : S512x1000.Pads (![0, 0] : Fin 2 → Nat) ![0, 24] ![0, 0] S512x1024
  h_S_ : 0 < S_.numel
  pads_S1000_S1024_0240 : S1000.Pads (![0] : Fin 1 → Nat) ![24] ![0] S1024
  shapeCasts_S1024_S1x1024 : S1024.ShapeCasts S1x1024
  pads_S1000x800_S1024x800_0240_000 : S1000x800.Pads (![0, 0] : Fin 2 → Nat) ![24, 0] ![0, 0] S1024x800
  pads_S500x512_S512x512_0120_000 : S500x512.Pads (![0, 0] : Fin 2 → Nat) ![12, 0] ![0, 0] S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  inb_S1024x800_S1024x800_0_0 : ∀ a, (![0, 0] : Fin 2 → Nat) a + S1024x800.size a ≤ S1024x800.size a
  h_S1024x800 : 0 < S1024x800.numel
  shapeCasts_S1024x800_S1024x800 : S1024x800.ShapeCasts S1024x800
  shapeCasts_S256x800_S256x800 : S256x800.ShapeCasts S256x800
  inb_S512x1024_S128x1024_0_0 : ∀ a, (![0, 0] : Fin 2 → Nat) a + S128x1024.size a ≤ S512x1024.size a
  h_S128x1024 : 0 < S128x1024.numel
  shapeCasts_S128x1024_S128x1024 : S128x1024.ShapeCasts S128x1024
  shapeCasts_S8x1024_S8x1x1024 : S8x1024.ShapeCasts S8x1x1024
  shapeCasts_S128x1024_S1x128x1024 : S128x1024.ShapeCasts S1x128x1024
  broadcasts_S8x1x1024_S8x128x1024 : S8x1x1024.Broadcasts S8x128x1024
  broadcasts_S1x128x1024_S8x128x1024 : S1x128x1024.Broadcasts S8x128x1024
  broadcasts_S1x1x1024_S8x128x1024 : S1x1x1024.Broadcasts S8x128x1024
  reduces_S8x128x1024_S8x128 : S8x128x1024.Reduces [2] S8x128
  shapeCasts_S8x128_S8x128x1 : S8x128.ShapeCasts S8x128x1
  broadcasts_S8x128x1_S8x128x1024 : S8x128x1.Broadcasts S8x128x1024
  shapeCasts_S8x128x1024_S1024x1024 : S8x128x1024.ShapeCasts S1024x1024
  broadcasts_S1x800_S1024x800 : S1x800.Broadcasts S1024x800
  reduces_S1024x800_S1024 : S1024x800.Reduces [1] S1024
  shapeCasts_S1024_S1024x1 : S1024.ShapeCasts S1024x1
  broadcasts_S1024x1_S1024x800 : S1024x1.Broadcasts S1024x800
  shapeCasts_S256x1024_S256x8x128 : S256x1024.ShapeCasts S256x8x128
  inb_S256x8x512_S256x8x128_0_0_0 : ∀ a, (![0, 0, 0] : Fin 3 → Nat) a + S256x8x128.size a ≤ S256x8x512.size a
  h_S256x8x128 : 0 < S256x8x128.numel
  inb_S512x1024_S128x1024_128_0 : ∀ a, (![128, 0] : Fin 2 → Nat) a + S128x1024.size a ≤ S512x1024.size a
  inb_S256x8x512_S256x8x128_0_0_128 : ∀ a, (![0, 0, 128] : Fin 3 → Nat) a + S256x8x128.size a ≤ S256x8x512.size a
  inb_S512x1024_S128x1024_256_0 : ∀ a, (![256, 0] : Fin 2 → Nat) a + S128x1024.size a ≤ S512x1024.size a
  inb_S256x8x512_S256x8x128_0_0_256 : ∀ a, (![0, 0, 256] : Fin 3 → Nat) a + S256x8x128.size a ≤ S256x8x512.size a
  inb_S512x1024_S128x1024_384_0 : ∀ a, (![384, 0] : Fin 2 → Nat) a + S128x1024.size a ≤ S512x1024.size a
  inb_S256x8x512_S256x8x128_0_0_384 : ∀ a, (![0, 0, 384] : Fin 3 → Nat) a + S256x8x128.size a ≤ S256x8x512.size a
  slices_S256x200x512_S256x200x500_0_0_0 : S256x200x512.Slices ![0, 0, 0] S256x200x500
  shapeCasts_S256x200x500_S256x100000 : S256x200x500.ShapeCasts S256x100000
  gather_S700x512_S50000x1_S50000x512_1_0_n_n_0_1_1512_wf : GatherDims.WF S700x512 S50000x1 S50000x512 [1] [0] [] [0] [] 1 ![1, 512]
  scatter_S700x512_S50000x1_S50000x512_1_0_0_1_wf : ScatterDims.WF S700x512 S50000x1 S50000x512 [1] [0] [0] 1
  scatter_S700_S50000x1_S50000_n_0_0_1_wf : ScatterDims.WF S700 S50000x1 S50000 [] [0] [0] 1
  dot_S700x512_S512x2048_S700x2048_1_0_0_1_n_n_wf : DotDims.WF S700x512 S512x2048 S700x2048 [1] [0] [0] [1] [] []
  gather_S700x2048_S50000x1_S50000x2048_1_0_n_n_0_1_12048_wf : GatherDims.WF S700x2048 S50000x1 S50000x2048 [1] [0] [] [0] [] 1 ![1, 2048]
  scatter_S700x2048_S50000x1_S50000x2048_1_0_0_1_wf : ScatterDims.WF S700x2048 S50000x1 S50000x2048 [1] [0] [0] 1
  dot_S700x2048_S2048x512_S700x512_1_0_0_1_n_n_wf : DotDims.WF S700x2048 S2048x512 S700x512 [1] [0] [0] [1] [] []
  dot_S256x512_S512x800_S256x800_1_0_0_1_n_n_wf : DotDims.WF S256x512 S512x800 S256x800 [1] [0] [0] [1] [] []
  dot_S256x800_S800x1000_S256x1000_1_0_0_1_n_n_wf : DotDims.WF S256x800 S800x1000 S256x1000 [1] [0] [0] [1] [] []
  dot_S256x1000_S1000x800_S256x800_1_0_0_1_n_n_wf : DotDims.WF S256x1000 S1000x800 S256x800 [1] [0] [0] [1] [] []
  dot_S512x512_S512x1024_S512x1024_1_0_0_1_n_n_wf : DotDims.WF S512x512 S512x1024 S512x1024 [1] [0] [0] [1] [] []
  dot_S8x512_S512x1024_S8x1024_1_0_0_1_n_n_wf : DotDims.WF S8x512 S512x1024 S8x1024 [1] [0] [0] [1] [] []
  dot_S1024x1024_S1024x800_S1024x800_1_0_0_1_n_n_wf : DotDims.WF S1024x1024 S1024x800 S1024x800 [1] [0] [0] [1] [] []
  dot_S256x800_S1024x800_S256x1024_1_1_0_0_n_n_wf : DotDims.WF S256x800 S1024x800 S256x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S700x512.size a ≤ S700x512.size a
  hwx0_0 : ∀ i : grid0.Coords, EltTy.bits .f32 = 32 ∨ (Rect.block (s := S700x512) S700x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S700x512.size a ≤ S700x512.size a
  hwx0_1 : ∀ i : grid0.Coords, EltTy.bits .f32 = 32 ∨ (Rect.block (s := S700x512) S700x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .f32 = 32 ∨ (Rect.block (s := S512x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .f32 = 32 ∨ (Rect.block (s := S512x2048) S512x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S700x2048.size a ≤ S700x2048.size a
  hwx0_5 : ∀ i : grid0.Coords, EltTy.bits .f32 = 32 ∨ (Rect.block (s := S700x2048) S700x2048.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S700x2048.size a ≤ S700x2048.size a
  hwx1_0 : ∀ i : grid1.Coords, EltTy.bits .f32 = 32 ∨ (Rect.block (s := S700x2048) S700x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S700x2048.size a ≤ S700x2048.size a
  hwx1_1 : ∀ i : grid1.Coords, EltTy.bits .f32 = 32 ∨ (Rect.block (s := S700x2048) S700x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S2048x512.size a
  hwx1_2 : ∀ i : grid1.Coords, EltTy.bits .f32 = 32 ∨ (Rect.block (s := S2048x512) S2048x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S2048x512.size a
  hwx1_4 : ∀ i : grid1.Coords, EltTy.bits .f32 = 32 ∨ (Rect.block (s := S2048x512) S2048x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S700x512.size a ≤ S700x512.size a
  hwx1_5 : ∀ i : grid1.Coords, EltTy.bits .f32 = 32 ∨ (Rect.block (s := S700x512) S700x512.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S256x512.size a
  hwx2_0 : ∀ i : grid2.Coords, EltTy.bits .f32 = 32 ∨ (Rect.block (s := S256x512) S256x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x800.size a ≤ S512x800.size a
  hwx2_1 : ∀ i : grid2.Coords, EltTy.bits .f32 = 32 ∨ (Rect.block (s := S512x800) S512x800.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x800.size a ≤ S1x800.size a
  hwx2_2 : ∀ i : grid2.Coords, EltTy.bits .f32 = 32 ∨ (Rect.block (s := S1x800) S1x800.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x800.size a ≤ S1x800.size a
  hwx2_3 : ∀ i : grid2.Coords, EltTy.bits .f32 = 32 ∨ (Rect.block (s := S1x800) S1x800.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x800.size a ≤ S1x800.size a
  hwx2_4 : ∀ i : grid2.Coords, EltTy.bits .f32 = 32 ∨ (Rect.block (s := S1x800) S1x800.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S800x1000.size a ≤ S800x1000.size a
  hwx2_5 : ∀ i : grid2.Coords, EltTy.bits .f32 = 32 ∨ (Rect.block (s := S800x1000) S800x1000.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1000.size a ≤ S1x1000.size a
  hwx2_6 : ∀ i : grid2.Coords, EltTy.bits .f32 = 32 ∨ (Rect.block (s := S1x1000) S1x1000.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1000.size a ≤ S1x1000.size a
  hwx2_7 : ∀ i : grid2.Coords, EltTy.bits .f32 = 32 ∨ (Rect.block (s := S1x1000) S1x1000.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1000.size a ≤ S1x1000.size a
  hwx2_8 : ∀ i : grid2.Coords, EltTy.bits .f32 = 32 ∨ (Rect.block (s := S1x1000) S1x1000.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1000x800.size a ≤ S1000x800.size a
  hwx2_9 : ∀ i : grid2.Coords, EltTy.bits .f32 = 32 ∨ (Rect.block (s := S1000x800) S1000x800.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x800.size a ≤ S1x800.size a
  hwx2_10 : ∀ i : grid2.Coords, EltTy.bits .f32 = 32 ∨ (Rect.block (s := S1x800) S1x800.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x800.size a ≤ S1x800.size a
  hwx2_11 : ∀ i : grid2.Coords, EltTy.bits .f32 = 32 ∨ (Rect.block (s := S1x800) S1x800.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x800.size a ≤ S1x800.size a
  hwx2_12 : ∀ i : grid2.Coords, EltTy.bits .f32 = 32 ∨ (Rect.block (s := S1x800) S1x800.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S256x800.size a ≤ S256x800.size a
  hwx2_13 : ∀ i : grid2.Coords, EltTy.bits .f32 = 32 ∨ (Rect.block (s := S256x800) S256x800.size (cc2_transform_13 i) (hinb2_13 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S512x512.size a
  hwx3_0 : ∀ i : grid3.Coords, EltTy.bits .bf16 = 32 ∨ (Rect.block (s := S512x512) S512x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x1024.size a ≤ S512x1024.size a
  hwx3_1 : ∀ i : grid3.Coords, EltTy.bits .bf16 = 32 ∨ (Rect.block (s := S512x1024) S512x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S512x1024.size a
  hwx3_2 : ∀ i : grid3.Coords, EltTy.bits .f32 = 32 ∨ (Rect.block (s := S512x1024) S512x1024.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x512.size a ≤ S200x512.size a
  hwx4_0 : ∀ i : grid4.Coords, EltTy.bits .bf16 = 32 ∨ (Rect.block (s := S200x512) S8x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x1024.size a ≤ S512x1024.size a
  hwx4_1 : ∀ i : grid4.Coords, EltTy.bits .bf16 = 32 ∨ (Rect.block (s := S512x1024) S512x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1024.size a ≤ S1x1024.size a
  hwx4_3 : ∀ i : grid4.Coords, EltTy.bits .f32 = 32 ∨ (Rect.block (s := S1x1024) S1x1024.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x1024.size a
  hwx4_4 : ∀ i : grid4.Coords, EltTy.bits .f32 = 32 ∨ (Rect.block (s := S1x1024) S1x1024.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x1024.size a ≤ S512x1024.size a
  hwx4_5 : ∀ i : grid4.Coords, EltTy.bits .f32 = 32 ∨ (Rect.block (s := S512x1024) S512x1024.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1024x800.size a ≤ S1024x800.size a
  hwx4_6 : ∀ i : grid4.Coords, EltTy.bits .bf16 = 32 ∨ (Rect.block (s := S1024x800) S1024x800.size (cc4_transform_6 i) (hinb4_6 i)).WholeWords (EltTy.packing .bf16)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x800.size a ≤ S1x800.size a
  hwx4_7 : ∀ i : grid4.Coords, EltTy.bits .f32 = 32 ∨ (Rect.block (s := S1x800) S1x800.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x800.size a ≤ S1x800.size a
  hwx4_8 : ∀ i : grid4.Coords, EltTy.bits .f32 = 32 ∨ (Rect.block (s := S1x800) S1x800.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x800.size a ≤ S1x800.size a
  hwx4_9 : ∀ i : grid4.Coords, EltTy.bits .f32 = 32 ∨ (Rect.block (s := S1x800) S1x800.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S256x800.size a ≤ S256x800.size a
  hwx4_10 : ∀ i : grid4.Coords, EltTy.bits .bf16 = 32 ∨ (Rect.block (s := S256x800) S256x800.size (cc4_transform_10 i) (hinb4_10 i)).WholeWords (EltTy.packing .bf16)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S256x8x512.size a ≤ S256x200x512.size a
  hwx4_11 : ∀ i : grid4.Coords, EltTy.bits .f32 = 32 ∨ (Rect.block (s := S256x200x512) S256x8x512.size (cc4_transform_11 i) (hinb4_11 i)).WholeWords (EltTy.packing .f32)

variable [Facts₀]

def gather_S700x512_S50000x1_S50000x512_1_0_n_n_0_1_1512 : GatherDims S700x512 S50000x1 S50000x512 where
  offsetDims := [1]
  collapsedSliceDims := [0]
  operandBatchingDims := []
  startIndicesBatchingDims := []
  startIndexMap := [0]
  indexVectorDim := 1
  sliceSizes := ![1, 512]
  wf := gather_S700x512_S50000x1_S50000x512_1_0_n_n_0_1_1512_wf
def scatter_S700x512_S50000x1_S50000x512_1_0_0_1 : ScatterDims S700x512 S50000x1 S50000x512 where
  updateWindowDims := [1]
  insertedWindowDims := [0]
  scatterDimsToOperandDims := [0]
  indexVectorDim := 1
  wf := scatter_S700x512_S50000x1_S50000x512_1_0_0_1_wf
def scatter_S700_S50000x1_S50000_n_0_0_1 : ScatterDims S700 S50000x1 S50000 where
  updateWindowDims := []
  insertedWindowDims := [0]
  scatterDimsToOperandDims := [0]
  indexVectorDim := 1
  wf := scatter_S700_S50000x1_S50000_n_0_0_1_wf
def dot_S700x512_S512x2048_S700x2048_1_0_0_1_n_n : DotDims S700x512 S512x2048 S700x2048 where
  lhsContracting := [1]
  rhsContracting := [0]
  lhsNonContracting := [0]
  rhsNonContracting := [1]
  lhsBatch := []
  rhsBatch := []
  wf := dot_S700x512_S512x2048_S700x2048_1_0_0_1_n_n_wf
def gather_S700x2048_S50000x1_S50000x2048_1_0_n_n_0_1_12048 : GatherDims S700x2048 S50000x1 S50000x2048 where
  offsetDims := [1]
  collapsedSliceDims := [0]
  operandBatchingDims := []
  startIndicesBatchingDims := []
  startIndexMap := [0]
  indexVectorDim := 1
  sliceSizes := ![1, 2048]
  wf := gather_S700x2048_S50000x1_S50000x2048_1_0_n_n_0_1_12048_wf
def scatter_S700x2048_S50000x1_S50000x2048_1_0_0_1 : ScatterDims S700x2048 S50000x1 S50000x2048 where
  updateWindowDims := [1]
  insertedWindowDims := [0]
  scatterDimsToOperandDims := [0]
  indexVectorDim := 1
  wf := scatter_S700x2048_S50000x1_S50000x2048_1_0_0_1_wf
def dot_S700x2048_S2048x512_S700x512_1_0_0_1_n_n : DotDims S700x2048 S2048x512 S700x512 where
  lhsContracting := [1]
  rhsContracting := [0]
  lhsNonContracting := [0]
  rhsNonContracting := [1]
  lhsBatch := []
  rhsBatch := []
  wf := dot_S700x2048_S2048x512_S700x512_1_0_0_1_n_n_wf
def dot_S256x512_S512x800_S256x800_1_0_0_1_n_n : DotDims S256x512 S512x800 S256x800 where
  lhsContracting := [1]
  rhsContracting := [0]
  lhsNonContracting := [0]
  rhsNonContracting := [1]
  lhsBatch := []
  rhsBatch := []
  wf := dot_S256x512_S512x800_S256x800_1_0_0_1_n_n_wf
def dot_S256x800_S800x1000_S256x1000_1_0_0_1_n_n : DotDims S256x800 S800x1000 S256x1000 where
  lhsContracting := [1]
  rhsContracting := [0]
  lhsNonContracting := [0]
  rhsNonContracting := [1]
  lhsBatch := []
  rhsBatch := []
  wf := dot_S256x800_S800x1000_S256x1000_1_0_0_1_n_n_wf
def dot_S256x1000_S1000x800_S256x800_1_0_0_1_n_n : DotDims S256x1000 S1000x800 S256x800 where
  lhsContracting := [1]
  rhsContracting := [0]
  lhsNonContracting := [0]
  rhsNonContracting := [1]
  lhsBatch := []
  rhsBatch := []
  wf := dot_S256x1000_S1000x800_S256x800_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf
def dot_S1024x1024_S1024x800_S1024x800_1_0_0_1_n_n : DotDims S1024x1024 S1024x800 S1024x800 where
  lhsContracting := [1]
  rhsContracting := [0]
  lhsNonContracting := [0]
  rhsNonContracting := [1]
  lhsBatch := []
  rhsBatch := []
  wf := dot_S1024x1024_S1024x800_S1024x800_1_0_0_1_n_n_wf
def dot_S256x800_S1024x800_S256x1024_1_1_0_0_n_n : DotDims S256x800 S1024x800 S256x1024 where
  lhsContracting := [1]
  rhsContracting := [1]
  lhsNonContracting := [0]
  rhsNonContracting := [0]
  lhsBatch := []
  rhsBatch := []
  wf := dot_S256x800_S1024x800_S256x1024_1_1_0_0_n_n_wf

abbrev win0_0 : Pipeline.Window sig grid0 :=
  Pipeline.Window.ofSpec (Memref.whole main_v22) S700x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S700x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S700x2048.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S700x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v24) S700x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S2048x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S2048x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S700x512.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S256x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S512x800.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x800.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x800.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x800.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S800x1000.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S1x1000.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v50) S1x1000.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v51) S1x1000.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg17) S1000x800.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v52) S1x800.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v53) S1x800.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v54) S1x800.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v55) S256x800.size cc2_transform_13 reads2_13 true true 1 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v77) S512x512.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v63) S512x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S512x1024.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v75) S8x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S512x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S1x1024.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S1x1024.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v79) S512x1024.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v71) S1024x800.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v72) S1x800.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v73) S1x800.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v74) S1x800.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v78) S256x800.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v80) S256x8x512.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S256x512 : Shape := ⟨2, ![256, 512]⟩
abbrev S700x512 : Shape := ⟨2, ![700, 512]⟩
abbrev S2x50000 : Shape := ⟨2, ![2, 50000]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S512x800 : Shape := ⟨2, ![512, 800]⟩
abbrev S800 : Shape := ⟨1, ![800]⟩
abbrev S800x1000 : Shape := ⟨2, ![800, 1000]⟩
abbrev S1000 : Shape := ⟨1, ![1000]⟩
abbrev S1000x800 : Shape := ⟨2, ![1000, 800]⟩
abbrev S1024x1000 : Shape := ⟨2, ![1024, 1000]⟩
abbrev S1x50000 : Shape := ⟨2, ![1, 50000]⟩
abbrev S50000 : Shape := ⟨1, ![50000]⟩
abbrev S_ : Shape := ⟨0, ![]⟩
abbrev S50000x1 : Shape := ⟨2, ![50000, 1]⟩
abbrev S50000x512 : Shape := ⟨2, ![50000, 512]⟩
abbrev S700 : Shape := ⟨1, ![700]⟩
abbrev S700x1 : Shape := ⟨2, ![700, 1]⟩
abbrev S700x2048 : Shape := ⟨2, ![700, 2048]⟩
abbrev S1x2048 : Shape := ⟨2, ![1, 2048]⟩
abbrev S50000x2048 : Shape := ⟨2, ![50000, 2048]⟩
abbrev S1x512 : Shape := ⟨2, ![1, 512]⟩
abbrev S256x800 : Shape := ⟨2, ![256, 800]⟩
abbrev S1x800 : Shape := ⟨2, ![1, 800]⟩
abbrev S256 : Shape := ⟨1, ![256]⟩
abbrev S256x1 : Shape := ⟨2, ![256, 1]⟩
abbrev S256x1000 : Shape := ⟨2, ![256, 1000]⟩
abbrev S1x1000 : Shape := ⟨2, ![1, 1000]⟩
abbrev S200x512 : Shape := ⟨2, ![200, 512]⟩
abbrev S500x512 : Shape := ⟨2, ![500, 512]⟩
abbrev S200x500x512 : Shape := ⟨3, ![200, 500, 512]⟩
abbrev S100000x512 : Shape := ⟨2, ![100000, 512]⟩
abbrev S1x500x1x512 : Shape := ⟨4, ![1, 500, 1, 512]⟩
abbrev S200x500x1x512 : Shape := ⟨4, ![200, 500, 1, 512]⟩
abbrev S100000x1024 : Shape := ⟨2, ![100000, 1024]⟩
abbrev S100000x1000 : Shape := ⟨2, ![100000, 1000]⟩
abbrev S100000 : Shape := ⟨1, ![100000]⟩
abbrev S100000x1 : Shape := ⟨2, ![100000, 1]⟩
abbrev S100000x800 : Shape := ⟨2, ![100000, 800]⟩
abbrev S800x100000 : Shape := ⟨2, ![800, 100000]⟩
abbrev S256x100000 : Shape := ⟨2, ![256, 100000]⟩

abbrev nBuf : Space → Nat
  | .hbm => 282
  | .vmem => 0
  | .smem => 0
  | _ => 0

abbrev hbmTy0_0 (i : Nat) : BufTy := match i % 128 with
  | 0 => ⟨S256x512, .f32⟩
  | 1 => ⟨S700x512, .f32⟩
  | 2 => ⟨S2x50000, .i32⟩
  | 3 => ⟨S512x2048, .f32⟩
  | 4 => ⟨S2048, .f32⟩
  | 5 => ⟨S512x2048, .f32⟩
  | 6 => ⟨S2048x512, .f32⟩
  | 7 => ⟨S512, .f32⟩
  | 8 => ⟨S2048x512, .f32⟩
  | 9 => ⟨S512x800, .f32⟩
  | 10 => ⟨S800, .f32⟩
  | 11 => ⟨S800, .f32⟩
  | 12 => ⟨S800, .f32⟩
  | 13 => ⟨S800x1000, .f32⟩
  | 14 => ⟨S1000, .f32⟩
  | 15 => ⟨S1000, .f32⟩
  | 16 => ⟨S1000, .f32⟩
  | 17 => ⟨S1000x800, .f32⟩
  | 18 => ⟨S800, .f32⟩
  | 19 => ⟨S800, .f32⟩
  | 20 => ⟨S800, .f32⟩
  | 21 => ⟨S1024x1000, .f32⟩
  | 22 => ⟨S1000, .f32⟩
  | 23 => ⟨S1000, .f32⟩
  | 24 => ⟨S1000, .f32⟩
  | 25 => ⟨S1000x800, .f32⟩
  | 26 => ⟨S800, .f32⟩
  | 27 => ⟨S800, .f32⟩
  | 28 => ⟨S800, .f32⟩
  | 29 => ⟨S1x50000, .i32⟩
  | 30 => ⟨S50000, .i32⟩
  | 31 => ⟨S1x50000, .i32⟩
  | 32 => ⟨S50000, .i32⟩
  | 33 => ⟨S_, .i32⟩
  | 34 => ⟨S50000, .i32⟩
  | 35 => ⟨S50000, .i1⟩
  | 36 => ⟨S_, .i32⟩
  | 37 => ⟨S50000, .i32⟩
  | 38 => ⟨S50000, .i32⟩
  | 39 => ⟨S50000, .i32⟩
  | 40 => ⟨S50000x1, .i32⟩
  | 41 => ⟨S50000x512, .f32⟩
  | 42 => ⟨S_, .f32⟩
  | 43 => ⟨S700x512, .f32⟩
  | 44 => ⟨S50000x1, .i32⟩
  | 45 => ⟨S700x512, .f32⟩
  | 46 => ⟨S_, .f32⟩
  | 47 => ⟨S50000, .f32⟩
  | 48 => ⟨S_, .f32⟩
  | 49 => ⟨S700, .f32⟩
  | 50 => ⟨S50000x1, .i32⟩
  | 51 => ⟨S700, .f32⟩
  | 52 => ⟨S_, .f32⟩
  | 53 => ⟨S700, .f32⟩
  | 54 => ⟨S700, .f32⟩
  | 55 => ⟨S700x1, .f32⟩
  | 56 => ⟨S700x512, .f32⟩
  | 57 => ⟨S700x512, .f32⟩
  | 58 => ⟨S700x2048, .f32⟩
  | 59 => ⟨S1x2048, .f32⟩
  | 60 => ⟨S700x2048, .f32⟩
  | 61 => ⟨S700x2048, .f32⟩
  | 62 => ⟨S700x2048, .f32⟩
  | 63 => ⟨S700x2048, .f32⟩
  | 64 => ⟨S_, .f32⟩
  | 65 => ⟨S700x2048, .f32⟩
  | 66 => ⟨S700x2048, .f32⟩
  | 67 => ⟨S_, .i32⟩
  | 68 => ⟨S50000, .i32⟩
  | 69 => ⟨S50000, .i1⟩
  | 70 => ⟨S_, .i32⟩
  | 71 => ⟨S50000, .i32⟩
  | 72 => ⟨S50000, .i32⟩
  | 73 => ⟨S50000, .i32⟩
  | 74 => ⟨S50000x1, .i32⟩
  | 75 => ⟨S50000x2048, .f32⟩
  | 76 => ⟨S_, .f32⟩
  | 77 => ⟨S700x2048, .f32⟩
  | 78 => ⟨S50000x1, .i32⟩
  | 79 => ⟨S700x2048, .f32⟩
  | 80 => ⟨S_, .f32⟩
  | 81 => ⟨S50000, .f32⟩
  | 82 => ⟨S_, .f32⟩
  | 83 => ⟨S700, .f32⟩
  | 84 => ⟨S50000x1, .i32⟩
  | 85 => ⟨S700, .f32⟩
  | 86 => ⟨S_, .f32⟩
  | 87 => ⟨S700, .f32⟩
  | 88 => ⟨S700, .f32⟩
  | 89 => ⟨S700x1, .f32⟩
  | 90 => ⟨S700x2048, .f32⟩
  | 91 => ⟨S700x2048, .f32⟩
  | 92 => ⟨S700x512, .f32⟩
  | 93 => ⟨S1x512, .f32⟩
  | 94 => ⟨S700x512, .f32⟩
  | 95 => ⟨S700x512, .f32⟩
  | 96 => ⟨S700x512, .f32⟩
  | 97 => ⟨S700x512, .f32⟩
  | 98 => ⟨S256x800, .f32⟩
  | 99 => ⟨S1x800, .f32⟩
  | 100 => ⟨S256x800, .f32⟩
  | 101 => ⟨S256x800, .f32⟩
  | 102 => ⟨S_, .f32⟩
  | 103 => ⟨S256, .f32⟩
  | 104 => ⟨S256x1, .f32⟩
  | 105 => ⟨S_, .f32⟩
  | 106 => ⟨S256x1, .f32⟩
  | 107 => ⟨S256x1, .f32⟩
  | 108 => ⟨S256x800, .f32⟩
  | 109 => ⟨S256x800, .f32⟩
  | 110 => ⟨S256x800, .f32⟩
  | 111 => ⟨S_, .f32⟩
  | 112 => ⟨S256, .f32⟩
  | 113 => ⟨S256x1, .f32⟩
  | 114 => ⟨S_, .f32⟩
  | 115 => ⟨S256x1, .f32⟩
  | 116 => ⟨S256x1, .f32⟩
  | 117 => ⟨S256x800, .f32⟩
  | 118 => ⟨S256x800, .f32⟩
  | 119 => ⟨S_, .f32⟩
  | 120 => ⟨S256x1, .f32⟩
  | 121 => ⟨S256x1, .f32⟩
  | 122 => ⟨S256x1, .f32⟩
  | 123 => ⟨S256x800, .f32⟩
  | 124 => ⟨S256x800, .f32⟩
  | 125 => ⟨S1x800, .f32⟩
  | 126 => ⟨S256x800, .f32⟩
  | 127 => ⟨S256x800, .f32⟩
  | _ => ⟨S256x512, .f32⟩

abbrev hbmTy0_1 (i : Nat) : BufTy := match i % 128 with
  | 0 => ⟨S1x800, .f32⟩
  | 1 => ⟨S256x800, .f32⟩
  | 2 => ⟨S256x800, .f32⟩
  | 3 => ⟨S_, .f32⟩
  | 4 => ⟨S256x800, .f32⟩
  | 5 => ⟨S256x800, .f32⟩
  | 6 => ⟨S256x1000, .f32⟩
  | 7 => ⟨S1x1000, .f32⟩
  | 8 => ⟨S256x1000, .f32⟩
  | 9 => ⟨S256x1000, .f32⟩
  | 10 => ⟨S_, .f32⟩
  | 11 => ⟨S256, .f32⟩
  | 12 => ⟨S256x1, .f32⟩
  | 13 => ⟨S_, .f32⟩
  | 14 => ⟨S256x1, .f32⟩
  | 15 => ⟨S256x1, .f32⟩
  | 16 => ⟨S256x1000, .f32⟩
  | 17 => ⟨S256x1000, .f32⟩
  | 18 => ⟨S256x1000, .f32⟩
  | 19 => ⟨S_, .f32⟩
  | 20 => ⟨S256, .f32⟩
  | 21 => ⟨S256x1, .f32⟩
  | 22 => ⟨S_, .f32⟩
  | 23 => ⟨S256x1, .f32⟩
  | 24 => ⟨S256x1, .f32⟩
  | 25 => ⟨S256x1000, .f32⟩
  | 26 => ⟨S256x1000, .f32⟩
  | 27 => ⟨S_, .f32⟩
  | 28 => ⟨S256x1, .f32⟩
  | 29 => ⟨S256x1, .f32⟩
  | 30 => ⟨S256x1, .f32⟩
  | 31 => ⟨S256x1000, .f32⟩
  | 32 => ⟨S256x1000, .f32⟩
  | 33 => ⟨S1x1000, .f32⟩
  | 34 => ⟨S256x1000, .f32⟩
  | 35 => ⟨S256x1000, .f32⟩
  | 36 => ⟨S1x1000, .f32⟩
  | 37 => ⟨S256x1000, .f32⟩
  | 38 => ⟨S256x1000, .f32⟩
  | 39 => ⟨S_, .f32⟩
  | 40 => ⟨S256x1000, .f32⟩
  | 41 => ⟨S256x1000, .f32⟩
  | 42 => ⟨S256x800, .f32⟩
  | 43 => ⟨S1x800, .f32⟩
  | 44 => ⟨S256x800, .f32⟩
  | 45 => ⟨S256x800, .f32⟩
  | 46 => ⟨S_, .f32⟩
  | 47 => ⟨S256, .f32⟩
  | 48 => ⟨S256x1, .f32⟩
  | 49 => ⟨S_, .f32⟩
  | 50 => ⟨S256x1, .f32⟩
  | 51 => ⟨S256x1, .f32⟩
  | 52 => ⟨S256x800, .f32⟩
  | 53 => ⟨S256x800, .f32⟩
  | 54 => ⟨S256x800, .f32⟩
  | 55 => ⟨S_, .f32⟩
  | 56 => ⟨S256, .f32⟩
  | 57 => ⟨S256x1, .f32⟩
  | 58 => ⟨S_, .f32⟩
  | 59 => ⟨S256x1, .f32⟩
  | 60 => ⟨S256x1, .f32⟩
  | 61 => ⟨S256x800, .f32⟩
  | 62 => ⟨S256x800, .f32⟩
  | 63 => ⟨S_, .f32⟩
  | 64 => ⟨S256x1, .f32⟩
  | 65 => ⟨S256x1, .f32⟩
  | 66 => ⟨S256x1, .f32⟩
  | 67 => ⟨S256x800, .f32⟩
  | 68 => ⟨S256x800, .f32⟩
  | 69 => ⟨S1x800, .f32⟩
  | 70 => ⟨S256x800, .f32⟩
  | 71 => ⟨S256x800, .f32⟩
  | 72 => ⟨S1x800, .f32⟩
  | 73 => ⟨S256x800, .f32⟩
  | 74 => ⟨S256x800, .f32⟩
  | 75 => ⟨S200x512, .f32⟩
  | 76 => ⟨S500x512, .f32⟩
  | 77 => ⟨S200x500x512, .f32⟩
  | 78 => ⟨S100000x512, .f32⟩
  | 79 => ⟨S1x500x1x512, .f32⟩
  | 80 => ⟨S200x500x1x512, .f32⟩
  | 81 => ⟨S100000x512, .f32⟩
  | 82 => ⟨S100000x1024, .f32⟩
  | 83 => ⟨S100000x1000, .f32⟩
  | 84 => ⟨S1x1000, .f32⟩
  | 85 => ⟨S100000x1000, .f32⟩
  | 86 => ⟨S100000x1000, .f32⟩
  | 87 => ⟨S_, .f32⟩
  | 88 => ⟨S100000, .f32⟩
  | 89 => ⟨S100000x1, .f32⟩
  | 90 => ⟨S_, .f32⟩
  | 91 => ⟨S100000x1, .f32⟩
  | 92 => ⟨S100000x1, .f32⟩
  | 93 => ⟨S100000x1000, .f32⟩
  | 94 => ⟨S100000x1000, .f32⟩
  | 95 => ⟨S100000x1000, .f32⟩
  | 96 => ⟨S_, .f32⟩
  | 97 => ⟨S100000, .f32⟩
  | 98 => ⟨S100000x1, .f32⟩
  | 99 => ⟨S_, .f32⟩
  | 100 => ⟨S100000x1, .f32⟩
  | 101 => ⟨S100000x1, .f32⟩
  | 102 => ⟨S100000x1000, .f32⟩
  | 103 => ⟨S100000x1000, .f32⟩
  | 104 => ⟨S_, .f32⟩
  | 105 => ⟨S100000x1, .f32⟩
  | 106 => ⟨S100000x1, .f32⟩
  | 107 => ⟨S100000x1, .f32⟩
  | 108 => ⟨S100000x1000, .f32⟩
  | 109 => ⟨S100000x1000, .f32⟩
  | 110 => ⟨S1x1000, .f32⟩
  | 111 => ⟨S100000x1000, .f32⟩
  | 112 => ⟨S100000x1000, .f32⟩
  | 113 => ⟨S1x1000, .f32⟩
  | 114 => ⟨S100000x1000, .f32⟩
  | 115 => ⟨S100000x1000, .f32⟩
  | 116 => ⟨S_, .f32⟩
  | 117 => ⟨S100000x1000, .f32⟩
  | 118 => ⟨S100000x1000, .f32⟩
  | 119 => ⟨S100000x800, .f32⟩
  | 120 => ⟨S1x800, .f32⟩
  | 121 => ⟨S100000x800, .f32⟩
  | 122 => ⟨S100000x800, .f32⟩
  | 123 => ⟨S_, .f32⟩
  | 124 => ⟨S100000, .f32⟩
  | 125 => ⟨S100000x1, .f32⟩
  | 126 => ⟨S_, .f32⟩
  | 127 => ⟨S100000x1, .f32⟩
  | _ => ⟨S256x512, .f32⟩

abbrev hbmTy0_2 (i : Nat) : BufTy := match i % 128 with
  | 0 => ⟨S100000x1, .f32⟩
  | 1 => ⟨S100000x800, .f32⟩
  | 2 => ⟨S100000x800, .f32⟩
  | 3 => ⟨S100000x800, .f32⟩
  | 4 => ⟨S_, .f32⟩
  | 5 => ⟨S100000, .f32⟩
  | 6 => ⟨S100000x1, .f32⟩
  | 7 => ⟨S_, .f32⟩
  | 8 => ⟨S100000x1, .f32⟩
  | 9 => ⟨S100000x1, .f32⟩
  | 10 => ⟨S100000x800, .f32⟩
  | 11 => ⟨S100000x800, .f32⟩
  | 12 => ⟨S_, .f32⟩
  | 13 => ⟨S100000x1, .f32⟩
  | 14 => ⟨S100000x1, .f32⟩
  | 15 => ⟨S100000x1, .f32⟩
  | 16 => ⟨S100000x800, .f32⟩
  | 17 => ⟨S100000x800, .f32⟩
  | 18 => ⟨S1x800, .f32⟩
  | 19 => ⟨S100000x800, .f32⟩
  | 20 => ⟨S100000x800, .f32⟩
  | 21 => ⟨S1x800, .f32⟩
  | 22 => ⟨S100000x800, .f32⟩
  | 23 => ⟨S100000x800, .f32⟩
  | 24 => ⟨S800x100000, .f32⟩
  | 25 => ⟨S256x100000, .f32⟩
  | _ => ⟨S256x512, .f32⟩

abbrev hbmTy (i : Nat) : BufTy := match i / 128 with
  | 0 => hbmTy0_0 i
  | 1 => hbmTy0_1 i
  | 2 => hbmTy0_2 i
  | _ => ⟨S256x512, .f32⟩

abbrev bufTy : (tb : Table) → Fin (tcTables nBuf tb) → BufTy
  | .hbm, ⟨i, _⟩ => hbmTy i
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_call0_cst : Ref sig .tc := ⟨.hbm, 64, rfl⟩
abbrev main_call0_v0 : Ref sig .tc := ⟨.hbm, 65, rfl⟩
abbrev main_v29 : Ref sig .tc := ⟨.hbm, 66, rfl⟩
abbrev main_c_4 : Ref sig .tc := ⟨.hbm, 67, rfl⟩
abbrev main_v30 : Ref sig .tc := ⟨.hbm, 68, rfl⟩
abbrev main_v31 : Ref sig .tc := ⟨.hbm, 69, rfl⟩
abbrev main_c_5 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_6 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_7 : Ref sig .tc := ⟨.hbm, 80, rfl⟩
abbrev main_v40 : Ref sig .tc := ⟨.hbm, 81, rfl⟩
abbrev main_cst_8 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_9 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_10 : Ref sig .tc := ⟨.hbm, 102, rfl⟩
abbrev main_v59 : Ref sig .tc := ⟨.hbm, 103, rfl⟩
abbrev main_v60 : Ref sig .tc := ⟨.hbm, 104, rfl⟩
abbrev main_cst_11 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_12 : Ref sig .tc := ⟨.hbm, 111, rfl⟩
abbrev main_v66 : Ref sig .tc := ⟨.hbm, 112, rfl⟩
abbrev main_v67 : Ref sig .tc := ⟨.hbm, 113, rfl⟩
abbrev main_cst_13 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_14 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_call1_cst : Ref sig .tc := ⟨.hbm, 131, rfl⟩
abbrev main_call1_v0 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_15 : Ref sig .tc := ⟨.hbm, 138, rfl⟩
abbrev main_v88 : Ref sig .tc := ⟨.hbm, 139, rfl⟩
abbrev main_v89 : Ref sig .tc := ⟨.hbm, 140, rfl⟩
abbrev main_cst_16 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_17 : Ref sig .tc := ⟨.hbm, 147, rfl⟩
abbrev main_v95 : Ref sig .tc := ⟨.hbm, 148, rfl⟩
abbrev main_v96 : Ref sig .tc := ⟨.hbm, 149, rfl⟩
abbrev main_cst_18 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_19 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_call2_cst : Ref sig .tc := ⟨.hbm, 167, rfl⟩
abbrev main_call2_v0 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_20 : Ref sig .tc := ⟨.hbm, 174, rfl⟩
abbrev main_v117 : Ref sig .tc := ⟨.hbm, 175, rfl⟩
abbrev main_v118 : Ref sig .tc := ⟨.hbm, 176, rfl⟩
abbrev main_cst_21 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_cst_22 : Ref sig .tc := ⟨.hbm, 183, rfl⟩
abbrev main_v124 : Ref sig .tc := ⟨.hbm, 184, rfl⟩
abbrev main_v125 : Ref sig .tc := ⟨.hbm, 185, rfl⟩
abbrev main_cst_23 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_cst_24 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_cst_25 : Ref sig .tc := ⟨.hbm, 215, rfl⟩
abbrev main_v153 : Ref sig .tc := ⟨.hbm, 216, rfl⟩
abbrev main_v154 : Ref sig .tc := ⟨.hbm, 217, rfl⟩
abbrev main_cst_26 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_cst_27 : Ref sig .tc := ⟨.hbm, 224, rfl⟩
abbrev main_v160 : Ref sig .tc := ⟨.hbm, 225, rfl⟩
abbrev main_v161 : Ref sig .tc := ⟨.hbm, 226, rfl⟩
abbrev main_cst_28 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_cst_29 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_call3_cst : Ref sig .tc := ⟨.hbm, 244, rfl⟩
abbrev main_call3_v0 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_cst_30 : Ref sig .tc := ⟨.hbm, 251, rfl⟩
abbrev main_v182 : Ref sig .tc := ⟨.hbm, 252, rfl⟩
abbrev main_v183 : Ref sig .tc := ⟨.hbm, 253, rfl⟩
abbrev main_cst_31 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_cst_32 : Ref sig .tc := ⟨.hbm, 260, rfl⟩
abbrev main_v189 : Ref sig .tc := ⟨.hbm, 261, rfl⟩
abbrev main_v190 : Ref sig .tc := ⟨.hbm, 262, rfl⟩
abbrev main_cst_33 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_cst_34 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩

abbrev nD : Nat := 1
abbrev τ : Topo := Topo.v7x

variable {F : FTy → Type} [FloatOps F]

class Facts₀ : Prop where
  slices_S2x50000_S1x50000_0_0 : S2x50000.Slices ![0, 0] S1x50000
  shapeCasts_S1x50000_S50000 : S1x50000.ShapeCasts S50000
  slices_S2x50000_S1x50000_1_0 : S2x50000.Slices ![1, 0] S1x50000
  bcast_S_S50000 : S_.BroadcastsInDim S50000 (![] : Fin 0 → Fin S50000.rank)
  bcast_S50000_S50000x1_0 : S50000.BroadcastsInDim S50000x1 (![0] : Fin 1 → Fin S50000x1.rank)
  bcast_S_S700x512 : S_.BroadcastsInDim S700x512 (![] : Fin 0 → Fin S700x512.rank)
  bcast_S_S700 : S_.BroadcastsInDim S700 (![] : Fin 0 → Fin S700.rank)
  bcast_S700_S700x1_0 : S700.BroadcastsInDim S700x1 (![0] : Fin 1 → Fin S700x1.rank)
  bcast_S700x1_S700x512_0_1 : S700x1.BroadcastsInDim S700x512 (![0, 1] : Fin 2 → Fin S700x512.rank)
  bcast_S2048_S1x2048_1 : S2048.BroadcastsInDim S1x2048 (![1] : Fin 1 → Fin S1x2048.rank)
  bcast_S1x2048_S700x2048_0_1 : S1x2048.BroadcastsInDim S700x2048 (![0, 1] : Fin 2 → Fin S700x2048.rank)
  bcast_S_S700x2048 : S_.BroadcastsInDim S700x2048 (![] : Fin 0 → Fin S700x2048.rank)
  bcast_S700x1_S700x2048_0_1 : S700x1.BroadcastsInDim S700x2048 (![0, 1] : Fin 2 → Fin S700x2048.rank)
  bcast_S512_S1x512_1 : S512.BroadcastsInDim S1x512 (![1] : Fin 1 → Fin S1x512.rank)
  bcast_S1x512_S700x512_0_1 : S1x512.BroadcastsInDim S700x512 (![0, 1] : Fin 2 → Fin S700x512.rank)
  bcast_S800_S1x800_1 : S800.BroadcastsInDim S1x800 (![1] : Fin 1 → Fin S1x800.rank)
  bcast_S1x800_S256x800_0_1 : S1x800.BroadcastsInDim S256x800 (![0, 1] : Fin 2 → Fin S256x800.rank)
  reducesTo_S256x800_S256_d1 : S256x800.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x800_0_1 : S256x1.BroadcastsInDim S256x800 (![0, 1] : Fin 2 → Fin S256x800.rank)
  bcast_S_S256x800 : S_.BroadcastsInDim S256x800 (![] : Fin 0 → Fin S256x800.rank)
  bcast_S1000_S1x1000_1 : S1000.BroadcastsInDim S1x1000 (![1] : Fin 1 → Fin S1x1000.rank)
  bcast_S1x1000_S256x1000_0_1 : S1x1000.BroadcastsInDim S256x1000 (![0, 1] : Fin 2 → Fin S256x1000.rank)
  reducesTo_S256x1000_S256_d1 : S256x1000.ReducesTo [1] S256
  bcast_S256x1_S256x1000_0_1 : S256x1.BroadcastsInDim S256x1000 (![0, 1] : Fin 2 → Fin S256x1000.rank)
  bcast_S_S256x1000 : S_.BroadcastsInDim S256x1000 (![] : Fin 0 → Fin S256x1000.rank)
  slices_S700x512_S200x512_0_0 : S700x512.Slices ![0, 0] S200x512
  slices_S700x512_S500x512_200_0 : S700x512.Slices ![200, 0] S500x512
  bcast_S200x512_S200x500x512_0_2 : S200x512.BroadcastsInDim S200x500x512 (![0, 2] : Fin 2 → Fin S200x500x512.rank)
  shapeCasts_S200x500x512_S100000x512 : S200x500x512.ShapeCasts S100000x512
  shapeCasts_S500x512_S1x500x1x512 : S500x512.ShapeCasts S1x500x1x512
  bcast_S1x500x1x512_S200x500x1x512_0_1_2_3 : S1x500x1x512.BroadcastsInDim S200x500x1x512 (![0, 1, 2, 3] : Fin 4 → Fin S200x500x1x512.rank)
  shapeCasts_S200x500x1x512_S100000x512 : S200x500x1x512.ShapeCasts S100000x512
  concatenates_S100000x512_S100000x512_S100000x1024_d1 : Shape.Concatenates [S100000x512, S100000x512] S100000x1024 1
  bcast_S1x1000_S100000x1000_0_1 : S1x1000.BroadcastsInDim S100000x1000 (![0, 1] : Fin 2 → Fin S100000x1000.rank)
  reducesTo_S100000x1000_S100000_d1 : S100000x1000.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x1000_0_1 : S100000x1.BroadcastsInDim S100000x1000 (![0, 1] : Fin 2 → Fin S100000x1000.rank)
  bcast_S_S100000x1000 : S_.BroadcastsInDim S100000x1000 (![] : Fin 0 → Fin S100000x1000.rank)
  bcast_S1x800_S100000x800_0_1 : S1x800.BroadcastsInDim S100000x800 (![0, 1] : Fin 2 → Fin S100000x800.rank)
  reducesTo_S100000x800_S100000_d1 : S100000x800.ReducesTo [1] S100000
  bcast_S100000x1_S100000x800_0_1 : S100000x1.BroadcastsInDim S100000x800 (![0, 1] : Fin 2 → Fin S100000x800.rank)
  transposes_S100000x800_S800x100000_1_0 : S100000x800.Transposes [1, 0] S800x100000
  gather_S700x512_S50000x1_S50000x512_1_0_n_n_0_1_1512_wf : GatherDims.WF S700x512 S50000x1 S50000x512 [1] [0] [] [0] [] 1 ![1, 512]
  scatter_S700x512_S50000x1_S50000x512_1_0_0_1_wf : ScatterDims.WF S700x512 S50000x1 S50000x512 [1] [0] [0] 1
  scatter_S700_S50000x1_S50000_n_0_0_1_wf : ScatterDims.WF S700 S50000x1 S50000 [] [0] [0] 1
  dot_S700x512_S512x2048_S700x2048_1_0_0_1_n_n_wf : DotDims.WF S700x512 S512x2048 S700x2048 [1] [0] [0] [1] [] []
  gather_S700x2048_S50000x1_S50000x2048_1_0_n_n_0_1_12048_wf : GatherDims.WF S700x2048 S50000x1 S50000x2048 [1] [0] [] [0] [] 1 ![1, 2048]
  scatter_S700x2048_S50000x1_S50000x2048_1_0_0_1_wf : ScatterDims.WF S700x2048 S50000x1 S50000x2048 [1] [0] [0] 1
  dot_S700x2048_S2048x512_S700x512_1_0_0_1_n_n_wf : DotDims.WF S700x2048 S2048x512 S700x512 [1] [0] [0] [1] [] []
  dot_S256x512_S512x800_S256x800_1_0_0_1_n_n_wf : DotDims.WF S256x512 S512x800 S256x800 [1] [0] [0] [1] [] []
  dot_S256x800_S800x1000_S256x1000_1_0_0_1_n_n_wf : DotDims.WF S256x800 S800x1000 S256x1000 [1] [0] [0] [1] [] []
  dot_S256x1000_S1000x800_S256x800_1_0_0_1_n_n_wf : DotDims.WF S256x1000 S1000x800 S256x800 [1] [0] [0] [1] [] []
  dot_S100000x1024_S1024x1000_S100000x1000_1_0_0_1_n_n_wf : DotDims.WF S100000x1024 S1024x1000 S100000x1000 [1] [0] [0] [1] [] []
  dot_S100000x1000_S1000x800_S100000x800_1_0_0_1_n_n_wf : DotDims.WF S100000x1000 S1000x800 S100000x800 [1] [0] [0] [1] [] []
  dot_S256x800_S800x100000_S256x100000_1_0_0_1_n_n_wf : DotDims.WF S256x800 S800x100000 S256x100000 [1] [0] [0] [1] [] []

variable [Facts₀]

def gather_S700x512_S50000x1_S50000x512_1_0_n_n_0_1_1512 : GatherDims S700x512 S50000x1 S50000x512 where
  offsetDims := [1]
  collapsedSliceDims := [0]
  operandBatchingDims := []
  startIndicesBatchingDims := []
  startIndexMap := [0]
  indexVectorDim := 1
  sliceSizes := ![1, 512]
  wf := gather_S700x512_S50000x1_S50000x512_1_0_n_n_0_1_1512_wf
def scatter_S700x512_S50000x1_S50000x512_1_0_0_1 : ScatterDims S700x512 S50000x1 S50000x512 where
  updateWindowDims := [1]
  insertedWindowDims := [0]
  scatterDimsToOperandDims := [0]
  indexVectorDim := 1
  wf := scatter_S700x512_S50000x1_S50000x512_1_0_0_1_wf
def scatter_S700_S50000x1_S50000_n_0_0_1 : ScatterDims S700 S50000x1 S50000 where
  updateWindowDims := []
  insertedWindowDims := [0]
  scatterDimsToOperandDims := [0]
  indexVectorDim := 1
  wf := scatter_S700_S50000x1_S50000_n_0_0_1_wf
def dot_S700x512_S512x2048_S700x2048_1_0_0_1_n_n : DotDims S700x512 S512x2048 S700x2048 where
  lhsContracting := [1]
  rhsContracting := [0]
  lhsNonContracting := [0]
  rhsNonContracting := [1]
  lhsBatch := []
  rhsBatch := []
  wf := dot_S700x512_S512x2048_S700x2048_1_0_0_1_n_n_wf
def gather_S700x2048_S50000x1_S50000x2048_1_0_n_n_0_1_12048 : GatherDims S700x2048 S50000x1 S50000x2048 where
  offsetDims := [1]
  collapsedSliceDims := [0]
  operandBatchingDims := []
  startIndicesBatchingDims := []
  startIndexMap := [0]
  indexVectorDim := 1
  sliceSizes := ![1, 2048]
  wf := gather_S700x2048_S50000x1_S50000x2048_1_0_n_n_0_1_12048_wf
def scatter_S700x2048_S50000x1_S50000x2048_1_0_0_1 : ScatterDims S700x2048 S50000x1 S50000x2048 where
  updateWindowDims := [1]
  insertedWindowDims := [0]
  scatterDimsToOperandDims := [0]
  indexVectorDim := 1
  wf := scatter_S700x2048_S50000x1_S50000x2048_1_0_0_1_wf
def dot_S700x2048_S2048x512_S700x512_1_0_0_1_n_n : DotDims S700x2048 S2048x512 S700x512 where
  lhsContracting := [1]
  rhsContracting := [0]
  lhsNonContracting := [0]
  rhsNonContracting := [1]
  lhsBatch := []
  rhsBatch := []
  wf := dot_S700x2048_S2048x512_S700x512_1_0_0_1_n_n_wf
def dot_S256x512_S512x800_S256x800_1_0_0_1_n_n : DotDims S256x512 S512x800 S256x800 where
  lhsContracting := [1]
  rhsContracting := [0]
  lhsNonContracting := [0]
  rhsNonContracting := [1]
  lhsBatch := []
  rhsBatch := []
  wf := dot_S256x512_S512x800_S256x800_1_0_0_1_n_n_wf
def dot_S256x800_S800x1000_S256x1000_1_0_0_1_n_n : DotDims S256x800 S800x1000 S256x1000 where
  lhsContracting := [1]
  rhsContracting := [0]
  lhsNonContracting := [0]
  rhsNonContracting := [1]
  lhsBatch := []
  rhsBatch := []
  wf := dot_S256x800_S800x1000_S256x1000_1_0_0_1_n_n_wf
def dot_S256x1000_S1000x800_S256x800_1_0_0_1_n_n : DotDims S256x1000 S1000x800 S256x800 where
  lhsContracting := [1]
  rhsContracting := [0]
  lhsNonContracting := [0]
  rhsNonContracting := [1]
  lhsBatch := []
  rhsBatch := []
  wf := dot_S256x1000_S1000x800_S256x800_1_0_0_1_n_n_wf
def dot_S100000x1024_S1024x1000_S100000x1000_1_0_0_1_n_n : DotDims S100000x1024 S1024x1000 S100000x1000 where
  lhsContracting := [1]
  rhsContracting := [0]
  lhsNonContracting := [0]
  rhsNonContracting := [1]
  lhsBatch := []
  rhsBatch := []
  wf := dot_S100000x1024_S1024x1000_S100000x1000_1_0_0_1_n_n_wf
def dot_S100000x1000_S1000x800_S100000x800_1_0_0_1_n_n : DotDims S100000x1000 S1000x800 S100000x800 where
  lhsContracting := [1]
  rhsContracting := [0]
  lhsNonContracting := [0]
  rhsNonContracting := [1]
  lhsBatch := []
  rhsBatch := []
  wf := dot_S100000x1000_S1000x800_S100000x800_1_0_0_1_n_n_wf
def dot_S256x800_S800x100000_S256x100000_1_0_0_1_n_n : DotDims S256x800 S800x100000 S256x100000 where
  lhsContracting := [1]
  rhsContracting := [0]
  lhsNonContracting := [0]
  rhsNonContracting := [1]
  lhsBatch := []
  rhsBatch := []
  wf := dot_S256x800_S800x100000_S256x100000_1_0_0_1_n_n_wf

class Facts : Prop extends Facts₀ where

variable [Facts]
-- ==== Proof.Preserves.lean ====
/-
  The idealized kernel is the word-level kernel's sanctioned idealization: one fact per replacement the idealization makes.
  A narrowing to the 16-bit format and back is the identity on extended reals (and the rounding through that format
  on words); the two named reciprocals denote 1/800 and 1/1000, the values the certificate's table gives them.
-/
import proofs.«101777_j1108101562624_2_alg».proof.Defs

namespace Cert.Proof.Preserves

open Idealize.ShloMosaic

/-- The table gives "inv_800" the value 1/800. -/
theorem n800 : IdealRules.named_const.Statement Cert.KernelIdeal.κ "inv_800" .f32 0x3AA3D70A#32 ((1 / 800 : ℝ) : EReal) :=
  IdealRules.named_const.statement Cert.KernelIdeal.κ "inv_800" .f32 0x3AA3D70A#32 ((1 / 800 : ℝ) : EReal) rfl

/-- The table gives "inv_1000" the value 1/1000. -/
theorem n1000 : IdealRules.named_const.Statement Cert.KernelIdeal.κ "inv_1000" .f32 0x3A83126F#32 ((1 / 1000 : ℝ) : EReal) :=
  IdealRules.named_const.statement Cert.KernelIdeal.κ "inv_1000" .f32 0x3A83126F#32 ((1 / 1000 : ℝ) : EReal) rfl

/-- Every replacement's fact, in the order the claim lists them. -/
theorem preserves : Cert.preserves_Kernel_KernelIdeal :=
  ⟨IdealRules.truncf_extf.statement _ _ _,
   IdealRules.truncf_extf.statement _ _ _,
   IdealRules.truncf_extf.statement _ _ _,
   IdealRules.truncf_extf.statement _ _ _,
   IdealRules.truncf_extf.statement _ _ _,
   IdealRules.truncf_extf.statement _ _ _,
   IdealRules.truncf_extf.statement _ _ _,
   IdealRules.truncf_extf.statement _ _ _,
   IdealRules.truncf_extf.statement _ _ _,
   IdealRules.truncf_extf.statement _ _ _,
   n800,
   n800,
   IdealRules.truncf_extf.statement _ _ _,
   IdealRules.truncf_extf.statement _ _ _,
   n1000,
   n1000,
   IdealRules.truncf_extf.statement _ _ _,
   IdealRules.truncf_extf.statement _ _ _,
   n800,
   n800,
   n1000,
   n1000,
   n800,
   n800,
   n1000,
   n1000,
   n800,
   n800,
   n1000,
   n1000,
   n800,
   n800,
   n1000,
   n1000,
   n800,
   n800⟩

end Cert.Proof.Preserves
-- ==== Proof.KRun.lean ====
/-
  The idealized kernel program's run with every unscoped buffer of every core named: after any weakly fair execution each
  such buffer holds the last boundary's contents of the fold through @main (host stretches applied in order, each region's
  arrays at what its write-backs leave).  The two results and the arguments are read off this one statement.
-/
import proofs.«101777_j1108101562624_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every unscoped buffer of every core ends at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W24 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c => h c)

/-- The same run with the two results named — each at the last boundary's contents of its buffer — and the 29 arguments
    unchanged. -/
theorem run_results : θ_run defs (onTc (τ := τ) (main (F := F))) ⟨m, fun _ => 0, ρ⟩ (fun r => ∀ c : Dev nD,
      r.2.mem ((c.tc : Thread nD τ).loc main_v82) = W24 m ρ c (Proc.devRef .tc main_v82)
      ∧ r.2.mem ((c.tc : Thread nD τ).loc main_v45) = W24 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨h c _ (mem_uc main_v82 (by decide)),
      h c _ (mem_uc main_v45 (by decide)),
      (h c _ (mem_uc main_arg0 (by decide))).trans (W24_main_arg0 m ρ c),
      (h c _ (mem_uc main_arg1 (by decide))).trans (W24_main_arg1 m ρ c),
      (h c _ (mem_uc main_arg2 (by decide))).trans (W24_main_arg2 m ρ c),
      (h c _ (mem_uc main_arg3 (by decide))).trans (W24_main_arg3 m ρ c),
      (h c _ (mem_uc main_arg4 (by decide))).trans (W24_main_arg4 m ρ c),
      (h c _ (mem_uc main_arg5 (by decide))).trans (W24_main_arg5 m ρ c),
      (h c _ (mem_uc main_arg6 (by decide))).trans (W24_main_arg6 m ρ c),
      (h c _ (mem_uc main_arg7 (by decide))).trans (W24_main_arg7 m ρ c),
      (h c _ (mem_uc main_arg8 (by decide))).trans (W24_main_arg8 m ρ c),
      (h c _ (mem_uc main_arg9 (by decide))).trans (W24_main_arg9 m ρ c),
      (h c _ (mem_uc main_arg10 (by decide))).trans (W24_main_arg10 m ρ c),
      (h c _ (mem_uc main_arg11 (by decide))).trans (W24_main_arg11 m ρ c),
      (h c _ (mem_uc main_arg12 (by decide))).trans (W24_main_arg12 m ρ c),
      (h c _ (mem_uc main_arg13 (by decide))).trans (W24_main_arg13 m ρ c),
      (h c _ (mem_uc main_arg14 (by decide))).trans (W24_main_arg14 m ρ c),
      (h c _ (mem_uc main_arg15 (by decide))).trans (W24_main_arg15 m ρ c),
      (h c _ (mem_uc main_arg16 (by decide))).trans (W24_main_arg16 m ρ c),
      (h c _ (mem_uc main_arg17 (by decide))).trans (W24_main_arg17 m ρ c),
      (h c _ (mem_uc main_arg18 (by decide))).trans (W24_main_arg18 m ρ c),
      (h c _ (mem_uc main_arg19 (by decide))).trans (W24_main_arg19 m ρ c),
      (h c _ (mem_uc main_arg20 (by decide))).trans (W24_main_arg20 m ρ c),
      (h c _ (mem_uc main_arg21 (by decide))).trans (W24_main_arg21 m ρ c),
      (h c _ (mem_uc main_arg22 (by decide))).trans (W24_main_arg22 m ρ c),
      (h c _ (mem_uc main_arg23 (by decide))).trans (W24_main_arg23 m ρ c),
      (h c _ (mem_uc main_arg24 (by decide))).trans (W24_main_arg24 m ρ c),
      (h c _ (mem_uc main_arg25 (by decide))).trans (W24_main_arg25 m ρ c),
      (h c _ (mem_uc main_arg26 (by decide))).trans (W24_main_arg26 m ρ c),
      (h c _ (mem_uc main_arg27 (by decide))).trans (W24_main_arg27 m ρ c),
      (h c _ (mem_uc main_arg28 (by decide))).trans (W24_main_arg28 m ρ c)⟩)
    (run_all m ρ)

end Cert.KernelIdeal.KRun

end
-- ==== Proof.LibStretch.lean ====
/-
  Reading a program's host operations stretch by stretch.  The buffer contents after a list of host operations is a fold
  of the operations over the contents the list is entered with; over two stretches run one after the other it is the
  second stretch's fold over the first's (`after_append`).  So a long host program is read one short stretch at a time,
  each stretch over ANY contents V: which buffers it leaves as they were (`unwritten`), and what it writes into the
  buffers a later stretch reads, as the operations' term of what it finds (`read_stretch`).
-/
import Idealize.ShloMosaic.Lib.StableHlo.Run

namespace Cert.Stretch

open Idealize.ShloMosaic Idealize.ShloMosaic.StableHlo

/-- The contents after two stretches run one after the other: the second stretch's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Stretch

/-- `unwritten ops` closes `after ops V b = V b` for a literal stretch `ops` (named by an identifier that unfolds to the
    list) and a literal buffer `b` none of its operations writes: each operation's written buffer is another reference. -/
macro "unwritten" ops:ident : tactic =>
  `(tactic| exact Idealize.ShloMosaic.StableHlo.after_of_forall_not_mem _ _ (List.forall_iff_forall_mem.mp (by
      simp only [$ops:ident, List.Forall, Idealize.ShloMosaic.StableHlo.nullary_writes, Idealize.ShloMosaic.StableHlo.unary_writes, Idealize.ShloMosaic.StableHlo.binary_writes, Idealize.ShloMosaic.StableHlo.ternary_writes, Idealize.ShloMosaic.StableHlo.quaternary_writes, Idealize.ShloMosaic.StableHlo.reshape_writes, Idealize.ShloMosaic.StableHlo.binaryIndexed_writes, Finset.mem_singleton]
      repeat' apply And.intro
      all_goals exact Idealize.ShloMosaic.StableHlo.devRef_ne_of_ne (by decide))))

/-- `read_stretch` closes `after ops V b = t` for a literal stretch and a buffer it writes, `t` the operations' term over
    `V` at the buffers the stretch reads: every operation's result at its own buffer is its function's value, at any other
    buffer what was there (one pass over the stretch); what is left is the same term on both sides. -/
macro "read_stretch" : tactic =>
  `(tactic| ((open Idealize.ShloMosaic.StableHlo in after_results_simp) <;> rfl))

/-- The same reading, operation by operation, for a stretch of a few operations. -/
macro "read_stretch_small" : tactic =>
  `(tactic| ((open Idealize.ShloMosaic.StableHlo in after_results) <;> rfl))
-- ==== Proof.KFold.lean ====
/-
  The two results of the idealized kernel program read back through the fold of @main's segments: the node
  embeddings are the second graph-convolution region's output array, which nothing later writes; the scores are the
  last region's output array cut to its first 500 object lanes and regrouped to [256, 100000].
-/
import proofs.«101777_j1108101562624_2_alg».proof.Proof.Gen.KernelIdeal.Frame
import proofs.«101777_j1108101562624_2_alg».proof.Proof.LibStretch

set_option maxRecDepth 16384

noncomputable section

namespace Cert.KernelIdeal.KFold

open Idealize.ShloMosaic Idealize.ShloMosaic.TcCoe
open Cert.KernelIdeal Cert.KernelIdeal.Gen

variable {F : FTy → Type} [FloatOps F] [Named F]
variable (m : (ℓ : Loc nD τ sig) → Buf (Elt F) ℓ) (ρ : Dev nD → PrngReg)

/-- The node embeddings' buffer at the end holds the second graph-convolution region's output array. -/
theorem nodes_end (c : Dev nD) :
    W24 m ρ c (Proc.devRef .tc main_v45) = (dat1 (V3 m ρ) c).arrAt 5 cfg1.N :=
  calc W24 m ρ c (Proc.devRef .tc main_v45)
    _ = W23 m ρ c (Proc.devRef .tc main_v45) := by unwritten hostOps5
    _ = W22 m ρ c (Proc.devRef .tc main_v45) := W23_of_ne m ρ c main_v45 (by decide)
    _ = W21 m ρ c (Proc.devRef .tc main_v45) := W22_of_ne m ρ c main_v45 (by decide)
    _ = W20 m ρ c (Proc.devRef .tc main_v45) := by unwritten hostOps3_14
    _ = W19 m ρ c (Proc.devRef .tc main_v45) := by unwritten hostOps3_13
    _ = W18 m ρ c (Proc.devRef .tc main_v45) := by unwritten hostOps3_12
    _ = W17 m ρ c (Proc.devRef .tc main_v45) := by unwritten hostOps3_11
    _ = W16 m ρ c (Proc.devRef .tc main_v45) := by unwritten hostOps3_10
    _ = W15 m ρ c (Proc.devRef .tc main_v45) := by unwritten hostOps3_9
    _ = W14 m ρ c (Proc.devRef .tc main_v45) := by unwritten hostOps3_8
    _ = W13 m ρ c (Proc.devRef .tc main_v45) := by unwritten hostOps3_7
    _ = W12 m ρ c (Proc.devRef .tc main_v45) := by unwritten hostOps3_6
    _ = W11 m ρ c (Proc.devRef .tc main_v45) := by unwritten hostOps3_5
    _ = W10 m ρ c (Proc.devRef .tc main_v45) := by unwritten hostOps3_4
    _ = W9 m ρ c (Proc.devRef .tc main_v45) := by unwritten hostOps3_3
    _ = W8 m ρ c (Proc.devRef .tc main_v45) := by unwritten hostOps3_2
    _ = W7 m ρ c (Proc.devRef .tc main_v45) := by unwritten hostOps3_1
    _ = W6 m ρ c (Proc.devRef .tc main_v45) := by unwritten hostOps3
    _ = W5 m ρ c (Proc.devRef .tc main_v45) := W6_of_ne m ρ c main_v45 (by decide)
    _ = W4 m ρ c (Proc.devRef .tc main_v45) := by unwritten hostOps2
    _ = (dat1 (V3 m ρ) c).arrAt 5 cfg1.N := W4_arr m ρ c 5

end Cert.KernelIdeal.KFold

end
-- ==== Proof.RegionArrays.lean ====
/-
  The four one-point regions' output arrays as whole-array functions of the arrays the region finds on entry.  Each of
  these regions has a single grid point and every window's block is its whole array (block index 0 on both axes), so a
  block read at an index is the array at that index, the one write-back covers the output array, and the output array
  after the region is the body's result on the input arrays.
-/
import proofs.«101777_j1108101562624_2_alg».proof.Proof.Gen.KernelIdeal.Frame
import Idealize.ShloMosaic.Lib.Pipeline.Value

set_option maxRecDepth 16384

noncomputable section

namespace Cert.KernelIdeal.RegionArrays

open Idealize.ShloMosaic Idealize.ShloMosaic.TcCoe
open Cert.KernelIdeal Cert.KernelIdeal.Gen
open Idealize.ShloMosaic.Pipeline (Dat Cfg Window)

variable {F : FTy → Type} [FloatOps F] [Named F]
variable (V : (c : Dev nD) → (b : Ref sig .tc) → Buf (Elt F) ((c : Thread nD τ).loc b))

/-! ## Region 0 -/

theorem idx0_0 : ∀ t : Fin cfg0.N, win0_0.index t (0 : Fin 2) = 0 ∧ win0_0.index t (1 : Fin 2) = 0 :=
  (by decide +kernel : ∀ t : Fin grid0.N, _)

theorem idx0_1 : ∀ t : Fin cfg0.N, win0_1.index t (0 : Fin 2) = 0 ∧ win0_1.index t (1 : Fin 2) = 0 :=
  (by decide +kernel : ∀ t : Fin grid0.N, _)

theorem idx0_2 : ∀ t : Fin cfg0.N, win0_2.index t (0 : Fin 2) = 0 ∧ win0_2.index t (1 : Fin 2) = 0 :=
  (by decide +kernel : ∀ t : Fin grid0.N, _)

theorem idx0_3 : ∀ t : Fin cfg0.N, win0_3.index t (0 : Fin 2) = 0 ∧ win0_3.index t (1 : Fin 2) = 0 :=
  (by decide +kernel : ∀ t : Fin grid0.N, _)

theorem idx0_4 : ∀ t : Fin cfg0.N, win0_4.index t (0 : Fin 2) = 0 ∧ win0_4.index t (1 : Fin 2) = 0 :=
  (by decide +kernel : ∀ t : Fin grid0.N, _)

theorem idx0_5 : ∀ t : Fin cfg0.N, win0_5.index t (0 : Fin 2) = 0 ∧ win0_5.index t (1 : Fin 2) = 0 :=
  (by decide +kernel : ∀ t : Fin grid0.N, _)

/-- Window 0's block is its whole array. -/
theorem iblk0_0 (c : Dev nD) (t : Fin cfg0.N) : iblk0 V c 0 t = V c main_v22 := by
  obtain ⟨e0, e1⟩ := idx0_0 t
  funext j
  show V c main_v22 (((cfg0.win 0).blk t).view.emb j) = V c main_v22 j
  congr 1
  funext a; apply Fin.ext
  match a with
  | ⟨0, _⟩ => show win0_0.index t (0 : Fin 2) * 700 + 1 * (j 0).val = (j 0).val; omega
  | ⟨1, _⟩ => show win0_0.index t (1 : Fin 2) * 512 + 1 * (j 1).val = (j 1).val; omega

/-- Window 1's block is its whole array. -/
theorem iblk0_1 (c : Dev nD) (t : Fin cfg0.N) : iblk0 V c 1 t = V c main_arg1 := by
  obtain ⟨e0, e1⟩ := idx0_1 t
  funext j
  show V c main_arg1 (((cfg0.win 1).blk t).view.emb j) = V c main_arg1 j
  congr 1
  funext a; apply Fin.ext
  match a with
  | ⟨0, _⟩ => show win0_1.index t (0 : Fin 2) * 700 + 1 * (j 0).val = (j 0).val; omega
  | ⟨1, _⟩ => show win0_1.index t (1 : Fin 2) * 512 + 1 * (j 1).val = (j 1).val; omega

/-- Window 2's block is its whole array. -/
theorem iblk0_2 (c : Dev nD) (t : Fin cfg0.N) : iblk0 V c 2 t = V c main_arg3 := by
  obtain ⟨e0, e1⟩ := idx0_2 t
  funext j
  show V c main_arg3 (((cfg0.win 2).blk t).view.emb j) = V c main_arg3 j
  congr 1
  funext a; apply Fin.ext
  match a with
  | ⟨0, _⟩ => show win0_2.index t (0 : Fin 2) * 512 + 1 * (j 0).val = (j 0).val; omega
  | ⟨1, _⟩ => show win0_2.index t (1 : Fin 2) * 2048 + 1 * (j 1).val = (j 1).val; omega

/-- Window 3's block is its whole array. -/
theorem iblk0_3 (c : Dev nD) (t : Fin cfg0.N) : iblk0 V c 3 t = V c main_v23 := by
  obtain ⟨e0, e1⟩ := idx0_3 t
  funext j
  show V c main_v23 (((cfg0.win 3).blk t).view.emb j) = V c main_v23 j
  congr 1
  funext a; apply Fin.ext
  match a with
  | ⟨0, _⟩ => show win0_3.index t (0 : Fin 2) * 1 + 1 * (j 0).val = (j 0).val; omega
  | ⟨1, _⟩ => show win0_3.index t (1 : Fin 2) * 2048 + 1 * (j 1).val = (j 1).val; omega

/-- Window 4's block is its whole array. -/
theorem iblk0_4 (c : Dev nD) (t : Fin cfg0.N) : iblk0 V c 4 t = V c main_arg5 := by
  obtain ⟨e0, e1⟩ := idx0_4 t
  funext j
  show V c main_arg5 (((cfg0.win 4).blk t).view.emb j) = V c main_arg5 j
  congr 1
  funext a; apply Fin.ext
  match a with
  | ⟨0, _⟩ => show win0_4.index t (0 : Fin 2) * 512 + 1 * (j 0).val = (j 0).val; omega
  | ⟨1, _⟩ => show win0_4.index t (1 : Fin 2) * 2048 + 1 * (j 1).val = (j 1).val; omega

/-- What the one point writes back is the body's result on the input arrays, read through the block. -/
theorem flushed0 (c : Dev nD) (t : Fin cfg0.N) :
    (dat0 V c).flushed 5 t = ((cfg0.win 5).blk t).view.read (Elt F) (out0_5 (V c main_v22) (V c main_arg1) (V c main_arg3) (V c main_v23) (V c main_arg5)) := by
  show (cfg0.win 5).cut (grid0.coords t) ((dat0 V c).after 5 t) = _
  rw [after0_5, iblk0_0, iblk0_1, iblk0_2, iblk0_3, iblk0_4]
  obtain ⟨e0, e1⟩ := idx0_5 t
  generalize out0_5 (V c main_v22) (V c main_arg1) (V c main_arg3) (V c main_v23) (V c main_arg5) = G
  funext j
  show G j = G (((cfg0.win 5).blk t).view.emb j)
  congr 1
  funext a; apply Fin.ext
  match a with
  | ⟨0, _⟩ => show (j 0).val = win0_5.index t (0 : Fin 2) * 700 + 1 * (j 0).val; omega
  | ⟨1, _⟩ => show (j 1).val = win0_5.index t (1 : Fin 2) * 2048 + 1 * (j 1).val; omega

theorem mem_blk0 (t : Fin cfg0.N) (i : S700x2048.Idx) :
    i ∈ ((cfg0.win 5).blk t).view.set ↔ ∀ a : Fin 2, win0_5.index t a * S700x2048.size a ≤ (i a).val ∧ (i a).val < win0_5.index t a * S700x2048.size a + S700x2048.size a := by
  show i ∈ ((View.whole main_v24).slice (win0_5.rect t)).set ↔ _
  rw [View.set_slice_whole, Rect.mem_set_unit]
  exact Iff.rfl

/-- The output array after the region: the body's result on the arrays the region found. -/
theorem arr0 (c : Dev nD) : (dat0 V c).arrAt 5 cfg0.N = out0_5 (V c main_v22) (V c main_arg1) (V c main_arg3) (V c main_v23) (V c main_arg5) :=
  (dat0 V c).arrAt_eq_of_cover 5 _ (fun t _ => flushed0 V c t) (fun i => by
    refine ⟨t0_0, flush0_5 t0_0, ?_⟩
    rw [mem_blk0]
    obtain ⟨e0, e1⟩ := idx0_5 t0_0
    intro a
    match a with
    | ⟨0, _⟩ => show win0_5.index t0_0 (0 : Fin 2) * 700 ≤ (i 0).val ∧ (i 0).val < win0_5.index t0_0 (0 : Fin 2) * 700 + 700; have h0 : (i 0).val < 700 := (i 0).isLt; omega
    | ⟨1, _⟩ => show win0_5.index t0_0 (1 : Fin 2) * 2048 ≤ (i 1).val ∧ (i 1).val < win0_5.index t0_0 (1 : Fin 2) * 2048 + 2048; have h1 : (i 1).val < 2048 := (i 1).isLt; omega)

/-! ## Region 1 -/

theorem idx1_0 : ∀ t : Fin cfg1.N, win1_0.index t (0 : Fin 2) = 0 ∧ win1_0.index t (1 : Fin 2) = 0 :=
  (by decide +kernel : ∀ t : Fin grid1.N, _)

theorem idx1_1 : ∀ t : Fin cfg1.N, win1_1.index t (0 : Fin 2) = 0 ∧ win1_1.index t (1 : Fin 2) = 0 :=
  (by decide +kernel : ∀ t : Fin grid1.N, _)

theorem idx1_2 : ∀ t : Fin cfg1.N, win1_2.index t (0 : Fin 2) = 0 ∧ win1_2.index t (1 : Fin 2) = 0 :=
  (by decide +kernel : ∀ t : Fin grid1.N, _)

theorem idx1_3 : ∀ t : Fin cfg1.N, win1_3.index t (0 : Fin 2) = 0 ∧ win1_3.index t (1 : Fin 2) = 0 :=
  (by decide +kernel : ∀ t : Fin grid1.N, _)

theorem idx1_4 : ∀ t : Fin cfg1.N, win1_4.index t (0 : Fin 2) = 0 ∧ win1_4.index t (1 : Fin 2) = 0 :=
  (by decide +kernel : ∀ t : Fin grid1.N, _)

theorem idx1_5 : ∀ t : Fin cfg1.N, win1_5.index t (0 : Fin 2) = 0 ∧ win1_5.index t (1 : Fin 2) = 0 :=
  (by decide +kernel : ∀ t : Fin grid1.N, _)

/-- Window 0's block is its whole array. -/
theorem iblk1_0 (c : Dev nD) (t : Fin cfg1.N) : iblk1 V c 0 t = V c main_v43 := by
  obtain ⟨e0, e1⟩ := idx1_0 t
  funext j
  show V c main_v43 (((cfg1.win 0).blk t).view.emb j) = V c main_v43 j
  congr 1
  funext a; apply Fin.ext
  match a with
  | ⟨0, _⟩ => show win1_0.index t (0 : Fin 2) * 700 + 1 * (j 0).val = (j 0).val; omega
  | ⟨1, _⟩ => show win1_0.index t (1 : Fin 2) * 2048 + 1 * (j 1).val = (j 1).val; omega

/-- Window 1's block is its whole array. -/
theorem iblk1_1 (c : Dev nD) (t : Fin cfg1.N) : iblk1 V c 1 t = V c main_v24 := by
  obtain ⟨e0, e1⟩ := idx1_1 t
  funext j
  show V c main_v24 (((cfg1.win 1).blk t).view.emb j) = V c main_v24 j
  congr 1
  funext a; apply Fin.ext
  match a with
  | ⟨0, _⟩ => show win1_1.index t (0 : Fin 2) * 700 + 1 * (j 0).val = (j 0).val; omega
  | ⟨1, _⟩ => show win1_1.index t (1 : Fin 2) * 2048 + 1 * (j 1).val = (j 1).val; omega

/-- Window 2's block is its whole array. -/
theorem iblk1_2 (c : Dev nD) (t : Fin cfg1.N) : iblk1 V c 2 t = V c main_arg6 := by
  obtain ⟨e0, e1⟩ := idx1_2 t
  funext j
  show V c main_arg6 (((cfg1.win 2).blk t).view.emb j) = V c main_arg6 j
  congr 1
  funext a; apply Fin.ext
  match a with
  | ⟨0, _⟩ => show win1_2.index t (0 : Fin 2) * 2048 + 1 * (j 0).val = (j 0).val; omega
  | ⟨1, _⟩ => show win1_2.index t (1 : Fin 2) * 512 + 1 * (j 1).val = (j 1).val; omega

/-- Window 3's block is its whole array. -/
theorem iblk1_3 (c : Dev nD) (t : Fin cfg1.N) : iblk1 V c 3 t = V c main_v44 := by
  obtain ⟨e0, e1⟩ := idx1_3 t
  funext j
  show V c main_v44 (((cfg1.win 3).blk t).view.emb j) = V c main_v44 j
  congr 1
  funext a; apply Fin.ext
  match a with
  | ⟨0, _⟩ => show win1_3.index t (0 : Fin 2) * 1 + 1 * (j 0).val = (j 0).val; omega
  | ⟨1, _⟩ => show win1_3.index t (1 : Fin 2) * 512 + 1 * (j 1).val = (j 1).val; omega

/-- Window 4's block is its whole array. -/
theorem iblk1_4 (c : Dev nD) (t : Fin cfg1.N) : iblk1 V c 4 t = V c main_arg8 := by
  obtain ⟨e0, e1⟩ := idx1_4 t
  funext j
  show V c main_arg8 (((cfg1.win 4).blk t).view.emb j) = V c main_arg8 j
  congr 1
  funext a; apply Fin.ext
  match a with
  | ⟨0, _⟩ => show win1_4.index t (0 : Fin 2) * 2048 + 1 * (j 0).val = (j 0).val; omega
  | ⟨1, _⟩ => show win1_4.index t (1 : Fin 2) * 512 + 1 * (j 1).val = (j 1).val; omega

/-- What the one point writes back is the body's result on the input arrays, read through the block. -/
theorem flushed1 (c : Dev nD) (t : Fin cfg1.N) :
    (dat1 V c).flushed 5 t = ((cfg1.win 5).blk t).view.read (Elt F) (out1_5 (V c main_v43) (V c main_v24) (V c main_arg6) (V c main_v44) (V c main_arg8)) := by
  show (cfg1.win 5).cut (grid1.coords t) ((dat1 V c).after 5 t) = _
  rw [after1_5, iblk1_0, iblk1_1, iblk1_2, iblk1_3, iblk1_4]
  obtain ⟨e0, e1⟩ := idx1_5 t
  generalize out1_5 (V c main_v43) (V c main_v24) (V c main_arg6) (V c main_v44) (V c main_arg8) = G
  funext j
  show G j = G (((cfg1.win 5).blk t).view.emb j)
  congr 1
  funext a; apply Fin.ext
  match a with
  | ⟨0, _⟩ => show (j 0).val = win1_5.index t (0 : Fin 2) * 700 + 1 * (j 0).val; omega
  | ⟨1, _⟩ => show (j 1).val = win1_5.index t (1 : Fin 2) * 512 + 1 * (j 1).val; omega

theorem mem_blk1 (t : Fin cfg1.N) (i : S700x512.Idx) :
    i ∈ ((cfg1.win 5).blk t).view.set ↔ ∀ a : Fin 2, win1_5.index t a * S700x512.size a ≤ (i a).val ∧ (i a).val < win1_5.index t a * S700x512.size a + S700x512.size a := by
  show i ∈ ((View.whole main_v45).slice (win1_5.rect t)).set ↔ _
  rw [View.set_slice_whole, Rect.mem_set_unit]
  exact Iff.rfl

/-- The output array after the region: the body's result on the arrays the region found. -/
theorem arr1 (c : Dev nD) : (dat1 V c).arrAt 5 cfg1.N = out1_5 (V c main_v43) (V c main_v24) (V c main_arg6) (V c main_v44) (V c main_arg8) :=
  (dat1 V c).arrAt_eq_of_cover 5 _ (fun t _ => flushed1 V c t) (fun i => by
    refine ⟨t1_0, flush1_5 t1_0, ?_⟩
    rw [mem_blk1]
    obtain ⟨e0, e1⟩ := idx1_5 t1_0
    intro a
    match a with
    | ⟨0, _⟩ => show win1_5.index t1_0 (0 : Fin 2) * 700 ≤ (i 0).val ∧ (i 0).val < win1_5.index t1_0 (0 : Fin 2) * 700 + 700; have h0 : (i 0).val < 700 := (i 0).isLt; omega
    | ⟨1, _⟩ => show win1_5.index t1_0 (1 : Fin 2) * 512 ≤ (i 1).val ∧ (i 1).val < win1_5.index t1_0 (1 : Fin 2) * 512 + 512; have h1 : (i 1).val < 512 := (i 1).isLt; omega)

/-! ## Region 2 -/

theorem idx2_0 : ∀ t : Fin cfg2.N, win2_0.index t (0 : Fin 2) = 0 ∧ win2_0.index t (1 : Fin 2) = 0 :=
  (by decide +kernel : ∀ t : Fin grid2.N, _)

theorem idx2_1 : ∀ t : Fin cfg2.N, win2_1.index t (0 : Fin 2) = 0 ∧ win2_1.index t (1 : Fin 2) = 0 :=
  (by decide +kernel : ∀ t : Fin grid2.N, _)

theorem idx2_2 : ∀ t : Fin cfg2.N, win2_2.index t (0 : Fin 2) = 0 ∧ win2_2.index t (1 : Fin 2) = 0 :=
  (by decide +kernel : ∀ t : Fin grid2.N, _)

theorem idx2_3 : ∀ t : Fin cfg2.N, win2_3.index t (0 : Fin 2) = 0 ∧ win2_3.index t (1 : Fin 2) = 0 :=
  (by decide +kernel : ∀ t : Fin grid2.N, _)

theorem idx2_4 : ∀ t : Fin cfg2.N, win2_4.index t (0 : Fin 2) = 0 ∧ win2_4.index t (1 : Fin 2) = 0 :=
  (by decide +kernel : ∀ t : Fin grid2.N, _)

theorem idx2_5 : ∀ t : Fin cfg2.N, win2_5.index t (0 : Fin 2) = 0 ∧ win2_5.index t (1 : Fin 2) = 0 :=
  (by decide +kernel : ∀ t : Fin grid2.N, _)

theorem idx2_6 : ∀ t : Fin cfg2.N, win2_6.index t (0 : Fin 2) = 0 ∧ win2_6.index t (1 : Fin 2) = 0 :=
  (by decide +kernel : ∀ t : Fin grid2.N, _)

theorem idx2_7 : ∀ t : Fin cfg2.N, win2_7.index t (0 : Fin 2) = 0 ∧ win2_7.index t (1 : Fin 2) = 0 :=
  (by decide +kernel : ∀ t : Fin grid2.N, _)

theorem idx2_8 : ∀ t : Fin cfg2.N, win2_8.index t (0 : Fin 2) = 0 ∧ win2_8.index t (1 : Fin 2) = 0 :=
  (by decide +kernel : ∀ t : Fin grid2.N, _)

theorem idx2_9 : ∀ t : Fin cfg2.N, win2_9.index t (0 : Fin 2) = 0 ∧ win2_9.index t (1 : Fin 2) = 0 :=
  (by decide +kernel : ∀ t : Fin grid2.N, _)

theorem idx2_10 : ∀ t : Fin cfg2.N, win2_10.index t (0 : Fin 2) = 0 ∧ win2_10.index t (1 : Fin 2) = 0 :=
  (by decide +kernel : ∀ t : Fin grid2.N, _)

theorem idx2_11 : ∀ t : Fin cfg2.N, win2_11.index t (0 : Fin 2) = 0 ∧ win2_11.index t (1 : Fin 2) = 0 :=
  (by decide +kernel : ∀ t : Fin grid2.N, _)

theorem idx2_12 : ∀ t : Fin cfg2.N, win2_12.index t (0 : Fin 2) = 0 ∧ win2_12.index t (1 : Fin 2) = 0 :=
  (by decide +kernel : ∀ t : Fin grid2.N, _)

theorem idx2_13 : ∀ t : Fin cfg2.N, win2_13.index t (0 : Fin 2) = 0 ∧ win2_13.index t (1 : Fin 2) = 0 :=
  (by decide +kernel : ∀ t : Fin grid2.N, _)

/-- Window 0's block is its whole array. -/
theorem iblk2_0 (c : Dev nD) (t : Fin cfg2.N) : iblk2 V c 0 t = V c main_arg0 := by
  obtain ⟨e0, e1⟩ := idx2_0 t
  funext j
  show V c main_arg0 (((cfg2.win 0).blk t).view.emb j) = V c main_arg0 j
  congr 1
  funext a; apply Fin.ext
  match a with
  | ⟨0, _⟩ => show win2_0.index t (0 : Fin 2) * 256 + 1 * (j 0).val = (j 0).val; omega
  | ⟨1, _⟩ => show win2_0.index t (1 : Fin 2) * 512 + 1 * (j 1).val = (j 1).val; omega

/-- Window 1's block is its whole array. -/
theorem iblk2_1 (c : Dev nD) (t : Fin cfg2.N) : iblk2 V c 1 t = V c main_arg9 := by
  obtain ⟨e0, e1⟩ := idx2_1 t
  funext j
  show V c main_arg9 (((cfg2.win 1).blk t).view.emb j) = V c main_arg9 j
  congr 1
  funext a; apply Fin.ext
  match a with
  | ⟨0, _⟩ => show win2_1.index t (0 : Fin 2) * 512 + 1 * (j 0).val = (j 0).val; omega
  | ⟨1, _⟩ => show win2_1.index t (1 : Fin 2) * 800 + 1 * (j 1).val = (j 1).val; omega

/-- Window 2's block is its whole array. -/
theorem iblk2_2 (c : Dev nD) (t : Fin cfg2.N) : iblk2 V c 2 t = V c main_v46 := by
  obtain ⟨e0, e1⟩ := idx2_2 t
  funext j
  show V c main_v46 (((cfg2.win 2).blk t).view.emb j) = V c main_v46 j
  congr 1
  funext a; apply Fin.ext
  match a with
  | ⟨0, _⟩ => show win2_2.index t (0 : Fin 2) * 1 + 1 * (j 0).val = (j 0).val; omega
  | ⟨1, _⟩ => show win2_2.index t (1 : Fin 2) * 800 + 1 * (j 1).val = (j 1).val; omega

/-- Window 3's block is its whole array. -/
theorem iblk2_3 (c : Dev nD) (t : Fin cfg2.N) : iblk2 V c 3 t = V c main_v47 := by
  obtain ⟨e0, e1⟩ := idx2_3 t
  funext j
  show V c main_v47 (((cfg2.win 3).blk t).view.emb j) = V c main_v47 j
  congr 1
  funext a; apply Fin.ext
  match a with
  | ⟨0, _⟩ => show win2_3.index t (0 : Fin 2) * 1 + 1 * (j 0).val = (j 0).val; omega
  | ⟨1, _⟩ => show win2_3.index t (1 : Fin 2) * 800 + 1 * (j 1).val = (j 1).val; omega

/-- Window 4's block is its whole array. -/
theorem iblk2_4 (c : Dev nD) (t : Fin cfg2.N) : iblk2 V c 4 t = V c main_v48 := by
  obtain ⟨e0, e1⟩ := idx2_4 t
  funext j
  show V c main_v48 (((cfg2.win 4).blk t).view.emb j) = V c main_v48 j
  congr 1
  funext a; apply Fin.ext
  match a with
  | ⟨0, _⟩ => show win2_4.index t (0 : Fin 2) * 1 + 1 * (j 0).val = (j 0).val; omega
  | ⟨1, _⟩ => show win2_4.index t (1 : Fin 2) * 800 + 1 * (j 1).val = (j 1).val; omega

/-- Window 5's block is its whole array. -/
theorem iblk2_5 (c : Dev nD) (t : Fin cfg2.N) : iblk2 V c 5 t = V c main_arg13 := by
  obtain ⟨e0, e1⟩ := idx2_5 t
  funext j
  show V c main_arg13 (((cfg2.win 5).blk t).view.emb j) = V c main_arg13 j
  congr 1
  funext a; apply Fin.ext
  match a with
  | ⟨0, _⟩ => show win2_5.index t (0 : Fin 2) * 800 + 1 * (j 0).val = (j 0).val; omega
  | ⟨1, _⟩ => show win2_5.index t (1 : Fin 2) * 1000 + 1 * (j 1).val = (j 1).val; omega

/-- Window 6's block is its whole array. -/
theorem iblk2_6 (c : Dev nD) (t : Fin cfg2.N) : iblk2 V c 6 t = V c main_v49 := by
  obtain ⟨e0, e1⟩ := idx2_6 t
  funext j
  show V c main_v49 (((cfg2.win 6).blk t).view.emb j) = V c main_v49 j
  congr 1
  funext a; apply Fin.ext
  match a with
  | ⟨0, _⟩ => show win2_6.index t (0 : Fin 2) * 1 + 1 * (j 0).val = (j 0).val; omega
  | ⟨1, _⟩ => show win2_6.index t (1 : Fin 2) * 1000 + 1 * (j 1).val = (j 1).val; omega

/-- Window 7's block is its whole array. -/
theorem iblk2_7 (c : Dev nD) (t : Fin cfg2.N) : iblk2 V c 7 t = V c main_v50 := by
  obtain ⟨e0, e1⟩ := idx2_7 t
  funext j
  show V c main_v50 (((cfg2.win 7).blk t).view.emb j) = V c main_v50 j
  congr 1
  funext a; apply Fin.ext
  match a with
  | ⟨0, _⟩ => show win2_7.index t (0 : Fin 2) * 1 + 1 * (j 0).val = (j 0).val; omega
  | ⟨1, _⟩ => show win2_7.index t (1 : Fin 2) * 1000 + 1 * (j 1).val = (j 1).val; omega

/-- Window 8's block is its whole array. -/
theorem iblk2_8 (c : Dev nD) (t : Fin cfg2.N) : iblk2 V c 8 t = V c main_v51 := by
  obtain ⟨e0, e1⟩ := idx2_8 t
  funext j
  show V c main_v51 (((cfg2.win 8).blk t).view.emb j) = V c main_v51 j
  congr 1
  funext a; apply Fin.ext
  match a with
  | ⟨0, _⟩ => show win2_8.index t (0 : Fin 2) * 1 + 1 * (j 0).val = (j 0).val; omega
  | ⟨1, _⟩ => show win2_8.index t (1 : Fin 2) * 1000 + 1 * (j 1).val = (j 1).val; omega

/-- Window 9's block is its whole array. -/
theorem iblk2_9 (c : Dev nD) (t : Fin cfg2.N) : iblk2 V c 9 t = V c main_arg17 := by
  obtain ⟨e0, e1⟩ := idx2_9 t
  funext j
  show V c main_arg17 (((cfg2.win 9).blk t).view.emb j) = V c main_arg17 j
  congr 1
  funext a; apply Fin.ext
  match a with
  | ⟨0, _⟩ => show win2_9.index t (0 : Fin 2) * 1000 + 1 * (j 0).val = (j 0).val; omega
  | ⟨1, _⟩ => show win2_9.index t (1 : Fin 2) * 800 + 1 * (j 1).val = (j 1).val; omega

/-- Window 10's block is its whole array. -/
theorem iblk2_10 (c : Dev nD) (t : Fin cfg2.N) : iblk2 V c 10 t = V c main_v52 := by
  obtain ⟨e0, e1⟩ := idx2_10 t
  funext j
  show V c main_v52 (((cfg2.win 10).blk t).view.emb j) = V c main_v52 j
  congr 1
  funext a; apply Fin.ext
  match a with
  | ⟨0, _⟩ => show win2_10.index t (0 : Fin 2) * 1 + 1 * (j 0).val = (j 0).val; omega
  | ⟨1, _⟩ => show win2_10.index t (1 : Fin 2) * 800 + 1 * (j 1).val = (j 1).val; omega

/-- Window 11's block is its whole array. -/
theorem iblk2_11 (c : Dev nD) (t : Fin cfg2.N) : iblk2 V c 11 t = V c main_v53 := by
  obtain ⟨e0, e1⟩ := idx2_11 t
  funext j
  show V c main_v53 (((cfg2.win 11).blk t).view.emb j) = V c main_v53 j
  congr 1
  funext a; apply Fin.ext
  match a with
  | ⟨0, _⟩ => show win2_11.index t (0 : Fin 2) * 1 + 1 * (j 0).val = (j 0).val; omega
  | ⟨1, _⟩ => show win2_11.index t (1 : Fin 2) * 800 + 1 * (j 1).val = (j 1).val; omega

/-- Window 12's block is its whole array. -/
theorem iblk2_12 (c : Dev nD) (t : Fin cfg2.N) : iblk2 V c 12 t = V c main_v54 := by
  obtain ⟨e0, e1⟩ := idx2_12 t
  funext j
  show V c main_v54 (((cfg2.win 12).blk t).view.emb j) = V c main_v54 j
  congr 1
  funext a; apply Fin.ext
  match a with
  | ⟨0, _⟩ => show win2_12.index t (0 : Fin 2) * 1 + 1 * (j 0).val = (j 0).val; omega
  | ⟨1, _⟩ => show win2_12.index t (1 : Fin 2) * 800 + 1 * (j 1).val = (j 1).val; omega

/-- What the one point writes back is the body's result on the input arrays, read through the block. -/
theorem flushed2 (c : Dev nD) (t : Fin cfg2.N) :
    (dat2 V c).flushed 13 t = ((cfg2.win 13).blk t).view.read (Elt F) (out2_13 (V c main_arg0) (V c main_arg9) (V c main_v46) (V c main_v47) (V c main_v48) (V c main_arg13) (V c main_v49) (V c main_v50) (V c main_v51) (V c main_arg17) (V c main_v52) (V c main_v53) (V c main_v54)) := by
  show (cfg2.win 13).cut (grid2.coords t) ((dat2 V c).after 13 t) = _
  rw [after2_13, iblk2_0, iblk2_1, iblk2_2, iblk2_3, iblk2_4, iblk2_5, iblk2_6, iblk2_7, iblk2_8, iblk2_9, iblk2_10, iblk2_11, iblk2_12]
  obtain ⟨e0, e1⟩ := idx2_13 t
  generalize out2_13 (V c main_arg0) (V c main_arg9) (V c main_v46) (V c main_v47) (V c main_v48) (V c main_arg13) (V c main_v49) (V c main_v50) (V c main_v51) (V c main_arg17) (V c main_v52) (V c main_v53) (V c main_v54) = G
  funext j
  show G j = G (((cfg2.win 13).blk t).view.emb j)
  congr 1
  funext a; apply Fin.ext
  match a with
  | ⟨0, _⟩ => show (j 0).val = win2_13.index t (0 : Fin 2) * 256 + 1 * (j 0).val; omega
  | ⟨1, _⟩ => show (j 1).val = win2_13.index t (1 : Fin 2) * 800 + 1 * (j 1).val; omega

theorem mem_blk2 (t : Fin cfg2.N) (i : S256x800.Idx) :
    i ∈ ((cfg2.win 13).blk t).view.set ↔ ∀ a : Fin 2, win2_13.index t a * S256x800.size a ≤ (i a).val ∧ (i a).val < win2_13.index t a * S256x800.size a + S256x800.size a := by
  show i ∈ ((View.whole main_v55).slice (win2_13.rect t)).set ↔ _
  rw [View.set_slice_whole, Rect.mem_set_unit]
  exact Iff.rfl

/-- The output array after the region: the body's result on the arrays the region found. -/
theorem arr2 (c : Dev nD) : (dat2 V c).arrAt 13 cfg2.N = out2_13 (V c main_arg0) (V c main_arg9) (V c main_v46) (V c main_v47) (V c main_v48) (V c main_arg13) (V c main_v49) (V c main_v50) (V c main_v51) (V c main_arg17) (V c main_v52) (V c main_v53) (V c main_v54) :=
  (dat2 V c).arrAt_eq_of_cover 13 _ (fun t _ => flushed2 V c t) (fun i => by
    refine ⟨t2_0, flush2_13 t2_0, ?_⟩
    rw [mem_blk2]
    obtain ⟨e0, e1⟩ := idx2_13 t2_0
    intro a
    match a with
    | ⟨0, _⟩ => show win2_13.index t2_0 (0 : Fin 2) * 256 ≤ (i 0).val ∧ (i 0).val < win2_13.index t2_0 (0 : Fin 2) * 256 + 256; have h0 : (i 0).val < 256 := (i 0).isLt; omega
    | ⟨1, _⟩ => show win2_13.index t2_0 (1 : Fin 2) * 800 ≤ (i 1).val ∧ (i 1).val < win2_13.index t2_0 (1 : Fin 2) * 800 + 800; have h1 : (i 1).val < 800 := (i 1).isLt; omega)

/-! ## Region 3 -/

theorem idx3_0 : ∀ t : Fin cfg3.N, win3_0.index t (0 : Fin 2) = 0 ∧ win3_0.index t (1 : Fin 2) = 0 :=
  (by decide +kernel : ∀ t : Fin grid3.N, _)

theorem idx3_1 : ∀ t : Fin cfg3.N, win3_1.index t (0 : Fin 2) = 0 ∧ win3_1.index t (1 : Fin 2) = 0 :=
  (by decide +kernel : ∀ t : Fin grid3.N, _)

theorem idx3_2 : ∀ t : Fin cfg3.N, win3_2.index t (0 : Fin 2) = 0 ∧ win3_2.index t (1 : Fin 2) = 0 :=
  (by decide +kernel : ∀ t : Fin grid3.N, _)

/-- Window 0's block is its whole array. -/
theorem iblk3_0 (c : Dev nD) (t : Fin cfg3.N) : iblk3 V c 0 t = V c main_v77 := by
  obtain ⟨e0, e1⟩ := idx3_0 t
  funext j
  show V c main_v77 (((cfg3.win 0).blk t).view.emb j) = V c main_v77 j
  congr 1
  funext a; apply Fin.ext
  match a with
  | ⟨0, _⟩ => show win3_0.index t (0 : Fin 2) * 512 + 1 * (j 0).val = (j 0).val; omega
  | ⟨1, _⟩ => show win3_0.index t (1 : Fin 2) * 512 + 1 * (j 1).val = (j 1).val; omega

/-- Window 1's block is its whole array. -/
theorem iblk3_1 (c : Dev nD) (t : Fin cfg3.N) : iblk3 V c 1 t = V c main_v63 := by
  obtain ⟨e0, e1⟩ := idx3_1 t
  funext j
  show V c main_v63 (((cfg3.win 1).blk t).view.emb j) = V c main_v63 j
  congr 1
  funext a; apply Fin.ext
  match a with
  | ⟨0, _⟩ => show win3_1.index t (0 : Fin 2) * 512 + 1 * (j 0).val = (j 0).val; omega
  | ⟨1, _⟩ => show win3_1.index t (1 : Fin 2) * 1024 + 1 * (j 1).val = (j 1).val; omega

/-- What the one point writes back is the body's result on the input arrays, read through the block. -/
theorem flushed3 (c : Dev nD) (t : Fin cfg3.N) :
    (dat3 V c).flushed 2 t = ((cfg3.win 2).blk t).view.read (Elt F) (out3_2 (V c main_v77) (V c main_v63)) := by
  show (cfg3.win 2).cut (grid3.coords t) ((dat3 V c).after 2 t) = _
  rw [after3_2, iblk3_0, iblk3_1]
  obtain ⟨e0, e1⟩ := idx3_2 t
  generalize out3_2 (V c main_v77) (V c main_v63) = G
  funext j
  show G j = G (((cfg3.win 2).blk t).view.emb j)
  congr 1
  funext a; apply Fin.ext
  match a with
  | ⟨0, _⟩ => show (j 0).val = win3_2.index t (0 : Fin 2) * 512 + 1 * (j 0).val; omega
  | ⟨1, _⟩ => show (j 1).val = win3_2.index t (1 : Fin 2) * 1024 + 1 * (j 1).val; omega

theorem mem_blk3 (t : Fin cfg3.N) (i : S512x1024.Idx) :
    i ∈ ((cfg3.win 2).blk t).view.set ↔ ∀ a : Fin 2, win3_2.index t a * S512x1024.size a ≤ (i a).val ∧ (i a).val < win3_2.index t a * S512x1024.size a + S512x1024.size a := by
  show i ∈ ((View.whole main_v79).slice (win3_2.rect t)).set ↔ _
  rw [View.set_slice_whole, Rect.mem_set_unit]
  exact Iff.rfl

/-- The output array after the region: the body's result on the arrays the region found. -/
theorem arr3 (c : Dev nD) : (dat3 V c).arrAt 2 cfg3.N = out3_2 (V c main_v77) (V c main_v63) :=
  (dat3 V c).arrAt_eq_of_cover 2 _ (fun t _ => flushed3 V c t) (fun i => by
    refine ⟨t3_0, flush3_2 t3_0, ?_⟩
    rw [mem_blk3]
    obtain ⟨e0, e1⟩ := idx3_2 t3_0
    intro a
    match a with
    | ⟨0, _⟩ => show win3_2.index t3_0 (0 : Fin 2) * 512 ≤ (i 0).val ∧ (i 0).val < win3_2.index t3_0 (0 : Fin 2) * 512 + 512; have h0 : (i 0).val < 512 := (i 0).isLt; omega
    | ⟨1, _⟩ => show win3_2.index t3_0 (1 : Fin 2) * 1024 ≤ (i 1).val ∧ (i 1).val < win3_2.index t3_0 (1 : Fin 2) * 1024 + 1024; have h1 : (i 1).val < 1024 := (i 1).isLt; omega)

end Cert.KernelIdeal.RegionArrays

end
-- ==== Proof.SegMean.lean ====
/-
  The neighbour mean of a graph-convolution layer, as the reference program computes it from the edge list.

  The edge list is a 2 × 50000 array of node numbers: row 0 the source of each edge, row 1 its destination.  A
  source number below 0 is counted from the end (700 is added).  The mean at node n of the feature rows x is the sum
  of x at the sources of the edges that end in n, divided by the larger of the number of those edges and 1.  The
  program spells this as a gather of the source rows, a scatter-add of them onto the destination rows starting from
  zeros, a scatter-add of ones onto the destinations for the count, a maximum with 1 and a quotient.  The two means
  below (512 features for the first layer, 2048 for the second) are that composition, operation for operation.
-/
import proofs.«101777_j1108101562624_2_alg».proof.ReferenceIdeal
import Idealize.ShloMosaic.PureOps.Ideal

noncomputable section

namespace Cert.SegMean

open Cert.ReferenceIdeal Idealize.ShloMosaic Idealize.ShloMosaic.TcCoe Idealize.SL.Sem Idealize.ShloMosaic.StableHlo

variable [Facts₀]
open Facts₀

/-- Row 0 of the edge list: the source node of each edge. -/
def srcIds (ei : (⟨S2x50000, .i32⟩ : BufTy).Contents (Elt Ideal)) : (⟨S50000, .i32⟩ : BufTy).Contents (Elt Ideal) :=
  shapeCast _ (extractStridedSlice S1x50000 ![0, 0] ei slices_S2x50000_S1x50000_0_0 : (⟨S1x50000, .i32⟩ : BufTy).Contents (Elt Ideal))
    shapeCasts_S1x50000_S50000

/-- Row 1 of the edge list: the destination node of each edge. -/
def dstIds (ei : (⟨S2x50000, .i32⟩ : BufTy).Contents (Elt Ideal)) : (⟨S50000, .i32⟩ : BufTy).Contents (Elt Ideal) :=
  shapeCast _ (extractStridedSlice S1x50000 ![1, 0] ei slices_S2x50000_S1x50000_1_0 : (⟨S1x50000, .i32⟩ : BufTy).Contents (Elt Ideal))
    shapeCasts_S1x50000_S50000

/-- The source numbers as a column, a number below 0 counted from the end (700 added). -/
def srcCol (ei : (⟨S2x50000, .i32⟩ : BufTy).Contents (Elt Ideal)) : (⟨S50000x1, .i32⟩ : BufTy).Contents (Elt Ideal) :=
  broadcastInDim S50000x1 ![0] bcast_S50000_S50000x1_0
    (select
      (cmpi .slt (srcIds ei)
        (broadcastInDim S50000 ![] bcast_S_S50000 (constantI S_ 32 0#32 : (⟨S_, .i32⟩ : BufTy).Contents (Elt Ideal))
          : (⟨S50000, .i32⟩ : BufTy).Contents (Elt Ideal)) : (⟨S50000, .i1⟩ : BufTy).Contents (Elt Ideal))
      (addi (srcIds ei)
        (broadcastInDim S50000 ![] bcast_S_S50000 (constantI S_ 32 700#32 : (⟨S_, .i32⟩ : BufTy).Contents (Elt Ideal))
          : (⟨S50000, .i32⟩ : BufTy).Contents (Elt Ideal)) : (⟨S50000, .i32⟩ : BufTy).Contents (Elt Ideal))
      (srcIds ei) : (⟨S50000, .i32⟩ : BufTy).Contents (Elt Ideal))

/-- The destination numbers as a column. -/
def dstCol (ei : (⟨S2x50000, .i32⟩ : BufTy).Contents (Elt Ideal)) : (⟨S50000x1, .i32⟩ : BufTy).Contents (Elt Ideal) :=
  broadcastInDim S50000x1 ![0] bcast_S50000_S50000x1_0 (dstIds ei)

/-- The number of edges that end in each node, or 1 where there is none. -/
def degree (ei : (⟨S2x50000, .i32⟩ : BufTy).Contents (Elt Ideal)) : (⟨S700, .f32⟩ : BufTy).Contents (Elt Ideal) :=
  maximumf (F := Ideal) (φ := .f32)
    (Host.scatterAdd (F := Ideal) (φ := .f32) scatter_S700_S50000x1_S50000_n_0_0_1
      (broadcastInDim S700 ![] bcast_S_S700 (constant (F := Ideal) S_ .f32 0x00000000#32 : (⟨S_, .f32⟩ : BufTy).Contents (Elt Ideal))
        : (⟨S700, .f32⟩ : BufTy).Contents (Elt Ideal))
      (dstCol ei)
      (broadcastInDim S50000 ![] bcast_S_S50000 (constant (F := Ideal) S_ .f32 0x3F800000#32 : (⟨S_, .f32⟩ : BufTy).Contents (Elt Ideal))
        : (⟨S50000, .f32⟩ : BufTy).Contents (Elt Ideal)) : (⟨S700, .f32⟩ : BufTy).Contents (Elt Ideal))
    (broadcastInDim S700 ![] bcast_S_S700 (constant (F := Ideal) S_ .f32 0x3F800000#32 : (⟨S_, .f32⟩ : BufTy).Contents (Elt Ideal))
      : (⟨S700, .f32⟩ : BufTy).Contents (Elt Ideal))

/-- The mean over a node's incoming edges of the 512-feature rows `x`. -/
def segMean512 (x : (⟨S700x512, .f32⟩ : BufTy).Contents (Elt Ideal)) (ei : (⟨S2x50000, .i32⟩ : BufTy).Contents (Elt Ideal)) :
    (⟨S700x512, .f32⟩ : BufTy).Contents (Elt Ideal) :=
  Host.divf (F := Ideal) (φ := .f32)
    (Host.scatterAdd (F := Ideal) (φ := .f32) scatter_S700x512_S50000x1_S50000x512_1_0_0_1
      (broadcastInDim S700x512 ![] bcast_S_S700x512 (constant (F := Ideal) S_ .f32 0x00000000#32 : (⟨S_, .f32⟩ : BufTy).Contents (Elt Ideal))
        : (⟨S700x512, .f32⟩ : BufTy).Contents (Elt Ideal))
      (dstCol ei)
      (Host.gather gather_S700x512_S50000x1_S50000x512_1_0_n_n_0_1_1512 x (srcCol ei)
        : (⟨S50000x512, .f32⟩ : BufTy).Contents (Elt Ideal)) : (⟨S700x512, .f32⟩ : BufTy).Contents (Elt Ideal))
    (broadcastInDim S700x512 ![0, 1] bcast_S700x1_S700x512_0_1
      (broadcastInDim S700x1 ![0] bcast_S700_S700x1_0 (degree ei) : (⟨S700x1, .f32⟩ : BufTy).Contents (Elt Ideal))
      : (⟨S700x512, .f32⟩ : BufTy).Contents (Elt Ideal))

/-- The mean over a node's incoming edges of the 2048-feature rows `h`. -/
def segMean2048 (h : (⟨S700x2048, .f32⟩ : BufTy).Contents (Elt Ideal)) (ei : (⟨S2x50000, .i32⟩ : BufTy).Contents (Elt Ideal)) :
    (⟨S700x2048, .f32⟩ : BufTy).Contents (Elt Ideal) :=
  Host.divf (F := Ideal) (φ := .f32)
    (Host.scatterAdd (F := Ideal) (φ := .f32) scatter_S700x2048_S50000x1_S50000x2048_1_0_0_1
      (broadcastInDim S700x2048 ![] bcast_S_S700x2048 (constant (F := Ideal) S_ .f32 0x00000000#32 : (⟨S_, .f32⟩ : BufTy).Contents (Elt Ideal))
        : (⟨S700x2048, .f32⟩ : BufTy).Contents (Elt Ideal))
      (dstCol ei)
      (Host.gather gather_S700x2048_S50000x1_S50000x2048_1_0_n_n_0_1_12048 h (srcCol ei)
        : (⟨S50000x2048, .f32⟩ : BufTy).Contents (Elt Ideal)) : (⟨S700x2048, .f32⟩ : BufTy).Contents (Elt Ideal))
    (broadcastInDim S700x2048 ![0, 1] bcast_S700x1_S700x2048_0_1
      (broadcastInDim S700x1 ![0] bcast_S700_S700x1_0 (degree ei) : (⟨S700x1, .f32⟩ : BufTy).Contents (Elt Ideal))
      : (⟨S700x2048, .f32⟩ : BufTy).Contents (Elt Ideal))

end Cert.SegMean

end
-- ==== Proof.KNodes.lean ====
/-
  The idealized kernel program's node embeddings, unwound to the arguments: the second graph-convolution body on the
  neighbour mean of the hidden features, the hidden features, the second layer's two weights and its bias as a row;
  the hidden features the first body on the neighbour mean of the node features, the node features and the first
  layer's weights and bias.  The neighbour means are the host stretches before each region, the same chain of
  operations as the reference's.
-/
import proofs.«101777_j1108101562624_2_alg».proof.Proof.Gen.ReferenceIdeal
import proofs.«101777_j1108101562624_2_alg».proof.Proof.KFold
import proofs.«101777_j1108101562624_2_alg».proof.Proof.RegionArrays
import proofs.«101777_j1108101562624_2_alg».proof.Proof.SegMean

set_option maxRecDepth 16384

noncomputable section

namespace Cert.KernelIdeal.KNodes

open Idealize.ShloMosaic Idealize.ShloMosaic.TcCoe
open Cert.KernelIdeal Cert.KernelIdeal.Gen

variable (m : (ℓ : Loc nD τ sig) → Buf (Elt Ideal) ℓ) (ρ : Dev nD → PrngReg)

theorem hz2 : (![0, 0] : Fin 2 → Nat) = fun _ => 0 := funext fun a => by fin_cases a <;> rfl

/-! ## The bodies' whole-block stores -/

theorem out0_eq {F : FTy → Type} [FloatOps F] [Named F] (x0 x1 : Vec F S700x512 .f32) (x2 : Vec F S512x2048 .f32) (x3 : Vec F S1x2048 .f32) (x4 : Vec F S512x2048 .f32) :
    out0_5 x0 x1 x2 x3 x4 = k0_pay1 x0 x1 x2 x3 x4 := by
  unfold out0_5
  rw [View.canon_unit_zero hz2]
  simp only [View.ld_unit_zero (S := S700x512) hz2, View.ld_unit_zero (S := S512x2048) hz2, View.ld_unit_zero (S := S1x2048) hz2]

theorem out1_eq {F : FTy → Type} [FloatOps F] [Named F] (x0 x1 : Vec F S700x2048 .f32) (x2 : Vec F S2048x512 .f32) (x3 : Vec F S1x512 .f32) (x4 : Vec F S2048x512 .f32) :
    out1_5 x0 x1 x2 x3 x4 = k1_pay1 x0 x1 x2 x3 x4 := by
  unfold out1_5
  rw [View.canon_unit_zero hz2]
  simp only [View.ld_unit_zero (S := S700x2048) hz2, View.ld_unit_zero (S := S2048x512) hz2, View.ld_unit_zero (S := S1x512) hz2]

/-! ## The first region's inputs -/

/-- The neighbour mean of the node features. -/
theorem mean1 (c : Dev nD) : (V1 m ρ c main_v22 : S700x512.Idx → EReal)
    = Cert.SegMean.segMean512 (m ((c : Thread nD τ).loc main_arg1)) (m ((c : Thread nD τ).loc main_arg2)) := by
  show StableHlo.after hostOps0 (W0 m ρ c) (Proc.devRef .tc main_v22) = _
  read_stretch

theorem bias1 (c : Dev nD) : (V1 m ρ c main_v23 : S1x2048.Idx → EReal)
    = shapeCast S1x2048 (m ((c : Thread nD τ).loc main_arg4)) shapeCasts_S2048_S1x2048 := by
  show StableHlo.after hostOps0 (W0 m ρ c) (Proc.devRef .tc main_v23) = _
  read_stretch

theorem V1_arg1 (c : Dev nD) : V1 m ρ c main_arg1 = m ((c : Thread nD τ).loc main_arg1) := by
  show StableHlo.after hostOps0 (W0 m ρ c) (Proc.devRef .tc main_arg1) = _
  unwritten hostOps0
theorem V1_arg3 (c : Dev nD) : V1 m ρ c main_arg3 = m ((c : Thread nD τ).loc main_arg3) := by
  show StableHlo.after hostOps0 (W0 m ρ c) (Proc.devRef .tc main_arg3) = _
  unwritten hostOps0
theorem V1_arg5 (c : Dev nD) : V1 m ρ c main_arg5 = m ((c : Thread nD τ).loc main_arg5) := by
  show StableHlo.after hostOps0 (W0 m ρ c) (Proc.devRef .tc main_arg5) = _
  unwritten hostOps0

/-- The hidden features: the first body on the mean, the node features, the weights and the bias row. -/
def hidden (c : Dev nD) : S700x2048.Idx → EReal :=
  k0_pay1 (F := Ideal) (Cert.SegMean.segMean512 (m ((c : Thread nD τ).loc main_arg1)) (m ((c : Thread nD τ).loc main_arg2)))
    (m ((c : Thread nD τ).loc main_arg1)) (m ((c : Thread nD τ).loc main_arg3))
    (shapeCast S1x2048 (m ((c : Thread nD τ).loc main_arg4)) shapeCasts_S2048_S1x2048) (m ((c : Thread nD τ).loc main_arg5))

theorem W2_hidden (c : Dev nD) : W2 m ρ c (Proc.devRef .tc main_v24) = hidden m c := by
  rw [W2_arr m ρ c 5, Cert.KernelIdeal.RegionArrays.arr0 (V1 m ρ) c, out0_eq, mean1, bias1, V1_arg1, V1_arg3, V1_arg5]
  rfl

/-! ## The second region's inputs -/

/-- The source column computed before the first region is still there after it. -/
theorem src_ids (c : Dev nD) : (W2 m ρ c (Proc.devRef .tc main_v1) : (⟨S50000, .i32⟩ : BufTy).Contents (Elt Ideal))
    = Cert.SegMean.srcIds (m ((c : Thread nD τ).loc main_arg2)) := by
  rw [W2_of_ne m ρ c main_v1 (by decide)]
  show StableHlo.after hostOps0 (W0 m ρ c) (Proc.devRef .tc main_v1) = _
  read_stretch

theorem dst_ids (c : Dev nD) : (W2 m ρ c (Proc.devRef .tc main_v3) : (⟨S50000, .i32⟩ : BufTy).Contents (Elt Ideal))
    = Cert.SegMean.dstIds (m ((c : Thread nD τ).loc main_arg2)) := by
  rw [W2_of_ne m ρ c main_v3 (by decide)]
  show StableHlo.after hostOps0 (W0 m ρ c) (Proc.devRef .tc main_v3) = _
  read_stretch

/-- The neighbour mean of the hidden features. -/
theorem mean2 (c : Dev nD) : (V3 m ρ c main_v43 : S700x2048.Idx → EReal)
    = Cert.SegMean.segMean2048 (hidden m c) (m ((c : Thread nD τ).loc main_arg2)) := by
  show StableHlo.after hostOps1 (W2 m ρ c) (Proc.devRef .tc main_v43) = _
  open Idealize.ShloMosaic.StableHlo in after_results_simp
  rw [src_ids m ρ c, dst_ids m ρ c, W2_hidden m ρ c]
  rfl

theorem V3_of_W2 (c : Dev nD) (b : Ref sig .tc) (h : StableHlo.after hostOps1 (W2 m ρ c) (Proc.devRef .tc b) = W2 m ρ c (Proc.devRef .tc b)) :
    V3 m ρ c b = W2 m ρ c (Proc.devRef .tc b) := h

theorem V3_v24 (c : Dev nD) : V3 m ρ c main_v24 = hidden m c := by
  rw [← W2_hidden m ρ c]
  show StableHlo.after hostOps1 (W2 m ρ c) (Proc.devRef .tc main_v24) = _
  unwritten hostOps1

theorem bias2 (c : Dev nD) : (V3 m ρ c main_v44 : S1x512.Idx → EReal)
    = shapeCast S1x512 (m ((c : Thread nD τ).loc main_arg7)) shapeCasts_S512_S1x512 := by
  have e : W2 m ρ c (Proc.devRef .tc main_arg7) = m ((c : Thread nD τ).loc main_arg7) := by
    rw [W2_of_ne m ρ c main_arg7 (by decide)]
    show StableHlo.after hostOps0 (W0 m ρ c) (Proc.devRef .tc main_arg7) = _
    unwritten hostOps0
  rw [← e]
  show StableHlo.after hostOps1 (W2 m ρ c) (Proc.devRef .tc main_v44) = _
  read_stretch

theorem V3_arg6 (c : Dev nD) : V3 m ρ c main_arg6 = m ((c : Thread nD τ).loc main_arg6) :=
  calc V3 m ρ c main_arg6
    _ = W2 m ρ c (Proc.devRef .tc main_arg6) := by
          show StableHlo.after hostOps1 (W2 m ρ c) (Proc.devRef .tc main_arg6) = _
          unwritten hostOps1
    _ = W1 m ρ c (Proc.devRef .tc main_arg6) := W2_of_ne m ρ c main_arg6 (by decide)
    _ = m ((c : Thread nD τ).loc main_arg6) := by
          show StableHlo.after hostOps0 (W0 m ρ c) (Proc.devRef .tc main_arg6) = _
          unwritten hostOps0

theorem V3_arg8 (c : Dev nD) : V3 m ρ c main_arg8 = m ((c : Thread nD τ).loc main_arg8) :=
  calc V3 m ρ c main_arg8
    _ = W2 m ρ c (Proc.devRef .tc main_arg8) := by
          show StableHlo.after hostOps1 (W2 m ρ c) (Proc.devRef .tc main_arg8) = _
          unwritten hostOps1
    _ = W1 m ρ c (Proc.devRef .tc main_arg8) := W2_of_ne m ρ c main_arg8 (by decide)
    _ = m ((c : Thread nD τ).loc main_arg8) := by
          show StableHlo.after hostOps0 (W0 m ρ c) (Proc.devRef .tc main_arg8) = _
          unwritten hostOps0

/-- The node embeddings: the second body on the mean of the hidden features, the hidden features, the weights and the
    bias row. -/
def nodes (c : Dev nD) : S700x512.Idx → EReal :=
  k1_pay1 (F := Ideal) (Cert.SegMean.segMean2048 (hidden m c) (m ((c : Thread nD τ).loc main_arg2))) (hidden m c)
    (m ((c : Thread nD τ).loc main_arg6)) (shapeCast S1x512 (m ((c : Thread nD τ).loc main_arg7)) shapeCasts_S512_S1x512)
    (m ((c : Thread nD τ).loc main_arg8))

/-- The second region's output array. -/
theorem W4_nodes (c : Dev nD) : (dat1 (V3 m ρ) c).arrAt 5 cfg1.N = nodes m c := by
  rw [Cert.KernelIdeal.RegionArrays.arr1 (V3 m ρ) c, out1_eq, mean2, V3_v24, V3_arg6, bias2, V3_arg8]
  rfl

/-- The node embeddings' buffer at the end. -/
theorem nodes_value (c : Dev nD) : W24 m ρ c (Proc.devRef .tc main_v45) = nodes m c :=
  (Cert.KernelIdeal.KFold.nodes_end m ρ c).trans (W4_nodes m ρ c)

/-- The node embeddings' buffer is still the second region's output when the image tower's region has run. -/
theorem W6_nodes (c : Dev nD) : W6 m ρ c (Proc.devRef .tc main_v45) = nodes m c :=
  calc W6 m ρ c (Proc.devRef .tc main_v45)
    _ = W5 m ρ c (Proc.devRef .tc main_v45) := W6_of_ne m ρ c main_v45 (by decide)
    _ = W4 m ρ c (Proc.devRef .tc main_v45) := by unwritten hostOps2
    _ = (dat1 (V3 m ρ) c).arrAt 5 cfg1.N := W4_arr m ρ c 5
    _ = nodes m c := W4_nodes m ρ c

end Cert.KernelIdeal.KNodes

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibLinBody.lean ====
/-
  Two readings of what a blocked linear layer's body computes, at the ideal values, for any sizes.

  A body that forms x·Wᵀ transposes the weight first and accumulates the product into the zero array; a change of float
  format on the way is the identity on the extended reals.  So entry (p, q) of the product is the sum over k of
  x(p, k)·W(q, k): a row of x against a ROW of W (`matmulT_eq`).  A one-row bias recast to its own shape and spread over
  the rows reads, at (p, q), the bias at (0, q) (`biasRows_eq`).  The dimension record is any one that contracts the left
  operand's columns with the right operand's rows (the four coordinate facts, which a literal record proves by evaluation).
-/
import proofs.«101777_j1108101562624_2_alg».proof.Proof.LibMatmulIx
import Idealize.ShloMosaic.Lib.ValueLayout
import Idealize.ShloMosaic.Lib.Pipeline.Value

namespace LinBody

open Idealize.ShloMosaic Idealize.ShloMosaic.ValueIdx

variable {a K b : ℕ}

/-- A product with the transposed weight, into zero, the operands cut to the narrow format first: entry (p, q) is row p of
    x against row q of W. -/
theorem matmulT_eq (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : FVec Ideal ⟨2, ![a, K]⟩ .f32) (W : FVec Ideal ⟨2, ![b, K]⟩ .f32)
    (hx : FTy.bf16.bits < FTy.f32.bits) (ht : (⟨2, ![b, K]⟩ : Shape).Transposes [1, 0] ⟨2, ![K, b]⟩) :
    matmul D none (truncf .bf16 x hx) (transpose ⟨2, ![K, b]⟩ [1, 0] (truncf .bf16 W hx) ht)
        (constant (F := Ideal) ⟨2, ![a, b]⟩ .f32 0x00000000#32)
      = fun i => ∑ k : Fin K, x (ix2 (i 0) k) * W (ix2 (i 1) k) := by
  funext i
  obtain ⟨p, q, rfl⟩ : ∃ (p : Fin a) (q : Fin b), i = ix2 p q := ⟨i 0, i 1, eq_ix2 i⟩
  refine (MatmulIx.matmul_zero_ix2 D hr hs hl0 hl1 hr0 hr1 none _ _ p q).trans ?_
  refine Finset.sum_congr rfl fun k _ => ?_
  rw [transpose_ix2_apply]
  rfl

/-- A one-row bias, recast to its own shape, spread over the rows. -/
theorem biasRows_eq (v : FVec Ideal ⟨2, ![1, b]⟩ .f32) (hs : (⟨2, ![1, b]⟩ : Shape).ShapeCasts ⟨2, ![1, b]⟩)
    (hb : (⟨2, ![1, b]⟩ : Shape).Broadcasts ⟨2, ![a, b]⟩) :
    broadcastTo ⟨2, ![a, b]⟩ (shapeCast ⟨2, ![1, b]⟩ v hs) hb = fun i => v (ix2 (0 : Fin 1) (i 1)) := by
  rw [shapeCast_self]
  funext i
  obtain ⟨p, q, rfl⟩ : ∃ (p : Fin a) (q : Fin b), i = ix2 p q := ⟨i 0, i 1, eq_ix2 i⟩
  exact broadcastTo_1b_ab_apply v hb p q

end LinBody
-- ==== Proof.Spec.lean ====
/-
  The mathematics of the two programs as scalar functions on the extended reals, over plain finite index types.

  * `mm3`: a product sum taken in three passes, a·w + a·(w − w) + (a − a)·w.  On real numbers the two correction
    terms vanish and it is the plain product sum.
  * `lnK`: layer normalisation in one pass: mean μ = (Σx)·c and second moment (Σx²)·c with c the reciprocal of
    the row length, variance max(E[x²] − μ², 0).
  * `lnR`: layer normalisation in two passes: μ = (Σx)/n, variance (Σ(x − μ)²)/n.
    On real rows with c = 1/n the two agree: E[x²] − μ² is the mean squared deviation, which is non-negative.
  * `sageK` / `sageR`: one graph-convolution row entry, mean·Wl + bl + x·Wr, the products three-pass or plain.
  * `imgK` / `imgR`: the three-layer image tower, one row entry.
  * `pairK` / `pairR`: one entry of the score matrix from a pair's first-layer pre-activation; in `pairK` the
    first-layer product arrives already split into its attribute half and its object half over a row padded with
    zero lanes, in `pairR` it is one product over the concatenated row.
-/
import Idealize.ShloMosaic.PureOps.Ideal

noncomputable section

namespace Cert.Spec

open Idealize.ShloMosaic
open scoped BigOperators

/-- A product sum in three passes: a·w, then a·(w − w), then (a − a)·w. -/
def mm3 {K : ℕ} (a w : Fin K → EReal) : EReal :=
  ((∑ k, a k * w k) + (∑ k, a k * (w k - w k))) + (∑ k, (a k - a k) * w k)

/-- The plain product sum. -/
def mm {K : ℕ} (a w : Fin K → EReal) : EReal := ∑ k, a k * w k

/-- One-pass layer normalisation of the row `x` with scale `g` and shift `b`, at lane `j`; `c` stands for 1/n. -/
def lnK {n : ℕ} (c eps : EReal) (x g b : Fin n → EReal) (j : Fin n) : EReal :=
  ((x j - (∑ i, x i) * c)
      * Ideal.rsqrt (max ((∑ i, x i * x i) * c - ((∑ i, x i) * c) * ((∑ i, x i) * c)) 0 + eps)) * g j + b j

/-- Two-pass layer normalisation of the row `x`, at lane `j`; `nn` stands for n. -/
def lnR {n : ℕ} (nn eps : EReal) (x g b : Fin n → EReal) (j : Fin n) : EReal :=
  ((x j - Ideal.div (∑ i, x i) nn)
      * Ideal.rsqrt (Ideal.div (∑ i, (x i - Ideal.div (∑ i, x i) nn) * (x i - Ideal.div (∑ i, x i) nn)) nn + eps)) * g j + b j

/-- One entry of a graph-convolution layer, three-pass products: (mean·Wl + bl) + x·Wr. -/
def sageK {K : ℕ} (mean x wl wr : Fin K → EReal) (bl : EReal) : EReal := (mm3 mean wl + bl) + mm3 x wr

/-- The same with plain products. -/
def sageR {K : ℕ} (mean x wl wr : Fin K → EReal) (bl : EReal) : EReal := (mm mean wl + bl) + mm x wr

/-- One entry (lane `q`) of the image tower on the row `x`: three dense layers, each followed by a layer
    normalisation, the first two also by the maximum with 0; three-pass products, one-pass normalisations. -/
def imgK (c800 c1000 eps : EReal) (x : Fin 512 → EReal)
    (w1 : Fin 512 → Fin 800 → EReal) (b1 g1 be1 : Fin 800 → EReal)
    (w2 : Fin 800 → Fin 1000 → EReal) (b2 g2 be2 : Fin 1000 → EReal)
    (w3 : Fin 1000 → Fin 800 → EReal) (b3 gn bn : Fin 800 → EReal) (q : Fin 800) : EReal :=
  let t1 : Fin 800 → EReal := fun j => mm3 x (fun k => w1 k j) + b1 j
  let a1 : Fin 800 → EReal := fun j => max (lnK c800 eps t1 g1 be1 j) 0
  let t2 : Fin 1000 → EReal := fun j => mm3 a1 (fun k => w2 k j) + b2 j
  let a2 : Fin 1000 → EReal := fun j => max (lnK c1000 eps t2 g2 be2 j) 0
  let t3 : Fin 800 → EReal := fun j => mm3 a2 (fun k => w3 k j) + b3 j
  lnK c800 eps t3 gn bn q

/-- The same with plain products and two-pass normalisations. -/
def imgR (n800 n1000 eps : EReal) (x : Fin 512 → EReal)
    (w1 : Fin 512 → Fin 800 → EReal) (b1 g1 be1 : Fin 800 → EReal)
    (w2 : Fin 800 → Fin 1000 → EReal) (b2 g2 be2 : Fin 1000 → EReal)
    (w3 : Fin 1000 → Fin 800 → EReal) (b3 gn bn : Fin 800 → EReal) (q : Fin 800) : EReal :=
  let t1 : Fin 800 → EReal := fun j => mm x (fun k => w1 k j) + b1 j
  let a1 : Fin 800 → EReal := fun j => max (lnR n800 eps t1 g1 be1 j) 0
  let t2 : Fin 1000 → EReal := fun j => mm a1 (fun k => w2 k j) + b2 j
  let a2 : Fin 1000 → EReal := fun j => max (lnR n1000 eps t2 g2 be2 j) 0
  let t3 : Fin 800 → EReal := fun j => mm a2 (fun k => w3 k j) + b3 j
  lnR n800 eps t3 gn bn q

/-- One score entry from a pair's split first-layer products over 1024 lanes (`pa` the attribute half, `po` the
    object half): pre-activation (pa + po) + b1, one-pass normalisation with c = 1/1000, maximum with 0, the second
    dense layer over the 1024 lanes, one-pass normalisation with c = 1/800, and the product with the image row. -/
def pairK (c1000 c800 eps : EReal) (pa po b1 g1 be1 : Fin 1024 → EReal) (w2 : Fin 1024 → Fin 800 → EReal)
    (b2 gn bn img : Fin 800 → EReal) : EReal :=
  let pre : Fin 1024 → EReal := fun j => (pa j + po j) + b1 j
  let u : Fin 1024 → EReal := fun j => max (lnK c1000 eps pre g1 be1 j) 0
  let pn : Fin 800 → EReal := fun e => mm u (fun j => w2 j e) + b2 e
  ∑ e, img e * lnK c800 eps pn gn bn e

/-- One score entry from the pair's concatenated row `pr` (attribute features, then object features). -/
def pairR (n1000 n800 eps : EReal) (pr : Fin 1024 → EReal) (w1 : Fin 1024 → Fin 1000 → EReal)
    (b1 g1 be1 : Fin 1000 → EReal) (w2 : Fin 1000 → Fin 800 → EReal) (b2 gn bn img : Fin 800 → EReal) : EReal :=
  let pre : Fin 1000 → EReal := fun j => mm pr (fun k => w1 k j) + b1 j
  let u : Fin 1000 → EReal := fun j => max (lnR n1000 eps pre g1 be1 j) 0
  let pn : Fin 800 → EReal := fun e => mm u (fun j => w2 j e) + b2 e
  ∑ e, img e * lnR n800 eps pn gn bn e

end Cert.Spec

end
-- ==== Proof.ThreePass.lean ====
/-
  A matrix product taken in three passes over operands cut to a narrow format: with x = x_hi + x_lo and
  w = w_hi + w_lo the passes are x_hi·w_hi, x_hi·w_lo and x_lo·w_hi.  At the ideal values a change of format is the
  identity, so x_hi = x and x_lo = x − x: entry (p, q) of the three passes' sum is
  Σ_k x(p,k)·w(k,q) + Σ_k x(p,k)·(w(k,q) − w(k,q)) + Σ_k (x(p,k) − x(p,k))·w(k,q).
  Also a one-row bias spread over the rows, read at an entry.
-/
import proofs.«101777_j1108101562624_2_alg».proof.Proof.LibMatmulIx
import proofs.«101777_j1108101562624_2_alg».proof.Proof.LibLinBody
import proofs.«101777_j1108101562624_2_alg».proof.Proof.Spec

noncomputable section

namespace Cert.PassArr

open Idealize.ShloMosaic Idealize.ShloMosaic.ValueIdx
open scoped BigOperators

variable {a K b : ℕ}

/-- The three passes' sum as an array: (x·w + x·(w − w)) + (x − x)·w, every operand cut to the narrow format. -/
def T3 (D : DotDims ⟨2, ![a, K]⟩ ⟨2, ![K, b]⟩ ⟨2, ![a, b]⟩) (hx : FTy.bf16.bits < FTy.f32.bits)
    (x : FVec Ideal ⟨2, ![a, K]⟩ .f32) (w : FVec Ideal ⟨2, ![K, b]⟩ .f32) : FVec Ideal ⟨2, ![a, b]⟩ .f32 :=
  addf (addf
      (matmul D none (truncf .bf16 x hx) (truncf .bf16 w hx) (constant (F := Ideal) ⟨2, ![a, b]⟩ .f32 0x00000000#32))
      (matmul D none (truncf .bf16 x hx) (truncf .bf16 (subf w w) hx) (constant (F := Ideal) ⟨2, ![a, b]⟩ .f32 0x00000000#32)))
    (matmul D none (truncf .bf16 (subf x x) hx) (truncf .bf16 w hx) (constant (F := Ideal) ⟨2, ![a, b]⟩ .f32 0x00000000#32))

/-- Entry (p, q) of the three passes' sum. -/
theorem T3_apply (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hx : FTy.bf16.bits < FTy.f32.bits)
    (x : FVec Ideal ⟨2, ![a, K]⟩ .f32) (w : FVec Ideal ⟨2, ![K, b]⟩ .f32) (p : Fin a) (q : Fin b) :
    T3 D hx x w (ix2 p q) = Cert.Spec.mm3 (fun k => x (ix2 p k)) (fun k => w (ix2 k q)) := by
  show (matmul D none (truncf .bf16 x hx) (truncf .bf16 w hx) (constant (F := Ideal) ⟨2, ![a, b]⟩ .f32 0x00000000#32) (ix2 p q)
      + matmul D none (truncf .bf16 x hx) (truncf .bf16 (subf w w) hx) (constant (F := Ideal) ⟨2, ![a, b]⟩ .f32 0x00000000#32) (ix2 p q))
      + matmul D none (truncf .bf16 (subf x x) hx) (truncf .bf16 w hx) (constant (F := Ideal) ⟨2, ![a, b]⟩ .f32 0x00000000#32) (ix2 p q) = _
  rw [MatmulIx.matmul_zero_ix2 D hr hs hl0 hl1 hr0 hr1, MatmulIx.matmul_zero_ix2 D hr hs hl0 hl1 hr0 hr1,
    MatmulIx.matmul_zero_ix2 D hr hs hl0 hl1 hr0 hr1]
  rfl

/-- One graph-convolution layer's array before its last step: (mean·Wl + bias) + x·Wr, the products in three passes. -/
def sageArr (D : DotDims ⟨2, ![a, K]⟩ ⟨2, ![K, b]⟩ ⟨2, ![a, b]⟩) (hx : FTy.bf16.bits < FTy.f32.bits)
    (hsb : (⟨2, ![1, b]⟩ : Shape).ShapeCasts ⟨2, ![1, b]⟩) (hb : (⟨2, ![1, b]⟩ : Shape).Broadcasts ⟨2, ![a, b]⟩)
    (mean x : FVec Ideal ⟨2, ![a, K]⟩ .f32) (wl wr : FVec Ideal ⟨2, ![K, b]⟩ .f32) (bl : FVec Ideal ⟨2, ![1, b]⟩ .f32) :
    FVec Ideal ⟨2, ![a, b]⟩ .f32 :=
  addf (addf (T3 D hx mean wl) (broadcastTo ⟨2, ![a, b]⟩ (shapeCast ⟨2, ![1, b]⟩ bl hsb) hb)) (T3 D hx x wr)

/-- Its entry (p, q). -/
theorem sageArr_apply (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hx : FTy.bf16.bits < FTy.f32.bits)
    (hsb : (⟨2, ![1, b]⟩ : Shape).ShapeCasts ⟨2, ![1, b]⟩) (hb : (⟨2, ![1, b]⟩ : Shape).Broadcasts ⟨2, ![a, b]⟩)
    (mean x : FVec Ideal ⟨2, ![a, K]⟩ .f32) (wl wr : FVec Ideal ⟨2, ![K, b]⟩ .f32) (bl : FVec Ideal ⟨2, ![1, b]⟩ .f32)
    (p : Fin a) (q : Fin b) :
    sageArr D hx hsb hb mean x wl wr bl (ix2 p q)
      = Cert.Spec.sageK (fun k => mean (ix2 p k)) (fun k => x (ix2 p k)) (fun k => wl (ix2 k q)) (fun k => wr (ix2 k q))
          (bl (ix2 (0 : Fin 1) q)) := by
  show (T3 D hx mean wl (ix2 p q) + broadcastTo ⟨2, ![a, b]⟩ (shapeCast ⟨2, ![1, b]⟩ bl hsb) hb (ix2 p q)) + T3 D hx x wr (ix2 p q) = _
  rw [T3_apply D hr hs hl0 hl1 hr0 hr1, T3_apply D hr hs hl0 hl1 hr0 hr1, LinBody.biasRows_eq bl hsb hb]
  rfl

end Cert.PassArr

end
-- ==== Proof.SageBody.lean ====
/-
  The three small kernel bodies read at an entry, at the ideal values.
  * First graph-convolution layer (700 nodes, 512 → 2048 features): entry (p, q) is
    max((mean(p,·)·Wl(·,q) + bl(q)) + x(p,·)·Wr(·,q), 0), each product taken in three passes.
  * Second layer (2048 → 512 features): the same without the maximum.
  * The object half of the pair layer: a plain product [512,512]×[512,1024] into zero.
-/
import proofs.«101777_j1108101562624_2_alg».proof.Proof.Gen.KernelIdeal.Skeleton
import proofs.«101777_j1108101562624_2_alg».proof.Proof.ThreePass
import Idealize.ShloMosaic.Lib.Pipeline.Value

noncomputable section

namespace Cert.SageBody

open Idealize.ShloMosaic Idealize.ShloMosaic.ValueIdx Cert.KernelIdeal Cert.KernelIdeal.Gen
open scoped BigOperators

/-! ## The coordinates the three products' dimension numbers select -/

theorem dot_S700x512_S512x2048_S700x2048_1_0_0_1_n_n_l0 (i) (q : dot_S700x512_S512x2048_S700x2048_1_0_0_1_n_n.contr.Idx) : (dot_S700x512_S512x2048_S700x2048_1_0_0_1_n_n.lhsIdx i q 0).val = (i 0).val := by
  unfold DotDims.lhsIdx
  rw [dif_neg (show ¬(0 : Fin S700x512.rank) ∈ dot_S700x512_S512x2048_S700x2048_1_0_0_1_n_n.lhsBatch by decide), dif_pos (show (0 : Fin S700x512.rank) ∈ dot_S700x512_S512x2048_S700x2048_1_0_0_1_n_n.lhsNonContracting by decide)]
  rfl
theorem dot_S700x512_S512x2048_S700x2048_1_0_0_1_n_n_l1 (i) (q : dot_S700x512_S512x2048_S700x2048_1_0_0_1_n_n.contr.Idx) : (dot_S700x512_S512x2048_S700x2048_1_0_0_1_n_n.lhsIdx i q 1).val = (q ⟨0, by decide⟩).val :=
  dot_S700x512_S512x2048_S700x2048_1_0_0_1_n_n.lhsIdx_val_of_single rfl i q
theorem dot_S700x512_S512x2048_S700x2048_1_0_0_1_n_n_r0 (i) (q : dot_S700x512_S512x2048_S700x2048_1_0_0_1_n_n.contr.Idx) : (dot_S700x512_S512x2048_S700x2048_1_0_0_1_n_n.rhsIdx i q 0).val = (q ⟨0, by decide⟩).val :=
  dot_S700x512_S512x2048_S700x2048_1_0_0_1_n_n.rhsIdx_val_of_single rfl i q
theorem dot_S700x512_S512x2048_S700x2048_1_0_0_1_n_n_r1 (i) (q : dot_S700x512_S512x2048_S700x2048_1_0_0_1_n_n.contr.Idx) : (dot_S700x512_S512x2048_S700x2048_1_0_0_1_n_n.rhsIdx i q 1).val = (i 1).val := by
  unfold DotDims.rhsIdx
  rw [dif_neg (show ¬(1 : Fin S512x2048.rank) ∈ dot_S700x512_S512x2048_S700x2048_1_0_0_1_n_n.rhsBatch by decide), dif_pos (show (1 : Fin S512x2048.rank) ∈ dot_S700x512_S512x2048_S700x2048_1_0_0_1_n_n.rhsNonContracting by decide)]
  rfl

theorem dot_S700x2048_S2048x512_S700x512_1_0_0_1_n_n_l0 (i) (q : dot_S700x2048_S2048x512_S700x512_1_0_0_1_n_n.contr.Idx) : (dot_S700x2048_S2048x512_S700x512_1_0_0_1_n_n.lhsIdx i q 0).val = (i 0).val := by
  unfold DotDims.lhsIdx
  rw [dif_neg (show ¬(0 : Fin S700x2048.rank) ∈ dot_S700x2048_S2048x512_S700x512_1_0_0_1_n_n.lhsBatch by decide), dif_pos (show (0 : Fin S700x2048.rank) ∈ dot_S700x2048_S2048x512_S700x512_1_0_0_1_n_n.lhsNonContracting by decide)]
  rfl
theorem dot_S700x2048_S2048x512_S700x512_1_0_0_1_n_n_l1 (i) (q : dot_S700x2048_S2048x512_S700x512_1_0_0_1_n_n.contr.Idx) : (dot_S700x2048_S2048x512_S700x512_1_0_0_1_n_n.lhsIdx i q 1).val = (q ⟨0, by decide⟩).val :=
  dot_S700x2048_S2048x512_S700x512_1_0_0_1_n_n.lhsIdx_val_of_single rfl i q
theorem dot_S700x2048_S2048x512_S700x512_1_0_0_1_n_n_r0 (i) (q : dot_S700x2048_S2048x512_S700x512_1_0_0_1_n_n.contr.Idx) : (dot_S700x2048_S2048x512_S700x512_1_0_0_1_n_n.rhsIdx i q 0).val = (q ⟨0, by decide⟩).val :=
  dot_S700x2048_S2048x512_S700x512_1_0_0_1_n_n.rhsIdx_val_of_single rfl i q
theorem dot_S700x2048_S2048x512_S700x512_1_0_0_1_n_n_r1 (i) (q : dot_S700x2048_S2048x512_S700x512_1_0_0_1_n_n.contr.Idx) : (dot_S700x2048_S2048x512_S700x512_1_0_0_1_n_n.rhsIdx i q 1).val = (i 1).val := by
  unfold DotDims.rhsIdx
  rw [dif_neg (show ¬(1 : Fin S2048x512.rank) ∈ dot_S700x2048_S2048x512_S700x512_1_0_0_1_n_n.rhsBatch by decide), dif_pos (show (1 : Fin S2048x512.rank) ∈ dot_S700x2048_S2048x512_S700x512_1_0_0_1_n_n.rhsNonContracting by decide)]
  rfl

theorem dot_S512x512_S512x1024_S512x1024_1_0_0_1_n_n_l0 (i) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem dot_S512x512_S512x1024_S512x1024_1_0_0_1_n_n_l1 (i) (q : dot_S512x512_S512x1024_S512x1024_1_0_0_1_n_n.contr.Idx) : (dot_S512x512_S512x1024_S512x1024_1_0_0_1_n_n.lhsIdx i q 1).val = (q ⟨0, by decide⟩).val :=
  dot_S512x512_S512x1024_S512x1024_1_0_0_1_n_n.lhsIdx_val_of_single rfl i q
theorem dot_S512x512_S512x1024_S512x1024_1_0_0_1_n_n_r0 (i) (q : dot_S512x512_S512x1024_S512x1024_1_0_0_1_n_n.contr.Idx) : (dot_S512x512_S512x1024_S512x1024_1_0_0_1_n_n.rhsIdx i q 0).val = (q ⟨0, by decide⟩).val :=
  dot_S512x512_S512x1024_S512x1024_1_0_0_1_n_n.rhsIdx_val_of_single rfl i q
theorem dot_S512x512_S512x1024_S512x1024_1_0_0_1_n_n_r1 (i) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-! ## The first layer -/

/-- The body's value as an array: the layer's sum, then the maximum with the zero splat. -/
theorem layer1_eq (v0 v2 : Vec Ideal S700x512 .f32) (v3 v21 : Vec Ideal S512x2048 .f32) (v17 : Vec Ideal S1x2048 .f32) :
    k0_pay1 (F := Ideal) v0 v2 v3 v17 v21
      = maximumf (Cert.PassArr.sageArr dot_S700x512_S512x2048_S700x2048_1_0_0_1_n_n bitsLt_bf16_f32 shapeCasts_S1x2048_S1x2048
          broadcasts_S1x2048_S700x2048 (shapeCast S700x512 v0 shapeCasts_S700x512_S700x512) v2 v3 v21 v17)
        (broadcast S700x2048 (Scalar.ofBits .f32 0x00000000#32)) := rfl

/-- Entry (p, q) of the first layer. -/
theorem layer1_apply (v0 v2 : Vec Ideal S700x512 .f32) (v3 v21 : Vec Ideal S512x2048 .f32) (v17 : Vec Ideal S1x2048 .f32)
    (p : Fin 700) (q : Fin 2048) :
    k0_pay1 (F := Ideal) v0 v2 v3 v17 v21 (ix2 p q)
      = max (Cert.Spec.sageK (fun k => v0 (ix2 p k)) (fun k => v2 (ix2 p k)) (fun k => v3 (ix2 k q)) (fun k => v21 (ix2 k q))
          (v17 (ix2 (0 : Fin 1) q))) 0 := by
  rw [layer1_eq, shapeCast_self]
  show max (Cert.PassArr.sageArr dot_S700x512_S512x2048_S700x2048_1_0_0_1_n_n bitsLt_bf16_f32 shapeCasts_S1x2048_S1x2048
      broadcasts_S1x2048_S700x2048 v0 v2 v3 v21 v17 (ix2 p q)) (Ideal.ofBits .f32 0x00000000#32) = _
  rw [Cert.PassArr.sageArr_apply dot_S700x512_S512x2048_S700x2048_1_0_0_1_n_n rfl rfl dot_S700x512_S512x2048_S700x2048_1_0_0_1_n_n_l0 dot_S700x512_S512x2048_S700x2048_1_0_0_1_n_n_l1 dot_S700x512_S512x2048_S700x2048_1_0_0_1_n_n_r0 dot_S700x512_S512x2048_S700x2048_1_0_0_1_n_n_r1, Ideal.ofBits_zero_f32]

/-! ## The second layer -/

theorem layer2_eq (v0 v2 : Vec Ideal S700x2048 .f32) (v4 v22 : Vec Ideal S2048x512 .f32) (v18 : Vec Ideal S1x512 .f32) :
    k1_pay1 (F := Ideal) v0 v2 v4 v18 v22
      = Cert.PassArr.sageArr dot_S700x2048_S2048x512_S700x512_1_0_0_1_n_n bitsLt_bf16_f32 shapeCasts_S1x512_S1x512
          broadcasts_S1x512_S700x512 (shapeCast S700x2048 v0 shapeCasts_S700x2048_S700x2048)
          (shapeCast S700x2048 v2 shapeCasts_S700x2048_S700x2048) v4 v22 v18 := rfl

/-- Entry (p, q) of the second layer. -/
theorem layer2_apply (v0 v2 : Vec Ideal S700x2048 .f32) (v4 v22 : Vec Ideal S2048x512 .f32) (v18 : Vec Ideal S1x512 .f32)
    (p : Fin 700) (q : Fin 512) :
    k1_pay1 (F := Ideal) v0 v2 v4 v18 v22 (ix2 p q)
      = Cert.Spec.sageK (fun k => v0 (ix2 p k)) (fun k => v2 (ix2 p k)) (fun k => v4 (ix2 k q)) (fun k => v22 (ix2 k q))
          (v18 (ix2 (0 : Fin 1) q)) := by
  rw [layer2_eq, shapeCast_self, shapeCast_self]
  exact Cert.PassArr.sageArr_apply dot_S700x2048_S2048x512_S700x512_1_0_0_1_n_n rfl rfl dot_S700x2048_S2048x512_S700x512_1_0_0_1_n_n_l0 dot_S700x2048_S2048x512_S700x512_1_0_0_1_n_n_l1 dot_S700x2048_S2048x512_S700x512_1_0_0_1_n_n_r0 dot_S700x2048_S2048x512_S700x512_1_0_0_1_n_n_r1 _ _ _ _ _ _ _ _ p q

/-! ## The object half of the pair layer -/

/-- Entry (p, q) of the plain product. -/
theorem objHalf_apply (v0 : Vec Ideal S512x512 .bf16) (v2 : Vec Ideal S512x1024 .bf16) (p : Fin 512) (q : Fin 1024) :
    k3_pay1 (F := Ideal) v0 v2 (ix2 p q) = ∑ k : Fin 512, v0 (ix2 p k) * v2 (ix2 k q) := by
  rw [show k3_pay1 (F := Ideal) v0 v2 = matmul dot_S512x512_S512x1024_S512x1024_1_0_0_1_n_n none (shapeCast S512x512 v0 shapeCasts_S512x512_S512x512)
      (shapeCast S512x1024 v2 shapeCasts_S512x1024_S512x1024) (constant (F := Ideal) S512x1024 .f32 0x00000000#32) from rfl,
    shapeCast_self, shapeCast_self]
  exact MatmulIx.matmul_zero_ix2 dot_S512x512_S512x1024_S512x1024_1_0_0_1_n_n rfl rfl dot_S512x512_S512x1024_S512x1024_1_0_0_1_n_n_l0 dot_S512x512_S512x1024_S512x1024_1_0_0_1_n_n_l1 dot_S512x512_S512x1024_S512x1024_1_0_0_1_n_n_r0 dot_S512x512_S512x1024_S512x1024_1_0_0_1_n_n_r1 none v0 v2 p q

end Cert.SageBody

end
-- ==== Proof.LibRealSums.lean ====
import Mathlib.Data.EReal.Operations
import Mathlib.Algebra.BigOperators.Ring.Finset
import Mathlib.Tactic.Ring

/-!
# Finite sums of extended reals that are all real numbers

Multiplication of extended reals does not distribute over addition when
infinities are present, so the usual algebra of finite sums (pulling a constant
factor out of a sum, reassociating products under a sum) is not available in
general.  When every term is a genuine real number, each identity can be moved
to the field of real numbers through the coercion, proved there by ring
algebra, and moved back.  This file collects the small amount of that
machinery needed to rescale contractions and aggregations by a real constant.
-/

namespace Cert.RealSums

open scoped BigOperators

/-- An extended real that is a real number. -/
def IsReal (x : EReal) : Prop := ∃ r : ℝ, x = (r : EReal)

/-- Zero is a real number. -/
theorem IsReal.zero : IsReal 0 := ⟨0, EReal.coe_zero.symm⟩

/-- The coercion of a real number is a real number. -/
theorem IsReal.coe (r : ℝ) : IsReal (r : EReal) := ⟨r, rfl⟩

/-- The sum of two real numbers is a real number. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem IsReal.max {x y : EReal} (hx : IsReal x) (hy : IsReal y) : IsReal (max x y) := by
  rcases max_choice x y with h | h
  · rw [h]; exact hx
  · rw [h]; exact hy

/-- The coercion from the reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-- A family of extended reals that are real on a finite set is, on that set,
the coercion of a real-valued family (take the real part of each term). -/
theorem exists_real_fun {ι : Type*} (s : Finset ι) (f : ι → EReal)
    (h : ∀ i ∈ s, IsReal (f i)) : ∃ g : ι → ℝ, ∀ i ∈ s, f i = (g i : EReal) := by
  refine ⟨fun i => (f i).toReal, fun i hi => ?_⟩
  obtain ⟨r, hr⟩ := h i hi
  show f i = (((f i).toReal : ℝ) : EReal)
  rw [hr, EReal.toReal_coe]

/-- A finite sum of real numbers is a real number. -/
theorem IsReal.sum {ι : Type*} (s : Finset ι) (f : ι → EReal)
    (h : ∀ i ∈ s, IsReal (f i)) : IsReal (∑ i ∈ s, f i) := by
  obtain ⟨g, hg⟩ := exists_real_fun s f h
  refine ⟨∑ i ∈ s, g i, ?_⟩
  rw [coe_sum]
  exact Finset.sum_congr rfl hg

/-- Scaling every left factor of a contraction by one real D scales the
contraction: Σ_k (a k · D) · w k = (Σ_k a k · w k) · D. -/
theorem sum_mul_scale {κ : Type*} (s : Finset κ) (a w : κ → EReal) (D : EReal)
    (ha : ∀ k ∈ s, IsReal (a k)) (hw : ∀ k ∈ s, IsReal (w k)) (hD : IsReal D) :
    ∑ k ∈ s, (a k * D) * w k = (∑ k ∈ s, a k * w k) * D := by
  obtain ⟨a', ha'⟩ := exists_real_fun s a ha
  obtain ⟨w', hw'⟩ := exists_real_fun s w hw
  obtain ⟨d, rfl⟩ := hD
  -- both sides are coercions of real sums
  have h1 : ∑ k ∈ s, (a k * (d : EReal)) * w k
      = ((∑ k ∈ s, (a' k * d) * w' k : ℝ) : EReal) := by
    rw [coe_sum]
    refine Finset.sum_congr rfl fun k hk => ?_
    rw [ha' k hk, hw' k hk, EReal.coe_mul, EReal.coe_mul]
  have h2 : ∑ k ∈ s, a k * w k = ((∑ k ∈ s, a' k * w' k : ℝ) : EReal) := by
    rw [coe_sum]
    refine Finset.sum_congr rfl fun k hk => ?_
    rw [ha' k hk, hw' k hk, EReal.coe_mul]
  -- in the reals: pull the constant out of the sum, term by term
  have h3 : (∑ k ∈ s, (a' k * d) * w' k : ℝ) = (∑ k ∈ s, a' k * w' k) * d := by
    rw [Finset.sum_mul]
    refine Finset.sum_congr rfl fun k _ => ?_
    ring
  rw [h1, h2, h3, EReal.coe_mul]

/-- The aggregation law: if every summand P u is Q u scaled by ds u, and dd is
the constant D on the set, then scaling the sum of the P's by D gives the sum of
the Q's scaled by ds·dd.  (The leading 0 + is how the sums arrive: an
accumulation into zero.) -/
theorem agg_scale {U : Type*} (A : Finset U) (P Q ds dd : U → EReal) (D : EReal)
    (hQ : ∀ u ∈ A, IsReal (Q u)) (hds : ∀ u ∈ A, IsReal (ds u)) (hD : IsReal D)
    (hP : ∀ u ∈ A, P u = Q u * ds u) (hdd : ∀ u ∈ A, dd u = D) :
    (0 + ∑ u ∈ A, P u) * D = 0 + ∑ u ∈ A, Q u * (ds u * dd u) := by
  obtain ⟨q, hq⟩ := exists_real_fun A Q hQ
  obtain ⟨e, he⟩ := exists_real_fun A ds hds
  obtain ⟨d, rfl⟩ := hD
  have h1 : ∑ u ∈ A, P u = ((∑ u ∈ A, q u * e u : ℝ) : EReal) := by
    rw [coe_sum]
    refine Finset.sum_congr rfl fun u hu => ?_
    rw [hP u hu, hq u hu, he u hu, EReal.coe_mul]
  have h2 : ∑ u ∈ A, Q u * (ds u * dd u)
      = ((∑ u ∈ A, q u * (e u * d) : ℝ) : EReal) := by
    rw [coe_sum]
    refine Finset.sum_congr rfl fun u hu => ?_
    rw [hq u hu, he u hu, hdd u hu, EReal.coe_mul, EReal.coe_mul]
  -- in the reals: (Σ q·e)·d = Σ q·(e·d)
  have h3 : (∑ u ∈ A, q u * e u : ℝ) * d = ∑ u ∈ A, q u * (e u * d) := by
    rw [Finset.sum_mul]
    refine Finset.sum_congr rfl fun u _ => ?_
    ring
  rw [zero_add, zero_add, h1, h2, ← EReal.coe_mul, h3]

/-- and the same sum is a real number -/
theorem agg_isReal {U : Type*} (A : Finset U) (Q ds dd : U → EReal) (D : EReal)
    (hQ : ∀ u ∈ A, IsReal (Q u)) (hds : ∀ u ∈ A, IsReal (ds u)) (hD : IsReal D)
    (hdd : ∀ u ∈ A, dd u = D) :
    IsReal (0 + ∑ u ∈ A, Q u * (ds u * dd u)) := by
  rw [zero_add]
  refine IsReal.sum A _ fun u hu => ?_
  rw [hdd u hu]
  exact (hQ u hu).mul ((hds u hu).mul hD)

end Cert.RealSums
-- ==== Proof.LibRealOps.lean ====
/-
  Real numbers among the extended reals are closed under the operations a normalisation layer uses.

  At the ideal reading of floats every operation is total on the extended reals, and on real inputs inside the
  operation's domain its value is the real one.  Beside sums, products and maxima (`Cert.RealSums`), a batch or layer
  normalisation takes differences, quotients by a nonzero real, square roots of non-negative reals and reciprocal square
  roots of positive reals.  Each is recorded here with the real value it takes, so that "every entry of this stage is a
  real number" — and, where a later stage needs it, "and it is non-negative" or "positive" — can be carried stage by
  stage through a program.
-/
import Idealize.ShloMosaic.PureOps.Ideal
import proofs.«101777_j1108101562624_2_alg».proof.Proof.LibRealSums

noncomputable section

open Idealize.ShloMosaic

namespace Cert.RealOps

open Cert.RealSums

/-- The difference of two real numbers. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The negative of a real number. -/
theorem isReal_neg {x : EReal} (hx : IsReal x) : IsReal (-x) := by
  obtain ⟨a, rfl⟩ := hx
  exact ⟨-a, (EReal.coe_neg a).symm⟩

/-- The total quotient of a real number by a nonzero real number is the real quotient. -/
theorem div_coe_coe (a b : ℝ) (hb : b ≠ 0) : Ideal.div (a : EReal) (b : EReal) = ((a / b : ℝ) : EReal) := by
  rw [Ideal.div_coe hb, ← EReal.coe_mul]
  congr 1
  rw [mul_one_div]

theorem isReal_div {x : EReal} (hx : IsReal x) (b : ℝ) (hb : b ≠ 0) : IsReal (Ideal.div x (b : EReal)) := by
  obtain ⟨a, rfl⟩ := hx
  exact ⟨a / b, div_coe_coe a b hb⟩

/-- The square root of a non-negative real number is the real square root. -/
theorem sqrt_coe_nonneg (a : ℝ) (ha : 0 ≤ a) : Ideal.sqrt (a : EReal) = ((Real.sqrt a : ℝ) : EReal) := by
  rw [Ideal.sqrt_coe, if_neg (not_lt.mpr ha)]

/-- The reciprocal square root of a positive real number is the real one. -/
theorem rsqrt_coe_pos (a : ℝ) (ha : 0 < a) : Ideal.rsqrt (a : EReal) = (((Real.sqrt a)⁻¹ : ℝ) : EReal) := by
  rw [Ideal.rsqrt_coe, if_neg (not_lt.mpr ha.le), if_neg ha.ne']

/-- A real number that is non-negative, with its value. -/
theorem exists_nonneg_of_coe_nonneg {x : EReal} (hx : IsReal x) (h0 : 0 ≤ x) : ∃ a : ℝ, 0 ≤ a ∧ x = (a : EReal) := by
  obtain ⟨a, rfl⟩ := hx
  exact ⟨a, by exact_mod_cast h0, rfl⟩

/-- The square root of a non-negative real entry is a real number. -/
theorem isReal_sqrt {x : EReal} (hx : IsReal x) (h0 : 0 ≤ x) : IsReal (Ideal.sqrt x) := by
  obtain ⟨a, ha, rfl⟩ := exists_nonneg_of_coe_nonneg hx h0
  exact ⟨Real.sqrt a, sqrt_coe_nonneg a ha⟩

/-- The reciprocal square root of a positive real entry is a real number. -/
theorem isReal_rsqrt {x : EReal} (hx : IsReal x) (h0 : 0 < x) : IsReal (Ideal.rsqrt x) := by
  obtain ⟨a, rfl⟩ := hx
  have ha : 0 < a := by exact_mod_cast h0
  exact ⟨(Real.sqrt a)⁻¹, rsqrt_coe_pos a ha⟩

/-- A product of a real number with itself is non-negative. -/
theorem mul_self_nonneg_of_isReal {x : EReal} (hx : IsReal x) : 0 ≤ x * x := by
  obtain ⟨a, rfl⟩ := hx
  rw [← EReal.coe_mul]
  exact_mod_cast mul_self_nonneg a

/-- A finite sum of non-negative extended reals is non-negative. -/
theorem sum_nonneg {ι : Type*} (s : Finset ι) (f : ι → EReal) (h : ∀ i ∈ s, 0 ≤ f i) : 0 ≤ ∑ i ∈ s, f i :=
  Finset.sum_nonneg h

/-- The quotient of a non-negative real by a positive real is non-negative. -/
theorem div_nonneg_of_isReal {x : EReal} (hx : IsReal x) (h0 : 0 ≤ x) (b : ℝ) (hb : 0 < b) : 0 ≤ Ideal.div x (b : EReal) := by
  obtain ⟨a, ha, rfl⟩ := exists_nonneg_of_coe_nonneg hx h0
  rw [div_coe_coe a b hb.ne']
  exact_mod_cast div_nonneg ha hb.le

/-- A non-negative real plus a positive real is positive. -/
theorem add_pos_of_nonneg {x : EReal} (hx : IsReal x) (h0 : 0 ≤ x) (e : ℝ) (he : 0 < e) : 0 < x + (e : EReal) := by
  obtain ⟨a, ha, rfl⟩ := exists_nonneg_of_coe_nonneg hx h0
  rw [← EReal.coe_add]
  exact_mod_cast add_pos_of_nonneg_of_pos ha he

end Cert.RealOps

end
-- ==== Proof.LibAllReal.lean ====
/-
  "Every entry is a real number", carried through a host program's operations.

  At the ideal reading of floats an array is a function from its indices to the extended reals.  This file states, for
  arrays of any shape, that the property "every entry is a real number" — and where a later operation needs them, "every
  entry is non-negative" and "every entry is positive" — passes through the operations a host program is made of:
  broadcasts, transposes and reshapes only re-read entries; differences, products, sums and maxima of real entries are
  real; a sum over any set of indices of real entries is real, and of non-negative entries non-negative, so a reduction
  and a matrix product of real arrays are real whatever their index bookkeeping; a quotient by nonzero real entries, a
  square root of non-negative real entries and a reciprocal square root of positive real entries are real.  With these a
  program's stages can be walked in order, each stage one line, without reading any stage at an index.
-/
import Idealize.ShloMosaic.PureOps.Ideal.Laws
import proofs.«101777_j1108101562624_2_alg».proof.Proof.LibRealSums
import proofs.«101777_j1108101562624_2_alg».proof.Proof.LibRealOps

noncomputable section

open Idealize.ShloMosaic

namespace Cert.AllReal

open Cert.RealSums Cert.RealOps

/-- Every entry is a real number; is non-negative; is positive. -/
def AllReal {s : Shape} (x : s.Idx → EReal) : Prop := ∀ i, IsReal (x i)
def AllNonneg {s : Shape} (x : s.Idx → EReal) : Prop := ∀ i, 0 ≤ x i
def AllPos {s : Shape} (x : s.Idx → EReal) : Prop := ∀ i, 0 < x i

/-! ## Operations that only re-read entries -/

section Layout

variable {s t : Shape} {P : EReal → Prop}

theorem of_broadcast (dims : Fin s.rank → Fin t.rank) (h : s.BroadcastsInDim t dims) (x : s.Idx → EReal)
    (hx : ∀ i, P (x i)) : ∀ j, P (broadcastInDim t dims h x j) := fun _ => hx _

theorem of_transpose (perm : List (Fin s.rank)) (x : s.Idx → EReal) (h : s.Transposes perm t)
    (hx : ∀ i, P (x i)) : ∀ j, P (transpose t perm x h j) := fun _ => hx _

theorem of_shapeCast (x : s.Idx → EReal) (h : s.ShapeCasts t) (hx : ∀ i, P (x i)) : ∀ j, P (shapeCast t x h j) :=
  fun _ => hx _

end Layout

/-! ## The entrywise operations opened at an index, at any reading of floats -/

section Open

variable {F : FTy → Type} [FloatOps F] {s : Shape}

theorem subf_open (x y : FVec F s .f32) (i : s.Idx) : subf x y i = FloatOps.subf (x i) (y i) := rfl
theorem mulf_open (x y : FVec F s .f32) (i : s.Idx) : mulf x y i = FloatOps.mulf (x i) (y i) := rfl
theorem addf_open (x y : FVec F s .f32) (i : s.Idx) : addf x y i = FloatOps.addf (x i) (y i) := rfl
theorem maximumf_open (x y : FVec F s .f32) (i : s.Idx) : maximumf x y i = FloatOps.maximumf (x i) (y i) := rfl
theorem divf_open (x y : FVec F s .f32) (i : s.Idx) : Host.divf x y i = FloatOps.hostDivf (x i) (y i) := rfl
theorem sqrt_open (x : FVec F s .f32) (i : s.Idx) : Host.sqrt x i = FloatOps.hostUnary .sqrt (x i) := rfl
theorem rsqrt_open (x : FVec F s .f32) (i : s.Idx) : Host.rsqrt x i = FloatOps.hostUnary .rsqrt (x i) := rfl
theorem reduceAdd_open {axes : List (Fin s.rank)} {t u : Shape} (x : FVec F s .f32) (init : u.Idx → F .f32)
    (h : s.ReducesTo axes t) (hu : 0 < u.numel) (j : t.Idx) :
    Host.reduceAdd x init h hu j = FloatOps.hostReduceAdd axes h .single x (init (Shape.Idx.first hu)) j := rfl

end Open

/-! ## Entrywise operations at the ideal reading -/

section Pointwise

variable {s : Shape}

theorem real_subf (x y : FVec Ideal s .f32) (hx : AllReal x) (hy : AllReal y) : AllReal (subf x y) := fun i => by
  rw [subf_open, Ideal.subf_def]; exact isReal_sub (hx i) (hy i)

theorem real_mulf (x y : FVec Ideal s .f32) (hx : AllReal x) (hy : AllReal y) : AllReal (mulf x y) := fun i => by
  rw [mulf_open, Ideal.mulf_def]; exact (hx i).mul (hy i)

/-- A square of real entries is non-negative. -/
theorem nonneg_mulf_self (x : FVec Ideal s .f32) (hx : AllReal x) : AllNonneg (mulf x x) := fun i => by
  rw [mulf_open, Ideal.mulf_def]; exact mul_self_nonneg_of_isReal (hx i)

theorem real_addf (x y : FVec Ideal s .f32) (hx : AllReal x) (hy : AllReal y) : AllReal (addf x y) := fun i => by
  rw [addf_open]; exact (hx i).add (hy i)

/-- Non-negative real entries plus one positive real are positive. -/
theorem pos_addf_const (x y : FVec Ideal s .f32) (hx : AllReal x) (h0 : AllNonneg x) (e : ℝ) (he : 0 < e)
    (hy : ∀ i, y i = (e : EReal)) : AllPos (addf x y) := fun i => by
  rw [addf_open]
  show 0 < x i + y i
  rw [hy i]; exact add_pos_of_nonneg (hx i) (h0 i) e he

theorem real_maximumf (x y : FVec Ideal s .f32) (hx : AllReal x) (hy : AllReal y) : AllReal (maximumf x y) := fun i => by
  rw [maximumf_open, Ideal.maximumf_def]; exact (hx i).max (hy i)

/-- A quotient by one nonzero real. -/
theorem real_divf_const (x y : FVec Ideal s .f32) (hx : AllReal x) (b : ℝ) (hb : b ≠ 0) (hy : ∀ i, y i = (b : EReal)) :
    AllReal (Host.divf x y) := fun i => by
  rw [divf_open, Ideal.hostDivf_def, hy i]; exact isReal_div (hx i) b hb

theorem nonneg_divf_const (x y : FVec Ideal s .f32) (hx : AllReal x) (h0 : AllNonneg x) (b : ℝ) (hb : 0 < b)
    (hy : ∀ i, y i = (b : EReal)) : AllNonneg (Host.divf x y) := fun i => by
  rw [divf_open, Ideal.hostDivf_def, hy i]; exact div_nonneg_of_isReal (hx i) (h0 i) b hb

/-- A quotient by real entries none of which is zero. -/
theorem real_divf (x y : FVec Ideal s .f32) (hx : AllReal x) (hy : AllReal y) (hy0 : ∀ i, y i ≠ 0) :
    AllReal (Host.divf x y) := fun i => by
  obtain ⟨b, hb⟩ := hy i
  have hb0 : b ≠ 0 := fun e => hy0 i (by rw [hb, e]; rfl)
  rw [divf_open, Ideal.hostDivf_def, hb]; exact isReal_div (hx i) b hb0

theorem real_rsqrt (x : FVec Ideal s .f32) (hx : AllReal x) (h0 : AllPos x) : AllReal (Host.rsqrt x) := fun i => by
  rw [rsqrt_open, Ideal.hostUnary_rsqrt_def]; exact isReal_rsqrt (hx i) (h0 i)

theorem real_sqrt (x : FVec Ideal s .f32) (hx : AllReal x) (h0 : AllNonneg x) : AllReal (Host.sqrt x) := fun i => by
  rw [sqrt_open, Ideal.hostUnary_sqrt_def]; exact isReal_sqrt (hx i) (h0 i)

/-- The square root of a positive real entry is not zero. -/
theorem sqrt_ne_zero (x : FVec Ideal s .f32) (hx : AllReal x) (h0 : AllPos x) : ∀ i, Host.sqrt x i ≠ 0 := fun i => by
  obtain ⟨a, ha⟩ := hx i
  have hp : 0 < a := by have := h0 i; rw [ha] at this; exact_mod_cast this
  rw [sqrt_open, Ideal.hostUnary_sqrt_def, ha, sqrt_coe_nonneg a hp.le]
  exact_mod_cast (Real.sqrt_pos.mpr hp).ne'

end Pointwise

/-! ## Sums over indices -/

section Sums

variable {s : Shape}

/-- A host sum of real entries from a real start is real, whatever axes it reduces. -/
theorem real_reduceAdd {axes : List (Fin s.rank)} {t u : Shape} (x : FVec Ideal s .f32) (init : u.Idx → Ideal .f32)
    (h : s.ReducesTo axes t) (hu : 0 < u.numel) (hx : AllReal x) (hi : IsReal (init (Shape.Idx.first hu))) :
    AllReal (Host.reduceAdd x init h hu) := fun j => by
  rw [reduceAdd_open, Ideal.hostReduceAdd_def]
  unfold Ideal.hostReduceAdd
  exact hi.add (IsReal.sum _ _ fun i _ => hx i)

/-- A host sum of non-negative entries from a non-negative start is non-negative. -/
theorem nonneg_reduceAdd {axes : List (Fin s.rank)} {t u : Shape} (x : FVec Ideal s .f32) (init : u.Idx → Ideal .f32)
    (h : s.ReducesTo axes t) (hu : 0 < u.numel) (hx : AllNonneg x) (hi : 0 ≤ init (Shape.Idx.first hu)) :
    AllNonneg (Host.reduceAdd x init h hu) := fun j => by
  rw [reduceAdd_open, Ideal.hostReduceAdd_def]
  unfold Ideal.hostReduceAdd
  exact add_nonneg hi (Finset.sum_nonneg fun i _ => hx i)

/-- A host matrix product of real arrays is real, whatever its dimension numbers. -/
theorem real_dotGeneral {sl sr so : Shape} (d : DotDims sl sr so) (prec : Option ContractPrecision)
    (x : FVec Ideal sl .f32) (y : FVec Ideal sr .f32) (hx : AllReal x) (hy : AllReal y) :
    AllReal (Host.dotGeneral d prec x y) := fun j => by
  simp only [Host.dotGeneral]
  rw [Ideal.dotGeneral_apply]
  exact IsReal.sum _ _ fun k _ => (hx _).mul (hy _)

end Sums

end Cert.AllReal

end
-- ==== Proof.SegMeanReal.lean ====
/-
  Real entries through the neighbour mean: a gather re-reads entries; an accumulating scatter adds, to each operand
  entry, the update entries that land on it; the neighbour count, started from 0 and fed ones, is real and its
  maximum with 1 is a real number ≥ 1, so not zero; the quotient of a real by it is real.
-/
import proofs.«101777_j1108101562624_2_alg».proof.Proof.LibAllReal
import Idealize.ShloMosaic.PureOps.Ideal.Laws

noncomputable section

namespace Cert.SegMeanReal

open Idealize.ShloMosaic Cert.RealSums Cert.RealOps Cert.AllReal
open scoped BigOperators

/-- The word of 1.0 denotes the real number 1. -/
theorem one_word : Ideal.ofBits .f32 0x3F800000#32 = ((1 : ℝ) : EReal) := by
  simp [Ideal.ofBits, Ideal.ieee]
  rw [← EReal.coe_mul]
  norm_num

/-- A gather only re-reads entries of its operand. -/
theorem real_gather {s si t : Shape} {w : Nat} (d : GatherDims s si t) (x : s.Idx → EReal) (idx : IVec si w)
    (hx : AllReal x) : AllReal (Host.gather d x idx) := fun _ => hx _

/-- An accumulating scatter of real updates into a real operand is real. -/
theorem real_scatterAdd {s si u : Shape} {w : Nat} (d : ScatterDims s si u) (x : FVec Ideal s .f32) (idx : IVec si w)
    (upd : FVec Ideal u .f32) (hx : AllReal x) (hu : AllReal upd) : AllReal (Host.scatterAdd d x idx upd) := fun i => by
  show IsReal (x i + ∑ j ∈ Finset.univ.filter (fun j => d.resultIdx? j idx = some i), upd j)
  exact (hx i).add (IsReal.sum _ _ fun j _ => hu j)

/-- A scalar constant spread over a shape has that constant at every entry. -/
theorem real_splat {t : Shape} (h : (⟨0, ![]⟩ : Shape).BroadcastsInDim t (![] : Fin 0 → Fin t.rank)) (b : BitVec 32)
    (hb : IsReal (Ideal.ofBits .f32 b)) :
    AllReal (broadcastInDim t ![] h (constant (F := Ideal) ⟨0, ![]⟩ .f32 b)) := fun _ => hb

/-- The denominator of the mean — the count's maximum with 1 — is real and not zero at every entry. -/
theorem den_ok {s : Shape} (cnt one : FVec Ideal s .f32) (hc : AllReal cnt) (h1 : ∀ i, one i = ((1 : ℝ) : EReal)) :
    ∀ i, IsReal (maximumf cnt one i) ∧ maximumf cnt one i ≠ 0 := fun i => by
  obtain ⟨a, ha⟩ := hc i
  have e : maximumf cnt one i = ((max a 1 : ℝ) : EReal) := by
    show max (cnt i) (one i) = _
    rw [ha, h1 i]; exact (EReal.coe_strictMono.monotone.map_max).symm
  rw [e]
  refine ⟨⟨_, rfl⟩, ?_⟩
  have : (0 : ℝ) < max a 1 := lt_of_lt_of_le one_pos (le_max_right a 1)
  exact_mod_cast this.ne'

/-- The mean: a real sum divided entry by entry by a real that is nowhere zero. -/
theorem real_quot {s : Shape} (agg den : FVec Ideal s .f32) (ha : AllReal agg)
    (hd : ∀ i, IsReal (den i) ∧ den i ≠ 0) : AllReal (Host.divf agg den) :=
  real_divf agg den ha (fun i => (hd i).1) (fun i => (hd i).2)

end Cert.SegMeanReal

end
-- ==== Proof.ThreePassProduct.lean ====
/-
  A product sum taken in three passes equals the plain product sum on real numbers.

  The three-pass form adds to Σ a·w the two correction sums Σ a·(w − w) and Σ (a − a)·w.  On the extended reals
  x − x is not 0 for an infinite x, so the corrections do not vanish in general; when every factor is a real number,
  x − x = 0, a·0 = 0 = 0·w, each correction is a sum of zeros, and the three-pass form is the plain one.
-/
import proofs.«101777_j1108101562624_2_alg».proof.Proof.Spec
import proofs.«101777_j1108101562624_2_alg».proof.Proof.LibRealSums
import proofs.«101777_j1108101562624_2_alg».proof.Proof.LibRealOps

noncomputable section

namespace Cert.ThreePass

open Cert.RealSums
open scoped BigOperators

/-- A real number less itself is zero. -/
theorem sub_self_of_isReal {x : EReal} (hx : IsReal x) : x - x = 0 := by
  obtain ⟨r, rfl⟩ := hx
  rw [← EReal.coe_sub, sub_self, EReal.coe_zero]

/-- The plain product sum of real rows is a real number. -/
theorem isReal_mm {K : ℕ} (a w : Fin K → EReal) (ha : ∀ k, IsReal (a k)) (hw : ∀ k, IsReal (w k)) :
    IsReal (Cert.Spec.mm a w) := by
  unfold Cert.Spec.mm
  exact IsReal.sum _ _ fun k _ => (ha k).mul (hw k)

/-- On real rows the three-pass product sum is the plain product sum. -/
theorem mm3_eq_mm {K : ℕ} (a w : Fin K → EReal) (ha : ∀ k, IsReal (a k)) (hw : ∀ k, IsReal (w k)) :
    Cert.Spec.mm3 a w = Cert.Spec.mm a w := by
  unfold Cert.Spec.mm3 Cert.Spec.mm
  have h1 : ∑ k, a k * (w k - w k) = 0 :=
    Finset.sum_eq_zero fun k _ => by rw [sub_self_of_isReal (hw k), mul_zero]
  have h2 : ∑ k, (a k - a k) * w k = 0 :=
    Finset.sum_eq_zero fun k _ => by rw [sub_self_of_isReal (ha k), zero_mul]
  rw [h1, h2, add_zero, add_zero]

/-- The three-pass product sum of real rows is a real number. -/
theorem isReal_mm3 {K : ℕ} (a w : Fin K → EReal) (ha : ∀ k, IsReal (a k)) (hw : ∀ k, IsReal (w k)) :
    IsReal (Cert.Spec.mm3 a w) := by
  rw [mm3_eq_mm a w ha hw]
  exact isReal_mm a w ha hw

end Cert.ThreePass

end
-- ==== Proof.LibBatchVar.lean ====
/-
  The biased variance of a finite batch, in its two arrangements.

  For real numbers `h i` indexed by a finite type with `n` elements (`n ≠ 0`), with mean `μ = (Σ_i h i) / n`:

      (Σ_i (h i - μ) * (h i - μ)) / n  =  (Σ_i h i * h i) / n - μ * μ.

  The left side is the mean of the squared deviations from the mean (two passes over the batch: the mean, then the
  deviations); the right side is the mean of the squares less the square of the mean (one pass that accumulates the
  sum and the sum of squares together).  The identity is pure algebra over the real numbers; it fails on the
  extended reals, where the cross term cannot be split off an infinite sum.
-/
import Idealize.ShloMosaic.PureOps.Ideal

noncomputable section

namespace Cert.BatchVar

variable {R : Type*} [Fintype R]

/-- The sum of squared deviations from any centre `μ`. -/
theorem sum_sq_dev (h : R → ℝ) (μ n : ℝ) (hcard : (Fintype.card R : ℝ) = n) :
    ∑ i, (h i - μ) * (h i - μ) = (∑ i, h i * h i) - 2 * μ * (∑ i, h i) + n * (μ * μ) := by
  have h1 : ∀ i, (h i - μ) * (h i - μ) = h i * h i - 2 * μ * h i + μ * μ := fun i => by ring
  simp only [h1, Finset.sum_add_distrib, Finset.sum_sub_distrib, ← Finset.mul_sum, Finset.sum_const,
    Finset.card_univ, nsmul_eq_mul, hcard]
  ring

/-- The mean of squared deviations from the mean is the mean of squares less the square of the mean. -/
theorem two_pass_eq_one_pass (h : R → ℝ) (n : ℝ) (hn : n ≠ 0) (hcard : (Fintype.card R : ℝ) = n) :
    (∑ i, (h i - (∑ k, h k) / n) * (h i - (∑ k, h k) / n)) / n
      = (∑ i, h i * h i) / n - ((∑ k, h k) / n) * ((∑ k, h k) / n) := by
  rw [sum_sq_dev h _ n hcard]
  field_simp
  ring

/-- The mean of squared deviations from the mean is never negative. -/
theorem two_pass_nonneg (h : R → ℝ) (n : ℝ) (hn : 0 < n) :
    0 ≤ (∑ i, (h i - (∑ k, h k) / n) * (h i - (∑ k, h k) / n)) / n :=
  div_nonneg (Finset.sum_nonneg fun i _ => mul_self_nonneg _) hn.le

end Cert.BatchVar

end
-- ==== Proof.LibIdealReal.lean ====
/-
  Extended-real operations on real inputs.

  A float at the ideal reading is an extended real, and every operation is total; when its inputs are real numbers
  its result is the real result, read back in the extended reals.  This file records that for the operations a
  softmax meets: the exponential (with the conventions for minus infinity), the total quotient by a nonzero real,
  the larger of two numbers, the largest entry of a nonempty finite family folded from minus infinity, and finite
  sums and products.  Each statement is the bridge that lets an identity proved over the real numbers be used for
  the extended-real expressions.
-/
import Idealize.ShloMosaic.PureOps.Ideal
import Mathlib.Data.Finset.Fold
import Mathlib.Order.Interval.Finset.Basic

noncomputable section

open Idealize.ShloMosaic

namespace Cert.IdealReal

/-- A finite sum of real numbers, read in the extended reals, is the sum of their readings. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of products of real numbers. -/
theorem coe_sum_mul {ι : Type*} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul _ _).symm

/-- The exponential of a real number. -/
theorem exp_coe (r : ℝ) : Ideal.exp (r : EReal) = (Real.exp r : EReal) := rfl

/-- The exponential of a difference of real numbers. -/
theorem exp_sub_coe (a b : ℝ) : Ideal.exp ((a : EReal) - (b : EReal)) = (Real.exp (a - b) : EReal) := by
  rw [← EReal.coe_sub]; rfl

/-- Minus infinity less a real number is minus infinity. -/
theorem bot_sub_coe (r : ℝ) : (⊥ : EReal) - (r : EReal) = ⊥ := by
  rw [sub_eq_add_neg, EReal.bot_add]

/-- The exponential of minus infinity less a real number is zero. -/
theorem exp_bot_sub_coe (r : ℝ) : Ideal.exp ((⊥ : EReal) - (r : EReal)) = 0 := by
  rw [bot_sub_coe]; rfl

/-- The exponential of minus infinity is zero. -/
theorem exp_bot : Ideal.exp (⊥ : EReal) = 0 := rfl

/-- The total quotient of a real number by a nonzero real number is the real quotient. -/
theorem div_coe_coe (a b : ℝ) (hb : b ≠ 0) : Ideal.div (a : EReal) (b : EReal) = ((a / b : ℝ) : EReal) := by
  rw [Ideal.div_coe hb, ← EReal.coe_mul]
  congr 1
  rw [mul_one_div]

/-- The total quotient by a nonzero real number is the product with its reciprocal, whatever the numerator. -/
theorem div_coe (x : EReal) (c : ℝ) (hc : c ≠ 0) : Ideal.div x (c : EReal) = x * ((1 / c : ℝ) : EReal) :=
  Ideal.div_coe hc x

/-- The larger of two real numbers. -/
theorem max_coe (a b : ℝ) : max (a : EReal) (b : EReal) = ((max a b : ℝ) : EReal) :=
  (EReal.coe_strictMono.monotone.map_max).symm

/-- Minus infinity is neutral for the larger of two. -/
theorem max_bot_coe (a : ℝ) : max (⊥ : EReal) (a : EReal) = (a : EReal) := max_eq_right bot_le

/-- The largest entry of a nonempty finite family of real numbers. -/
def rmax {C : Type*} [Fintype C] [Nonempty C] (z : C → ℝ) : ℝ := Finset.univ.sup' Finset.univ_nonempty z

theorem le_rmax {C : Type*} [Fintype C] [Nonempty C] (z : C → ℝ) (c : C) : z c ≤ rmax z :=
  Finset.le_sup' z (Finset.mem_univ c)

theorem rmax_attained {C : Type*} [Fintype C] [Nonempty C] (z : C → ℝ) : ∃ c, rmax z = z c := by
  obtain ⟨c, _, hc⟩ := Finset.exists_mem_eq_sup' Finset.univ_nonempty z
  exact ⟨c, hc⟩

/-- The largest entry is the only number that bounds every entry and is one of them. -/
theorem rmax_unique {C : Type*} [Fintype C] [Nonempty C] (z : C → ℝ) (R : ℝ) (hle : ∀ c, z c ≤ R)
    (hat : ∃ c, R = z c) : rmax z = R := by
  obtain ⟨c, hc⟩ := hat
  obtain ⟨c', hc'⟩ := rmax_attained z
  exact le_antisymm (hc' ▸ hle c') (hc ▸ le_rmax z c)

/-- Folding the larger-of-two from minus infinity over a nonempty finite family of real numbers gives the largest
    entry, a real number. -/
theorem fold_max_coe {C : Type*} [Fintype C] [Nonempty C] (z : C → ℝ) :
    (Finset.univ : Finset C).fold max ⊥ (fun c => (z c : EReal)) = ((rmax z : ℝ) : EReal) := by
  apply le_antisymm
  · exact (Finset.fold_max_le _).mpr ⟨bot_le, fun c _ => EReal.coe_le_coe_iff.mpr (le_rmax z c)⟩
  · obtain ⟨c, hc⟩ := rmax_attained z
    exact (Finset.le_fold_max _).mpr (Or.inr ⟨c, Finset.mem_univ c, by rw [hc]⟩)

/-- The same with a further larger-of-two against minus infinity in front. -/
theorem max_bot_fold_max_coe {C : Type*} [Fintype C] [Nonempty C] (z : C → ℝ) :
    max ⊥ ((Finset.univ : Finset C).fold max ⊥ (fun c => (z c : EReal))) = ((rmax z : ℝ) : EReal) := by
  rw [fold_max_coe]; exact max_bot_coe _

/-- A real number times zero, and zero times zero. -/
theorem coe_mul_zero (a : ℝ) : (a : EReal) * 0 = 0 := mul_zero _

theorem zero_add_coe (a : ℝ) : (0 : EReal) + (a : EReal) = (a : EReal) := zero_add _

end Cert.IdealReal

end
-- ==== Proof.LayerNormPasses.lean ====
/-
  Layer normalisation of a real row: the one-pass and the two-pass arrangements agree.

  One pass: mean μ = (Σ x)·c and second moment (Σ x²)·c with c = 1/n, variance max(E[x²] − μ², 0).
  Two passes: μ = (Σ x)/n, variance (Σ (x − μ)²)/n.

  For a row of real numbers every sum, product, difference and quotient by n is the real one, so both variances are
  real numbers; over the reals the mean of squares less the squared mean is the mean squared deviation, which is
  never negative, so the maximum with 0 changes nothing and the two arrangements give the same value at every lane.
  The variance is non-negative, so with a positive ε the radicand is positive, its reciprocal square root is a real
  number, and the normalised lane is a real number when the scale and the shift are.
-/
import proofs.«101777_j1108101562624_2_alg».proof.Proof.Spec
import proofs.«101777_j1108101562624_2_alg».proof.Proof.LibRealSums
import proofs.«101777_j1108101562624_2_alg».proof.Proof.LibRealOps
import proofs.«101777_j1108101562624_2_alg».proof.Proof.LibBatchVar
import proofs.«101777_j1108101562624_2_alg».proof.Proof.LibIdealReal

noncomputable section

namespace Cert.LayerNormPasses

open Idealize.ShloMosaic
open Cert.RealSums
open scoped BigOperators

/-- The sum of a real row, read in the extended reals. -/
theorem sum_coe {n : ℕ} (h : Fin n → ℝ) : ∑ i, (h i : EReal) = ((∑ i, h i : ℝ) : EReal) :=
  (coe_sum Finset.univ h).symm

/-- The sum of squares of a real row. -/
theorem sum_sq_coe {n : ℕ} (h : Fin n → ℝ) :
    ∑ i, (h i : EReal) * (h i : EReal) = ((∑ i, h i * h i : ℝ) : EReal) := by
  rw [coe_sum]
  exact Finset.sum_congr rfl fun i _ => (EReal.coe_mul _ _).symm

/-- The sum of squared deviations of a real row from a real centre. -/
theorem sum_dev_coe {n : ℕ} (h : Fin n → ℝ) (m : ℝ) :
    ∑ i, ((h i : EReal) - (m : EReal)) * ((h i : EReal) - (m : EReal))
      = ((∑ i, (h i - m) * (h i - m) : ℝ) : EReal) := by
  rw [coe_sum]
  refine Finset.sum_congr rfl fun i _ => ?_
  rw [← EReal.coe_sub, ← EReal.coe_mul]

/-- The two arrangements on a row given as real numbers, with any ε. -/
theorem lnK_eq_lnR_coe {n : ℕ} (hn : 0 < n) (h : Fin n → ℝ) (g b : Fin n → EReal) (eps : EReal) (j : Fin n) :
    Cert.Spec.lnK (((1 / (n : ℝ) : ℝ)) : EReal) eps (fun i => (h i : EReal)) g b j
      = Cert.Spec.lnR (((n : ℝ)) : EReal) eps (fun i => (h i : EReal)) g b j := by
  have hnpos : (0 : ℝ) < (n : ℝ) := Nat.cast_pos.mpr hn
  have hn0 : (n : ℝ) ≠ 0 := hnpos.ne'
  have hcard : (Fintype.card (Fin n) : ℝ) = (n : ℝ) := by rw [Fintype.card_fin]
  -- the mean, in each arrangement
  have hμK : (∑ i, (h i : EReal)) * ((1 / (n : ℝ) : ℝ) : EReal) = (((∑ i, h i) / (n : ℝ) : ℝ) : EReal) := by
    rw [sum_coe, ← EReal.coe_mul, mul_one_div]
  have hμR : Ideal.div (∑ i, (h i : EReal)) ((n : ℝ) : EReal) = (((∑ i, h i) / (n : ℝ) : ℝ) : EReal) := by
    rw [sum_coe, Cert.RealOps.div_coe_coe _ _ hn0]
  -- the variance, in each arrangement
  have hvR : Ideal.div (∑ i, ((h i : EReal) - (((∑ i, h i) / (n : ℝ) : ℝ) : EReal))
        * ((h i : EReal) - (((∑ i, h i) / (n : ℝ) : ℝ) : EReal))) ((n : ℝ) : EReal)
      = (((∑ i, (h i - (∑ k, h k) / (n : ℝ)) * (h i - (∑ k, h k) / (n : ℝ))) / (n : ℝ) : ℝ) : EReal) := by
    rw [sum_dev_coe, Cert.RealOps.div_coe_coe _ _ hn0]
  have hvK : max ((∑ i, (h i : EReal) * (h i : EReal)) * ((1 / (n : ℝ) : ℝ) : EReal)
        - (((∑ i, h i) / (n : ℝ) : ℝ) : EReal) * (((∑ i, h i) / (n : ℝ) : ℝ) : EReal)) 0
      = (((∑ i, (h i - (∑ k, h k) / (n : ℝ)) * (h i - (∑ k, h k) / (n : ℝ))) / (n : ℝ) : ℝ) : EReal) := by
    rw [sum_sq_coe, ← EReal.coe_mul, ← EReal.coe_mul, ← EReal.coe_sub, ← EReal.coe_zero,
      Cert.IdealReal.max_coe, mul_one_div,
      ← Cert.BatchVar.two_pass_eq_one_pass h (n : ℝ) hn0 hcard,
      max_eq_left (Cert.BatchVar.two_pass_nonneg h (n : ℝ) hnpos)]
  unfold Cert.Spec.lnK Cert.Spec.lnR
  rw [hμK, hμR, hvK, hvR]

/-- The one-pass and the two-pass layer normalisation of a real row agree at every lane. -/
theorem lnK_eq_lnR {n : ℕ} (hn : 0 < n) (x g b : Fin n → EReal) (hx : ∀ i, IsReal (x i)) (e : ℝ) (_he : 0 < e)
    (j : Fin n) :
    Cert.Spec.lnK (((1 / (n : ℝ) : ℝ)) : EReal) (e : EReal) x g b j
      = Cert.Spec.lnR (((n : ℝ)) : EReal) (e : EReal) x g b j := by
  obtain ⟨h, hh⟩ := exists_real_fun Finset.univ x fun i _ => hx i
  have hxe : x = fun i => ((h i : ℝ) : EReal) := funext fun i => hh i (Finset.mem_univ i)
  subst hxe
  exact lnK_eq_lnR_coe hn h g b (e : EReal) j

/-- Rows of 800 lanes, with the literal constants. -/
theorem lnK_eq_lnR_800 (x g b : Fin 800 → EReal) (hx : ∀ i, IsReal (x i)) (e : ℝ) (he : 0 < e) (j : Fin 800) :
    Cert.Spec.lnK (((1 / 800 : ℝ)) : EReal) (e : EReal) x g b j
      = Cert.Spec.lnR (((800 : ℝ)) : EReal) (e : EReal) x g b j := by
  have h := lnK_eq_lnR (n := 800) (by norm_num) x g b hx e he j
  rw [Nat.cast_ofNat] at h
  exact h

/-- Rows of 1000 lanes, with the literal constants. -/
theorem lnK_eq_lnR_1000 (x g b : Fin 1000 → EReal) (hx : ∀ i, IsReal (x i)) (e : ℝ) (he : 0 < e) (j : Fin 1000) :
    Cert.Spec.lnK (((1 / 1000 : ℝ)) : EReal) (e : EReal) x g b j
      = Cert.Spec.lnR (((1000 : ℝ)) : EReal) (e : EReal) x g b j := by
  have h := lnK_eq_lnR (n := 1000) (by norm_num) x g b hx e he j
  rw [Nat.cast_ofNat] at h
  exact h

/-- The two-pass variance of a real row is a non-negative real number. -/
theorem var_isReal_nonneg {n : ℕ} (hn : 0 < n) (x : Fin n → EReal) (hx : ∀ i, IsReal (x i)) :
    IsReal (Ideal.div (∑ i, (x i - Ideal.div (∑ i, x i) ((n : ℝ) : EReal))
        * (x i - Ideal.div (∑ i, x i) ((n : ℝ) : EReal))) ((n : ℝ) : EReal))
      ∧ 0 ≤ Ideal.div (∑ i, (x i - Ideal.div (∑ i, x i) ((n : ℝ) : EReal))
        * (x i - Ideal.div (∑ i, x i) ((n : ℝ) : EReal))) ((n : ℝ) : EReal) := by
  have hnpos : (0 : ℝ) < (n : ℝ) := Nat.cast_pos.mpr hn
  have hμ : IsReal (Ideal.div (∑ i, x i) ((n : ℝ) : EReal)) :=
    Cert.RealOps.isReal_div (IsReal.sum _ _ fun i _ => hx i) _ hnpos.ne'
  have hd : ∀ i, IsReal (x i - Ideal.div (∑ i, x i) ((n : ℝ) : EReal)) := fun i =>
    Cert.RealOps.isReal_sub (hx i) hμ
  have hs : IsReal (∑ i, (x i - Ideal.div (∑ i, x i) ((n : ℝ) : EReal))
      * (x i - Ideal.div (∑ i, x i) ((n : ℝ) : EReal))) :=
    IsReal.sum _ _ fun i _ => (hd i).mul (hd i)
  have hs0 : 0 ≤ ∑ i, (x i - Ideal.div (∑ i, x i) ((n : ℝ) : EReal))
      * (x i - Ideal.div (∑ i, x i) ((n : ℝ) : EReal)) :=
    Cert.RealOps.sum_nonneg _ _ fun i _ => Cert.RealOps.mul_self_nonneg_of_isReal (hd i)
  exact ⟨Cert.RealOps.isReal_div hs _ hnpos.ne', Cert.RealOps.div_nonneg_of_isReal hs hs0 _ hnpos⟩

/-- The two-pass layer normalisation of a real row with real scale and shift and a positive ε is a real number. -/
theorem isReal_lnR {n : ℕ} (hn : 0 < n) (x g b : Fin n → EReal) (hx : ∀ i, IsReal (x i)) (hg : ∀ i, IsReal (g i))
    (hb : ∀ i, IsReal (b i)) (e : ℝ) (he : 0 < e) (j : Fin n) :
    IsReal (Cert.Spec.lnR (((n : ℝ)) : EReal) (e : EReal) x g b j) := by
  have hnpos : (0 : ℝ) < (n : ℝ) := Nat.cast_pos.mpr hn
  have hμ : IsReal (Ideal.div (∑ i, x i) ((n : ℝ) : EReal)) :=
    Cert.RealOps.isReal_div (IsReal.sum _ _ fun i _ => hx i) _ hnpos.ne'
  obtain ⟨hv, hv0⟩ := var_isReal_nonneg hn x hx
  have hr := Cert.RealOps.isReal_rsqrt (hv.add (IsReal.coe e)) (Cert.RealOps.add_pos_of_nonneg hv hv0 e he)
  unfold Cert.Spec.lnR
  exact (((Cert.RealOps.isReal_sub (hx j) hμ).mul hr).mul (hg j)).add (hb j)

theorem isReal_lnR_800 (x g b : Fin 800 → EReal) (hx : ∀ i, IsReal (x i)) (hg : ∀ i, IsReal (g i))
    (hb : ∀ i, IsReal (b i)) (e : ℝ) (he : 0 < e) (j : Fin 800) :
    IsReal (Cert.Spec.lnR (((800 : ℝ)) : EReal) (e : EReal) x g b j) := by
  have h := isReal_lnR (n := 800) (by norm_num) x g b hx hg hb e he j
  rw [Nat.cast_ofNat] at h
  exact h

theorem isReal_lnR_1000 (x g b : Fin 1000 → EReal) (hx : ∀ i, IsReal (x i)) (hg : ∀ i, IsReal (g i))
    (hb : ∀ i, IsReal (b i)) (e : ℝ) (he : 0 < e) (j : Fin 1000) :
    IsReal (Cert.Spec.lnR (((1000 : ℝ)) : EReal) (e : EReal) x g b j) := by
  have h := isReal_lnR (n := 1000) (by norm_num) x g b hx hg hb e he j
  rw [Nat.cast_ofNat] at h
  exact h

/-- The one-pass layer normalisation of a real row is then a real number as well. -/
theorem isReal_lnK {n : ℕ} (hn : 0 < n) (x g b : Fin n → EReal) (hx : ∀ i, IsReal (x i)) (hg : ∀ i, IsReal (g i))
    (hb : ∀ i, IsReal (b i)) (e : ℝ) (he : 0 < e) (j : Fin n) :
    IsReal (Cert.Spec.lnK (((1 / (n : ℝ) : ℝ)) : EReal) (e : EReal) x g b j) := by
  rw [lnK_eq_lnR hn x g b hx e he j]
  exact isReal_lnR hn x g b hx hg hb e he j

end Cert.LayerNormPasses

end
-- ==== Proof.TowerRows.lean ====
/-
  One entry of a graph-convolution layer and of the three-layer image tower: on real data the arrangement with
  three-pass products and one-pass normalisations equals the one with plain products and two-pass normalisations.

  Each stage maps real rows to real rows: a dense layer is a product sum of real numbers plus a real bias; a layer
  normalisation of a real row with real scale and shift and a positive ε is real; the maximum with 0 of a real number
  is real.  So at every stage the three-pass product is the plain one and the one-pass normalisation is the two-pass
  one, and the equality is carried from the first layer to the last.
-/
import proofs.«101777_j1108101562624_2_alg».proof.Proof.Spec
import proofs.«101777_j1108101562624_2_alg».proof.Proof.LibRealSums
import proofs.«101777_j1108101562624_2_alg».proof.Proof.LibRealOps
import proofs.«101777_j1108101562624_2_alg».proof.Proof.ThreePassProduct
import proofs.«101777_j1108101562624_2_alg».proof.Proof.LayerNormPasses

noncomputable section

namespace Cert.TowerRows

open Idealize.ShloMosaic
open Cert.RealSums Cert.ThreePass Cert.LayerNormPasses
open scoped BigOperators

/-- A graph-convolution entry: three-pass products equal plain products on real rows. -/
theorem sageK_eq_sageR {K : ℕ} (mean x wl wr : Fin K → EReal) (bl : EReal)
    (hm : ∀ k, IsReal (mean k)) (hx : ∀ k, IsReal (x k)) (hwl : ∀ k, IsReal (wl k)) (hwr : ∀ k, IsReal (wr k)) :
    Cert.Spec.sageK mean x wl wr bl = Cert.Spec.sageR mean x wl wr bl := by
  unfold Cert.Spec.sageK Cert.Spec.sageR
  rw [mm3_eq_mm mean wl hm hwl, mm3_eq_mm x wr hx hwr]

/-- A graph-convolution entry on real data is a real number. -/
theorem isReal_sageR {K : ℕ} (mean x wl wr : Fin K → EReal) (bl : EReal)
    (hm : ∀ k, IsReal (mean k)) (hx : ∀ k, IsReal (x k)) (hwl : ∀ k, IsReal (wl k)) (hwr : ∀ k, IsReal (wr k))
    (hbl : IsReal bl) : IsReal (Cert.Spec.sageR mean x wl wr bl) := by
  unfold Cert.Spec.sageR
  exact ((isReal_mm mean wl hm hwl).add hbl).add (isReal_mm x wr hx hwr)

/-- A dense layer on a real row with real weights: the three-pass products are the plain ones, at every lane. -/
theorem dense3_eq_dense {K N : ℕ} (a : Fin K → EReal) (w : Fin K → Fin N → EReal) (b : Fin N → EReal)
    (ha : ∀ k, IsReal (a k)) (hw : ∀ k j, IsReal (w k j)) :
    (fun j => Cert.Spec.mm3 a (fun k => w k j) + b j) = fun j => Cert.Spec.mm a (fun k => w k j) + b j :=
  funext fun j => by rw [mm3_eq_mm a (fun k => w k j) ha fun k => hw k j]

/-- A dense layer on a real row with real weights and bias gives a real row. -/
theorem isReal_dense {K N : ℕ} (a : Fin K → EReal) (w : Fin K → Fin N → EReal) (b : Fin N → EReal)
    (ha : ∀ k, IsReal (a k)) (hw : ∀ k j, IsReal (w k j)) (hb : ∀ j, IsReal (b j)) (j : Fin N) :
    IsReal (Cert.Spec.mm a (fun k => w k j) + b j) :=
  (isReal_mm a (fun k => w k j) ha fun k => hw k j).add (hb j)

/-- Normalisation followed by the maximum with 0, 800 lanes: one pass equals two passes on a real row. -/
theorem relu_lnK_eq_800 (t g b : Fin 800 → EReal) (ht : ∀ i, IsReal (t i)) (e : ℝ) (he : 0 < e) :
    (fun j => max (Cert.Spec.lnK (((1 / 800 : ℝ)) : EReal) (e : EReal) t g b j) 0)
      = fun j => max (Cert.Spec.lnR (((800 : ℝ)) : EReal) (e : EReal) t g b j) 0 :=
  funext fun j => by rw [lnK_eq_lnR_800 t g b ht e he j]

/-- The same for 1000 lanes. -/
theorem relu_lnK_eq_1000 (t g b : Fin 1000 → EReal) (ht : ∀ i, IsReal (t i)) (e : ℝ) (he : 0 < e) :
    (fun j => max (Cert.Spec.lnK (((1 / 1000 : ℝ)) : EReal) (e : EReal) t g b j) 0)
      = fun j => max (Cert.Spec.lnR (((1000 : ℝ)) : EReal) (e : EReal) t g b j) 0 :=
  funext fun j => by rw [lnK_eq_lnR_1000 t g b ht e he j]

/-- The image tower: the two arrangements agree on real data. -/
theorem imgK_eq_imgR (e : ℝ) (he : 0 < e) (x : Fin 512 → EReal)
    (w1 : Fin 512 → Fin 800 → EReal) (b1 g1 be1 : Fin 800 → EReal)
    (w2 : Fin 800 → Fin 1000 → EReal) (b2 g2 be2 : Fin 1000 → EReal)
    (w3 : Fin 1000 → Fin 800 → EReal) (b3 gn bn : Fin 800 → EReal) (q : Fin 800)
    (hx : ∀ k, IsReal (x k))
    (hw1 : ∀ k j, IsReal (w1 k j)) (hb1 : ∀ j, IsReal (b1 j)) (hg1 : ∀ j, IsReal (g1 j)) (hbe1 : ∀ j, IsReal (be1 j))
    (hw2 : ∀ k j, IsReal (w2 k j)) (hb2 : ∀ j, IsReal (b2 j)) (hg2 : ∀ j, IsReal (g2 j)) (hbe2 : ∀ j, IsReal (be2 j))
    (hw3 : ∀ k j, IsReal (w3 k j)) (hb3 : ∀ j, IsReal (b3 j)) :
    Cert.Spec.imgK (((1 / 800 : ℝ)) : EReal) (((1 / 1000 : ℝ)) : EReal) (e : EReal) x w1 b1 g1 be1 w2 b2 g2 be2 w3 b3 gn bn q
      = Cert.Spec.imgR (((800 : ℝ)) : EReal) (((1000 : ℝ)) : EReal) (e : EReal) x w1 b1 g1 be1 w2 b2 g2 be2 w3 b3 gn bn q := by
  simp only [Cert.Spec.imgK, Cert.Spec.imgR]
  -- first layer
  rw [dense3_eq_dense x w1 b1 hx hw1]
  have ht1 := isReal_dense x w1 b1 hx hw1 hb1
  rw [relu_lnK_eq_800 _ g1 be1 ht1 e he]
  have ha1 : ∀ j, IsReal (max (Cert.Spec.lnR (((800 : ℝ)) : EReal) (e : EReal)
      (fun j => Cert.Spec.mm x (fun k => w1 k j) + b1 j) g1 be1 j) 0) := fun j =>
    (isReal_lnR_800 _ g1 be1 ht1 hg1 hbe1 e he j).max IsReal.zero
  -- second layer
  rw [dense3_eq_dense _ w2 b2 ha1 hw2]
  have ht2 := isReal_dense _ w2 b2 ha1 hw2 hb2
  rw [relu_lnK_eq_1000 _ g2 be2 ht2 e he]
  have ha2 : ∀ j, IsReal (max (Cert.Spec.lnR (((1000 : ℝ)) : EReal) (e : EReal) _ g2 be2 j) 0) := fun j =>
    (isReal_lnR_1000 _ g2 be2 ht2 hg2 hbe2 e he j).max IsReal.zero
  -- third layer
  rw [dense3_eq_dense _ w3 b3 ha2 hw3]
  have ht3 := isReal_dense _ w3 b3 ha2 hw3 hb3
  exact lnK_eq_lnR_800 _ gn bn ht3 e he q

/-- The image tower on real data gives a real number. -/
theorem isReal_imgR (e : ℝ) (he : 0 < e) (x : Fin 512 → EReal)
    (w1 : Fin 512 → Fin 800 → EReal) (b1 g1 be1 : Fin 800 → EReal)
    (w2 : Fin 800 → Fin 1000 → EReal) (b2 g2 be2 : Fin 1000 → EReal)
    (w3 : Fin 1000 → Fin 800 → EReal) (b3 gn bn : Fin 800 → EReal) (q : Fin 800)
    (hx : ∀ k, IsReal (x k))
    (hw1 : ∀ k j, IsReal (w1 k j)) (hb1 : ∀ j, IsReal (b1 j)) (hg1 : ∀ j, IsReal (g1 j)) (hbe1 : ∀ j, IsReal (be1 j))
    (hw2 : ∀ k j, IsReal (w2 k j)) (hb2 : ∀ j, IsReal (b2 j)) (hg2 : ∀ j, IsReal (g2 j)) (hbe2 : ∀ j, IsReal (be2 j))
    (hw3 : ∀ k j, IsReal (w3 k j)) (hb3 : ∀ j, IsReal (b3 j)) (hgn : ∀ j, IsReal (gn j)) (hbn : ∀ j, IsReal (bn j)) :
    IsReal (Cert.Spec.imgR (((800 : ℝ)) : EReal) (((1000 : ℝ)) : EReal) (e : EReal) x w1 b1 g1 be1 w2 b2 g2 be2 w3 b3 gn bn q) := by
  simp only [Cert.Spec.imgR]
  have ht1 := isReal_dense x w1 b1 hx hw1 hb1
  have ha1 : ∀ j, IsReal (max (Cert.Spec.lnR (((800 : ℝ)) : EReal) (e : EReal)
      (fun j => Cert.Spec.mm x (fun k => w1 k j) + b1 j) g1 be1 j) 0) := fun j =>
    (isReal_lnR_800 _ g1 be1 ht1 hg1 hbe1 e he j).max IsReal.zero
  have ht2 := isReal_dense _ w2 b2 ha1 hw2 hb2
  have ha2 : ∀ j, IsReal (max (Cert.Spec.lnR (((1000 : ℝ)) : EReal) (e : EReal) _ g2 be2 j) 0) := fun j =>
    (isReal_lnR_1000 _ g2 be2 ht2 hg2 hbe2 e he j).max IsReal.zero
  have ht3 := isReal_dense _ w3 b3 ha2 hw3 hb3
  exact isReal_lnR_800 _ gn bn ht3 hgn hbn e he q

end Cert.TowerRows

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.SageValue.lean ====
/-
  The two graph-convolution layers as the kernel computes them, entry by entry, in the reference's arrangement.
  With real node features, weights and biases every neighbour mean is real (a gather re-reads entries, the
  accumulating scatters add real numbers, the degree's maximum with 1 is a real number ≥ 1), so each three-pass
  product is the plain product: hidden(n,q) = max((mean₁(n,·)·Wl₁(·,q) + bl₁(q)) + x(n,·)·Wr₁(·,q), 0) and
  nodes(n,q) = (mean₂(n,·)·Wl₂(·,q) + bl₂(q)) + hidden(n,·)·Wr₂(·,q), all of them real numbers.
-/
import proofs.«101777_j1108101562624_2_alg».proof.Proof.Gen.ReferenceIdeal
import proofs.«101777_j1108101562624_2_alg».proof.Proof.SageBody
import proofs.«101777_j1108101562624_2_alg».proof.Proof.SegMean
import proofs.«101777_j1108101562624_2_alg».proof.Proof.SegMeanReal
import proofs.«101777_j1108101562624_2_alg».proof.Proof.TowerRows
import proofs.«101777_j1108101562624_2_alg».proof.Proof.LibLayout

noncomputable section

namespace Cert.SageValue

open Idealize.ShloMosaic Idealize.ShloMosaic.ValueIdx Cert.KernelIdeal Cert.KernelIdeal.Gen
open Cert.RealSums Cert.RealOps Cert.AllReal Cert.SegMeanReal Cert.SegMean

/-! ## The neighbour means are real -/

theorem isReal_zero_word : IsReal (Ideal.ofBits .f32 0x00000000#32) := by rw [Ideal.ofBits_zero_f32]; exact IsReal.zero
theorem isReal_one_word : IsReal (Ideal.ofBits .f32 0x3F800000#32) := by rw [one_word]; exact IsReal.coe 1

/-- The degree (edge count, at least 1) is a real number, not zero, at every node. -/
theorem degree_ok (ei : (⟨Cert.ReferenceIdeal.S2x50000, .i32⟩ : BufTy).Contents (Elt Ideal)) :
    ∀ i, IsReal (degree ei i) ∧ degree ei i ≠ 0 := by
  unfold degree
  exact den_ok _ _ (real_scatterAdd _ _ _ _ (fun _ => isReal_zero_word) (fun _ => isReal_one_word)) (fun _ => one_word)

theorem real_segMean512 (x : (⟨Cert.ReferenceIdeal.S700x512, .f32⟩ : BufTy).Contents (Elt Ideal))
    (ei : (⟨Cert.ReferenceIdeal.S2x50000, .i32⟩ : BufTy).Contents (Elt Ideal)) (hx : AllReal x) : AllReal (segMean512 x ei) := by
  unfold segMean512
  exact real_quot _ _ (real_scatterAdd _ _ _ _ (fun _ => isReal_zero_word) (real_gather _ _ _ hx)) (fun _ => degree_ok ei _)

theorem real_segMean2048 (h : (⟨Cert.ReferenceIdeal.S700x2048, .f32⟩ : BufTy).Contents (Elt Ideal))
    (ei : (⟨Cert.ReferenceIdeal.S2x50000, .i32⟩ : BufTy).Contents (Elt Ideal)) (hh : AllReal h) : AllReal (segMean2048 h ei) := by
  unfold segMean2048
  exact real_quot _ _ (real_scatterAdd _ _ _ _ (fun _ => isReal_zero_word) (real_gather _ _ _ hh)) (fun _ => degree_ok ei _)

/-! ## The layers -/

variable (x1 : Vec Ideal S700x512 .f32) (x2 : (⟨Cert.ReferenceIdeal.S2x50000, .i32⟩ : BufTy).Contents (Elt Ideal))
  (x3 : Vec Ideal S512x2048 .f32) (x4 : FVec Ideal S2048 .f32) (x5 : Vec Ideal S512x2048 .f32)
  (x6 : Vec Ideal S2048x512 .f32) (x7 : FVec Ideal S512 .f32) (x8 : Vec Ideal S2048x512 .f32)

/-- The hidden features as the kernel computes them. -/
def hiddenArr : S700x2048.Idx → EReal :=
  k0_pay1 (F := Ideal) (segMean512 x1 x2) x1 x3 (shapeCast S1x2048 x4 shapeCasts_S2048_S1x2048) x5

/-- A bias vector cast to a row reads, at (0, q), the vector at q. -/
theorem biasRow2048 (q : Fin 2048) : shapeCast S1x2048 x4 shapeCasts_S2048_S1x2048 (ix2 (0 : Fin 1) q) = x4 (ix1 q) :=
  shapeCast_apply x4 shapeCasts_S2048_S1x2048 _ _ (by
    rw [Shape.rowMajor_val_two, Shape.rowMajor_val_one]; show q.val = 0 * 2048 + q.val; omega)

theorem biasRow512 (q : Fin 512) : shapeCast S1x512 x7 shapeCasts_S512_S1x512 (ix2 (0 : Fin 1) q) = x7 (ix1 q) :=
  shapeCast_apply x7 shapeCasts_S512_S1x512 _ _ (by
    rw [Shape.rowMajor_val_two, Shape.rowMajor_val_one]; show q.val = 0 * 512 + q.val; omega)

theorem hidden_entry (h1 : AllReal x1) (h3 : AllReal x3) (h5 : AllReal x5) (n : Fin 700) (q : Fin 2048) :
    hiddenArr x1 x2 x3 x4 x5 (ix2 n q)
      = max (Cert.Spec.sageR (fun k : Fin 512 => segMean512 x1 x2 (ix2 n k)) (fun k => x1 (ix2 n k))
          (fun k => x3 (ix2 k q)) (fun k => x5 (ix2 k q)) (x4 (ix1 q))) 0 := by
  unfold hiddenArr
  rw [Cert.SageBody.layer1_apply, biasRow2048,
    Cert.TowerRows.sageK_eq_sageR _ _ _ _ _ (fun k => real_segMean512 x1 x2 h1 _) (fun k => h1 _) (fun k => h3 _) (fun k => h5 _)]

theorem hidden_real (h1 : AllReal x1) (h3 : AllReal x3) (h4 : AllReal x4) (h5 : AllReal x5) :
    AllReal (hiddenArr x1 x2 x3 x4 x5) := fun i => by
  obtain ⟨n, q, rfl⟩ : ∃ (n : Fin 700) (q : Fin 2048), i = ix2 n q := ⟨i 0, i 1, eq_ix2 i⟩
  rw [hidden_entry x1 x2 x3 x4 x5 h1 h3 h5]
  exact (Cert.TowerRows.isReal_sageR _ _ _ _ _ (fun k => real_segMean512 x1 x2 h1 _) (fun k => h1 _) (fun k => h3 _)
    (fun k => h5 _) (h4 _)).max IsReal.zero

/-- The node embeddings as the kernel computes them. -/
def nodesArr : S700x512.Idx → EReal :=
  k1_pay1 (F := Ideal) (segMean2048 (hiddenArr x1 x2 x3 x4 x5) x2) (hiddenArr x1 x2 x3 x4 x5) x6
    (shapeCast S1x512 x7 shapeCasts_S512_S1x512) x8

theorem nodes_entry (h1 : AllReal x1) (h3 : AllReal x3) (h4 : AllReal x4) (h5 : AllReal x5) (h6 : AllReal x6) (h8 : AllReal x8)
    (n : Fin 700) (q : Fin 512) :
    nodesArr x1 x2 x3 x4 x5 x6 x7 x8 (ix2 n q)
      = Cert.Spec.sageR (fun k : Fin 2048 => segMean2048 (hiddenArr x1 x2 x3 x4 x5) x2 (ix2 n k))
          (fun k => hiddenArr x1 x2 x3 x4 x5 (ix2 n k)) (fun k => x6 (ix2 k q)) (fun k => x8 (ix2 k q)) (x7 (ix1 q)) := by
  have hH := hidden_real x1 x2 x3 x4 x5 h1 h3 h4 h5
  unfold nodesArr
  rw [Cert.SageBody.layer2_apply, biasRow512,
    Cert.TowerRows.sageK_eq_sageR _ _ _ _ _ (fun k => real_segMean2048 _ x2 hH _) (fun k => hH _) (fun k => h6 _) (fun k => h8 _)]

theorem nodes_real (h1 : AllReal x1) (h3 : AllReal x3) (h4 : AllReal x4) (h5 : AllReal x5) (h6 : AllReal x6) (h7 : AllReal x7)
    (h8 : AllReal x8) : AllReal (nodesArr x1 x2 x3 x4 x5 x6 x7 x8) := fun i => by
  have hH := hidden_real x1 x2 x3 x4 x5 h1 h3 h4 h5
  obtain ⟨n, q, rfl⟩ : ∃ (n : Fin 700) (q : Fin 512), i = ix2 n q := ⟨i 0, i 1, eq_ix2 i⟩
  rw [nodes_entry x1 x2 x3 x4 x5 x6 x7 x8 h1 h3 h4 h5 h6 h8]
  exact Cert.TowerRows.isReal_sageR _ _ _ _ _ (fun k => real_segMean2048 _ x2 hH _) (fun k => hH _) (fun k => h6 _)
    (fun k => h8 _) (h7 _)

end Cert.SageValue

end
-- ==== Proof.SageRef.lean ====
/-
  The reference program's node embeddings as a function of its arguments.

  The neighbour mean of a feature array over the edge list (a gather of the source rows, a scatter-add of them onto
  the destination rows, a scatter-add of ones for the in-degree, a maximum of the degree with 1 and a quotient) is
  kept as one opaque function, `segMean512` for 512-feature rows and `segMean2048` for 2048-feature rows (the
  module that defines them spells the composition out); the program's two mean stages are those functions.  Around it
  each graph-convolution layer is, entry by entry, (mean·Wl + bl) + x·Wr with plain product sums: the first layer is
  followed by a maximum with 0, the second is the program's second result.
-/
import proofs.«101777_j1108101562624_2_alg».proof.Proof.RefStages
import proofs.«101777_j1108101562624_2_alg».proof.Proof.Spec
import proofs.«101777_j1108101562624_2_alg».proof.Proof.SegMean

noncomputable section

namespace Cert.SageRef

open Cert.ReferenceIdeal Cert.ReferenceIdeal.Gen Cert.ReferenceIdeal.Read Cert.SegMean
open Idealize.ShloMosaic Idealize.ShloMosaic.ValueIdx Idealize.ShloMosaic.TcCoe Idealize.SL.Sem Idealize.ShloMosaic.StableHlo
open scoped BigOperators

variable (x1 : (⟨S700x512, .f32⟩ : BufTy).Contents (Elt Ideal)) (x2 : (⟨S2x50000, .i32⟩ : BufTy).Contents (Elt Ideal))
  (x3 : (⟨S512x2048, .f32⟩ : BufTy).Contents (Elt Ideal)) (x4 : (⟨S2048, .f32⟩ : BufTy).Contents (Elt Ideal))
  (x5 : (⟨S512x2048, .f32⟩ : BufTy).Contents (Elt Ideal)) (x6 : (⟨S2048x512, .f32⟩ : BufTy).Contents (Elt Ideal))
  (x7 : (⟨S512, .f32⟩ : BufTy).Contents (Elt Ideal)) (x8 : (⟨S2048x512, .f32⟩ : BufTy).Contents (Elt Ideal))

/-- The first layer's mean is the stage the program divides into. -/
theorem mean1_eq : val_main_v22 (F := Ideal) x1 x2 = segMean512 x1 x2 := rfl

/-- The second layer's mean is the mean of the first layer's output. -/
theorem mean2_eq : val_main_v48 (F := Ideal) x1 x2 x3 x4 x5 = segMean2048 (val_main_v29 (F := Ideal) x1 x2 x3 x4 x5) x2 := rfl

/-- The first layer after its maximum with 0, at node `n` and feature `q`. -/
theorem hidden_apply (n : Fin 700) (q : Fin 2048) :
    val_main_v29 (F := Ideal) x1 x2 x3 x4 x5 (ix2 n q)
      = max (Cert.Spec.sageR (fun k : Fin 512 => segMean512 x1 x2 (ix2 n k)) (fun k => x1 (ix2 n k))
          (fun k => x3 (ix2 k q)) (fun k => x5 (ix2 k q)) (x4 (ix1 q))) 0 := by
  have el : ∀ k : Fin 512, lidx_main_v23 (ix2 n q) k = ix2 n k := fun k => funext fun a => Fin.ext (by
    match a with
    | ⟨0, _⟩ => rfl
    | ⟨1, _⟩ => rfl)
  have er : ∀ k : Fin 512, ridx_main_v23 (ix2 n q) k = ix2 k q := fun k => funext fun a => Fin.ext (by
    match a with
    | ⟨0, _⟩ => rfl
    | ⟨1, _⟩ => rfl)
  have el' : ∀ k : Fin 512, lidx_main_v27 (ix2 n q) k = ix2 n k := fun k => funext fun a => Fin.ext (by
    match a with
    | ⟨0, _⟩ => rfl
    | ⟨1, _⟩ => rfl)
  have er' : ∀ k : Fin 512, ridx_main_v27 (ix2 n q) k = ix2 k q := fun k => funext fun a => Fin.ext (by
    match a with
    | ⟨0, _⟩ => rfl
    | ⟨1, _⟩ => rfl)
  have eb : idx_main_v24 (idx_main_v25 (ix2 n q)) = ix1 q := funext fun a => Fin.ext (by
    match a with
    | ⟨0, _⟩ => rfl)
  rw [val_main_v29_apply, val_main_v28_apply, val_main_v26_apply, val_main_v23_apply, val_main_v27_apply,
    val_main_v25_apply, val_main_v24_apply, val_main_call0_v0_apply, val_main_call0_cst_apply, mean1_eq]
  simp only [el, er, el', er', eb, Ideal.addf_def, Ideal.maximumf_def, Ideal.ofBits_def, Ideal.ofBits_zero_f32]
  rfl

/-- The second layer — the program's node embeddings — at node `n` and feature `q`. -/
theorem nodes_apply (n : Fin 700) (q : Fin 512) :
    val_main_v54 (F := Ideal) x1 x2 x3 x4 x5 x6 x7 x8 (ix2 n q)
      = Cert.Spec.sageR
          (fun k : Fin 2048 => segMean2048 (val_main_v29 (F := Ideal) x1 x2 x3 x4 x5) x2 (ix2 n k))
          (fun k => val_main_v29 (F := Ideal) x1 x2 x3 x4 x5 (ix2 n k))
          (fun k => x6 (ix2 k q)) (fun k => x8 (ix2 k q)) (x7 (ix1 q)) := by
  have el : ∀ k : Fin 2048, lidx_main_v49 (ix2 n q) k = ix2 n k := fun k => funext fun a => Fin.ext (by
    match a with
    | ⟨0, _⟩ => rfl
    | ⟨1, _⟩ => rfl)
  have er : ∀ k : Fin 2048, ridx_main_v49 (ix2 n q) k = ix2 k q := fun k => funext fun a => Fin.ext (by
    match a with
    | ⟨0, _⟩ => rfl
    | ⟨1, _⟩ => rfl)
  have el' : ∀ k : Fin 2048, lidx_main_v53 (ix2 n q) k = ix2 n k := fun k => funext fun a => Fin.ext (by
    match a with
    | ⟨0, _⟩ => rfl
    | ⟨1, _⟩ => rfl)
  have er' : ∀ k : Fin 2048, ridx_main_v53 (ix2 n q) k = ix2 k q := fun k => funext fun a => Fin.ext (by
    match a with
    | ⟨0, _⟩ => rfl
    | ⟨1, _⟩ => rfl)
  have eb : idx_main_v50 (idx_main_v51 (ix2 n q)) = ix1 q := funext fun a => Fin.ext (by
    match a with
    | ⟨0, _⟩ => rfl)
  rw [val_main_v54_apply, val_main_v52_apply, val_main_v49_apply, val_main_v53_apply,
    val_main_v51_apply, val_main_v50_apply, mean2_eq]
  simp only [el, er, el', er', eb, Ideal.addf_def]
  rfl

end Cert.SageRef

end
-- ==== Proof.NodesEq.lean ====
/-
  The kernel's node embeddings are the reference's: entry by entry both are
  (mean₂(n,·)·Wl₂(·,q) + bl₂(q)) + hidden(n,·)·Wr₂(·,q) over the same hidden features and the same neighbour means,
  once every three-pass product of real numbers is read as the plain product.
-/
import proofs.«101777_j1108101562624_2_alg».proof.Proof.SageValue
import proofs.«101777_j1108101562624_2_alg».proof.Proof.SageRef

noncomputable section

namespace Cert.NodesEq

open Idealize.ShloMosaic Idealize.ShloMosaic.ValueIdx
open Cert.AllReal Cert.SageValue

variable (x1 : (⟨Cert.ReferenceIdeal.S700x512, .f32⟩ : BufTy).Contents (Elt Ideal))
  (x2 : (⟨Cert.ReferenceIdeal.S2x50000, .i32⟩ : BufTy).Contents (Elt Ideal))
  (x3 : (⟨Cert.ReferenceIdeal.S512x2048, .f32⟩ : BufTy).Contents (Elt Ideal))
  (x4 : (⟨Cert.ReferenceIdeal.S2048, .f32⟩ : BufTy).Contents (Elt Ideal))
  (x5 : (⟨Cert.ReferenceIdeal.S512x2048, .f32⟩ : BufTy).Contents (Elt Ideal))
  (x6 : (⟨Cert.ReferenceIdeal.S2048x512, .f32⟩ : BufTy).Contents (Elt Ideal))
  (x7 : (⟨Cert.ReferenceIdeal.S512, .f32⟩ : BufTy).Contents (Elt Ideal))
  (x8 : (⟨Cert.ReferenceIdeal.S2048x512, .f32⟩ : BufTy).Contents (Elt Ideal))

/-- The hidden features agree. -/
theorem hidden_eq (h1 : AllReal x1) (h3 : AllReal x3) (h4 : AllReal x4) (h5 : AllReal x5) :
    hiddenArr x1 x2 x3 x4 x5 = Cert.ReferenceIdeal.Read.val_main_v29 (F := Ideal) x1 x2 x3 x4 x5 := by
  funext i
  obtain ⟨n, q, rfl⟩ : ∃ (n : Fin 700) (q : Fin 2048), i = ix2 n q := ⟨i 0, i 1, eq_ix2 i⟩
  exact (hidden_entry x1 x2 x3 x4 x5 h1 h3 h5 n q).trans (Cert.SageRef.hidden_apply x1 x2 x3 x4 x5 n q).symm

/-- The node embeddings agree. -/
theorem nodes_eq (h1 : AllReal x1) (h3 : AllReal x3) (h4 : AllReal x4) (h5 : AllReal x5) (h6 : AllReal x6) (h8 : AllReal x8) :
    nodesArr x1 x2 x3 x4 x5 x6 x7 x8 = Cert.ReferenceIdeal.Read.val_main_v54 (F := Ideal) x1 x2 x3 x4 x5 x6 x7 x8 := by
  funext i
  obtain ⟨n, q, rfl⟩ : ∃ (n : Fin 700) (q : Fin 512), i = ix2 n q := ⟨i 0, i 1, eq_ix2 i⟩
  rw [nodes_entry x1 x2 x3 x4 x5 x6 x7 x8 h1 h3 h4 h5 h6 h8 n q, hidden_eq x1 x2 x3 x4 x5 h1 h3 h4 h5]
  exact (Cert.SageRef.nodes_apply x1 x2 x3 x4 x5 x6 x7 x8 n q).symm

end Cert.NodesEq

end
-- ==== Proof.Region4Array.lean ====
/-
  The score region's output array.  Its grid has 25 points; point t reads rows 8t … 8t+7 of the attribute features
  (block index (t, 0) of an [8, 512] block) and the other ten inputs whole, and writes the [256, 8, 512] block
  (0, t, 0) of the [256, 200, 512] output.  The 25 blocks tile the output, so entry (b, n, o) of the output array after
  the region is the body's result at point n / 8, read at (b, n mod 8, o).
-/
import proofs.«101777_j1108101562624_2_alg».proof.Proof.Gen.KernelIdeal.Frame
import Idealize.ShloMosaic.Lib.Pipeline.Value
import Idealize.ShloMosaic.Lib.ValueIdx

set_option maxRecDepth 16384

noncomputable section

namespace Cert.KernelIdeal.Region4Array

open Idealize.ShloMosaic Idealize.ShloMosaic.TcCoe Idealize.ShloMosaic.ValueIdx
open Cert.KernelIdeal Cert.KernelIdeal.Gen
open Idealize.ShloMosaic.Pipeline (Dat Cfg Window)

variable {F : FTy → Type} [FloatOps F] [Named F]
variable (V : (c : Dev nD) → (b : Ref sig .tc) → Buf (Elt F) ((c : Thread nD τ).loc b))

theorem idx4_0 : ∀ t : Fin cfg4.N, win4_0.index t (0 : Fin 2) = t.val ∧ win4_0.index t (1 : Fin 2) = 0 :=
  (by decide +kernel : ∀ t : Fin grid4.N, _)
theorem idx4_11 : ∀ t : Fin cfg4.N, win4_11.index t (0 : Fin 3) = 0 ∧ win4_11.index t (1 : Fin 3) = t.val ∧ win4_11.index t (2 : Fin 3) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_7 : ∀ t : Fin cfg4.N, win4_7.index t (0 : Fin 2) = 0 ∧ win4_7.index t (1 : Fin 2) = 0 :=
  (by decide +kernel : ∀ t : Fin grid4.N, _)
theorem idx4_8 : ∀ t : Fin cfg4.N, win4_8.index t (0 : Fin 2) = 0 ∧ win4_8.index t (1 : Fin 2) = 0 :=
  (by decide +kernel : ∀ t : Fin grid4.N, _)
theorem idx4_9 : ∀ t : Fin cfg4.N, win4_9.index t (0 : Fin 2) = 0 ∧ win4_9.index t (1 : Fin 2) = 0 :=
  (by decide +kernel : ∀ t : Fin grid4.N, _)
theorem idx4_10 : ∀ t : Fin cfg4.N, win4_10.index t (0 : Fin 2) = 0 ∧ win4_10.index t (1 : Fin 2) = 0 :=
  (by decide +kernel : ∀ t : Fin grid4.N, _)

/-- Window 1's block is its whole array at every point. -/
theorem iblk4_1 (c : Dev nD) (t : Fin cfg4.N) : iblk4 V c 1 t = V c main_v61 := by
  obtain ⟨e0, e1⟩ := idx4_1 t
  funext j
  show V c main_v61 (((cfg4.win 1).blk t).view.emb j) = V c main_v61 j
  congr 1
  funext a; apply Fin.ext
  match a with
  | ⟨0, _⟩ => show win4_1.index t (0 : Fin 2) * 512 + 1 * (j 0).val = (j 0).val; omega
  | ⟨1, _⟩ => show win4_1.index t (1 : Fin 2) * 1024 + 1 * (j 1).val = (j 1).val; omega

/-- Window 2's block is its whole array at every point. -/
theorem iblk4_2 (c : Dev nD) (t : Fin cfg4.N) : iblk4 V c 2 t = V c main_v65 := by
  obtain ⟨e0, e1⟩ := idx4_2 t
  funext j
  show V c main_v65 (((cfg4.win 2).blk t).view.emb j) = V c main_v65 j
  congr 1
  funext a; apply Fin.ext
  match a with
  | ⟨0, _⟩ => show win4_2.index t (0 : Fin 2) * 1 + 1 * (j 0).val = (j 0).val; omega
  | ⟨1, _⟩ => show win4_2.index t (1 : Fin 2) * 1024 + 1 * (j 1).val = (j 1).val; omega

/-- Window 3's block is its whole array at every point. -/
theorem iblk4_3 (c : Dev nD) (t : Fin cfg4.N) : iblk4 V c 3 t = V c main_v67 := by
  obtain ⟨e0, e1⟩ := idx4_3 t
  funext j
  show V c main_v67 (((cfg4.win 3).blk t).view.emb j) = V c main_v67 j
  congr 1
  funext a; apply Fin.ext
  match a with
  | ⟨0, _⟩ => show win4_3.index t (0 : Fin 2) * 1 + 1 * (j 0).val = (j 0).val; omega
  | ⟨1, _⟩ => show win4_3.index t (1 : Fin 2) * 1024 + 1 * (j 1).val = (j 1).val; omega

/-- Window 4's block is its whole array at every point. -/
theorem iblk4_4 (c : Dev nD) (t : Fin cfg4.N) : iblk4 V c 4 t = V c main_v69 := by
  obtain ⟨e0, e1⟩ := idx4_4 t
  funext j
  show V c main_v69 (((cfg4.win 4).blk t).view.emb j) = V c main_v69 j
  congr 1
  funext a; apply Fin.ext
  match a with
  | ⟨0, _⟩ => show win4_4.index t (0 : Fin 2) * 1 + 1 * (j 0).val = (j 0).val; omega
  | ⟨1, _⟩ => show win4_4.index t (1 : Fin 2) * 1024 + 1 * (j 1).val = (j 1).val; omega

/-- Window 5's block is its whole array at every point. -/
theorem iblk4_5 (c : Dev nD) (t : Fin cfg4.N) : iblk4 V c 5 t = V c main_v79 := by
  obtain ⟨e0, e1⟩ := idx4_5 t
  funext j
  show V c main_v79 (((cfg4.win 5).blk t).view.emb j) = V c main_v79 j
  congr 1
  funext a; apply Fin.ext
  match a with
  | ⟨0, _⟩ => show win4_5.index t (0 : Fin 2) * 512 + 1 * (j 0).val = (j 0).val; omega
  | ⟨1, _⟩ => show win4_5.index t (1 : Fin 2) * 1024 + 1 * (j 1).val = (j 1).val; omega

/-- Window 6's block is its whole array at every point. -/
theorem iblk4_6 (c : Dev nD) (t : Fin cfg4.N) : iblk4 V c 6 t = V c main_v71 := by
  obtain ⟨e0, e1⟩ := idx4_6 t
  funext j
  show V c main_v71 (((cfg4.win 6).blk t).view.emb j) = V c main_v71 j
  congr 1
  funext a; apply Fin.ext
  match a with
  | ⟨0, _⟩ => show win4_6.index t (0 : Fin 2) * 1024 + 1 * (j 0).val = (j 0).val; omega
  | ⟨1, _⟩ => show win4_6.index t (1 : Fin 2) * 800 + 1 * (j 1).val = (j 1).val; omega

/-- Window 7's block is its whole array at every point. -/
theorem iblk4_7 (c : Dev nD) (t : Fin cfg4.N) : iblk4 V c 7 t = V c main_v72 := by
  obtain ⟨e0, e1⟩ := idx4_7 t
  funext j
  show V c main_v72 (((cfg4.win 7).blk t).view.emb j) = V c main_v72 j
  congr 1
  funext a; apply Fin.ext
  match a with
  | ⟨0, _⟩ => show win4_7.index t (0 : Fin 2) * 1 + 1 * (j 0).val = (j 0).val; omega
  | ⟨1, _⟩ => show win4_7.index t (1 : Fin 2) * 800 + 1 * (j 1).val = (j 1).val; omega

/-- Window 8's block is its whole array at every point. -/
theorem iblk4_8 (c : Dev nD) (t : Fin cfg4.N) : iblk4 V c 8 t = V c main_v73 := by
  obtain ⟨e0, e1⟩ := idx4_8 t
  funext j
  show V c main_v73 (((cfg4.win 8).blk t).view.emb j) = V c main_v73 j
  congr 1
  funext a; apply Fin.ext
  match a with
  | ⟨0, _⟩ => show win4_8.index t (0 : Fin 2) * 1 + 1 * (j 0).val = (j 0).val; omega
  | ⟨1, _⟩ => show win4_8.index t (1 : Fin 2) * 800 + 1 * (j 1).val = (j 1).val; omega

/-- Window 9's block is its whole array at every point. -/
theorem iblk4_9 (c : Dev nD) (t : Fin cfg4.N) : iblk4 V c 9 t = V c main_v74 := by
  obtain ⟨e0, e1⟩ := idx4_9 t
  funext j
  show V c main_v74 (((cfg4.win 9).blk t).view.emb j) = V c main_v74 j
  congr 1
  funext a; apply Fin.ext
  match a with
  | ⟨0, _⟩ => show win4_9.index t (0 : Fin 2) * 1 + 1 * (j 0).val = (j 0).val; omega
  | ⟨1, _⟩ => show win4_9.index t (1 : Fin 2) * 800 + 1 * (j 1).val = (j 1).val; omega

/-- Window 10's block is its whole array at every point. -/
theorem iblk4_10 (c : Dev nD) (t : Fin cfg4.N) : iblk4 V c 10 t = V c main_v78 := by
  obtain ⟨e0, e1⟩ := idx4_10 t
  funext j
  show V c main_v78 (((cfg4.win 10).blk t).view.emb j) = V c main_v78 j
  congr 1
  funext a; apply Fin.ext
  match a with
  | ⟨0, _⟩ => show win4_10.index t (0 : Fin 2) * 256 + 1 * (j 0).val = (j 0).val; omega
  | ⟨1, _⟩ => show win4_10.index t (1 : Fin 2) * 800 + 1 * (j 1).val = (j 1).val; omega

/-- The attribute rows point t reads: rows 8t … 8t+7. -/
def attrBlk (c : Dev nD) (t : Fin cfg4.N) : Vec F S8x512 .bf16 := iblk4 V c 0 t

theorem attrBlk_apply (c : Dev nD) (t : Fin cfg4.N) (a : Fin 8) (k : Fin 512) (n : Fin 200) (hn : n.val = 8 * t.val + a.val) :
    attrBlk V c t (ix2 a k) = V c main_v75 (ix2 n k) := by
  obtain ⟨e0, e1⟩ := idx4_0 t
  show V c main_v75 (((cfg4.win 0).blk t).view.emb (ix2 a k)) = V c main_v75 (ix2 n k)
  congr 1
  funext ax; apply Fin.ext
  match ax with
  | ⟨0, _⟩ => show win4_0.index t (0 : Fin 2) * 8 + 1 * a.val = n.val; omega
  | ⟨1, _⟩ => show win4_0.index t (1 : Fin 2) * 512 + 1 * k.val = k.val; omega

/-- The point whose block holds row n of the output's middle axis. -/
def ptOf (i : S256x200x512.Idx) : Fin cfg4.N := ⟨(i 1).val / 8, by
  have h : (i 1).val < 200 := (i 1).isLt
  have e : cfg4.N = 25 := N_4
  omega⟩

/-- The body's result on an attribute block and the ten whole inputs. -/
def body4 (c : Dev nD) (X0 : Vec F S8x512 .bf16) : Vec F S256x8x512 .f32 :=
  out4_11 X0 (V c main_v61) (V c main_v65) (V c main_v67) (V c main_v69) (V c main_v79) (V c main_v71) (V c main_v72) (V c main_v73) (V c main_v74) (V c main_v78)

theorem body4_eq (c : Dev nD) (X0 : Vec F S8x512 .bf16) : out4_11 X0 (V c main_v61) (V c main_v65) (V c main_v67) (V c main_v69) (V c main_v79) (V c main_v71) (V c main_v72) (V c main_v73) (V c main_v74) (V c main_v78) = body4 V c X0 := rfl

/-- The output array as one function of its index: the body's result at the index's point. -/
def G (c : Dev nD) : S256x200x512.Idx → Elt F .f32 := fun i =>
  body4 V c (attrBlk V c (ptOf i)) (ix3 (i 0) (⟨(i 1).val % 8, Nat.mod_lt _ (by decide)⟩ : Fin 8) (i 2))

theorem flushed4 (c : Dev nD) (t : Fin cfg4.N) :
    (dat4 V c).flushed 11 t = ((cfg4.win 11).blk t).view.read (Elt F) (G V c) := by
  show (cfg4.win 11).cut (grid4.coords t) ((dat4 V c).after 11 t) = _
  rw [after4_11, iblk4_1, iblk4_2, iblk4_3, iblk4_4, iblk4_5, iblk4_6, iblk4_7, iblk4_8, iblk4_9, iblk4_10, body4_eq]
  unfold G
  generalize body4 V c = B
  obtain ⟨e0, e1, e2⟩ := idx4_11 t
  funext j
  have ht : t.val < 25 := by have h := t.isLt; have e : cfg4.N = 25 := N_4; omega
  have hj1 : (j 1).val < 8 := (j 1).isLt
  have hemb1 : ((((cfg4.win 11).blk t).view.emb j) 1).val = 8 * t.val + (j 1).val := by
    show win4_11.index t (1 : Fin 3) * 8 + 1 * (j 1).val = _; omega
  have hemb0 : ((((cfg4.win 11).blk t).view.emb j) 0).val = (j 0).val := by
    show win4_11.index t (0 : Fin 3) * 256 + 1 * (j 0).val = _; omega
  have hemb2 : ((((cfg4.win 11).blk t).view.emb j) 2).val = (j 2).val := by
    show win4_11.index t (2 : Fin 3) * 512 + 1 * (j 2).val = _; omega
  have hpt : ptOf (((cfg4.win 11).blk t).view.emb j) = t := Fin.ext (by
    show ((((cfg4.win 11).blk t).view.emb j) 1).val / 8 = t.val; rw [hemb1]; omega)
  show B (iblk4 V c 0 t) j = B (attrBlk V c (ptOf (((cfg4.win 11).blk t).view.emb j))) _
  rw [hpt]
  show B (iblk4 V c 0 t) j = B (iblk4 V c 0 t) _
  congr 1
  funext ax; apply Fin.ext
  match ax with
  | ⟨0, _⟩ => exact hemb0.symm
  | ⟨1, _⟩ => show (j 1).val = ((((cfg4.win 11).blk t).view.emb j) 1).val % 8; rw [hemb1]; omega
  | ⟨2, _⟩ => exact hemb2.symm

theorem mem_blk4 (t : Fin cfg4.N) (i : S256x200x512.Idx) :
    i ∈ ((cfg4.win 11).blk t).view.set ↔ ∀ a : Fin 3, win4_11.index t a * S256x8x512.size a ≤ (i a).val ∧ (i a).val < win4_11.index t a * S256x8x512.size a + S256x8x512.size a := by
  show i ∈ ((View.whole main_v80).slice (win4_11.rect t)).set ↔ _
  rw [View.set_slice_whole, Rect.mem_set_unit]
  exact Iff.rfl

/-- The output array after the region. -/
theorem arr4 (c : Dev nD) : (dat4 V c).arrAt 11 cfg4.N = G V c :=
  (dat4 V c).arrAt_eq_of_cover 11 _ (fun t _ => flushed4 V c t) (fun i => by
    have h0 : (i 0).val < 256 := (i 0).isLt
    have h1 : (i 1).val < 200 := (i 1).isLt
    have h2 : (i 2).val < 512 := (i 2).isLt
    refine ⟨ptOf i, flush4_11 (ptOf i), ?_⟩
    rw [mem_blk4]
    obtain ⟨e0, e1, e2⟩ := idx4_11 (ptOf i)
    have hp : (ptOf i).val = (i 1).val / 8 := rfl
    intro a
    match a with
    | ⟨0, _⟩ => show win4_11.index (ptOf i) (0 : Fin 3) * 256 ≤ (i 0).val ∧ (i 0).val < win4_11.index (ptOf i) (0 : Fin 3) * 256 + 256; omega
    | ⟨1, _⟩ => show win4_11.index (ptOf i) (1 : Fin 3) * 8 ≤ (i 1).val ∧ (i 1).val < win4_11.index (ptOf i) (1 : Fin 3) * 8 + 8; omega
    | ⟨2, _⟩ => show win4_11.index (ptOf i) (2 : Fin 3) * 512 ≤ (i 2).val ∧ (i 2).val < win4_11.index (ptOf i) (2 : Fin 3) * 512 + 512; omega)

end Cert.KernelIdeal.Region4Array

end
-- ==== Proof.KScoreReads.lean ====
/-
  Two readings on the idealized kernel program's side.  The score result is the last region's output array cut to its
  first 500 object lanes and regrouped to [256, 100000]: entry (b, a · 500 + o) is the array's entry (b, a, o).  The
  object half's product array is the plain product of the two arrays its region finds.
-/
import proofs.«101777_j1108101562624_2_alg».proof.Proof.Gen.KernelIdeal.Frame
import proofs.«101777_j1108101562624_2_alg».proof.Proof.LibStretch
import proofs.«101777_j1108101562624_2_alg».proof.Proof.RegionArrays
import proofs.«101777_j1108101562624_2_alg».proof.Proof.SageBody
import Idealize.ShloMosaic.Lib.Pipeline.Value

set_option maxRecDepth 16384

noncomputable section

namespace Cert.KernelIdeal.KScoreReads

open Idealize.ShloMosaic Idealize.ShloMosaic.TcCoe Idealize.ShloMosaic.ValueIdx
open Cert.KernelIdeal Cert.KernelIdeal.Gen
open scoped BigOperators

variable (m : (ℓ : Loc nD τ sig) → Buf (Elt Ideal) ℓ) (ρ : Dev nD → PrngReg) (c : Dev nD)

/-- The zero offsets of a whole-array access. -/
theorem hz2 : (![0, 0] : Fin 2 → Nat) = fun _ => 0 := funext fun a => by fin_cases a <;> rfl

/-! ## Two layout readings -/

/-- A rank-three array cut along its last axis from 0 reads, at `(p, q, e)`, the source at `(p, q, e)`. -/
theorem slice3_last_apply {α : Type} {n0 n1 n2 k : ℕ} (X : (⟨3, ![n0, n1, n2]⟩ : Shape).Idx → α)
    (h : (⟨3, ![n0, n1, n2]⟩ : Shape).Slices ![0, 0, 0] ⟨3, ![n0, n1, k]⟩)
    (p : Fin n0) (q : Fin n1) (e : Fin k) (e' : Fin n2) (he : e'.val = e.val) :
    extractStridedSlice ⟨3, ![n0, n1, k]⟩ ![0, 0, 0] X h (ix3 p q e) = X (ix3 p q e') :=
  extractStridedSlice_apply _ _ _ _ _ (fun ax => by
    match ax with
    | ⟨0, _⟩ => exact (Nat.zero_add _).symm
    | ⟨1, _⟩ => exact (Nat.zero_add _).symm
    | ⟨2, _⟩ => exact he.trans (Nat.zero_add _).symm)

/-- The two trailing axes of an `[a, b, d]` array merged into `c = b · d` columns: entry `(p, q · d + k)` of the matrix is
    entry `(p, q, k)`. -/
theorem shapeCast_abd_ac_apply {α : Type} {a b c d : ℕ} (x : (⟨3, ![a, b, d]⟩ : Shape).Idx → α)
    (h : (⟨3, ![a, b, d]⟩ : Shape).ShapeCasts ⟨2, ![a, c]⟩) (hc : c = b * d) (p : Fin a) (q : Fin b) (k : Fin d) (r : Fin c)
    (hr : r.val = q.val * d + k.val) : shapeCast ⟨2, ![a, c]⟩ x h (ix2 p r) = x (ix3 p q k) :=
  shapeCast_apply x h _ _ (by
    rw [Shape.rowMajor_val_two, Shape.rowMajor_val_three]
    show (p.val * b + q.val) * d + k.val = p.val * c + r.val
    rw [hr, hc]; ring)

/-! ## The score result -/

/-- The score result: the last region's output array cut to its first 500 object lanes and regrouped. -/
theorem scores_eq : (W24 m ρ c (Proc.devRef .tc main_v82) : S256x100000.Idx → EReal)
    = shapeCast S256x100000
        (extractStridedSlice S256x200x500 ![0, 0, 0] (W23 m ρ c (Proc.devRef .tc main_v80) : S256x200x512.Idx → EReal)
          slices_S256x200x512_S256x200x500_0_0_0)
        shapeCasts_S256x200x500_S256x100000 := by
  show StableHlo.after hostOps5 (W23 m ρ c) (Proc.devRef .tc main_v82) = _
  read_stretch_small

/-- Entry (b, a · 500 + o) of the score result is entry (b, a, o) of the last region's output array. -/
theorem scores_apply (b : Fin 256) (a : Fin 200) (o : Fin 500) :
    (W24 m ρ c (Proc.devRef .tc main_v82) : S256x100000.Idx → EReal)
        (ix2 b (⟨a.val * 500 + o.val, by have := a.isLt; have := o.isLt; omega⟩ : Fin 100000))
      = (W23 m ρ c (Proc.devRef .tc main_v80) : S256x200x512.Idx → EReal)
        (ix3 b a (⟨o.val, by have := o.isLt; omega⟩ : Fin 512)) := by
  refine (congrFun (scores_eq m ρ c) _).trans ?_
  exact (shapeCast_abd_ac_apply _ _ rfl b a o _ rfl).trans (slice3_last_apply _ _ b a o _ rfl)

/-! ## The object half's product -/

/-- The product region's one whole-block store leaves its body's value on the whole blocks. -/
theorem out3_eq {F : FTy → Type} [FloatOps F] [Named F] (x0 : Vec F S512x512 .bf16) (x1 : Vec F S512x1024 .bf16) :
    out3_2 x0 x1 = k3_pay1 x0 x1 := by
  unfold out3_2
  rw [View.canon_unit_zero hz2]
  simp only [View.ld_unit_zero (S := S512x512) hz2, View.ld_unit_zero (S := S512x1024) hz2]

/-- The object half's product array after its region: the plain product of the two arrays the region finds (`A`, `B`
    name them at the extended reals, so that the products and the sum are the extended reals'). -/
theorem objProduct_apply (p : Fin 512) (j : Fin 1024) (A : S512x512.Idx → EReal) (B : S512x1024.Idx → EReal)
    (hA : A = V21 m ρ c main_v77) (hB : B = V21 m ρ c main_v63) :
    (V22 m ρ c main_v79 (ix2 p j) : EReal) = ∑ k : Fin 512, A (ix2 p k) * B (ix2 k j) := by
  subst hA hB
  show W22 m ρ c (Proc.devRef .tc main_v79) (ix2 p j) = _
  rw [W22_arr m ρ c 2, Cert.KernelIdeal.RegionArrays.arr3 (V21 m ρ) c, out3_eq]
  exact Cert.SageBody.objHalf_apply _ _ p j

end Cert.KernelIdeal.KScoreReads

end
-- ==== Proof.PadRead.lean ====
/-
  A zero-extended array read at coordinates.

  Padding an array after its end along one axis gives an array that, at an index whose coordinate on that axis is
  below the operand's extent, holds the operand's entry at the same coordinates, and at every other index holds the
  padding value.  Stated for a vector and for a matrix padded along its rows or along its columns, at explicit
  coordinates; together with the padding value "the integer zero converted to a float", which is the float zero.
-/
import Idealize.ShloMosaic.Lib.KernelVsHost
import Idealize.ShloMosaic.Lib.ValueLayout

noncomputable section

namespace Cert.PadRead

open Idealize.ShloMosaic Idealize.ShloMosaic.ValueIdx

variable {α : Type}

/-- A vector of `n` entries extended to `N` lanes: entry `j` is the operand's for `j < n`, the padding value after. -/
theorem pad1_hi_apply {n p N : ℕ} (X : (⟨1, ![n]⟩ : Shape).Idx → α) {u : Shape} (v : u.Idx → α)
    (h : (⟨1, ![n]⟩ : Shape).Pads ![0] ![p] ![0] ⟨1, ![N]⟩) (hu : 0 < u.numel) (j : Fin N) :
    pad ⟨1, ![N]⟩ ![0] ![p] ![0] X v h hu (ix1 j)
      = if hj : j.val < n then X (ix1 ⟨j.val, hj⟩) else v (Shape.Idx.first hu) := by
  by_cases hj : j.val < n
  · rw [dif_pos hj]
    exact pad_apply_of_inside _ _ _ X v h hu (ix1 j) (ix1 ⟨j.val, hj⟩) (fun a => by
      match a with
      | ⟨0, _⟩ => show j.val = 0 + j.val * (0 + 1); omega)
  · rw [dif_neg hj]
    exact pad_apply_of_not_inside _ _ _ X v h hu (ix1 j) (0 : Fin 1) (fun hh => hj (by
      have h3 := hh.2.2
      change (j.val - 0) / 1 < n at h3
      omega))

/-- A matrix extended along its columns from `n1` to `N`: entry `(a, j)` is the operand's for `j < n1`, the padding
    value after. -/
theorem pad2_cols_apply {n0 n1 p N : ℕ} (X : (⟨2, ![n0, n1]⟩ : Shape).Idx → α) {u : Shape} (v : u.Idx → α)
    (h : (⟨2, ![n0, n1]⟩ : Shape).Pads ![0, 0] ![0, p] ![0, 0] ⟨2, ![n0, N]⟩) (hu : 0 < u.numel)
    (a : Fin n0) (j : Fin N) :
    pad ⟨2, ![n0, N]⟩ ![0, 0] ![0, p] ![0, 0] X v h hu (ix2 a j)
      = if hj : j.val < n1 then X (ix2 a ⟨j.val, hj⟩) else v (Shape.Idx.first hu) := by
  by_cases hj : j.val < n1
  · rw [dif_pos hj]
    exact pad_apply_of_inside _ _ _ X v h hu (ix2 a j) (ix2 a ⟨j.val, hj⟩) (fun ax => by
      match ax with
      | ⟨0, _⟩ => show a.val = 0 + a.val * (0 + 1); omega
      | ⟨1, _⟩ => show j.val = 0 + j.val * (0 + 1); omega)
  · rw [dif_neg hj]
    exact pad_apply_of_not_inside _ _ _ X v h hu (ix2 a j) (1 : Fin 2) (fun hh => hj (by
      have h3 := hh.2.2
      change (j.val - 0) / 1 < n1 at h3
      omega))

/-- A matrix extended along its rows from `n0` to `N`: entry `(j, e)` is the operand's for `j < n0`, the padding
    value after. -/
theorem pad2_rows_apply {n0 n1 p N : ℕ} (X : (⟨2, ![n0, n1]⟩ : Shape).Idx → α) {u : Shape} (v : u.Idx → α)
    (h : (⟨2, ![n0, n1]⟩ : Shape).Pads ![0, 0] ![p, 0] ![0, 0] ⟨2, ![N, n1]⟩) (hu : 0 < u.numel)
    (j : Fin N) (e : Fin n1) :
    pad ⟨2, ![N, n1]⟩ ![0, 0] ![p, 0] ![0, 0] X v h hu (ix2 j e)
      = if hj : j.val < n0 then X (ix2 ⟨j.val, hj⟩ e) else v (Shape.Idx.first hu) := by
  by_cases hj : j.val < n0
  · rw [dif_pos hj]
    exact pad_apply_of_inside _ _ _ X v h hu (ix2 j e) (ix2 ⟨j.val, hj⟩ e) (fun ax => by
      match ax with
      | ⟨0, _⟩ => show j.val = 0 + j.val * (0 + 1); omega
      | ⟨1, _⟩ => show e.val = 0 + e.val * (0 + 1); omega)
  · rw [dif_neg hj]
    exact pad_apply_of_not_inside _ _ _ X v h hu (ix2 j e) (0 : Fin 2) (fun hh => hj (by
      have h3 := hh.2.2
      change (j.val - 0) / 1 < n0 at h3
      omega))

/-- The integer zero converted to a float is the float zero, at every index of any shape. -/
theorem sitofp_zero_apply (s : Shape) (i : s.Idx) :
    (sitofp .f32 (constantI s 32 0#32) : FVec Ideal s .f32) i = (0 : EReal) := by
  show ((((0#32 : BitVec 32).toInt : ℤ) : ℝ) : EReal) = 0
  simp

end Cert.PadRead

end
-- ==== Proof.HostGlue.lean ====
/-
  The host operations between the third region and the last two, read at an entry.

  Between the regions the program cuts the node embeddings into their first 200 rows (the attribute nodes) and the
  500 rows after them (the object nodes), cuts the first pair layer's weight into its upper and lower 512 rows, extends
  with zeros: the object rows from 500 to 512, the two weight halves and the first layer's bias, scale and shift from
  1000 to 1024 lanes, the second layer's weight from 1000 to 1024 rows; regroups vectors as one-row matrices; and
  rounds to the narrower format, which at the ideal reading changes nothing.  Each buffer a later region reads is
  followed back through the stretches that do not write it to the stretch that does, and read there at coordinates.
-/
import proofs.«101777_j1108101562624_2_alg».proof.Proof.Gen.KernelIdeal.Frame
import proofs.«101777_j1108101562624_2_alg».proof.Proof.LibStretch
import proofs.«101777_j1108101562624_2_alg».proof.Proof.PadRead
import Idealize.ShloMosaic.Lib.KernelVsHost
import Idealize.ShloMosaic.Lib.ValueLayout

set_option maxRecDepth 16384

noncomputable section

namespace Cert.KernelIdeal.HostGlue

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg) (c : Dev nD)

/-- Rounding to the narrower format is the identity at the ideal reading. -/
theorem truncf_apply {s : Shape} (x : FVec Ideal s .f32) (h : FTy.bf16.bits < FTy.f32.bits) (i : s.Idx) :
    truncf .bf16 x h i = x i := rfl

/-! ## What each stretch writes, over the contents it is entered with -/

theorem v56_W7 : @Eq (S200x512.Idx → Elt Ideal .f32) (W7 m ρ c (Proc.devRef .tc main_v56)) (extractStridedSlice S200x512 ![0, 0] (W6 m ρ c (Proc.devRef .tc main_v45) : S700x512.Idx → Elt Ideal .f32) slices_S700x512_S200x512_0_0) := by
  show StableHlo.after hostOps3 (W6 m ρ c) (Proc.devRef .tc main_v56) = _
  read_stretch

theorem v57_W7 : @Eq (S500x512.Idx → Elt Ideal .f32) (W7 m ρ c (Proc.devRef .tc main_v57)) (extractStridedSlice S500x512 ![200, 0] (W6 m ρ c (Proc.devRef .tc main_v45) : S700x512.Idx → Elt Ideal .f32) slices_S700x512_S500x512_200_0) := by
  show StableHlo.after hostOps3 (W6 m ρ c) (Proc.devRef .tc main_v57) = _
  read_stretch

theorem v58_W7 : @Eq (S512x1000.Idx → Elt Ideal .f32) (W7 m ρ c (Proc.devRef .tc main_v58)) (extractStridedSlice S512x1000 ![0, 0] (W6 m ρ c (Proc.devRef .tc main_arg21) : S1024x1000.Idx → Elt Ideal .f32) slices_S1024x1000_S512x1000_0_0) := by
  show StableHlo.after hostOps3 (W6 m ρ c) (Proc.devRef .tc main_v58) = _
  read_stretch

theorem v59_W7 : @Eq (S512x1000.Idx → Elt Ideal .f32) (W7 m ρ c (Proc.devRef .tc main_v59)) (extractStridedSlice S512x1000 ![512, 0] (W6 m ρ c (Proc.devRef .tc main_arg21) : S1024x1000.Idx → Elt Ideal .f32) slices_S1024x1000_S512x1000_512_0) := by
  show StableHlo.after hostOps3 (W6 m ρ c) (Proc.devRef .tc main_v59) = _
  read_stretch

theorem c10_W7 : @Eq (IVec S_ 32) (W7 m ρ c (Proc.devRef .tc main_c_10)) (constantI S_ 32 0#32) := by
  show StableHlo.after hostOps3 (W6 m ρ c) (Proc.devRef .tc main_c_10) = _
  read_stretch

theorem v60_W8 : @Eq (S512x1024.Idx → Elt Ideal .f32) (W8 m ρ c (Proc.devRef .tc main_v60)) (pad S512x1024 ![0, 0] ![0, 24] ![0, 0] (W7 m ρ c (Proc.devRef .tc main_v58) : S512x1000.Idx → Elt Ideal .f32) (sitofp (F := Ideal) .f32 (W7 m ρ c (Proc.devRef .tc main_c_10) : IVec S_ 32)) pads_S512x1000_S512x1024_000_0240 h_S_) := by
  show StableHlo.after hostOps3_1 (W7 m ρ c) (Proc.devRef .tc main_v60) = _
  read_stretch

theorem v61_W9 : @Eq (S512x1024.Idx → Elt Ideal .bf16) (W9 m ρ c (Proc.devRef .tc main_v61)) (truncf (F := Ideal) (s := S512x1024) (φ := .f32) .bf16 (W8 m ρ c (Proc.devRef .tc main_v60) : S512x1024.Idx → Elt Ideal .f32) bitsLt_bf16_f32) := by
  show StableHlo.after hostOps3_2 (W8 m ρ c) (Proc.devRef .tc main_v61) = _
  read_stretch

theorem c11_W9 : @Eq (IVec S_ 32) (W9 m ρ c (Proc.devRef .tc main_c_11)) (constantI S_ 32 0#32) := by
  show StableHlo.after hostOps3_2 (W8 m ρ c) (Proc.devRef .tc main_c_11) = _
  read_stretch

theorem v62_W10 : @Eq (S512x1024.Idx → Elt Ideal .f32) (W10 m ρ c (Proc.devRef .tc main_v62)) (pad S512x1024 ![0, 0] ![0, 24] ![0, 0] (W9 m ρ c (Proc.devRef .tc main_v59) : S512x1000.Idx → Elt Ideal .f32) (sitofp (F := Ideal) .f32 (W9 m ρ c (Proc.devRef .tc main_c_11) : IVec S_ 32)) pads_S512x1000_S512x1024_000_0240 h_S_) := by
  show StableHlo.after hostOps3_3 (W9 m ρ c) (Proc.devRef .tc main_v62) = _
  read_stretch

theorem v63_W11 : @Eq (S512x1024.Idx → Elt Ideal .bf16) (W11 m ρ c (Proc.devRef .tc main_v63)) (truncf (F := Ideal) (s := S512x1024) (φ := .f32) .bf16 (W10 m ρ c (Proc.devRef .tc main_v62) : S512x1024.Idx → Elt Ideal .f32) bitsLt_bf16_f32) := by
  show StableHlo.after hostOps3_4 (W10 m ρ c) (Proc.devRef .tc main_v63) = _
  read_stretch

theorem c12_W11 : @Eq (IVec S_ 32) (W11 m ρ c (Proc.devRef .tc main_c_12)) (constantI S_ 32 0#32) := by
  show StableHlo.after hostOps3_4 (W10 m ρ c) (Proc.devRef .tc main_c_12) = _
  read_stretch

theorem v64_W12 : @Eq (S1024.Idx → Elt Ideal .f32) (W12 m ρ c (Proc.devRef .tc main_v64)) (pad S1024 ![0] ![24] ![0] (W11 m ρ c (Proc.devRef .tc main_arg22) : S1000.Idx → Elt Ideal .f32) (sitofp (F := Ideal) .f32 (W11 m ρ c (Proc.devRef .tc main_c_12) : IVec S_ 32)) pads_S1000_S1024_0240 h_S_) := by
  show StableHlo.after hostOps3_5 (W11 m ρ c) (Proc.devRef .tc main_v64) = _
  read_stretch

theorem v65_W13 : @Eq (S1x1024.Idx → Elt Ideal .f32) (W13 m ρ c (Proc.devRef .tc main_v65)) (shapeCast S1x1024 (W12 m ρ c (Proc.devRef .tc main_v64) : S1024.Idx → Elt Ideal .f32) shapeCasts_S1024_S1x1024) := by
  show StableHlo.after hostOps3_6 (W12 m ρ c) (Proc.devRef .tc main_v65) = _
  read_stretch

theorem c13_W13 : @Eq (IVec S_ 32) (W13 m ρ c (Proc.devRef .tc main_c_13)) (constantI S_ 32 0#32) := by
  show StableHlo.after hostOps3_6 (W12 m ρ c) (Proc.devRef .tc main_c_13) = _
  read_stretch

theorem v66_W14 : @Eq (S1024.Idx → Elt Ideal .f32) (W14 m ρ c (Proc.devRef .tc main_v66)) (pad S1024 ![0] ![24] ![0] (W13 m ρ c (Proc.devRef .tc main_arg23) : S1000.Idx → Elt Ideal .f32) (sitofp (F := Ideal) .f32 (W13 m ρ c (Proc.devRef .tc main_c_13) : IVec S_ 32)) pads_S1000_S1024_0240 h_S_) := by
  show StableHlo.after hostOps3_7 (W13 m ρ c) (Proc.devRef .tc main_v66) = _
  read_stretch

theorem v67_W15 : @Eq (S1x1024.Idx → Elt Ideal .f32) (W15 m ρ c (Proc.devRef .tc main_v67)) (shapeCast S1x1024 (W14 m ρ c (Proc.devRef .tc main_v66) : S1024.Idx → Elt Ideal .f32) shapeCasts_S1024_S1x1024) := by
  show StableHlo.after hostOps3_8 (W14 m ρ c) (Proc.devRef .tc main_v67) = _
  read_stretch

theorem c14_W15 : @Eq (IVec S_ 32) (W15 m ρ c (Proc.devRef .tc main_c_14)) (constantI S_ 32 0#32) := by
  show StableHlo.after hostOps3_8 (W14 m ρ c) (Proc.devRef .tc main_c_14) = _
  read_stretch

theorem v68_W16 : @Eq (S1024.Idx → Elt Ideal .f32) (W16 m ρ c (Proc.devRef .tc main_v68)) (pad S1024 ![0] ![24] ![0] (W15 m ρ c (Proc.devRef .tc main_arg24) : S1000.Idx → Elt Ideal .f32) (sitofp (F := Ideal) .f32 (W15 m ρ c (Proc.devRef .tc main_c_14) : IVec S_ 32)) pads_S1000_S1024_0240 h_S_) := by
  show StableHlo.after hostOps3_9 (W15 m ρ c) (Proc.devRef .tc main_v68) = _
  read_stretch

theorem v69_W17 : @Eq (S1x1024.Idx → Elt Ideal .f32) (W17 m ρ c (Proc.devRef .tc main_v69)) (shapeCast S1x1024 (W16 m ρ c (Proc.devRef .tc main_v68) : S1024.Idx → Elt Ideal .f32) shapeCasts_S1024_S1x1024) := by
  show StableHlo.after hostOps3_10 (W16 m ρ c) (Proc.devRef .tc main_v69) = _
  read_stretch

theorem c15_W17 : @Eq (IVec S_ 32) (W17 m ρ c (Proc.devRef .tc main_c_15)) (constantI S_ 32 0#32) := by
  show StableHlo.after hostOps3_10 (W16 m ρ c) (Proc.devRef .tc main_c_15) = _
  read_stretch

theorem v70_W18 : @Eq (S1024x800.Idx → Elt Ideal .f32) (W18 m ρ c (Proc.devRef .tc main_v70)) (pad S1024x800 ![0, 0] ![24, 0] ![0, 0] (W17 m ρ c (Proc.devRef .tc main_arg25) : S1000x800.Idx → Elt Ideal .f32) (sitofp (F := Ideal) .f32 (W17 m ρ c (Proc.devRef .tc main_c_15) : IVec S_ 32)) pads_S1000x800_S1024x800_0240_000 h_S_) := by
  show StableHlo.after hostOps3_11 (W17 m ρ c) (Proc.devRef .tc main_v70) = _
  read_stretch

theorem v71_W19 : @Eq (S1024x800.Idx → Elt Ideal .bf16) (W19 m ρ c (Proc.devRef .tc main_v71)) (truncf (F := Ideal) (s := S1024x800) (φ := .f32) .bf16 (W18 m ρ c (Proc.devRef .tc main_v70) : S1024x800.Idx → Elt Ideal .f32) bitsLt_bf16_f32) := by
  show StableHlo.after hostOps3_12 (W18 m ρ c) (Proc.devRef .tc main_v71) = _
  read_stretch

theorem v72_W19 : @Eq (S1x800.Idx → Elt Ideal .f32) (W19 m ρ c (Proc.devRef .tc main_v72)) (shapeCast S1x800 (W18 m ρ c (Proc.devRef .tc main_arg26) : S800.Idx → Elt Ideal .f32) shapeCasts_S800_S1x800) := by
  show StableHlo.after hostOps3_12 (W18 m ρ c) (Proc.devRef .tc main_v72) = _
  read_stretch

theorem v73_W19 : @Eq (S1x800.Idx → Elt Ideal .f32) (W19 m ρ c (Proc.devRef .tc main_v73)) (shapeCast S1x800 (W18 m ρ c (Proc.devRef .tc main_arg27) : S800.Idx → Elt Ideal .f32) shapeCasts_S800_S1x800) := by
  show StableHlo.after hostOps3_12 (W18 m ρ c) (Proc.devRef .tc main_v73) = _
  read_stretch

theorem v74_W19 : @Eq (S1x800.Idx → Elt Ideal .f32) (W19 m ρ c (Proc.devRef .tc main_v74)) (shapeCast S1x800 (W18 m ρ c (Proc.devRef .tc main_arg28) : S800.Idx → Elt Ideal .f32) shapeCasts_S800_S1x800) := by
  show StableHlo.after hostOps3_12 (W18 m ρ c) (Proc.devRef .tc main_v74) = _
  read_stretch

theorem v75_W19 : @Eq (S200x512.Idx → Elt Ideal .bf16) (W19 m ρ c (Proc.devRef .tc main_v75)) (truncf (F := Ideal) (s := S200x512) (φ := .f32) .bf16 (W18 m ρ c (Proc.devRef .tc main_v56) : S200x512.Idx → Elt Ideal .f32) bitsLt_bf16_f32) := by
  show StableHlo.after hostOps3_12 (W18 m ρ c) (Proc.devRef .tc main_v75) = _
  read_stretch

theorem c16_W19 : @Eq (IVec S_ 32) (W19 m ρ c (Proc.devRef .tc main_c_16)) (constantI S_ 32 0#32) := by
  show StableHlo.after hostOps3_12 (W18 m ρ c) (Proc.devRef .tc main_c_16) = _
  read_stretch

theorem v76_W20 : @Eq (S512x512.Idx → Elt Ideal .f32) (W20 m ρ c (Proc.devRef .tc main_v76)) (pad S512x512 ![0, 0] ![12, 0] ![0, 0] (W19 m ρ c (Proc.devRef .tc main_v57) : S500x512.Idx → Elt Ideal .f32) (sitofp (F := Ideal) .f32 (W19 m ρ c (Proc.devRef .tc main_c_16) : IVec S_ 32)) pads_S500x512_S512x512_0120_000 h_S_) := by
  show StableHlo.after hostOps3_13 (W19 m ρ c) (Proc.devRef .tc main_v76) = _
  read_stretch

theorem v77_W21 : @Eq (S512x512.Idx → Elt Ideal .bf16) (W21 m ρ c (Proc.devRef .tc main_v77)) (truncf (F := Ideal) (s := S512x512) (φ := .f32) .bf16 (W20 m ρ c (Proc.devRef .tc main_v76) : S512x512.Idx → Elt Ideal .f32) bitsLt_bf16_f32) := by
  show StableHlo.after hostOps3_14 (W20 m ρ c) (Proc.devRef .tc main_v77) = _
  read_stretch

theorem v78_W21 : @Eq (S256x800.Idx → Elt Ideal .bf16) (W21 m ρ c (Proc.devRef .tc main_v78)) (truncf (F := Ideal) (s := S256x800) (φ := .f32) .bf16 (W20 m ρ c (Proc.devRef .tc main_v55) : S256x800.Idx → Elt Ideal .f32) bitsLt_bf16_f32) := by
  show StableHlo.after hostOps3_14 (W20 m ρ c) (Proc.devRef .tc main_v78) = _
  read_stretch

/-! ## Buffers carried unchanged across the stretches that do not write them -/

theorem v75_W21_W19 : W21 m ρ c (Proc.devRef .tc main_v75) = W19 m ρ c (Proc.devRef .tc main_v75) :=
  calc W21 m ρ c (Proc.devRef .tc main_v75)
    _ = W20 m ρ c (Proc.devRef .tc main_v75) := by unwritten hostOps3_14
    _ = W19 m ρ c (Proc.devRef .tc main_v75) := by unwritten hostOps3_13

theorem v56_W18_W7 : W18 m ρ c (Proc.devRef .tc main_v56) = W7 m ρ c (Proc.devRef .tc main_v56) :=
  calc W18 m ρ c (Proc.devRef .tc main_v56)
    _ = W17 m ρ c (Proc.devRef .tc main_v56) := by unwritten hostOps3_11
    _ = W16 m ρ c (Proc.devRef .tc main_v56) := by unwritten hostOps3_10
    _ = W15 m ρ c (Proc.devRef .tc main_v56) := by unwritten hostOps3_9
    _ = W14 m ρ c (Proc.devRef .tc main_v56) := by unwritten hostOps3_8
    _ = W13 m ρ c (Proc.devRef .tc main_v56) := by unwritten hostOps3_7
    _ = W12 m ρ c (Proc.devRef .tc main_v56) := by unwritten hostOps3_6
    _ = W11 m ρ c (Proc.devRef .tc main_v56) := by unwritten hostOps3_5
    _ = W10 m ρ c (Proc.devRef .tc main_v56) := by unwritten hostOps3_4
    _ = W9 m ρ c (Proc.devRef .tc main_v56) := by unwritten hostOps3_3
    _ = W8 m ρ c (Proc.devRef .tc main_v56) := by unwritten hostOps3_2
    _ = W7 m ρ c (Proc.devRef .tc main_v56) := by unwritten hostOps3_1

theorem v57_W19_W7 : W19 m ρ c (Proc.devRef .tc main_v57) = W7 m ρ c (Proc.devRef .tc main_v57) :=
  calc W19 m ρ c (Proc.devRef .tc main_v57)
    _ = W18 m ρ c (Proc.devRef .tc main_v57) := by unwritten hostOps3_12
    _ = W17 m ρ c (Proc.devRef .tc main_v57) := by unwritten hostOps3_11
    _ = W16 m ρ c (Proc.devRef .tc main_v57) := by unwritten hostOps3_10
    _ = W15 m ρ c (Proc.devRef .tc main_v57) := by unwritten hostOps3_9
    _ = W14 m ρ c (Proc.devRef .tc main_v57) := by unwritten hostOps3_8
    _ = W13 m ρ c (Proc.devRef .tc main_v57) := by unwritten hostOps3_7
    _ = W12 m ρ c (Proc.devRef .tc main_v57) := by unwritten hostOps3_6
    _ = W11 m ρ c (Proc.devRef .tc main_v57) := by unwritten hostOps3_5
    _ = W10 m ρ c (Proc.devRef .tc main_v57) := by unwritten hostOps3_4
    _ = W9 m ρ c (Proc.devRef .tc main_v57) := by unwritten hostOps3_3
    _ = W8 m ρ c (Proc.devRef .tc main_v57) := by unwritten hostOps3_2
    _ = W7 m ρ c (Proc.devRef .tc main_v57) := by unwritten hostOps3_1

theorem v61_W21_W9 : W21 m ρ c (Proc.devRef .tc main_v61) = W9 m ρ c (Proc.devRef .tc main_v61) :=
  calc W21 m ρ c (Proc.devRef .tc main_v61)
    _ = W20 m ρ c (Proc.devRef .tc main_v61) := by unwritten hostOps3_14
    _ = W19 m ρ c (Proc.devRef .tc main_v61) := by unwritten hostOps3_13
    _ = W18 m ρ c (Proc.devRef .tc main_v61) := by unwritten hostOps3_12
    _ = W17 m ρ c (Proc.devRef .tc main_v61) := by unwritten hostOps3_11
    _ = W16 m ρ c (Proc.devRef .tc main_v61) := by unwritten hostOps3_10
    _ = W15 m ρ c (Proc.devRef .tc main_v61) := by unwritten hostOps3_9
    _ = W14 m ρ c (Proc.devRef .tc main_v61) := by unwritten hostOps3_8
    _ = W13 m ρ c (Proc.devRef .tc main_v61) := by unwritten hostOps3_7
    _ = W12 m ρ c (Proc.devRef .tc main_v61) := by unwritten hostOps3_6
    _ = W11 m ρ c (Proc.devRef .tc main_v61) := by unwritten hostOps3_5
    _ = W10 m ρ c (Proc.devRef .tc main_v61) := by unwritten hostOps3_4
    _ = W9 m ρ c (Proc.devRef .tc main_v61) := by unwritten hostOps3_3

theorem v63_W21_W11 : W21 m ρ c (Proc.devRef .tc main_v63) = W11 m ρ c (Proc.devRef .tc main_v63) :=
  calc W21 m ρ c (Proc.devRef .tc main_v63)
    _ = W20 m ρ c (Proc.devRef .tc main_v63) := by unwritten hostOps3_14
    _ = W19 m ρ c (Proc.devRef .tc main_v63) := by unwritten hostOps3_13
    _ = W18 m ρ c (Proc.devRef .tc main_v63) := by unwritten hostOps3_12
    _ = W17 m ρ c (Proc.devRef .tc main_v63) := by unwritten hostOps3_11
    _ = W16 m ρ c (Proc.devRef .tc main_v63) := by unwritten hostOps3_10
    _ = W15 m ρ c (Proc.devRef .tc main_v63) := by unwritten hostOps3_9
    _ = W14 m ρ c (Proc.devRef .tc main_v63) := by unwritten hostOps3_8
    _ = W13 m ρ c (Proc.devRef .tc main_v63) := by unwritten hostOps3_7
    _ = W12 m ρ c (Proc.devRef .tc main_v63) := by unwritten hostOps3_6
    _ = W11 m ρ c (Proc.devRef .tc main_v63) := by unwritten hostOps3_5

theorem v59_W9_W7 : W9 m ρ c (Proc.devRef .tc main_v59) = W7 m ρ c (Proc.devRef .tc main_v59) :=
  calc W9 m ρ c (Proc.devRef .tc main_v59)
    _ = W8 m ρ c (Proc.devRef .tc main_v59) := by unwritten hostOps3_2
    _ = W7 m ρ c (Proc.devRef .tc main_v59) := by unwritten hostOps3_1

theorem v65_W21_W13 : W21 m ρ c (Proc.devRef .tc main_v65) = W13 m ρ c (Proc.devRef .tc main_v65) :=
  calc W21 m ρ c (Proc.devRef .tc main_v65)
    _ = W20 m ρ c (Proc.devRef .tc main_v65) := by unwritten hostOps3_14
    _ = W19 m ρ c (Proc.devRef .tc main_v65) := by unwritten hostOps3_13
    _ = W18 m ρ c (Proc.devRef .tc main_v65) := by unwritten hostOps3_12
    _ = W17 m ρ c (Proc.devRef .tc main_v65) := by unwritten hostOps3_11
    _ = W16 m ρ c (Proc.devRef .tc main_v65) := by unwritten hostOps3_10
    _ = W15 m ρ c (Proc.devRef .tc main_v65) := by unwritten hostOps3_9
    _ = W14 m ρ c (Proc.devRef .tc main_v65) := by unwritten hostOps3_8
    _ = W13 m ρ c (Proc.devRef .tc main_v65) := by unwritten hostOps3_7

theorem v67_W21_W15 : W21 m ρ c (Proc.devRef .tc main_v67) = W15 m ρ c (Proc.devRef .tc main_v67) :=
  calc W21 m ρ c (Proc.devRef .tc main_v67)
    _ = W20 m ρ c (Proc.devRef .tc main_v67) := by unwritten hostOps3_14
    _ = W19 m ρ c (Proc.devRef .tc main_v67) := by unwritten hostOps3_13
    _ = W18 m ρ c (Proc.devRef .tc main_v67) := by unwritten hostOps3_12
    _ = W17 m ρ c (Proc.devRef .tc main_v67) := by unwritten hostOps3_11
    _ = W16 m ρ c (Proc.devRef .tc main_v67) := by unwritten hostOps3_10
    _ = W15 m ρ c (Proc.devRef .tc main_v67) := by unwritten hostOps3_9

theorem v69_W21_W17 : W21 m ρ c (Proc.devRef .tc main_v69) = W17 m ρ c (Proc.devRef .tc main_v69) :=
  calc W21 m ρ c (Proc.devRef .tc main_v69)
    _ = W20 m ρ c (Proc.devRef .tc main_v69) := by unwritten hostOps3_14
    _ = W19 m ρ c (Proc.devRef .tc main_v69) := by unwritten hostOps3_13
    _ = W18 m ρ c (Proc.devRef .tc main_v69) := by unwritten hostOps3_12
    _ = W17 m ρ c (Proc.devRef .tc main_v69) := by unwritten hostOps3_11

theorem v71_W21_W19 : W21 m ρ c (Proc.devRef .tc main_v71) = W19 m ρ c (Proc.devRef .tc main_v71) :=
  calc W21 m ρ c (Proc.devRef .tc main_v71)
    _ = W20 m ρ c (Proc.devRef .tc main_v71) := by unwritten hostOps3_14
    _ = W19 m ρ c (Proc.devRef .tc main_v71) := by unwritten hostOps3_13

theorem v72_W21_W19 : W21 m ρ c (Proc.devRef .tc main_v72) = W19 m ρ c (Proc.devRef .tc main_v72) :=
  calc W21 m ρ c (Proc.devRef .tc main_v72)
    _ = W20 m ρ c (Proc.devRef .tc main_v72) := by unwritten hostOps3_14
    _ = W19 m ρ c (Proc.devRef .tc main_v72) := by unwritten hostOps3_13

theorem v73_W21_W19 : W21 m ρ c (Proc.devRef .tc main_v73) = W19 m ρ c (Proc.devRef .tc main_v73) :=
  calc W21 m ρ c (Proc.devRef .tc main_v73)
    _ = W20 m ρ c (Proc.devRef .tc main_v73) := by unwritten hostOps3_14
    _ = W19 m ρ c (Proc.devRef .tc main_v73) := by unwritten hostOps3_13

theorem v74_W21_W19 : W21 m ρ c (Proc.devRef .tc main_v74) = W19 m ρ c (Proc.devRef .tc main_v74) :=
  calc W21 m ρ c (Proc.devRef .tc main_v74)
    _ = W20 m ρ c (Proc.devRef .tc main_v74) := by unwritten hostOps3_14
    _ = W19 m ρ c (Proc.devRef .tc main_v74) := by unwritten hostOps3_13

theorem v55_W20_W6 : W20 m ρ c (Proc.devRef .tc main_v55) = W6 m ρ c (Proc.devRef .tc main_v55) :=
  calc W20 m ρ c (Proc.devRef .tc main_v55)
    _ = W19 m ρ c (Proc.devRef .tc main_v55) := by unwritten hostOps3_13
    _ = W18 m ρ c (Proc.devRef .tc main_v55) := by unwritten hostOps3_12
    _ = W17 m ρ c (Proc.devRef .tc main_v55) := by unwritten hostOps3_11
    _ = W16 m ρ c (Proc.devRef .tc main_v55) := by unwritten hostOps3_10
    _ = W15 m ρ c (Proc.devRef .tc main_v55) := by unwritten hostOps3_9
    _ = W14 m ρ c (Proc.devRef .tc main_v55) := by unwritten hostOps3_8
    _ = W13 m ρ c (Proc.devRef .tc main_v55) := by unwritten hostOps3_7
    _ = W12 m ρ c (Proc.devRef .tc main_v55) := by unwritten hostOps3_6
    _ = W11 m ρ c (Proc.devRef .tc main_v55) := by unwritten hostOps3_5
    _ = W10 m ρ c (Proc.devRef .tc main_v55) := by unwritten hostOps3_4
    _ = W9 m ρ c (Proc.devRef .tc main_v55) := by unwritten hostOps3_3
    _ = W8 m ρ c (Proc.devRef .tc main_v55) := by unwritten hostOps3_2
    _ = W7 m ρ c (Proc.devRef .tc main_v55) := by unwritten hostOps3_1
    _ = W6 m ρ c (Proc.devRef .tc main_v55) := by unwritten hostOps3

/-! ## The arguments hold what the program was launched with -/

theorem arg21_W6 : W6 m ρ c (Proc.devRef .tc main_arg21) = m ((c : Thread nD τ).loc main_arg21) :=
  calc W6 m ρ c (Proc.devRef .tc main_arg21)
    _ = W5 m ρ c (Proc.devRef .tc main_arg21) := W6_of_ne m ρ c main_arg21 (by decide)
    _ = W4 m ρ c (Proc.devRef .tc main_arg21) := by unwritten hostOps2
    _ = W3 m ρ c (Proc.devRef .tc main_arg21) := W4_of_ne m ρ c main_arg21 (by decide)
    _ = W2 m ρ c (Proc.devRef .tc main_arg21) := by unwritten hostOps1
    _ = W1 m ρ c (Proc.devRef .tc main_arg21) := W2_of_ne m ρ c main_arg21 (by decide)
    _ = W0 m ρ c (Proc.devRef .tc main_arg21) := by unwritten hostOps0
    _ = m ((c : Thread nD τ).loc main_arg21) := rfl

theorem arg22_W6 : W6 m ρ c (Proc.devRef .tc main_arg22) = m ((c : Thread nD τ).loc main_arg22) :=
  calc W6 m ρ c (Proc.devRef .tc main_arg22)
    _ = W5 m ρ c (Proc.devRef .tc main_arg22) := W6_of_ne m ρ c main_arg22 (by decide)
    _ = W4 m ρ c (Proc.devRef .tc main_arg22) := by unwritten hostOps2
    _ = W3 m ρ c (Proc.devRef .tc main_arg22) := W4_of_ne m ρ c main_arg22 (by decide)
    _ = W2 m ρ c (Proc.devRef .tc main_arg22) := by unwritten hostOps1
    _ = W1 m ρ c (Proc.devRef .tc main_arg22) := W2_of_ne m ρ c main_arg22 (by decide)
    _ = W0 m ρ c (Proc.devRef .tc main_arg22) := by unwritten hostOps0
    _ = m ((c : Thread nD τ).loc main_arg22) := rfl

theorem arg23_W6 : W6 m ρ c (Proc.devRef .tc main_arg23) = m ((c : Thread nD τ).loc main_arg23) :=
  calc W6 m ρ c (Proc.devRef .tc main_arg23)
    _ = W5 m ρ c (Proc.devRef .tc main_arg23) := W6_of_ne m ρ c main_arg23 (by decide)
    _ = W4 m ρ c (Proc.devRef .tc main_arg23) := by unwritten hostOps2
    _ = W3 m ρ c (Proc.devRef .tc main_arg23) := W4_of_ne m ρ c main_arg23 (by decide)
    _ = W2 m ρ c (Proc.devRef .tc main_arg23) := by unwritten hostOps1
    _ = W1 m ρ c (Proc.devRef .tc main_arg23) := W2_of_ne m ρ c main_arg23 (by decide)
    _ = W0 m ρ c (Proc.devRef .tc main_arg23) := by unwritten hostOps0
    _ = m ((c : Thread nD τ).loc main_arg23) := rfl

theorem arg24_W6 : W6 m ρ c (Proc.devRef .tc main_arg24) = m ((c : Thread nD τ).loc main_arg24) :=
  calc W6 m ρ c (Proc.devRef .tc main_arg24)
    _ = W5 m ρ c (Proc.devRef .tc main_arg24) := W6_of_ne m ρ c main_arg24 (by decide)
    _ = W4 m ρ c (Proc.devRef .tc main_arg24) := by unwritten hostOps2
    _ = W3 m ρ c (Proc.devRef .tc main_arg24) := W4_of_ne m ρ c main_arg24 (by decide)
    _ = W2 m ρ c (Proc.devRef .tc main_arg24) := by unwritten hostOps1
    _ = W1 m ρ c (Proc.devRef .tc main_arg24) := W2_of_ne m ρ c main_arg24 (by decide)
    _ = W0 m ρ c (Proc.devRef .tc main_arg24) := by unwritten hostOps0
    _ = m ((c : Thread nD τ).loc main_arg24) := rfl

theorem arg25_W6 : W6 m ρ c (Proc.devRef .tc main_arg25) = m ((c : Thread nD τ).loc main_arg25) :=
  calc W6 m ρ c (Proc.devRef .tc main_arg25)
    _ = W5 m ρ c (Proc.devRef .tc main_arg25) := W6_of_ne m ρ c main_arg25 (by decide)
    _ = W4 m ρ c (Proc.devRef .tc main_arg25) := by unwritten hostOps2
    _ = W3 m ρ c (Proc.devRef .tc main_arg25) := W4_of_ne m ρ c main_arg25 (by decide)
    _ = W2 m ρ c (Proc.devRef .tc main_arg25) := by unwritten hostOps1
    _ = W1 m ρ c (Proc.devRef .tc main_arg25) := W2_of_ne m ρ c main_arg25 (by decide)
    _ = W0 m ρ c (Proc.devRef .tc main_arg25) := by unwritten hostOps0
    _ = m ((c : Thread nD τ).loc main_arg25) := rfl

theorem arg26_W6 : W6 m ρ c (Proc.devRef .tc main_arg26) = m ((c : Thread nD τ).loc main_arg26) :=
  calc W6 m ρ c (Proc.devRef .tc main_arg26)
    _ = W5 m ρ c (Proc.devRef .tc main_arg26) := W6_of_ne m ρ c main_arg26 (by decide)
    _ = W4 m ρ c (Proc.devRef .tc main_arg26) := by unwritten hostOps2
    _ = W3 m ρ c (Proc.devRef .tc main_arg26) := W4_of_ne m ρ c main_arg26 (by decide)
    _ = W2 m ρ c (Proc.devRef .tc main_arg26) := by unwritten hostOps1
    _ = W1 m ρ c (Proc.devRef .tc main_arg26) := W2_of_ne m ρ c main_arg26 (by decide)
    _ = W0 m ρ c (Proc.devRef .tc main_arg26) := by unwritten hostOps0
    _ = m ((c : Thread nD τ).loc main_arg26) := rfl

theorem arg27_W6 : W6 m ρ c (Proc.devRef .tc main_arg27) = m ((c : Thread nD τ).loc main_arg27) :=
  calc W6 m ρ c (Proc.devRef .tc main_arg27)
    _ = W5 m ρ c (Proc.devRef .tc main_arg27) := W6_of_ne m ρ c main_arg27 (by decide)
    _ = W4 m ρ c (Proc.devRef .tc main_arg27) := by unwritten hostOps2
    _ = W3 m ρ c (Proc.devRef .tc main_arg27) := W4_of_ne m ρ c main_arg27 (by decide)
    _ = W2 m ρ c (Proc.devRef .tc main_arg27) := by unwritten hostOps1
    _ = W1 m ρ c (Proc.devRef .tc main_arg27) := W2_of_ne m ρ c main_arg27 (by decide)
    _ = W0 m ρ c (Proc.devRef .tc main_arg27) := by unwritten hostOps0
    _ = m ((c : Thread nD τ).loc main_arg27) := rfl

theorem arg28_W6 : W6 m ρ c (Proc.devRef .tc main_arg28) = m ((c : Thread nD τ).loc main_arg28) :=
  calc W6 m ρ c (Proc.devRef .tc main_arg28)
    _ = W5 m ρ c (Proc.devRef .tc main_arg28) := W6_of_ne m ρ c main_arg28 (by decide)
    _ = W4 m ρ c (Proc.devRef .tc main_arg28) := by unwritten hostOps2
    _ = W3 m ρ c (Proc.devRef .tc main_arg28) := W4_of_ne m ρ c main_arg28 (by decide)
    _ = W2 m ρ c (Proc.devRef .tc main_arg28) := by unwritten hostOps1
    _ = W1 m ρ c (Proc.devRef .tc main_arg28) := W2_of_ne m ρ c main_arg28 (by decide)
    _ = W0 m ρ c (Proc.devRef .tc main_arg28) := by unwritten hostOps0
    _ = m ((c : Thread nD τ).loc main_arg28) := rfl

theorem arg22_W11_W6 : W11 m ρ c (Proc.devRef .tc main_arg22) = W6 m ρ c (Proc.devRef .tc main_arg22) :=
  calc W11 m ρ c (Proc.devRef .tc main_arg22)
    _ = W10 m ρ c (Proc.devRef .tc main_arg22) := by unwritten hostOps3_4
    _ = W9 m ρ c (Proc.devRef .tc main_arg22) := by unwritten hostOps3_3
    _ = W8 m ρ c (Proc.devRef .tc main_arg22) := by unwritten hostOps3_2
    _ = W7 m ρ c (Proc.devRef .tc main_arg22) := by unwritten hostOps3_1
    _ = W6 m ρ c (Proc.devRef .tc main_arg22) := by unwritten hostOps3

theorem arg23_W13_W6 : W13 m ρ c (Proc.devRef .tc main_arg23) = W6 m ρ c (Proc.devRef .tc main_arg23) :=
  calc W13 m ρ c (Proc.devRef .tc main_arg23)
    _ = W12 m ρ c (Proc.devRef .tc main_arg23) := by unwritten hostOps3_6
    _ = W11 m ρ c (Proc.devRef .tc main_arg23) := by unwritten hostOps3_5
    _ = W10 m ρ c (Proc.devRef .tc main_arg23) := by unwritten hostOps3_4
    _ = W9 m ρ c (Proc.devRef .tc main_arg23) := by unwritten hostOps3_3
    _ = W8 m ρ c (Proc.devRef .tc main_arg23) := by unwritten hostOps3_2
    _ = W7 m ρ c (Proc.devRef .tc main_arg23) := by unwritten hostOps3_1
    _ = W6 m ρ c (Proc.devRef .tc main_arg23) := by unwritten hostOps3

theorem arg24_W15_W6 : W15 m ρ c (Proc.devRef .tc main_arg24) = W6 m ρ c (Proc.devRef .tc main_arg24) :=
  calc W15 m ρ c (Proc.devRef .tc main_arg24)
    _ = W14 m ρ c (Proc.devRef .tc main_arg24) := by unwritten hostOps3_8
    _ = W13 m ρ c (Proc.devRef .tc main_arg24) := by unwritten hostOps3_7
    _ = W12 m ρ c (Proc.devRef .tc main_arg24) := by unwritten hostOps3_6
    _ = W11 m ρ c (Proc.devRef .tc main_arg24) := by unwritten hostOps3_5
    _ = W10 m ρ c (Proc.devRef .tc main_arg24) := by unwritten hostOps3_4
    _ = W9 m ρ c (Proc.devRef .tc main_arg24) := by unwritten hostOps3_3
    _ = W8 m ρ c (Proc.devRef .tc main_arg24) := by unwritten hostOps3_2
    _ = W7 m ρ c (Proc.devRef .tc main_arg24) := by unwritten hostOps3_1
    _ = W6 m ρ c (Proc.devRef .tc main_arg24) := by unwritten hostOps3

theorem arg25_W17_W6 : W17 m ρ c (Proc.devRef .tc main_arg25) = W6 m ρ c (Proc.devRef .tc main_arg25) :=
  calc W17 m ρ c (Proc.devRef .tc main_arg25)
    _ = W16 m ρ c (Proc.devRef .tc main_arg25) := by unwritten hostOps3_10
    _ = W15 m ρ c (Proc.devRef .tc main_arg25) := by unwritten hostOps3_9
    _ = W14 m ρ c (Proc.devRef .tc main_arg25) := by unwritten hostOps3_8
    _ = W13 m ρ c (Proc.devRef .tc main_arg25) := by unwritten hostOps3_7
    _ = W12 m ρ c (Proc.devRef .tc main_arg25) := by unwritten hostOps3_6
    _ = W11 m ρ c (Proc.devRef .tc main_arg25) := by unwritten hostOps3_5
    _ = W10 m ρ c (Proc.devRef .tc main_arg25) := by unwritten hostOps3_4
    _ = W9 m ρ c (Proc.devRef .tc main_arg25) := by unwritten hostOps3_3
    _ = W8 m ρ c (Proc.devRef .tc main_arg25) := by unwritten hostOps3_2
    _ = W7 m ρ c (Proc.devRef .tc main_arg25) := by unwritten hostOps3_1
    _ = W6 m ρ c (Proc.devRef .tc main_arg25) := by unwritten hostOps3

theorem arg26_W18_W6 : W18 m ρ c (Proc.devRef .tc main_arg26) = W6 m ρ c (Proc.devRef .tc main_arg26) :=
  calc W18 m ρ c (Proc.devRef .tc main_arg26)
    _ = W17 m ρ c (Proc.devRef .tc main_arg26) := by unwritten hostOps3_11
    _ = W16 m ρ c (Proc.devRef .tc main_arg26) := by unwritten hostOps3_10
    _ = W15 m ρ c (Proc.devRef .tc main_arg26) := by unwritten hostOps3_9
    _ = W14 m ρ c (Proc.devRef .tc main_arg26) := by unwritten hostOps3_8
    _ = W13 m ρ c (Proc.devRef .tc main_arg26) := by unwritten hostOps3_7
    _ = W12 m ρ c (Proc.devRef .tc main_arg26) := by unwritten hostOps3_6
    _ = W11 m ρ c (Proc.devRef .tc main_arg26) := by unwritten hostOps3_5
    _ = W10 m ρ c (Proc.devRef .tc main_arg26) := by unwritten hostOps3_4
    _ = W9 m ρ c (Proc.devRef .tc main_arg26) := by unwritten hostOps3_3
    _ = W8 m ρ c (Proc.devRef .tc main_arg26) := by unwritten hostOps3_2
    _ = W7 m ρ c (Proc.devRef .tc main_arg26) := by unwritten hostOps3_1
    _ = W6 m ρ c (Proc.devRef .tc main_arg26) := by unwritten hostOps3

theorem arg27_W18_W6 : W18 m ρ c (Proc.devRef .tc main_arg27) = W6 m ρ c (Proc.devRef .tc main_arg27) :=
  calc W18 m ρ c (Proc.devRef .tc main_arg27)
    _ = W17 m ρ c (Proc.devRef .tc main_arg27) := by unwritten hostOps3_11
    _ = W16 m ρ c (Proc.devRef .tc main_arg27) := by unwritten hostOps3_10
    _ = W15 m ρ c (Proc.devRef .tc main_arg27) := by unwritten hostOps3_9
    _ = W14 m ρ c (Proc.devRef .tc main_arg27) := by unwritten hostOps3_8
    _ = W13 m ρ c (Proc.devRef .tc main_arg27) := by unwritten hostOps3_7
    _ = W12 m ρ c (Proc.devRef .tc main_arg27) := by unwritten hostOps3_6
    _ = W11 m ρ c (Proc.devRef .tc main_arg27) := by unwritten hostOps3_5
    _ = W10 m ρ c (Proc.devRef .tc main_arg27) := by unwritten hostOps3_4
    _ = W9 m ρ c (Proc.devRef .tc main_arg27) := by unwritten hostOps3_3
    _ = W8 m ρ c (Proc.devRef .tc main_arg27) := by unwritten hostOps3_2
    _ = W7 m ρ c (Proc.devRef .tc main_arg27) := by unwritten hostOps3_1
    _ = W6 m ρ c (Proc.devRef .tc main_arg27) := by unwritten hostOps3

theorem arg28_W18_W6 : W18 m ρ c (Proc.devRef .tc main_arg28) = W6 m ρ c (Proc.devRef .tc main_arg28) :=
  calc W18 m ρ c (Proc.devRef .tc main_arg28)
    _ = W17 m ρ c (Proc.devRef .tc main_arg28) := by unwritten hostOps3_11
    _ = W16 m ρ c (Proc.devRef .tc main_arg28) := by unwritten hostOps3_10
    _ = W15 m ρ c (Proc.devRef .tc main_arg28) := by unwritten hostOps3_9
    _ = W14 m ρ c (Proc.devRef .tc main_arg28) := by unwritten hostOps3_8
    _ = W13 m ρ c (Proc.devRef .tc main_arg28) := by unwritten hostOps3_7
    _ = W12 m ρ c (Proc.devRef .tc main_arg28) := by unwritten hostOps3_6
    _ = W11 m ρ c (Proc.devRef .tc main_arg28) := by unwritten hostOps3_5
    _ = W10 m ρ c (Proc.devRef .tc main_arg28) := by unwritten hostOps3_4
    _ = W9 m ρ c (Proc.devRef .tc main_arg28) := by unwritten hostOps3_3
    _ = W8 m ρ c (Proc.devRef .tc main_arg28) := by unwritten hostOps3_2
    _ = W7 m ρ c (Proc.devRef .tc main_arg28) := by unwritten hostOps3_1
    _ = W6 m ρ c (Proc.devRef .tc main_arg28) := by unwritten hostOps3

/-! ## The buffers the last two regions read, at an entry -/

/-- (G1) The attribute rows: row `n` of the first 200 node embeddings. -/
theorem v75_apply (n : Fin 200) (k : Fin 512) :
    @Eq EReal (V22 m ρ c main_v75 (ix2 n k)) ((W6 m ρ c (Proc.devRef .tc main_v45)) (ix2 (⟨n.val, by omega⟩ : Fin 700) k)) := by
  have e : @Eq (S200x512.Idx → Elt Ideal .bf16) (V22 m ρ c main_v75)
      (truncf (F := Ideal) (s := S200x512) (φ := .f32) .bf16 (extractStridedSlice S200x512 ![0, 0] (W6 m ρ c (Proc.devRef .tc main_v45) : S700x512.Idx → Elt Ideal .f32) slices_S700x512_S200x512_0_0) bitsLt_bf16_f32) := by
    show W22 m ρ c (Proc.devRef .tc main_v75) = _
    rw [W22_of_ne m ρ c main_v75 (by decide), v75_W21_W19, v75_W19, v56_W18_W7, v56_W7]
  rw [e]
  refine (truncf_apply _ _ _).trans ?_
  exact slice2_axis0_apply 0 _ _ n k ⟨n.val, by omega⟩ (Nat.zero_add _).symm

/-- (G2) The object rows: row `p` of the 500 node embeddings after the first 200, zero from row 500 on. -/
theorem v77_apply (p : Fin 512) (k : Fin 512) :
    @Eq EReal (V21 m ρ c main_v77 (ix2 p k))
      (if h : p.val < 500 then (W6 m ρ c (Proc.devRef .tc main_v45)) (ix2 (⟨200 + p.val, by omega⟩ : Fin 700) k) else 0) := by
  have e : @Eq (S512x512.Idx → Elt Ideal .bf16) (V21 m ρ c main_v77)
      (truncf (F := Ideal) (s := S512x512) (φ := .f32) .bf16 (pad S512x512 ![0, 0] ![12, 0] ![0, 0]
          (extractStridedSlice S500x512 ![200, 0] (W6 m ρ c (Proc.devRef .tc main_v45) : S700x512.Idx → Elt Ideal .f32) slices_S700x512_S500x512_200_0)
          (sitofp (F := Ideal) .f32 (constantI S_ 32 0#32)) pads_S500x512_S512x512_0120_000 h_S_) bitsLt_bf16_f32) := by
    show W21 m ρ c (Proc.devRef .tc main_v77) = _
    rw [v77_W21, v76_W20, c16_W19, v57_W19_W7, v57_W7]
  rw [e]
  refine (truncf_apply _ _ _).trans ((Cert.PadRead.pad2_rows_apply _ _ _ _ p k).trans ?_)
  by_cases h : p.val < 500
  · rw [dif_pos h, dif_pos h]
    exact slice2_axis0_apply 200 _ _ ⟨p.val, h⟩ k ⟨200 + p.val, by omega⟩ rfl
  · rw [dif_neg h, dif_neg h]
    exact Cert.PadRead.sitofp_zero_apply _ _

/-- (G3) The upper half of the first pair layer's weight, extended with zero lanes from 1000 to 1024. -/
theorem v61_apply (k : Fin 512) (j : Fin 1024) :
    @Eq EReal (V22 m ρ c main_v61 (ix2 k j))
      (if h : j.val < 1000 then (m ((c : Thread nD τ).loc main_arg21)) (ix2 (⟨k.val, by omega⟩ : Fin 1024) (⟨j.val, h⟩ : Fin 1000)) else 0) := by
  have e : @Eq (S512x1024.Idx → Elt Ideal .bf16) (V22 m ρ c main_v61)
      (truncf (F := Ideal) (s := S512x1024) (φ := .f32) .bf16 (pad S512x1024 ![0, 0] ![0, 24] ![0, 0]
          (extractStridedSlice S512x1000 ![0, 0] ((m ((c : Thread nD τ).loc main_arg21)) : S1024x1000.Idx → Elt Ideal .f32) slices_S1024x1000_S512x1000_0_0)
          (sitofp (F := Ideal) .f32 (constantI S_ 32 0#32)) pads_S512x1000_S512x1024_000_0240 h_S_) bitsLt_bf16_f32) := by
    show W22 m ρ c (Proc.devRef .tc main_v61) = _
    rw [W22_of_ne m ρ c main_v61 (by decide), v61_W21_W9, v61_W9, v60_W8, c10_W7, v58_W7, arg21_W6]
  rw [e]
  refine (truncf_apply _ _ _).trans ((Cert.PadRead.pad2_cols_apply _ _ _ _ k j).trans ?_)
  by_cases h : j.val < 1000
  · rw [dif_pos h, dif_pos h]
    exact slice2_axis0_apply 0 _ _ k ⟨j.val, h⟩ ⟨k.val, by omega⟩ (Nat.zero_add _).symm
  · rw [dif_neg h, dif_neg h]
    exact Cert.PadRead.sitofp_zero_apply _ _

/-- (G3) The lower half of the first pair layer's weight (rows 512 to 1023), extended the same way. -/
theorem v63_apply (k : Fin 512) (j : Fin 1024) :
    @Eq EReal (V21 m ρ c main_v63 (ix2 k j))
      (if h : j.val < 1000 then (m ((c : Thread nD τ).loc main_arg21)) (ix2 (⟨512 + k.val, by omega⟩ : Fin 1024) (⟨j.val, h⟩ : Fin 1000)) else 0) := by
  have e : @Eq (S512x1024.Idx → Elt Ideal .bf16) (V21 m ρ c main_v63)
      (truncf (F := Ideal) (s := S512x1024) (φ := .f32) .bf16 (pad S512x1024 ![0, 0] ![0, 24] ![0, 0]
          (extractStridedSlice S512x1000 ![512, 0] ((m ((c : Thread nD τ).loc main_arg21)) : S1024x1000.Idx → Elt Ideal .f32) slices_S1024x1000_S512x1000_512_0)
          (sitofp (F := Ideal) .f32 (constantI S_ 32 0#32)) pads_S512x1000_S512x1024_000_0240 h_S_) bitsLt_bf16_f32) := by
    show W21 m ρ c (Proc.devRef .tc main_v63) = _
    rw [v63_W21_W11, v63_W11, v62_W10, c11_W9, v59_W9_W7, v59_W7, arg21_W6]
  rw [e]
  refine (truncf_apply _ _ _).trans ((Cert.PadRead.pad2_cols_apply _ _ _ _ k j).trans ?_)
  by_cases h : j.val < 1000
  · rw [dif_pos h, dif_pos h]
    exact slice2_axis0_apply 512 _ _ k ⟨j.val, h⟩ ⟨512 + k.val, by omega⟩ rfl
  · rw [dif_neg h, dif_neg h]
    exact Cert.PadRead.sitofp_zero_apply _ _

/-- (G4) The first pair layer's bias as one row, extended with zero lanes from 1000 to 1024. -/
theorem v65_apply (j : Fin 1024) :
    @Eq EReal (V22 m ρ c main_v65 (ix2 (0 : Fin 1) j))
      (if h : j.val < 1000 then (m ((c : Thread nD τ).loc main_arg22)) (ix1 (⟨j.val, h⟩ : Fin 1000)) else 0) := by
  have e : @Eq (S1x1024.Idx → Elt Ideal .f32) (V22 m ρ c main_v65)
      (shapeCast S1x1024 (pad S1024 ![0] ![24] ![0] ((m ((c : Thread nD τ).loc main_arg22)) : S1000.Idx → Elt Ideal .f32) (sitofp (F := Ideal) .f32 (constantI S_ 32 0#32)) pads_S1000_S1024_0240 h_S_) shapeCasts_S1024_S1x1024) := by
    show W22 m ρ c (Proc.devRef .tc main_v65) = _
    rw [W22_of_ne m ρ c main_v65 (by decide), v65_W21_W13, v65_W13, v64_W12, c12_W11, arg22_W11_W6, arg22_W6]
  rw [e]
  refine (shapeCast_a_1a_apply _ _ (0 : Fin 1) j).trans ((Cert.PadRead.pad1_hi_apply _ _ _ _ j).trans ?_)
  by_cases h : j.val < 1000
  · rw [dif_pos h, dif_pos h]
  · rw [dif_neg h, dif_neg h]
    exact Cert.PadRead.sitofp_zero_apply _ _

/-- (G4) The first pair layer's scale as one row, extended with zero lanes from 1000 to 1024. -/
theorem v67_apply (j : Fin 1024) :
    @Eq EReal (V22 m ρ c main_v67 (ix2 (0 : Fin 1) j))
      (if h : j.val < 1000 then (m ((c : Thread nD τ).loc main_arg23)) (ix1 (⟨j.val, h⟩ : Fin 1000)) else 0) := by
  have e : @Eq (S1x1024.Idx → Elt Ideal .f32) (V22 m ρ c main_v67)
      (shapeCast S1x1024 (pad S1024 ![0] ![24] ![0] ((m ((c : Thread nD τ).loc main_arg23)) : S1000.Idx → Elt Ideal .f32) (sitofp (F := Ideal) .f32 (constantI S_ 32 0#32)) pads_S1000_S1024_0240 h_S_) shapeCasts_S1024_S1x1024) := by
    show W22 m ρ c (Proc.devRef .tc main_v67) = _
    rw [W22_of_ne m ρ c main_v67 (by decide), v67_W21_W15, v67_W15, v66_W14, c13_W13, arg23_W13_W6, arg23_W6]
  rw [e]
  refine (shapeCast_a_1a_apply _ _ (0 : Fin 1) j).trans ((Cert.PadRead.pad1_hi_apply _ _ _ _ j).trans ?_)
  by_cases h : j.val < 1000
  · rw [dif_pos h, dif_pos h]
  · rw [dif_neg h, dif_neg h]
    exact Cert.PadRead.sitofp_zero_apply _ _

/-- (G4) The first pair layer's shift as one row, extended with zero lanes from 1000 to 1024. -/
theorem v69_apply (j : Fin 1024) :
    @Eq EReal (V22 m ρ c main_v69 (ix2 (0 : Fin 1) j))
      (if h : j.val < 1000 then (m ((c : Thread nD τ).loc main_arg24)) (ix1 (⟨j.val, h⟩ : Fin 1000)) else 0) := by
  have e : @Eq (S1x1024.Idx → Elt Ideal .f32) (V22 m ρ c main_v69)
      (shapeCast S1x1024 (pad S1024 ![0] ![24] ![0] ((m ((c : Thread nD τ).loc main_arg24)) : S1000.Idx → Elt Ideal .f32) (sitofp (F := Ideal) .f32 (constantI S_ 32 0#32)) pads_S1000_S1024_0240 h_S_) shapeCasts_S1024_S1x1024) := by
    show W22 m ρ c (Proc.devRef .tc main_v69) = _
    rw [W22_of_ne m ρ c main_v69 (by decide), v69_W21_W17, v69_W17, v68_W16, c14_W15, arg24_W15_W6, arg24_W6]
  rw [e]
  refine (shapeCast_a_1a_apply _ _ (0 : Fin 1) j).trans ((Cert.PadRead.pad1_hi_apply _ _ _ _ j).trans ?_)
  by_cases h : j.val < 1000
  · rw [dif_pos h, dif_pos h]
  · rw [dif_neg h, dif_neg h]
    exact Cert.PadRead.sitofp_zero_apply _ _

/-- (G5) The second pair layer's weight, extended with zero rows from 1000 to 1024. -/
theorem v71_apply (j : Fin 1024) (q : Fin 800) :
    @Eq EReal (V22 m ρ c main_v71 (ix2 j q))
      (if h : j.val < 1000 then (m ((c : Thread nD τ).loc main_arg25)) (ix2 (⟨j.val, h⟩ : Fin 1000) q) else 0) := by
  have e : @Eq (S1024x800.Idx → Elt Ideal .bf16) (V22 m ρ c main_v71)
      (truncf (F := Ideal) (s := S1024x800) (φ := .f32) .bf16 (pad S1024x800 ![0, 0] ![24, 0] ![0, 0] ((m ((c : Thread nD τ).loc main_arg25)) : S1000x800.Idx → Elt Ideal .f32) (sitofp (F := Ideal) .f32 (constantI S_ 32 0#32))
          pads_S1000x800_S1024x800_0240_000 h_S_) bitsLt_bf16_f32) := by
    show W22 m ρ c (Proc.devRef .tc main_v71) = _
    rw [W22_of_ne m ρ c main_v71 (by decide), v71_W21_W19, v71_W19, v70_W18, c15_W17, arg25_W17_W6, arg25_W6]
  rw [e]
  refine (truncf_apply _ _ _).trans ((Cert.PadRead.pad2_rows_apply _ _ _ _ j q).trans ?_)
  by_cases h : j.val < 1000
  · rw [dif_pos h, dif_pos h]
  · rw [dif_neg h, dif_neg h]
    exact Cert.PadRead.sitofp_zero_apply _ _

/-- (G6) The second pair layer's bias as one row. -/
theorem v72_apply (q : Fin 800) :
    @Eq EReal (V22 m ρ c main_v72 (ix2 (0 : Fin 1) q)) ((m ((c : Thread nD τ).loc main_arg26)) (ix1 q)) := by
  have e : @Eq (S1x800.Idx → Elt Ideal .f32) (V22 m ρ c main_v72) (shapeCast S1x800 ((m ((c : Thread nD τ).loc main_arg26)) : S800.Idx → Elt Ideal .f32) shapeCasts_S800_S1x800) := by
    show W22 m ρ c (Proc.devRef .tc main_v72) = _
    rw [W22_of_ne m ρ c main_v72 (by decide), v72_W21_W19, v72_W19, arg26_W18_W6, arg26_W6]
  rw [e]
  exact shapeCast_a_1a_apply _ _ (0 : Fin 1) q

/-- (G6) The second pair layer's final scale as one row. -/
theorem v73_apply (q : Fin 800) :
    @Eq EReal (V22 m ρ c main_v73 (ix2 (0 : Fin 1) q)) ((m ((c : Thread nD τ).loc main_arg27)) (ix1 q)) := by
  have e : @Eq (S1x800.Idx → Elt Ideal .f32) (V22 m ρ c main_v73) (shapeCast S1x800 ((m ((c : Thread nD τ).loc main_arg27)) : S800.Idx → Elt Ideal .f32) shapeCasts_S800_S1x800) := by
    show W22 m ρ c (Proc.devRef .tc main_v73) = _
    rw [W22_of_ne m ρ c main_v73 (by decide), v73_W21_W19, v73_W19, arg27_W18_W6, arg27_W6]
  rw [e]
  exact shapeCast_a_1a_apply _ _ (0 : Fin 1) q

/-- (G6) The second pair layer's final shift as one row. -/
theorem v74_apply (q : Fin 800) :
    @Eq EReal (V22 m ρ c main_v74 (ix2 (0 : Fin 1) q)) ((m ((c : Thread nD τ).loc main_arg28)) (ix1 q)) := by
  have e : @Eq (S1x800.Idx → Elt Ideal .f32) (V22 m ρ c main_v74) (shapeCast S1x800 ((m ((c : Thread nD τ).loc main_arg28)) : S800.Idx → Elt Ideal .f32) shapeCasts_S800_S1x800) := by
    show W22 m ρ c (Proc.devRef .tc main_v74) = _
    rw [W22_of_ne m ρ c main_v74 (by decide), v74_W21_W19, v74_W19, arg28_W18_W6, arg28_W6]
  rw [e]
  exact shapeCast_a_1a_apply _ _ (0 : Fin 1) q

/-- (G7) The image rows the last region reads are the image tower's output. -/
theorem v78_eq : @Eq (S256x800.Idx → EReal) (V22 m ρ c main_v78) (W6 m ρ c (Proc.devRef .tc main_v55)) := by
  show W22 m ρ c (Proc.devRef .tc main_v78) = _
  rw [W22_of_ne m ρ c main_v78 (by decide), v78_W21, v55_W20_W6]
  rfl

end Cert.KernelIdeal.HostGlue

end
-- ==== Proof.LibLay3.lean ====
/-
  Readings, at an index given by coordinates, of the layout operations a normalisation over the last axis of a
  rank-three array and a split of a matrix's rows into groups produce; and a row maximum read as a fold.
-/
import Idealize.ShloMosaic.Lib.ValueLayout
import Idealize.ShloMosaic.PureOps.Ideal.Laws
import proofs.«101777_j1108101562624_2_alg».proof.Proof.LibLayout

namespace Cert.GQA.Lay

open Idealize.ShloMosaic Idealize.ShloMosaic.ValueIdx

variable {α : Type}

/-- Rows `0 … c - 1` with `c = a · b` split into `a` groups of `b`: entry `(p, q, k)` is entry `(p · b + q, k)` of the matrix. -/
theorem shapeCast_cd_abd_apply {a b c d : ℕ} (x : (⟨2, ![c, d]⟩ : Shape).Idx → α)
    (h : (⟨2, ![c, d]⟩ : Shape).ShapeCasts ⟨3, ![a, b, d]⟩) (p : Fin a) (q : Fin b) (k : Fin d) (r : Fin c)
    (hr : r.val = p.val * b + q.val) : shapeCast ⟨3, ![a, b, d]⟩ x h (ix3 p q k) = x (ix2 r k) :=
  shapeCast_apply x h _ _ (by
    rw [Shape.rowMajor_val_two, Shape.rowMajor_val_three]
    show r.val * d + k.val = (p.val * b + q.val) * d + k.val
    rw [hr])

/-- A rank-three array cut along its leading axis from `o` reads, at `(j, a, e)`, the source at `(o + j, a, e)`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A matrix given a trailing unit axis: entry `(p, q, u)` is entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A trailing unit axis broadcast: entry `(p, q, k)` of the `[a, b, d]` array is entry `(p, q, 0)` of the `[a, b, 1]` one. -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (q : Fin b) (k : Fin d) :
    broadcastTo ⟨3, ![a, b, d]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector given two leading unit axes: entry `(u, v, k)` is entry `k`. -/
theorem shapeCast_d_11d_apply {d : ℕ} (x : (⟨1, ![d]⟩ : Shape).Idx → α)
    (h : (⟨1, ![d]⟩ : Shape).ShapeCasts ⟨3, ![1, 1, d]⟩) (u v : Fin 1) (k : Fin d) :
    shapeCast ⟨3, ![1, 1, d]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * d + k.val
    rw [hu, hv]; simp)

/-- Two leading unit axes broadcast: entry `(p, q, k)` of the `[a, b, d]` array is entry `(0, 0, k)` of the `[1, 1, d]` one. -/
theorem broadcastTo_11d_abd_apply {a b d : ℕ} (v : (⟨3, ![1, 1, d]⟩ : Shape).Idx → α)
    (h : (⟨3, ![1, 1, d]⟩ : Shape).Broadcasts ⟨3, ![a, b, d]⟩) (p : Fin a) (q : Fin b) (k : Fin d) :
    broadcastTo ⟨3, ![a, b, d]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if d = 1 then 0 else k.val
    split
    · have := k.isLt; omega
    · rfl

/-- The largest entry of row `p` of an `[a, b]` array of extended reals, taken from the accumulator's value: the fold
    of `max` over the row's entries. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin b)))
    (funext fun k => congrArg src (Cert.Attn.Layout.lift_row h p k))

end Cert.GQA.Lay
-- ==== Proof.PairLayout.lean ====
/-
  Readings, at an index given by coordinates, of the layout operations the score computation meets: a matrix given a
  middle unit axis, the two broadcasts of a rank-three array along one unit axis, the sum over the last axis of a
  rank-three array, the regrouping of the two leading axes of a rank-three array into the rows of a matrix and of
  a matrix's columns into two axes, a block of consecutive rows of a matrix, and the product of a matrix with the
  transpose of another (columns contracted with columns) accumulated into zero.
-/
import Idealize.ShloMosaic.Lib.ValueLayout
import Idealize.ShloMosaic.Lib.Pipeline.Value
import Idealize.ShloMosaic.Lib.Pipeline.FrameBody
import Idealize.ShloMosaic.PureOps.Ideal.Laws

namespace Cert.PairLayout

open Idealize.ShloMosaic Idealize.ShloMosaic.ValueIdx

variable {α : Type}

/-- A matrix given a middle unit axis: entry `(p, u, k)` is entry `(p, k)`. -/
theorem shapeCast_ad_a1d_apply {a d : ℕ} (x : (⟨2, ![a, d]⟩ : Shape).Idx → α)
    (h : (⟨2, ![a, d]⟩ : Shape).ShapeCasts ⟨3, ![a, 1, d]⟩) (p : Fin a) (u : Fin 1) (k : Fin d) :
    shapeCast ⟨3, ![a, 1, d]⟩ x h (ix3 p u k) = x (ix2 p k) :=
  shapeCast_apply x h _ _ (by
    have hu : u.val = 0 := by omega
    rw [Shape.rowMajor_val_two, Shape.rowMajor_val_three]
    show p.val * d + k.val = (p.val * 1 + u.val) * d + k.val
    rw [hu, Nat.mul_one, Nat.add_zero])

/-- A middle unit axis broadcast: entry `(p, q, k)` of the `[a, b, d]` array is entry `(p, 0, k)` of the `[a, 1, d]` one. -/
theorem broadcastTo_a1d_abd_apply {a b d : ℕ} (v : (⟨3, ![a, 1, d]⟩ : Shape).Idx → α)
    (h : (⟨3, ![a, 1, d]⟩ : Shape).Broadcasts ⟨3, ![a, b, d]⟩) (p : Fin a) (q : Fin b) (k : Fin d) :
    broadcastTo ⟨3, ![a, b, d]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if d = 1 then 0 else k.val
    split
    · have := k.isLt; omega
    · rfl

/-- A leading unit axis broadcast: entry `(p, q, k)` of the `[a, b, d]` array is entry `(0, q, k)` of the `[1, b, d]` one. -/
theorem broadcastTo_1bd_abd_apply {a b d : ℕ} (v : (⟨3, ![1, b, d]⟩ : Shape).Idx → α)
    (h : (⟨3, ![1, b, d]⟩ : Shape).Broadcasts ⟨3, ![a, b, d]⟩) (p : Fin a) (q : Fin b) (k : Fin d) :
    broadcastTo ⟨3, ![a, b, d]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if d = 1 then 0 else k.val
    split
    · have := k.isLt; omega
    · rfl

/-- The index a sum along the last axis of a rank-three array inserts: `(p, q)` with `k` put back is `(p, q, k)`. -/
theorem lift_last3 {a b d : ℕ} (h : (⟨3, ![a, b, d]⟩ : Shape).Reduces [2] (⟨2, ![a, b]⟩ : Shape)) (p : Fin a) (q : Fin b)
    (k : Fin ((⟨3, ![a, b, d]⟩ : Shape).size 2)) : h.lift (ix2 p q) k = ix3 p q (⟨k.val, k.isLt⟩ : Fin d) := by
  funext c; apply Fin.ext
  fin_cases c <;> rfl

/-- A sum along the last axis of an `[a, b, d]` array of extended reals, read at `(p, q)`: the sum of that lane's entries. -/
theorem laneSum3_apply {a b d : ℕ} (src : FVec Ideal ⟨3, ![a, b, d]⟩ .f32)
    (h : (⟨3, ![a, b, d]⟩ : Shape).Reduces [2] (⟨2, ![a, b]⟩ : Shape))
    (hφ : FKind.Formats .f32) (hacc : (0x00000000#32 : BitVec 32) = FKind.add.neutral .f32 hφ) (p : Fin a) (q : Fin b) :
    multiReduction .add [2] (⟨2, ![a, b]⟩ : Shape) src 0x00000000#32 h hφ hacc (ix2 p q) = ∑ k : Fin d, src (ix3 p q k) := by
  refine (Ideal.multiReduction_add_single src 0x00000000#32 h hφ hacc (ix2 p q)).trans ?_
  exact Finset.sum_congr rfl fun k _ => congrArg src (lift_last3 h p q k)

/-- The two leading axes of an `[a, b, d]` array regrouped into `c = a · b` rows: entry `(p · b + q, k)` of the matrix is entry
    `(p, q, k)`. -/
theorem shapeCast_abd_cd_apply {a b c d : ℕ} (x : (⟨3, ![a, b, d]⟩ : Shape).Idx → α)
    (h : (⟨3, ![a, b, d]⟩ : Shape).ShapeCasts ⟨2, ![c, d]⟩) (p : Fin a) (q : Fin b) (k : Fin d) (r : Fin c)
    (hr : r.val = p.val * b + q.val) : shapeCast ⟨2, ![c, d]⟩ x h (ix2 r k) = x (ix3 p q k) :=
  shapeCast_apply x h _ _ (by
    rw [Shape.rowMajor_val_two, Shape.rowMajor_val_three]
    show (p.val * b + q.val) * d + k.val = r.val * d + k.val
    rw [hr])

/-- The columns of an `[m, c]` matrix, `c = a · b`, split into `a` groups of `b`: entry `(i, p, q)` is entry `(i, p · b + q)`. -/
theorem shapeCast_mc_mab_apply {m a b c : ℕ} (x : (⟨2, ![m, c]⟩ : Shape).Idx → α)
    (h : (⟨2, ![m, c]⟩ : Shape).ShapeCasts ⟨3, ![m, a, b]⟩) (i : Fin m) (p : Fin a) (q : Fin b) (r : Fin c)
    (hc : c = a * b) (hr : r.val = p.val * b + q.val) : shapeCast ⟨3, ![m, a, b]⟩ x h (ix3 i p q) = x (ix2 i r) :=
  shapeCast_apply x h _ _ (by
    rw [Shape.rowMajor_val_two, Shape.rowMajor_val_three]
    show i.val * c + r.val = (i.val * a + p.val) * b + q.val
    rw [hr, hc]; ring)

/-- A block of `m` consecutive rows of an `[n, d]` matrix from row `o`: entry `(j, k)` of the block is entry `(o + j, k)`. -/
theorem ld_rows_apply {Val : EltTy → Type} {e : EltTy} {n d m : ℕ} (o : ℕ) (X : (⟨2, ![n, d]⟩ : Shape).Idx → Val e)
    (inb : ∀ a, (![o, 0] : Fin 2 → ℕ) a + (⟨2, ![m, d]⟩ : Shape).size a ≤ (⟨2, ![n, d]⟩ : Shape).size a)
    (j : Fin m) (k : Fin d) (r : Fin n) (hr : r.val = o + j.val) :
    View.ld X (Rect.unit (s := ⟨2, ![n, d]⟩) ![o, 0] (⟨2, ![m, d]⟩ : Shape).size inb) (ix2 j k) = X (ix2 r k) := by
  show X _ = X _
  refine congrArg X (funext fun ax => Fin.ext ?_)
  match ax with
  | ⟨0, _⟩ => show o + 1 * j.val = r.val; rw [hr, Nat.one_mul]
  | ⟨1, _⟩ => show 0 + 1 * k.val = k.val; rw [Nat.one_mul, Nat.zero_add]

section Product
variable {a K b : ℕ} {φ₁ φ₂ : FTy}

/-- The contraction's sum re-indexed by the one contracted coordinate, the right operand's columns contracted. -/
theorem sum_contrT (D : DotDims ⟨2, ![a, K]⟩ ⟨2, ![b, K]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (x : (⟨2, ![a, K]⟩ : Shape).Idx → EReal) (w : (⟨2, ![b, K]⟩ : Shape).Idx → EReal) (p : Fin a) (q : Fin b) :
    ∑ k : D.contr.Idx, x (D.lhsIdx (ix2 p q) k) * w (D.rhsIdx (ix2 p q) k) = ∑ k : Fin K, x (ix2 p k) * w (ix2 q k) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 q k := funext fun c => Fin.ext (by
    match c with
    | ⟨0, _⟩ => exact hr0 _ _
    | ⟨1, _⟩ => exact (hr1 _ _).trans hk)
  rw [el, er]

/-- A product with the transpose of the right operand, into the zero splat, at `(p, q)`: row `p` of the left operand
    against row `q` of the right one. -/
theorem matmulT_zero_ix2 (D : DotDims ⟨2, ![a, K]⟩ ⟨2, ![b, K]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision)
    (x : FVec Ideal ⟨2, ![a, K]⟩ φ₁) (w : FVec Ideal ⟨2, ![b, K]⟩ φ₂) (p : Fin a) (q : Fin b) :
    matmul D prec x w (constant (F := Ideal) ⟨2, ![a, b]⟩ .f32 0x00000000#32) (ix2 p q)
      = ∑ k : Fin K, x (ix2 p k) * w (ix2 q k) :=
  (Ideal.matmul_constant_zero_apply D prec x w (ix2 p q)).trans (sum_contrT D hr hs hl0 hl1 hr0 hr1 x w p q)

end Product

end Cert.PairLayout
-- ==== Proof.ScoreStages.lean ====
/-
  The stages of the score kernel's body as array expressions, each read at coordinates, at the ideal values.

  For one chunk of 128 object rows the body forms the first-layer pre-activation (attribute product + object product
  + bias) on an [8, 128, 1024] array, normalises each (attribute, object) row over its 1024 lanes in one pass, takes the
  maximum with 0, merges the two leading axes into 1024 rows (row a·128 + o), applies the second dense layer to 800
  lanes, normalises each row over the 800 lanes in one pass, contracts the result with the image rows over the 800
  lanes, and splits the 1024 columns back into (a, o).
-/
import proofs.«101777_j1108101562624_2_alg».proof.Proof.Gen.KernelIdeal.Skeleton
import proofs.«101777_j1108101562624_2_alg».proof.Proof.Spec
import proofs.«101777_j1108101562624_2_alg».proof.Proof.LibMatmulIx
import proofs.«101777_j1108101562624_2_alg».proof.Proof.LibLay3
import proofs.«101777_j1108101562624_2_alg».proof.Proof.PairLayout

noncomputable section

namespace Cert.ScoreStages

open Idealize.ShloMosaic Idealize.ShloMosaic.ValueIdx Cert.KernelIdeal Cert.KernelIdeal.Gen Cert.Spec
open scoped BigOperators

/-! ## The dimension records' coordinate facts -/

abbrev D1 := dot_S8x512_S512x1024_S8x1024_1_0_0_1_n_n
abbrev D2 := dot_S1024x1024_S1024x800_S1024x800_1_0_0_1_n_n
abbrev D3 := dot_S256x800_S1024x800_S256x1024_1_1_0_0_n_n

theorem D1_l0 (i) (q : D1.contr.Idx) : (D1.lhsIdx i q 0).val = (i 0).val := by
  unfold DotDims.lhsIdx
  rw [dif_neg (show ¬(0 : Fin S8x512.rank) ∈ D1.lhsBatch by decide), dif_pos (show (0 : Fin S8x512.rank) ∈ D1.lhsNonContracting by decide)]
  rfl
theorem D1_l1 (i) (q : D1.contr.Idx) : (D1.lhsIdx i q 1).val = (q ⟨0, by decide⟩).val := D1.lhsIdx_val_of_single rfl i q
theorem D1_r0 (i) (q : D1.contr.Idx) : (D1.rhsIdx i q 0).val = (q ⟨0, by decide⟩).val := D1.rhsIdx_val_of_single rfl i q
theorem D1_r1 (i) (q : D1.contr.Idx) : (D1.rhsIdx i q 1).val = (i 1).val := by
  unfold DotDims.rhsIdx
  rw [dif_neg (show ¬(1 : Fin S512x1024.rank) ∈ D1.rhsBatch by decide), dif_pos (show (1 : Fin S512x1024.rank) ∈ D1.rhsNonContracting by decide)]
  rfl

theorem D2_l0 (i) (q : D2.contr.Idx) : (D2.lhsIdx i q 0).val = (i 0).val := by
  unfold DotDims.lhsIdx
  rw [dif_neg (show ¬(0 : Fin S1024x1024.rank) ∈ D2.lhsBatch by decide), dif_pos (show (0 : Fin S1024x1024.rank) ∈ D2.lhsNonContracting by decide)]
  rfl
theorem D2_l1 (i) (q : D2.contr.Idx) : (D2.lhsIdx i q 1).val = (q ⟨0, by decide⟩).val := D2.lhsIdx_val_of_single rfl i q
theorem D2_r0 (i) (q : D2.contr.Idx) : (D2.rhsIdx i q 0).val = (q ⟨0, by decide⟩).val := D2.rhsIdx_val_of_single rfl i q
theorem D2_r1 (i) (q : D2.contr.Idx) : (D2.rhsIdx i q 1).val = (i 1).val := by
  unfold DotDims.rhsIdx
  rw [dif_neg (show ¬(1 : Fin S1024x800.rank) ∈ D2.rhsBatch by decide), dif_pos (show (1 : Fin S1024x800.rank) ∈ D2.rhsNonContracting by decide)]
  rfl

theorem D3_l0 (i) (q : D3.contr.Idx) : (D3.lhsIdx i q 0).val = (i 0).val := by
  unfold DotDims.lhsIdx
  rw [dif_neg (show ¬(0 : Fin S256x800.rank) ∈ D3.lhsBatch by decide), dif_pos (show (0 : Fin S256x800.rank) ∈ D3.lhsNonContracting by decide)]
  rfl
theorem D3_l1 (i) (q : D3.contr.Idx) : (D3.lhsIdx i q 1).val = (q ⟨0, by decide⟩).val := D3.lhsIdx_val_of_single rfl i q
theorem D3_r0 (i) (q : D3.contr.Idx) : (D3.rhsIdx i q 0).val = (i 1).val := by
  unfold DotDims.rhsIdx
  rw [dif_neg (show ¬(0 : Fin S1024x800.rank) ∈ D3.rhsBatch by decide), dif_pos (show (0 : Fin S1024x800.rank) ∈ D3.rhsNonContracting by decide)]
  rfl
theorem D3_r1 (i) (q : D3.contr.Idx) : (D3.rhsIdx i q 1).val = (q ⟨0, by decide⟩).val := D3.rhsIdx_val_of_single rfl i q

/-! ## The constants -/

/-- The reciprocal of the first layer's true width. -/
abbrev c1000 : EReal := Named.named (F := Ideal) κ "inv_1000" (φ := .f32) 0x3A83126F#32
/-- The reciprocal of the second layer's width. -/
abbrev c800 : EReal := Named.named (F := Ideal) κ "inv_800" (φ := .f32) 0x3AA3D70A#32
/-- The variance offset. -/
abbrev eps : EReal := Ideal.ofBits .f32 0x3727C5AC#32

/-- A one-row matrix given two leading unit axes: entry `(u, v, k)` is entry `(0, k)`. -/
theorem shapeCast_1d_11d_apply {α : Type} {d : ℕ} (x : (⟨2, ![1, d]⟩ : Shape).Idx → α)
    (h : (⟨2, ![1, d]⟩ : Shape).ShapeCasts ⟨3, ![1, 1, d]⟩) (u v : Fin 1) (k : Fin d) :
    shapeCast ⟨3, ![1, 1, d]⟩ x h (ix3 u v k) = x (ix2 (0 : Fin 1) k) :=
  shapeCast_apply x h _ _ (by
    have hu : u.val = 0 := by omega
    have hv : v.val = 0 := by omega
    rw [Shape.rowMajor_val_two, Shape.rowMajor_val_three]
    show (0 : Fin 1).val * d + k.val = (u.val * 1 + v.val) * d + k.val
    rw [hu, hv]; simp)

/-! ## The stages -/

/-- The first-layer pre-activation: attribute product (one row per attribute) + object product (one row per object) + bias. -/
def pre3 (v4 : FVec Ideal S8x1024 .f32) (v7 : FVec Ideal S1x1x1024 .f32) (v : Vec Ideal S128x1024 .f32) : FVec Ideal S8x128x1024 .f32 :=
  addf
    (addf (broadcastTo S8x128x1024 (shapeCast S8x1x1024 v4 shapeCasts_S8x1024_S8x1x1024) broadcasts_S8x1x1024_S8x128x1024)
      (broadcastTo S8x128x1024
        (shapeCast S1x128x1024 (shapeCast S128x1024 v shapeCasts_S128x1024_S128x1024) shapeCasts_S128x1024_S1x128x1024)
        broadcasts_S1x128x1024_S8x128x1024))
    (broadcastTo S8x128x1024 v7 broadcasts_S1x1x1024_S8x128x1024)

theorem pre3_apply (v4 : FVec Ideal S8x1024 .f32) (v7 : FVec Ideal S1x1x1024 .f32) (v : Vec Ideal S128x1024 .f32)
    (a : Fin 8) (o : Fin 128) (j : Fin 1024) :
    pre3 v4 v7 v (ix3 a o j) = (v4 (ix2 a j) + v (ix2 o j)) + v7 (ix3 (0 : Fin 1) (0 : Fin 1) j) := by
  unfold pre3
  rw [addf_apply, addf_apply, Cert.PairLayout.broadcastTo_a1d_abd_apply, Cert.PairLayout.shapeCast_ad_a1d_apply,
    Cert.PairLayout.broadcastTo_1bd_abd_apply, shapeCast_ab_1ab_apply, shapeCast_self, Cert.GQA.Lay.broadcastTo_11d_abd_apply]

/-- A one-row array recast to its own shape and given two leading unit axes reads, at lane `j`, its entry `(0, j)`. -/
theorem row11_apply (v : Vec Ideal S1x1024 .f32) (j : Fin 1024) :
    shapeCast S1x1x1024 (shapeCast S1x1024 v shapeCasts_S1x1024_S1x1024) shapeCasts_S1x1024_S1x1x1024
      (ix3 (0 : Fin 1) (0 : Fin 1) j) = v (ix2 (0 : Fin 1) j) := by
  rw [shapeCast_1d_11d_apply, shapeCast_self]

/-- The lane sums of an [8, 128, 1024] array, as an [8, 128, 1] column. -/
def laneSums (x : FVec Ideal S8x128x1024 .f32) : FVec Ideal S8x128x1 .f32 :=
  shapeCast S8x128x1
    (multiReduction (F := Ideal) .add [2] S8x128 x 0x00000000#32 reduces_S8x128x1024_S8x128 (.inl rfl) rfl)
    shapeCasts_S8x128_S8x128x1

theorem laneSums_apply (x : FVec Ideal S8x128x1024 .f32) (a : Fin 8) (o : Fin 128) (u : Fin 1) :
    laneSums x (ix3 a o u) = ∑ j : Fin 1024, x (ix3 a o j) := by
  unfold laneSums
  exact (Cert.GQA.Lay.shapeCast_ab_ab1_apply _ _ a o u).trans
    (Cert.PairLayout.laneSum3_apply x reduces_S8x128x1024_S8x128 (.inl rfl) rfl a o)

/-- The first layer normalised over its 1024 lanes in one pass (mean = sum · c, variance = max(E[x²] − mean², 0)), scaled,
    shifted, cut at 0, with its two leading axes merged into 1024 rows; `s` stands for the lane sums. -/
def act (g be : FVec Ideal S1x1x1024 .f32) (x : FVec Ideal S8x128x1024 .f32) (s : FVec Ideal S8x128x1 .f32) :
    FVec Ideal S1024x1024 .f32 :=
  shapeCast S1024x1024
    (maximumf
      (addf
        (mulf
          (mulf (subf x (broadcastTo S8x128x1024 (mulf s (broadcast S8x128x1 c1000)) broadcasts_S8x128x1_S8x128x1024))
            (broadcastTo S8x128x1024
              (rsqrt (addf
                (maximumf
                  (subf (mulf (laneSums (mulf x x)) (broadcast S8x128x1 c1000))
                        (mulf (mulf s (broadcast S8x128x1 c1000)) (mulf s (broadcast S8x128x1 c1000))))
                  (broadcast S8x128x1 (Scalar.ofBits (F := Ideal) .f32 0x00000000#32)))
                (broadcast S8x128x1 (Scalar.ofBits (F := Ideal) .f32 0x3727C5AC#32))))
              broadcasts_S8x128x1_S8x128x1024))
          (broadcastTo S8x128x1024 g broadcasts_S1x1x1024_S8x128x1024))
        (broadcastTo S8x128x1024 be broadcasts_S1x1x1024_S8x128x1024))
      (broadcast S8x128x1024 (Scalar.ofBits (F := Ideal) .f32 0x00000000#32)))
    shapeCasts_S8x128x1024_S1024x1024

/-- Row `a · 128 + o`, lane `j` of the activated first layer: the one-pass normalisation of the pre-activation's row
    `(a, o)`, cut at 0 — provided `s` holds that row's lane sum. -/
theorem act_apply (g be : FVec Ideal S1x1x1024 .f32) (x : FVec Ideal S8x128x1024 .f32) (s : FVec Ideal S8x128x1 .f32)
    (a : Fin 8) (o : Fin 128) (r : Fin 1024) (hr : r.val = a.val * 128 + o.val)
    (hs : s (ix3 a o (0 : Fin 1)) = ∑ j : Fin 1024, x (ix3 a o j)) (j : Fin 1024) :
    act g be x s (ix2 r j)
      = max (lnK c1000 eps (fun j => x (ix3 a o j)) (fun j => g (ix3 (0 : Fin 1) (0 : Fin 1) j))
          (fun j => be (ix3 (0 : Fin 1) (0 : Fin 1) j)) j) 0 := by
  unfold act
  refine (Cert.PairLayout.shapeCast_abd_cd_apply _ _ a o j r hr).trans ?_
  rw [maximumf_apply, addf_apply, mulf_apply, mulf_apply, subf_apply, broadcast_apply,
    Cert.GQA.Lay.broadcastTo_ab1_abd_apply, Cert.GQA.Lay.broadcastTo_ab1_abd_apply,
    Cert.GQA.Lay.broadcastTo_11d_abd_apply, Cert.GQA.Lay.broadcastTo_11d_abd_apply]
  show max (((x (ix3 a o j) - s (ix3 a o (0 : Fin 1)) * c1000)
      * Ideal.rsqrt (max (laneSums (mulf x x) (ix3 a o (0 : Fin 1)) * c1000
          - (s (ix3 a o (0 : Fin 1)) * c1000) * (s (ix3 a o (0 : Fin 1)) * c1000)) (Ideal.ofBits .f32 0x00000000#32)
        + Ideal.ofBits .f32 0x3727C5AC#32))
      * g (ix3 (0 : Fin 1) (0 : Fin 1) j) + be (ix3 (0 : Fin 1) (0 : Fin 1) j)) (Ideal.ofBits .f32 0x00000000#32) = _
  rw [laneSums_apply, hs, Ideal.ofBits_zero_f32]
  rfl

/-- The second dense layer: the product with the weight accumulated into zero, plus the bias row. -/
def lin2 (w : FVec Ideal S1024x800 .bf16) (b : FVec Ideal S1x800 .f32) (u : FVec Ideal S1024x1024 .f32) :
    FVec Ideal S1024x800 .f32 :=
  addf (matmul D2 none (truncf .bf16 u bitsLt_bf16_f32) w (constant (F := Ideal) S1024x800 .f32 0x00000000#32))
    (broadcastTo S1024x800 b broadcasts_S1x800_S1024x800)

theorem lin2_apply (w : FVec Ideal S1024x800 .bf16) (b : FVec Ideal S1x800 .f32) (u : FVec Ideal S1024x1024 .f32)
    (r : Fin 1024) (e : Fin 800) :
    lin2 w b u (ix2 r e) = (∑ j : Fin 1024, u (ix2 r j) * w (ix2 j e)) + b (ix2 (0 : Fin 1) e) := by
  unfold lin2
  rw [addf_apply, broadcastTo_1b_ab_apply]
  exact congrArg (· + b (ix2 (0 : Fin 1) e))
    (MatmulIx.matmul_zero_ix2 D2 rfl rfl D2_l0 D2_l1 D2_r0 D2_r1 none (truncf .bf16 u bitsLt_bf16_f32) w r e)

/-- The row sums of a [1024, 800] array, as a column. -/
def rowSums (y : FVec Ideal S1024x800 .f32) : FVec Ideal S1024x1 .f32 :=
  shapeCast S1024x1
    (multiReduction (F := Ideal) .add [1] S1024 y 0x00000000#32 reduces_S1024x800_S1024 (.inl rfl) rfl)
    shapeCasts_S1024_S1024x1

theorem rowSums_apply (y : FVec Ideal S1024x800 .f32) (r : Fin 1024) (u : Fin 1) :
    rowSums y (ix2 r u) = ∑ e : Fin 800, y (ix2 r e) := by
  unfold rowSums
  exact (Cert.Attn.Layout.shapeCast_a_a1_apply _ _ r u).trans
    (Cert.Attn.Layout.rowSum_apply y reduces_S1024x800_S1024 (.inl rfl) rfl r)

/-- The row means: row sum · c. -/
def rowMean (y : FVec Ideal S1024x800 .f32) : FVec Ideal S1024x1 .f32 := mulf (rowSums y) (broadcast S1024x1 c800)

theorem rowMean_apply (y : FVec Ideal S1024x800 .f32) (r : Fin 1024) (u : Fin 1) :
    rowMean y (ix2 r u) = (∑ e : Fin 800, y (ix2 r e)) * c800 := by
  unfold rowMean
  rw [mulf_apply, broadcast_apply, rowSums_apply]

/-- The reciprocal root of each row's variance (second moment · c − mean², cut at 0) plus the offset; `m` stands for the means. -/
def rowRstd (y : FVec Ideal S1024x800 .f32) (m : FVec Ideal S1024x1 .f32) : FVec Ideal S1024x1 .f32 :=
  rsqrt (addf
    (maximumf (subf (mulf (rowSums (mulf y y)) (broadcast S1024x1 c800)) (mulf m m))
      (broadcast S1024x1 (Scalar.ofBits (F := Ideal) .f32 0x00000000#32)))
    (broadcast S1024x1 (Scalar.ofBits (F := Ideal) .f32 0x3727C5AC#32)))

theorem rowRstd_apply (y : FVec Ideal S1024x800 .f32) (m : FVec Ideal S1024x1 .f32) (r : Fin 1024) (u : Fin 1) :
    rowRstd y m (ix2 r u)
      = Ideal.rsqrt (max ((∑ e : Fin 800, y (ix2 r e) * y (ix2 r e)) * c800 - m (ix2 r u) * m (ix2 r u)) 0 + eps) := by
  unfold rowRstd
  show Ideal.rsqrt (max (rowSums (mulf y y) (ix2 r u) * c800 - m (ix2 r u) * m (ix2 r u)) (Ideal.ofBits .f32 0x00000000#32)
    + Ideal.ofBits .f32 0x3727C5AC#32) = _
  rw [rowSums_apply, Ideal.ofBits_zero_f32]
  rfl

/-- The centred rows scaled by the reciprocal roots, by the scale row, shifted by the shift row, contracted with the image
    rows over the 800 lanes, the 1024 columns split into (8, 128). -/
def score (g be : FVec Ideal S1x800 .f32) (img : FVec Ideal S256x800 .bf16) (cen : FVec Ideal S1024x800 .f32)
    (rstd : FVec Ideal S1024x1 .f32) : FVec Ideal S256x8x128 .f32 :=
  shapeCast S256x8x128
    (matmul D3 none img
      (truncf .bf16
        (addf
          (mulf (mulf cen (broadcastTo S1024x800 rstd broadcasts_S1024x1_S1024x800))
            (broadcastTo S1024x800 g broadcasts_S1x800_S1024x800))
          (broadcastTo S1024x800 be broadcasts_S1x800_S1024x800))
        bitsLt_bf16_f32)
      (constant (F := Ideal) S256x1024 .f32 0x00000000#32))
    shapeCasts_S256x1024_S256x8x128

theorem score_apply (g be : FVec Ideal S1x800 .f32) (img : FVec Ideal S256x800 .bf16) (cen : FVec Ideal S1024x800 .f32)
    (rstd : FVec Ideal S1024x1 .f32) (b : Fin 256) (a : Fin 8) (o : Fin 128) (r : Fin 1024)
    (hr : r.val = a.val * 128 + o.val) :
    score g be img cen rstd (ix3 b a o)
      = ∑ e : Fin 800, img (ix2 b e)
          * ((cen (ix2 r e) * rstd (ix2 r (0 : Fin 1))) * g (ix2 (0 : Fin 1) e) + be (ix2 (0 : Fin 1) e)) := by
  unfold score
  refine (Cert.PairLayout.shapeCast_mc_mab_apply _ _ b a o r rfl hr).trans ?_
  refine (Cert.PairLayout.matmulT_zero_ix2 D3 rfl rfl D3_l0 D3_l1 D3_r0 D3_r1 none img _ b r).trans ?_
  refine Finset.sum_congr rfl fun e _ => ?_
  rw [truncf_apply, addf_apply, mulf_apply, mulf_apply, Cert.Attn.Layout.broadcastTo_a1_ab_apply,
    broadcastTo_1b_ab_apply, broadcastTo_1b_ab_apply]

/-- The rows of `y` normalised in one pass and contracted with the image rows: entry `(b, a, o)` is the image row `b`
    against the one-pass normalisation of row `a · 128 + o`. -/
theorem score_ln (g be : FVec Ideal S1x800 .f32) (img : FVec Ideal S256x800 .bf16) (y : FVec Ideal S1024x800 .f32)
    (b : Fin 256) (a : Fin 8) (o : Fin 128) (r : Fin 1024) (hr : r.val = a.val * 128 + o.val) :
    score g be img (subf y (broadcastTo S1024x800 (rowMean y) broadcasts_S1024x1_S1024x800)) (rowRstd y (rowMean y)) (ix3 b a o)
      = ∑ e : Fin 800, img (ix2 b e)
          * lnK c800 eps (fun e => y (ix2 r e)) (fun e => g (ix2 (0 : Fin 1) e)) (fun e => be (ix2 (0 : Fin 1) e)) e := by
  refine (score_apply g be img _ _ b a o r hr).trans (Finset.sum_congr rfl fun e _ => ?_)
  rw [subf_apply, Cert.Attn.Layout.broadcastTo_a1_ab_apply, rowRstd_apply, rowMean_apply]
  rfl

/-- One chunk's score entry from its stages: the spec's score of the pair (attribute row `a`, object row `o` of the chunk)
    against image row `b`. -/
theorem chunk_entry (v4 : FVec Ideal S8x1024 .f32) (b3 g3 be3 : FVec Ideal S1x1x1024 .f32) (v : Vec Ideal S128x1024 .f32)
    (w : FVec Ideal S1024x800 .bf16) (b2 gn bn : FVec Ideal S1x800 .f32) (img : FVec Ideal S256x800 .bf16)
    (b : Fin 256) (a : Fin 8) (o : Fin 128) :
    score gn bn img
        (subf (lin2 w b2 (act g3 be3 (pre3 v4 b3 v) (laneSums (pre3 v4 b3 v))))
          (broadcastTo S1024x800 (rowMean (lin2 w b2 (act g3 be3 (pre3 v4 b3 v) (laneSums (pre3 v4 b3 v)))))
            broadcasts_S1024x1_S1024x800))
        (rowRstd (lin2 w b2 (act g3 be3 (pre3 v4 b3 v) (laneSums (pre3 v4 b3 v))))
          (rowMean (lin2 w b2 (act g3 be3 (pre3 v4 b3 v) (laneSums (pre3 v4 b3 v))))))
        (ix3 b a o)
      = pairK c1000 c800 eps (fun j => v4 (ix2 a j)) (fun j => v (ix2 o j))
          (fun j => b3 (ix3 (0 : Fin 1) (0 : Fin 1) j)) (fun j => g3 (ix3 (0 : Fin 1) (0 : Fin 1) j))
          (fun j => be3 (ix3 (0 : Fin 1) (0 : Fin 1) j)) (fun j e => w (ix2 j e)) (fun e => b2 (ix2 (0 : Fin 1) e))
          (fun e => gn (ix2 (0 : Fin 1) e)) (fun e => bn (ix2 (0 : Fin 1) e)) (fun e => img (ix2 b e)) := by
  have hr : (⟨a.val * 128 + o.val, by have := a.isLt; have := o.isLt; omega⟩ : Fin 1024).val = a.val * 128 + o.val := rfl
  refine (score_ln gn bn img _ b a o _ hr).trans ?_
  unfold pairK mm
  refine Finset.sum_congr rfl fun e _ => ?_
  refine congrArg (fun pn : Fin 800 → EReal => img (ix2 b e) * lnK c800 eps pn (fun e => gn (ix2 (0 : Fin 1) e))
    (fun e => bn (ix2 (0 : Fin 1) e)) e) (funext fun e' => ?_)
  rw [lin2_apply]
  refine congrArg (· + b2 (ix2 (0 : Fin 1) e')) (Finset.sum_congr rfl fun j _ => ?_)
  rw [act_apply g3 be3 (pre3 v4 b3 v) (laneSums (pre3 v4 b3 v)) a o _ hr (laneSums_apply _ a o 0) j]
  refine congrArg (fun pre : Fin 1024 → EReal => max (lnK c1000 eps pre (fun j => g3 (ix3 (0 : Fin 1) (0 : Fin 1) j))
    (fun j => be3 (ix3 (0 : Fin 1) (0 : Fin 1) j)) j) 0 * w (ix2 j e')) (funext fun j' => ?_)
  exact pre3_apply v4 b3 v a o j'

end Cert.ScoreStages

end
-- ==== Proof.ScoreChunks.lean ====
/-
  The score kernel's first two store pieces (object rows 0 … 127 and 128 … 255 of the chunked object products), each
  read at (image row b, attribute row a, object row o of the chunk): the spec's score of the pair against the image row.

  Both pieces are the same chain of stages on their chunk's 128 rows — pre-activation, one-pass normalisation over the
  1024 lanes, maximum with 0, second dense layer, one-pass normalisation over the 800 lanes, contraction with the image
  rows — cut at different places into named intermediate values; unfolding the names shows each piece to be that chain.
-/
import proofs.«101777_j1108101562624_2_alg».proof.Proof.Gen.KernelIdeal.Frame
import proofs.«101777_j1108101562624_2_alg».proof.Proof.ScoreStages

noncomputable section

namespace Cert.ScoreChunks

open Idealize.ShloMosaic Idealize.ShloMosaic.ValueIdx Cert.KernelIdeal Cert.KernelIdeal.Gen Cert.Spec Cert.ScoreStages
open scoped BigOperators

/-- The zero offsets of a whole-array access. -/
theorem zero2 : (![0, 0] : Fin 2 → ℕ) = fun _ => 0 := by funext i; fin_cases i <;> rfl

/-- The attribute product at (a, j): attribute row a against column j of the first-layer weight's attribute half. -/
theorem attrProduct_apply (v0 : Vec Ideal S8x512 .bf16) (v2 : Vec Ideal S512x1024 .bf16) (a : Fin 8) (j : Fin 1024) :
    k4_pay2 (F := Ideal) v0 v2 (ix2 a j) = ∑ k : Fin 512, v0 (ix2 a k) * v2 (ix2 k j) := by
  show matmul D1 none (shapeCast S8x512 v0 shapeCasts_S8x512_S8x512) (shapeCast S512x1024 v2 shapeCasts_S512x1024_S512x1024)
    (constant (F := Ideal) S8x1024 .f32 0x00000000#32) (ix2 a j) = _
  rw [shapeCast_self, shapeCast_self]
  exact MatmulIx.matmul_zero_ix2 D1 rfl rfl D1_l0 D1_l1 D1_r0 D1_r1 none v0 v2 a j

/-- Each of the three one-row first-layer parameters, given two leading unit axes, reads its entry (0, j) at lane j. -/
theorem row3_apply (v : Vec Ideal S1x1024 .f32) (j : Fin 1024) :
    k4_pay3 (F := Ideal) v (ix3 (0 : Fin 1) (0 : Fin 1) j) = v (ix2 (0 : Fin 1) j) := row11_apply v j
theorem row4_apply (v : Vec Ideal S1x1024 .f32) (j : Fin 1024) :
    k4_pay4 (F := Ideal) v (ix3 (0 : Fin 1) (0 : Fin 1) j) = v (ix2 (0 : Fin 1) j) := row11_apply v j
theorem row5_apply (v : Vec Ideal S1x1024 .f32) (j : Fin 1024) :
    k4_pay5 (F := Ideal) v (ix3 (0 : Fin 1) (0 : Fin 1) j) = v (ix2 (0 : Fin 1) j) := row11_apply v j

/-- The second layer's parameters and the image rows pass through a recast to their own shape. -/
theorem w2_eq (v : Vec Ideal S1024x800 .bf16) : k4_pay6 (F := Ideal) v = v := shapeCast_self v _
theorem b2_eq (v : Vec Ideal S1x800 .f32) : k4_pay7 (F := Ideal) v = v := shapeCast_self v _
theorem gn_eq (v : Vec Ideal S1x800 .f32) : k4_pay8 (F := Ideal) v = v := shapeCast_self v _
theorem bn_eq (v : Vec Ideal S1x800 .f32) : k4_pay9 (F := Ideal) v = v := shapeCast_self v _
theorem img_eq (v : Vec Ideal S256x800 .bf16) : k4_pay10 (F := Ideal) v = v := shapeCast_self v _

/-- The first piece is the chain of stages on the first chunk. -/
theorem piece0_stages (v0 : Vec Ideal S8x512 .bf16) (v2 : Vec Ideal S512x1024 .bf16) (v5 : Vec Ideal S1x1024 .f32)
    (g3 be3 : FVec Ideal S1x1x1024 .f32) (v24 : Vec Ideal S128x1024 .f32) (w : FVec Ideal S1024x800 .bf16)
    (b2 gn bn : FVec Ideal S1x800 .f32) (img : FVec Ideal S256x800 .bf16) :
    k4_pay17 (F := Ideal) gn bn img
        (k4_pay15 g3 be3 w b2 (k4_pay11 v0 v2 v5 v24) (k4_pay12 v0 v2 v5 v24))
        (k4_pay16 g3 be3 w b2 (k4_pay11 v0 v2 v5 v24) (k4_pay12 v0 v2 v5 v24))
      = score gn bn img
          (subf (lin2 w b2 (act g3 be3 (pre3 (k4_pay2 v0 v2) (k4_pay3 v5) v24) (laneSums (pre3 (k4_pay2 v0 v2) (k4_pay3 v5) v24))))
            (broadcastTo S1024x800
              (rowMean (lin2 w b2 (act g3 be3 (pre3 (k4_pay2 v0 v2) (k4_pay3 v5) v24) (laneSums (pre3 (k4_pay2 v0 v2) (k4_pay3 v5) v24)))))
              broadcasts_S1024x1_S1024x800))
          (rowRstd (lin2 w b2 (act g3 be3 (pre3 (k4_pay2 v0 v2) (k4_pay3 v5) v24) (laneSums (pre3 (k4_pay2 v0 v2) (k4_pay3 v5) v24))))
            (rowMean (lin2 w b2 (act g3 be3 (pre3 (k4_pay2 v0 v2) (k4_pay3 v5) v24) (laneSums (pre3 (k4_pay2 v0 v2) (k4_pay3 v5) v24)))))) :=
  rfl

/-- The second piece is the same chain on the second chunk. -/
theorem piece1_stages (v4 : FVec Ideal S8x1024 .f32) (b3 g3 be3 : FVec Ideal S1x1x1024 .f32) (v92 : Vec Ideal S128x1024 .f32)
    (w : FVec Ideal S1024x800 .bf16) (b2 gn bn : FVec Ideal S1x800 .f32) (img : FVec Ideal S256x800 .bf16) :
    k4_pay19 (F := Ideal) w b2 gn bn img (k4_pay18 v4 b3 g3 be3 v92)
      = score gn bn img
          (subf (lin2 w b2 (act g3 be3 (pre3 v4 b3 v92) (laneSums (pre3 v4 b3 v92))))
            (broadcastTo S1024x800 (rowMean (lin2 w b2 (act g3 be3 (pre3 v4 b3 v92) (laneSums (pre3 v4 b3 v92)))))
              broadcasts_S1024x1_S1024x800))
          (rowRstd (lin2 w b2 (act g3 be3 (pre3 v4 b3 v92) (laneSums (pre3 v4 b3 v92))))
            (rowMean (lin2 w b2 (act g3 be3 (pre3 v4 b3 v92) (laneSums (pre3 v4 b3 v92)))))) :=
  rfl

/-- The first piece (object rows 0 … 127) at (b, a, o). -/
theorem piece_r4_7 (x0 : Vec Ideal S8x512 .bf16) (x1 : Vec Ideal S512x1024 .bf16) (x2 : Vec Ideal S1x1024 .f32) (x3 : Vec Ideal S1x1024 .f32) (x4 : Vec Ideal S1x1024 .f32) (x5 : Vec Ideal S512x1024 .f32) (x6 : Vec Ideal S1024x800 .bf16) (x7 : Vec Ideal S1x800 .f32) (x8 : Vec Ideal S1x800 .f32) (x9 : Vec Ideal S1x800 .f32) (x10 : Vec Ideal S256x800 .bf16)
    (b : Fin 256) (a : Fin 8) (o : Fin 128) :
    (k4_pay17 (F := Ideal) (k4_pay8 (View.ld x8 r4_4)) (k4_pay9 (View.ld x9 r4_4)) (k4_pay10 (View.ld x10 r4_5)) (k4_pay15 (k4_pay4 (View.ld x3 r4_2)) (k4_pay5 (View.ld x4 r4_2)) (k4_pay6 (View.ld x6 r4_3)) (k4_pay7 (View.ld x7 r4_4)) (k4_pay11 (View.ld x0 r4_0) (View.ld x1 r4_1) (View.ld x2 r4_2) (View.ld x5 r4_6)) (k4_pay12 (View.ld x0 r4_0) (View.ld x1 r4_1) (View.ld x2 r4_2) (View.ld x5 r4_6))) (k4_pay16 (k4_pay4 (View.ld x3 r4_2)) (k4_pay5 (View.ld x4 r4_2)) (k4_pay6 (View.ld x6 r4_3)) (k4_pay7 (View.ld x7 r4_4)) (k4_pay11 (View.ld x0 r4_0) (View.ld x1 r4_1) (View.ld x2 r4_2) (View.ld x5 r4_6)) (k4_pay12 (View.ld x0 r4_0) (View.ld x1 r4_1) (View.ld x2 r4_2) (View.ld x5 r4_6)))) (ix3 b a o)
      = Cert.Spec.pairK (Named.named (F := Ideal) Cert.KernelIdeal.κ "inv_1000" (φ := .f32) 0x3A83126F#32)
          (Named.named (F := Ideal) Cert.KernelIdeal.κ "inv_800" (φ := .f32) 0x3AA3D70A#32) (Ideal.ofBits .f32 0x3727C5AC#32)
          (fun j => ∑ k : Fin 512, x0 (ix2 a k) * x1 (ix2 k j))
          (fun j => x5 (ix2 (⟨128 * 0 + o.val, by have := o.isLt; omega⟩ : Fin 512) j))
          (fun j => x2 (ix2 (0 : Fin 1) j)) (fun j => x3 (ix2 (0 : Fin 1) j)) (fun j => x4 (ix2 (0 : Fin 1) j))
          (fun j e => x6 (ix2 j e)) (fun e => x7 (ix2 (0 : Fin 1) e)) (fun e => x8 (ix2 (0 : Fin 1) e))
          (fun e => x9 (ix2 (0 : Fin 1) e)) (fun e => x10 (ix2 b e)) := by
  rw [piece0_stages, chunk_entry]
  have e0 : View.ld x0 r4_0 = x0 := View.ld_unit_zero zero2 _ x0
  have e1 : View.ld x1 r4_1 = x1 := View.ld_unit_zero zero2 _ x1
  have e2 : View.ld x2 r4_2 = x2 := View.ld_unit_zero zero2 _ x2
  have e3 : View.ld x3 r4_2 = x3 := View.ld_unit_zero zero2 _ x3
  have e4 : View.ld x4 r4_2 = x4 := View.ld_unit_zero zero2 _ x4
  have e6 : View.ld x6 r4_3 = x6 := View.ld_unit_zero zero2 _ x6
  have e7 : View.ld x7 r4_4 = x7 := View.ld_unit_zero zero2 _ x7
  have e8 : View.ld x8 r4_4 = x8 := View.ld_unit_zero zero2 _ x8
  have e9 : View.ld x9 r4_4 = x9 := View.ld_unit_zero zero2 _ x9
  have e10 : View.ld x10 r4_5 = x10 := View.ld_unit_zero zero2 _ x10
  have hpo : (fun j : Fin 1024 => View.ld x5 r4_6 (ix2 o j))
      = fun j => x5 (ix2 (⟨128 * 0 + o.val, by have := o.isLt; omega⟩ : Fin 512) j) :=
    funext fun j => Cert.PairLayout.ld_rows_apply 0 x5 _ o j _ (by show 128 * 0 + o.val = 0 + o.val; omega)
  simp only [w2_eq, b2_eq, gn_eq, bn_eq, img_eq, row3_apply, row4_apply, row5_apply, attrProduct_apply,
    e0, e1, e2, e3, e4, e6, e7, e8, e9, e10, hpo]

/-- The second piece (object rows 128 … 255) at (b, a, o). -/
theorem piece_r4_9 (x0 : Vec Ideal S8x512 .bf16) (x1 : Vec Ideal S512x1024 .bf16) (x2 : Vec Ideal S1x1024 .f32) (x3 : Vec Ideal S1x1024 .f32) (x4 : Vec Ideal S1x1024 .f32) (x5 : Vec Ideal S512x1024 .f32) (x6 : Vec Ideal S1024x800 .bf16) (x7 : Vec Ideal S1x800 .f32) (x8 : Vec Ideal S1x800 .f32) (x9 : Vec Ideal S1x800 .f32) (x10 : Vec Ideal S256x800 .bf16)
    (b : Fin 256) (a : Fin 8) (o : Fin 128) :
    (k4_pay19 (F := Ideal) (k4_pay6 (View.ld x6 r4_3)) (k4_pay7 (View.ld x7 r4_4)) (k4_pay8 (View.ld x8 r4_4)) (k4_pay9 (View.ld x9 r4_4)) (k4_pay10 (View.ld x10 r4_5)) (k4_pay18 (k4_pay2 (View.ld x0 r4_0) (View.ld x1 r4_1)) (k4_pay3 (View.ld x2 r4_2)) (k4_pay4 (View.ld x3 r4_2)) (k4_pay5 (View.ld x4 r4_2)) (View.ld x5 r4_8))) (ix3 b a o)
      = Cert.Spec.pairK (Named.named (F := Ideal) Cert.KernelIdeal.κ "inv_1000" (φ := .f32) 0x3A83126F#32)
          (Named.named (F := Ideal) Cert.KernelIdeal.κ "inv_800" (φ := .f32) 0x3AA3D70A#32) (Ideal.ofBits .f32 0x3727C5AC#32)
          (fun j => ∑ k : Fin 512, x0 (ix2 a k) * x1 (ix2 k j))
          (fun j => x5 (ix2 (⟨128 * 1 + o.val, by have := o.isLt; omega⟩ : Fin 512) j))
          (fun j => x2 (ix2 (0 : Fin 1) j)) (fun j => x3 (ix2 (0 : Fin 1) j)) (fun j => x4 (ix2 (0 : Fin 1) j))
          (fun j e => x6 (ix2 j e)) (fun e => x7 (ix2 (0 : Fin 1) e)) (fun e => x8 (ix2 (0 : Fin 1) e))
          (fun e => x9 (ix2 (0 : Fin 1) e)) (fun e => x10 (ix2 b e)) := by
  rw [piece1_stages, chunk_entry]
  have e0 : View.ld x0 r4_0 = x0 := View.ld_unit_zero zero2 _ x0
  have e1 : View.ld x1 r4_1 = x1 := View.ld_unit_zero zero2 _ x1
  have e2 : View.ld x2 r4_2 = x2 := View.ld_unit_zero zero2 _ x2
  have e3 : View.ld x3 r4_2 = x3 := View.ld_unit_zero zero2 _ x3
  have e4 : View.ld x4 r4_2 = x4 := View.ld_unit_zero zero2 _ x4
  have e6 : View.ld x6 r4_3 = x6 := View.ld_unit_zero zero2 _ x6
  have e7 : View.ld x7 r4_4 = x7 := View.ld_unit_zero zero2 _ x7
  have e8 : View.ld x8 r4_4 = x8 := View.ld_unit_zero zero2 _ x8
  have e9 : View.ld x9 r4_4 = x9 := View.ld_unit_zero zero2 _ x9
  have e10 : View.ld x10 r4_5 = x10 := View.ld_unit_zero zero2 _ x10
  have hpo : (fun j : Fin 1024 => View.ld x5 r4_8 (ix2 o j))
      = fun j => x5 (ix2 (⟨128 * 1 + o.val, by have := o.isLt; omega⟩ : Fin 512) j) :=
    funext fun j => Cert.PairLayout.ld_rows_apply 128 x5 _ o j _ (by show 128 * 1 + o.val = 128 + o.val; omega)
  simp only [w2_eq, b2_eq, gn_eq, bn_eq, img_eq, row3_apply, row4_apply, row5_apply, attrProduct_apply,
    e0, e1, e2, e3, e4, e6, e7, e8, e9, e10, hpo]

end Cert.ScoreChunks

end
-- ==== Proof.PairInputs.lean ====
/-
  The score computation's first-layer pre-activation read at coordinates.

  The attribute half of the first-layer product is the plain product sum of the attribute rows with the weight; the
  bias, scale and shift rows are read at their one row; a pair's pre-activation at (attribute a, object o, lane j) is
  (attribute product + object product) + bias, and its lane sum is the sum of these over the 1024 lanes.
-/
import proofs.«101777_j1108101562624_2_alg».proof.Proof.Gen.KernelIdeal.Skeleton
import proofs.«101777_j1108101562624_2_alg».proof.Proof.LibLayout
import proofs.«101777_j1108101562624_2_alg».proof.Proof.LibLay3
import proofs.«101777_j1108101562624_2_alg».proof.Proof.LibMatmulIx
import proofs.«101777_j1108101562624_2_alg».proof.Proof.PairLayout

noncomputable section

namespace Cert.PairInputs

open Idealize.ShloMosaic Idealize.ShloMosaic.ValueIdx
open Cert.KernelIdeal Cert.KernelIdeal.Gen
open scoped BigOperators

/-- The dimension numbers of the attribute product, named. -/
abbrev DA := dot_S8x512_S512x1024_S8x1024_1_0_0_1_n_n

theorem dA_l0 (i : S8x1024.Idx) (q : DA.contr.Idx) : (DA.lhsIdx i q 0).val = (i 0).val := by
  unfold DotDims.lhsIdx
  rw [dif_neg (show ¬(0 : Fin S8x512.rank) ∈ DA.lhsBatch by decide), dif_pos (show (0 : Fin S8x512.rank) ∈ DA.lhsNonContracting by decide)]
  rfl
theorem dA_l1 (i : S8x1024.Idx) (q : DA.contr.Idx) : (DA.lhsIdx i q 1).val = (q ⟨0, by decide⟩).val :=
  DA.lhsIdx_val_of_single rfl i q
theorem dA_r0 (i : S8x1024.Idx) (q : DA.contr.Idx) : (DA.rhsIdx i q 0).val = (q ⟨0, by decide⟩).val :=
  DA.rhsIdx_val_of_single rfl i q
theorem dA_r1 (i : S8x1024.Idx) (q : DA.contr.Idx) : (DA.rhsIdx i q 1).val = (i 1).val := by
  unfold DotDims.rhsIdx
  rw [dif_neg (show ¬(1 : Fin S512x1024.rank) ∈ DA.rhsBatch by decide), dif_pos (show (1 : Fin S512x1024.rank) ∈ DA.rhsNonContracting by decide)]
  rfl

/-- The attribute half of the first-layer product at (a, j). -/
theorem pay2_apply (x0 : FVec Ideal S8x512 .bf16) (x1 : FVec Ideal S512x1024 .bf16) (a : Fin 8) (j : Fin 1024) :
    k4_pay2 (F := Ideal) x0 x1 (ix2 a j) = ∑ k : Fin 512, x0 (ix2 a k) * x1 (ix2 k j) := by
  unfold k4_pay2
  simp only [shapeCast_self]
  exact MatmulIx.matmul_zero_ix2 DA rfl rfl dA_l0 dA_l1 dA_r0 dA_r1 none x0 x1 a j

/-- A one-row vector given two leading unit axes reads its row. -/
theorem pay3_apply (x : FVec Ideal S1x1024 .f32) (u v : Fin 1) (j : Fin 1024) :
    k4_pay3 (F := Ideal) x (ix3 u v j) = x (ix2 (0 : Fin 1) j) := by
  unfold k4_pay3
  simp only [shapeCast_self]
  obtain rfl : v = (0 : Fin 1) := Subsingleton.elim _ _
  exact shapeCast_ab_1ab_apply x _ u 0 j
theorem pay4_apply (x : FVec Ideal S1x1024 .f32) (u v : Fin 1) (j : Fin 1024) :
    k4_pay4 (F := Ideal) x (ix3 u v j) = x (ix2 (0 : Fin 1) j) := pay3_apply x u v j
theorem pay5_apply (x : FVec Ideal S1x1024 .f32) (u v : Fin 1) (j : Fin 1024) :
    k4_pay5 (F := Ideal) x (ix3 u v j) = x (ix2 (0 : Fin 1) j) := pay3_apply x u v j

theorem pay6_eq (x : FVec Ideal S1024x800 .bf16) : k4_pay6 (F := Ideal) x = x := shapeCast_self x _
theorem pay7_eq (x : FVec Ideal S1x800 .f32) : k4_pay7 (F := Ideal) x = x := shapeCast_self x _
theorem pay8_eq (x : FVec Ideal S1x800 .f32) : k4_pay8 (F := Ideal) x = x := shapeCast_self x _
theorem pay9_eq (x : FVec Ideal S1x800 .f32) : k4_pay9 (F := Ideal) x = x := shapeCast_self x _
theorem pay10_eq (x : FVec Ideal S256x800 .bf16) : k4_pay10 (F := Ideal) x = x := shapeCast_self x _

/-- A pair's first-layer pre-activation at (a, o, j): (attribute product + object product) + bias. -/
theorem pay20_apply (A : FVec Ideal S8x1024 .f32) (b1 : FVec Ideal S1x1x1024 .f32) (X : FVec Ideal S128x1024 .f32)
    (a : Fin 8) (o : Fin 128) (j : Fin 1024) :
    k4_pay20 (F := Ideal) A b1 X (ix3 a o j) = (A (ix2 a j) + X (ix2 o j)) + b1 (ix3 (0 : Fin 1) (0 : Fin 1) j) := by
  unfold k4_pay20
  simp only [shapeCast_self, addf_apply, Cert.PairLayout.broadcastTo_a1d_abd_apply, Cert.PairLayout.broadcastTo_1bd_abd_apply,
    Cert.GQA.Lay.broadcastTo_11d_abd_apply, Cert.PairLayout.shapeCast_ad_a1d_apply, shapeCast_ab_1ab_apply]

/-- The lane sum of the pre-activation at (a, o). -/
theorem pay21_apply (A : FVec Ideal S8x1024 .f32) (b1 : FVec Ideal S1x1x1024 .f32) (X : FVec Ideal S128x1024 .f32)
    (a : Fin 8) (o : Fin 128) (u : Fin 1) :
    k4_pay21 (F := Ideal) A b1 X (ix3 a o u) = ∑ j : Fin 1024, k4_pay20 (F := Ideal) A b1 X (ix3 a o j) := by
  unfold k4_pay21
  exact (Cert.GQA.Lay.shapeCast_ab_ab1_apply _ _ a o u).trans (Cert.PairLayout.laneSum3_apply _ _ _ _ a o)

/-- The reciprocal of the row length spread over the pairs. -/
theorem pay22_apply (a : Fin 8) (o : Fin 128) (u : Fin 1) :
    k4_pay22 (F := Ideal) (ix3 a o u) = Named.named (F := Ideal) κ "inv_1000" (φ := .f32) 0x3A83126F#32 := rfl

end Cert.PairInputs

end
-- ==== Proof.PairPieces.lean ====
/-
  Two of the score block's four chunks read at coordinates: the stores of object lanes 256 … 383 (chunk 2) and
  384 … 511 (chunk 3).

  Each chunk's stored value is, by unfolding, the chain of stages of ScoreStages.lean on the chunk's inputs: the attribute
  half of the first-layer product (the attribute rows times the weight), the bias, scale and shift rows, the chunk's 128
  rows of the object half, the second layer's weight and rows, and the image rows.  So entry (b, a, o) is the score of
  Spec.lean for the pair (attribute a, object 128·c + o) against image row b, with the attribute product written as its
  sum and every row read from the arrays themselves.
-/
import proofs.«101777_j1108101562624_2_alg».proof.Proof.Gen.KernelIdeal.Frame
import proofs.«101777_j1108101562624_2_alg».proof.Proof.Spec
import proofs.«101777_j1108101562624_2_alg».proof.Proof.PairLayout
import proofs.«101777_j1108101562624_2_alg».proof.Proof.PairInputs
import proofs.«101777_j1108101562624_2_alg».proof.Proof.ScoreStages

noncomputable section

namespace Cert.PairPieces

open Idealize.ShloMosaic Idealize.ShloMosaic.ValueIdx
open Cert.KernelIdeal Cert.KernelIdeal.Gen Cert.Spec Cert.ScoreStages Cert.PairInputs
open scoped BigOperators

/-- A load of a whole matrix reads the matrix. -/
theorem ld_whole2 {Val : EltTy → Type} {e : EltTy} {n d : ℕ} (X : (⟨2, ![n, d]⟩ : Shape).Idx → Val e)
    (inb : ∀ a, (![0, 0] : Fin 2 → ℕ) a + (⟨2, ![n, d]⟩ : Shape).size a ≤ (⟨2, ![n, d]⟩ : Shape).size a) :
    View.ld X (Rect.unit (s := ⟨2, ![n, d]⟩) ![0, 0] (⟨2, ![n, d]⟩ : Shape).size inb) = X :=
  View.ld_unit_zero (by funext a; fin_cases a <;> rfl) inb X

/-- Row `128·c + o` of the object half, for the chunk `c` below 4. -/
def objRow (c : ℕ) (hc : c < 4) (o : Fin 128) : Fin 512 := ⟨128 * c + o.val, by have := o.isLt; omega⟩

/-- The spec's score with the chunk's inputs as the stages name them rewritten to the arrays' own entries. -/
theorem pairK_inputs (x0 : Vec Ideal S8x512 .bf16) (x1 : Vec Ideal S512x1024 .bf16) (x2 x3 x4 : Vec Ideal S1x1024 .f32)
    (x5 : Vec Ideal S512x1024 .f32) (x6 : Vec Ideal S1024x800 .bf16) (x7 x8 x9 : Vec Ideal S1x800 .f32)
    (x10 : Vec Ideal S256x800 .bf16) (v : Vec Ideal S128x1024 .f32) (c : ℕ) (hc : c < 4)
    (hv : ∀ (o : Fin 128) (j : Fin 1024), v (ix2 o j) = x5 (ix2 (objRow c hc o) j))
    (b : Fin 256) (a : Fin 8) (o : Fin 128) :
    pairK c1000 c800 eps (fun j => k4_pay2 (F := Ideal) (View.ld x0 r4_0) (View.ld x1 r4_1) (ix2 a j)) (fun j => v (ix2 o j))
        (fun j => k4_pay3 (F := Ideal) (View.ld x2 r4_2) (ix3 (0 : Fin 1) (0 : Fin 1) j))
        (fun j => k4_pay4 (F := Ideal) (View.ld x3 r4_2) (ix3 (0 : Fin 1) (0 : Fin 1) j))
        (fun j => k4_pay5 (F := Ideal) (View.ld x4 r4_2) (ix3 (0 : Fin 1) (0 : Fin 1) j))
        (fun j e => k4_pay6 (F := Ideal) (View.ld x6 r4_3) (ix2 j e))
        (fun e => k4_pay7 (F := Ideal) (View.ld x7 r4_4) (ix2 (0 : Fin 1) e))
        (fun e => k4_pay8 (F := Ideal) (View.ld x8 r4_4) (ix2 (0 : Fin 1) e))
        (fun e => k4_pay9 (F := Ideal) (View.ld x9 r4_4) (ix2 (0 : Fin 1) e))
        (fun e => k4_pay10 (F := Ideal) (View.ld x10 r4_5) (ix2 b e))
      = pairK c1000 c800 eps (fun j => ∑ k : Fin 512, x0 (ix2 a k) * x1 (ix2 k j)) (fun j => x5 (ix2 (objRow c hc o) j))
          (fun j => x2 (ix2 (0 : Fin 1) j)) (fun j => x3 (ix2 (0 : Fin 1) j)) (fun j => x4 (ix2 (0 : Fin 1) j))
          (fun j e => x6 (ix2 j e)) (fun e => x7 (ix2 (0 : Fin 1) e)) (fun e => x8 (ix2 (0 : Fin 1) e))
          (fun e => x9 (ix2 (0 : Fin 1) e)) (fun e => x10 (ix2 b e)) := by
  have e0 : View.ld x0 r4_0 = x0 := ld_whole2 x0 _
  have e1 : View.ld x1 r4_1 = x1 := ld_whole2 x1 _
  have e2 : View.ld x2 r4_2 = x2 := ld_whole2 x2 _
  have e3 : View.ld x3 r4_2 = x3 := ld_whole2 x3 _
  have e4 : View.ld x4 r4_2 = x4 := ld_whole2 x4 _
  have e6 : View.ld x6 r4_3 = x6 := ld_whole2 x6 _
  have e7 : View.ld x7 r4_4 = x7 := ld_whole2 x7 _
  have e8 : View.ld x8 r4_4 = x8 := ld_whole2 x8 _
  have e9 : View.ld x9 r4_4 = x9 := ld_whole2 x9 _
  have e10 : View.ld x10 r4_5 = x10 := ld_whole2 x10 _
  rw [e0, e1, e2, e3, e4, e6, e7, e8, e9, e10, pay6_eq, pay7_eq, pay8_eq, pay9_eq, pay10_eq]
  have h2 : (fun j => k4_pay2 (F := Ideal) x0 x1 (ix2 a j)) = fun j => ∑ k : Fin 512, x0 (ix2 a k) * x1 (ix2 k j) :=
    funext fun j => pay2_apply x0 x1 a j
  have h3 : (fun j => k4_pay3 (F := Ideal) x2 (ix3 (0 : Fin 1) (0 : Fin 1) j)) = fun j => x2 (ix2 (0 : Fin 1) j) :=
    funext fun j => pay3_apply x2 0 0 j
  have h4 : (fun j => k4_pay4 (F := Ideal) x3 (ix3 (0 : Fin 1) (0 : Fin 1) j)) = fun j => x3 (ix2 (0 : Fin 1) j) :=
    funext fun j => pay4_apply x3 0 0 j
  have h5 : (fun j => k4_pay5 (F := Ideal) x4 (ix3 (0 : Fin 1) (0 : Fin 1) j)) = fun j => x4 (ix2 (0 : Fin 1) j) :=
    funext fun j => pay5_apply x4 0 0 j
  have hv' : (fun j => v (ix2 o j)) = fun j => x5 (ix2 (objRow c hc o) j) := funext fun j => hv o j
  rw [h2, h3, h4, h5, hv']

/-- Chunk 2 (object lanes 256 … 383): entry (b, a, o) of the stored value is the score of the pair (attribute a,
    object 256 + o) against image row b. -/
theorem piece11_apply (x0 : Vec Ideal S8x512 .bf16) (x1 : Vec Ideal S512x1024 .bf16) (x2 x3 x4 : Vec Ideal S1x1024 .f32)
    (x5 : Vec Ideal S512x1024 .f32) (x6 : Vec Ideal S1024x800 .bf16) (x7 x8 x9 : Vec Ideal S1x800 .f32)
    (x10 : Vec Ideal S256x800 .bf16) (b : Fin 256) (a : Fin 8) (o : Fin 128) :
    k4_pay24 (F := Ideal) (k4_pay8 (View.ld x8 r4_4)) (k4_pay9 (View.ld x9 r4_4)) (k4_pay10 (View.ld x10 r4_5))
        (k4_pay23 (k4_pay4 (View.ld x3 r4_2)) (k4_pay5 (View.ld x4 r4_2)) (k4_pay6 (View.ld x6 r4_3)) (k4_pay7 (View.ld x7 r4_4))
          (k4_pay20 (k4_pay2 (View.ld x0 r4_0) (View.ld x1 r4_1)) (k4_pay3 (View.ld x2 r4_2)) (View.ld x5 r4_10))
          (k4_pay21 (k4_pay2 (View.ld x0 r4_0) (View.ld x1 r4_1)) (k4_pay3 (View.ld x2 r4_2)) (View.ld x5 r4_10))
          (k4_pay22 (F := Ideal))) (ix3 b a o)
      = pairK c1000 c800 eps (fun j => ∑ k : Fin 512, x0 (ix2 a k) * x1 (ix2 k j))
          (fun j => x5 (ix2 (objRow 2 (by decide) o) j))
          (fun j => x2 (ix2 (0 : Fin 1) j)) (fun j => x3 (ix2 (0 : Fin 1) j)) (fun j => x4 (ix2 (0 : Fin 1) j))
          (fun j e => x6 (ix2 j e)) (fun e => x7 (ix2 (0 : Fin 1) e)) (fun e => x8 (ix2 (0 : Fin 1) e))
          (fun e => x9 (ix2 (0 : Fin 1) e)) (fun e => x10 (ix2 b e)) := by
  refine (chunk_entry (k4_pay2 (F := Ideal) (View.ld x0 r4_0) (View.ld x1 r4_1)) (k4_pay3 (View.ld x2 r4_2))
    (k4_pay4 (View.ld x3 r4_2)) (k4_pay5 (View.ld x4 r4_2)) (View.ld x5 r4_10) (k4_pay6 (View.ld x6 r4_3))
    (k4_pay7 (View.ld x7 r4_4)) (k4_pay8 (View.ld x8 r4_4)) (k4_pay9 (View.ld x9 r4_4)) (k4_pay10 (View.ld x10 r4_5)) b a o).trans ?_
  exact pairK_inputs x0 x1 x2 x3 x4 x5 x6 x7 x8 x9 x10 (View.ld x5 r4_10) 2 (by decide)
    (fun o j => Cert.PairLayout.ld_rows_apply 256 x5 _ o j (objRow 2 (by decide) o) rfl) b a o

/-- Chunk 3 (object lanes 384 … 511): entry (b, a, o) of the stored value is the score of the pair (attribute a,
    object 384 + o) against image row b. -/
theorem piece13_apply (x0 : Vec Ideal S8x512 .bf16) (x1 : Vec Ideal S512x1024 .bf16) (x2 x3 x4 : Vec Ideal S1x1024 .f32)
    (x5 : Vec Ideal S512x1024 .f32) (x6 : Vec Ideal S1024x800 .bf16) (x7 x8 x9 : Vec Ideal S1x800 .f32)
    (x10 : Vec Ideal S256x800 .bf16) (b : Fin 256) (a : Fin 8) (o : Fin 128) :
    k4_pay1 (F := Ideal) (k4_pay6 (View.ld x6 r4_3)) (k4_pay7 (View.ld x7 r4_4)) (k4_pay8 (View.ld x8 r4_4))
        (k4_pay9 (View.ld x9 r4_4)) (k4_pay10 (View.ld x10 r4_5))
        (k4_pay25 (k4_pay2 (View.ld x0 r4_0) (View.ld x1 r4_1)) (k4_pay3 (View.ld x2 r4_2)) (k4_pay4 (View.ld x3 r4_2))
          (k4_pay5 (View.ld x4 r4_2)) (View.ld x5 r4_12))
        (constant (F := Ideal) S1024x800 .f32 0x00000000#32) (ix3 b a o)
      = pairK c1000 c800 eps (fun j => ∑ k : Fin 512, x0 (ix2 a k) * x1 (ix2 k j))
          (fun j => x5 (ix2 (objRow 3 (by decide) o) j))
          (fun j => x2 (ix2 (0 : Fin 1) j)) (fun j => x3 (ix2 (0 : Fin 1) j)) (fun j => x4 (ix2 (0 : Fin 1) j))
          (fun j e => x6 (ix2 j e)) (fun e => x7 (ix2 (0 : Fin 1) e)) (fun e => x8 (ix2 (0 : Fin 1) e))
          (fun e => x9 (ix2 (0 : Fin 1) e)) (fun e => x10 (ix2 b e)) := by
  refine (chunk_entry (k4_pay2 (F := Ideal) (View.ld x0 r4_0) (View.ld x1 r4_1)) (k4_pay3 (View.ld x2 r4_2))
    (k4_pay4 (View.ld x3 r4_2)) (k4_pay5 (View.ld x4 r4_2)) (View.ld x5 r4_12) (k4_pay6 (View.ld x6 r4_3))
    (k4_pay7 (View.ld x7 r4_4)) (k4_pay8 (View.ld x8 r4_4)) (k4_pay9 (View.ld x9 r4_4)) (k4_pay10 (View.ld x10 r4_5)) b a o).trans ?_
  exact pairK_inputs x0 x1 x2 x3 x4 x5 x6 x7 x8 x9 x10 (View.ld x5 r4_12) 3 (by decide)
    (fun o j => Cert.PairLayout.ld_rows_apply 384 x5 _ o j (objRow 3 (by decide) o) rfl) b a o

end Cert.PairPieces

end
-- ==== Proof.ScoreBlock.lean ====
/-
  The score block read at an entry.

  The body leaves the [256, 8, 512] block by four stores, one per chunk of 128 object lanes; each stored piece is, entry
  by entry, the spec's score of the pair (attribute a, object row of the chunk) against image row b.  The object row of
  chunk c at lane o is 128·c + o, which is the entry's own third coordinate; so all four pieces are blocks of ONE function
  of the block's index, and the block the stores leave is that function: entry (b, a, r) is the score of the pair
  (attribute a, object r) against image row b.
-/
import proofs.«101777_j1108101562624_2_alg».proof.Proof.Gen.KernelIdeal.Frame
import proofs.«101777_j1108101562624_2_alg».proof.Proof.Spec
import proofs.«101777_j1108101562624_2_alg».proof.Proof.ScoreStages
import proofs.«101777_j1108101562624_2_alg».proof.Proof.ScoreChunks
import proofs.«101777_j1108101562624_2_alg».proof.Proof.PairPieces

noncomputable section

namespace Cert.ScoreBlock

open Idealize.ShloMosaic Idealize.ShloMosaic.ValueIdx
open Cert.KernelIdeal Cert.KernelIdeal.Gen Cert.Spec Cert.ScoreStages Cert.PairPieces
open scoped BigOperators

/-- The score of the pair (attribute `a`, object `r`) against image row `b`, from the arrays' own entries. -/
def entry (x0 : Vec Ideal S8x512 .bf16) (x1 : Vec Ideal S512x1024 .bf16) (x2 x3 x4 : Vec Ideal S1x1024 .f32)
    (x5 : Vec Ideal S512x1024 .f32) (x6 : Vec Ideal S1024x800 .bf16) (x7 x8 x9 : Vec Ideal S1x800 .f32)
    (x10 : Vec Ideal S256x800 .bf16) (b : Fin 256) (a : Fin 8) (r : Fin 512) : EReal :=
  pairK c1000 c800 eps (fun j => ∑ k : Fin 512, x0 (ix2 a k) * x1 (ix2 k j)) (fun j => x5 (ix2 r j))
    (fun j => x2 (ix2 (0 : Fin 1) j)) (fun j => x3 (ix2 (0 : Fin 1) j)) (fun j => x4 (ix2 (0 : Fin 1) j))
    (fun j e => x6 (ix2 j e)) (fun e => x7 (ix2 (0 : Fin 1) e)) (fun e => x8 (ix2 (0 : Fin 1) e))
    (fun e => x9 (ix2 (0 : Fin 1) e)) (fun e => x10 (ix2 b e))

/-- The three coordinates of an index of the block, at their literal extents. -/
def c0 (y : S256x8x512.Idx) : Fin 256 := ⟨(y 0).val, (y 0).isLt⟩
def c1 (y : S256x8x512.Idx) : Fin 8 := ⟨(y 1).val, (y 1).isLt⟩
def c2 (y : S256x8x512.Idx) : Fin 512 := ⟨(y 2).val, (y 2).isLt⟩

/-- The scores as one function of the block's index. -/
def scores (x0 : Vec Ideal S8x512 .bf16) (x1 : Vec Ideal S512x1024 .bf16) (x2 x3 x4 : Vec Ideal S1x1024 .f32)
    (x5 : Vec Ideal S512x1024 .f32) (x6 : Vec Ideal S1024x800 .bf16) (x7 x8 x9 : Vec Ideal S1x800 .f32)
    (x10 : Vec Ideal S256x800 .bf16) : Vec Ideal S256x8x512 .f32 :=
  fun y => entry x0 x1 x2 x3 x4 x5 x6 x7 x8 x9 x10 (c0 y) (c1 y) (c2 y)

/-- A piece stored at object lanes `off … off + 127` whose entries are the scores of the object rows `off + o` is the
    block of `scores` its rectangle names. -/
theorem piece_agrees (x0 : Vec Ideal S8x512 .bf16) (x1 : Vec Ideal S512x1024 .bf16) (x2 x3 x4 : Vec Ideal S1x1024 .f32)
    (x5 : Vec Ideal S512x1024 .f32) (x6 : Vec Ideal S1024x800 .bf16) (x7 x8 x9 : Vec Ideal S1x800 .f32)
    (x10 : Vec Ideal S256x800 .bf16) (off : ℕ)
    (inb : ∀ ax, (![0, 0, off] : Fin 3 → ℕ) ax + S256x8x128.size ax ≤ S256x8x512.size ax)
    (P : Vec Ideal S256x8x128 .f32) (row : Fin 128 → Fin 512) (hrow : ∀ o, (row o).val = off + o.val)
    (hP : ∀ (b : Fin 256) (a : Fin 8) (o : Fin 128), P (ix3 b a o) = entry x0 x1 x2 x3 x4 x5 x6 x7 x8 x9 x10 b a (row o))
    (x : (Rect.unit (s := S256x8x512) ![0, 0, off] S256x8x128.size inb).shape.Idx) :
    P x = scores x0 x1 x2 x3 x4 x5 x6 x7 x8 x9 x10 ((Rect.unit (s := S256x8x512) ![0, 0, off] S256x8x128.size inb).emb x) := by
  obtain ⟨b, a, o, rfl⟩ : ∃ (b : Fin 256) (a : Fin 8) (o : Fin 128), x = ix3 b a o := ⟨x 0, x 1, x 2, eq_ix3 x⟩
  rw [hP b a o]
  have e0 : c0 ((Rect.unit (s := S256x8x512) ![0, 0, off] S256x8x128.size inb).emb (ix3 b a o)) = b :=
    Fin.ext (by show 0 + 1 * b.val = b.val; omega)
  have e1 : c1 ((Rect.unit (s := S256x8x512) ![0, 0, off] S256x8x128.size inb).emb (ix3 b a o)) = a :=
    Fin.ext (by show 0 + 1 * a.val = a.val; omega)
  have e2 : c2 ((Rect.unit (s := S256x8x512) ![0, 0, off] S256x8x128.size inb).emb (ix3 b a o)) = row o :=
    Fin.ext (by show off + 1 * o.val = (row o).val; rw [hrow]; omega)
  show _ = entry x0 x1 x2 x3 x4 x5 x6 x7 x8 x9 x10 (c0 _) (c1 _) (c2 _)
  rw [e0, e1, e2]

/-- The block the four stores leave is the scores, at every index. -/
theorem block_eq (x0 : Vec Ideal S8x512 .bf16) (x1 : Vec Ideal S512x1024 .bf16) (x2 x3 x4 : Vec Ideal S1x1024 .f32)
    (x5 : Vec Ideal S512x1024 .f32) (x6 : Vec Ideal S1024x800 .bf16) (x7 x8 x9 : Vec Ideal S1x800 .f32)
    (x10 : Vec Ideal S256x800 .bf16) (y : S256x8x512.Idx) :
    out4_11 (F := Ideal) x0 x1 x2 x3 x4 x5 x6 x7 x8 x9 x10 y = scores x0 x1 x2 x3 x4 x5 x6 x7 x8 x9 x10 y := by
  unfold out4_11
  refine View.canon_apply_of_pieces (scores x0 x1 x2 x3 x4 x5 x6 x7 x8 x9 x10) _ ?_ y (cover4_11 _ _ _ _ y)
  refine List.forall_mem_cons.mpr ⟨?_, List.forall_mem_cons.mpr ⟨?_, List.forall_mem_cons.mpr ⟨?_,
    List.forall_mem_cons.mpr ⟨?_, fun _ h => absurd h List.not_mem_nil⟩⟩⟩⟩
  · exact piece_agrees x0 x1 x2 x3 x4 x5 x6 x7 x8 x9 x10 384 Facts₀.inb_S256x8x512_S256x8x128_0_0_384 _ (objRow 3 (by decide)) (fun o => by show 128 * 3 + o.val = 384 + o.val; omega)
      (fun b a o => piece13_apply x0 x1 x2 x3 x4 x5 x6 x7 x8 x9 x10 b a o)
  · exact piece_agrees x0 x1 x2 x3 x4 x5 x6 x7 x8 x9 x10 256 Facts₀.inb_S256x8x512_S256x8x128_0_0_256 _ (objRow 2 (by decide)) (fun o => by show 128 * 2 + o.val = 256 + o.val; omega)
      (fun b a o => piece11_apply x0 x1 x2 x3 x4 x5 x6 x7 x8 x9 x10 b a o)
  · exact piece_agrees x0 x1 x2 x3 x4 x5 x6 x7 x8 x9 x10 128 Facts₀.inb_S256x8x512_S256x8x128_0_0_128 _ (objRow 1 (by decide)) (fun o => by show 128 * 1 + o.val = 128 + o.val; omega)
      (fun b a o => Cert.ScoreChunks.piece_r4_9 x0 x1 x2 x3 x4 x5 x6 x7 x8 x9 x10 b a o)
  · exact piece_agrees x0 x1 x2 x3 x4 x5 x6 x7 x8 x9 x10 0 Facts₀.inb_S256x8x512_S256x8x128_0_0_0 _ (objRow 0 (by decide)) (fun o => by show 128 * 0 + o.val = 0 + o.val; omega)
      (fun b a o => Cert.ScoreChunks.piece_r4_7 x0 x1 x2 x3 x4 x5 x6 x7 x8 x9 x10 b a o)

/-- Entry (b, a, r) of the block: the score of the pair (attribute a, object r) against image row b. -/
theorem out_entry (x0 : Vec Ideal S8x512 .bf16) (x1 : Vec Ideal S512x1024 .bf16) (x2 x3 x4 : Vec Ideal S1x1024 .f32)
    (x5 : Vec Ideal S512x1024 .f32) (x6 : Vec Ideal S1024x800 .bf16) (x7 x8 x9 : Vec Ideal S1x800 .f32)
    (x10 : Vec Ideal S256x800 .bf16) (b : Fin 256) (a : Fin 8) (r : Fin 512) :
    out4_11 (F := Ideal) x0 x1 x2 x3 x4 x5 x6 x7 x8 x9 x10 (ix3 b a r)
      = pairK c1000 c800 eps (fun j => ∑ k : Fin 512, x0 (ix2 a k) * x1 (ix2 k j)) (fun j => x5 (ix2 r j))
          (fun j => x2 (ix2 (0 : Fin 1) j)) (fun j => x3 (ix2 (0 : Fin 1) j)) (fun j => x4 (ix2 (0 : Fin 1) j))
          (fun j e => x6 (ix2 j e)) (fun e => x7 (ix2 (0 : Fin 1) e)) (fun e => x8 (ix2 (0 : Fin 1) e))
          (fun e => x9 (ix2 (0 : Fin 1) e)) (fun e => x10 (ix2 b e)) :=
  block_eq x0 x1 x2 x3 x4 x5 x6 x7 x8 x9 x10 (ix3 b a r)

/-- The same by chunk: lane `128·cc + o` of the block holds the object row `objRow cc hcc o`. -/
theorem out_entry_chunk (x0 : Vec Ideal S8x512 .bf16) (x1 : Vec Ideal S512x1024 .bf16) (x2 x3 x4 : Vec Ideal S1x1024 .f32)
    (x5 : Vec Ideal S512x1024 .f32) (x6 : Vec Ideal S1024x800 .bf16) (x7 x8 x9 : Vec Ideal S1x800 .f32)
    (x10 : Vec Ideal S256x800 .bf16) (b : Fin 256) (a : Fin 8) (cc : ℕ) (hcc : cc < 4) (o : Fin 128) :
    out4_11 (F := Ideal) x0 x1 x2 x3 x4 x5 x6 x7 x8 x9 x10 (ix3 b a (⟨128 * cc + o.val, by have := o.isLt; omega⟩ : Fin 512))
      = pairK c1000 c800 eps (fun j => ∑ k : Fin 512, x0 (ix2 a k) * x1 (ix2 k j)) (fun j => x5 (ix2 (objRow cc hcc o) j))
          (fun j => x2 (ix2 (0 : Fin 1) j)) (fun j => x3 (ix2 (0 : Fin 1) j)) (fun j => x4 (ix2 (0 : Fin 1) j))
          (fun j e => x6 (ix2 j e)) (fun e => x7 (ix2 (0 : Fin 1) e)) (fun e => x8 (ix2 (0 : Fin 1) e))
          (fun e => x9 (ix2 (0 : Fin 1) e)) (fun e => x10 (ix2 b e)) :=
  out_entry x0 x1 x2 x3 x4 x5 x6 x7 x8 x9 x10 b a (objRow cc hcc o)

end Cert.ScoreBlock

end
-- ==== Proof.PairScore.lean ====
/-
  One entry of the pair score: the arrangement over rows padded with zero lanes, with the first-layer product split
  into its attribute half and its object half, equals the arrangement over the concatenated row.

  * A product sum over the concatenation of two rows of 512 features is the sum of the two half products.
  * A sum over 1024 lanes whose lanes from 1000 on are zero is the sum over the first 1000 lanes.
  * On a pad lane the pre-activation is 0 + 0 + 0 = 0.  So the lane sum and the sum of squares over 1024 lanes are those
    over the 1000 true lanes, and with c = 1/1000 the one-pass normalisation over the padded row is, at a true lane, the
    one-pass normalisation of the true row; at a pad lane it is (0 − μ)·r·0 + 0 = 0, whose maximum with 0 is 0.
  * So the second dense layer's sum over 1024 lanes, whose pad terms are 0·w = 0, is the sum over the 1000 true lanes.
  * On real data the one-pass normalisations are the two-pass ones (twice).
-/
import proofs.«101777_j1108101562624_2_alg».proof.Proof.Spec
import proofs.«101777_j1108101562624_2_alg».proof.Proof.LibRealSums
import proofs.«101777_j1108101562624_2_alg».proof.Proof.LibRealOps
import proofs.«101777_j1108101562624_2_alg».proof.Proof.ThreePassProduct
import proofs.«101777_j1108101562624_2_alg».proof.Proof.LayerNormPasses
import proofs.«101777_j1108101562624_2_alg».proof.Proof.TowerRows

noncomputable section

namespace Cert.PairScore

open Idealize.ShloMosaic
open Cert.RealSums Cert.ThreePass Cert.LayerNormPasses Cert.TowerRows
open scoped BigOperators

/-- A sum over N lanes that vanish from lane M on is the sum over the first M lanes. -/
theorem sum_pad {M N : ℕ} (hMN : M ≤ N) (f : Fin N → EReal) (hz : ∀ j : Fin N, M ≤ j.val → f j = 0) :
    ∑ j, f j = ∑ i : Fin M, f (Fin.castLE hMN i) := by
  obtain ⟨d, rfl⟩ := Nat.exists_eq_add_of_le hMN
  rw [Fin.sum_univ_add]
  have h0 : ∑ i : Fin d, f (Fin.natAdd M i) = 0 :=
    Finset.sum_eq_zero fun i _ => hz _ (by simp [Fin.natAdd])
  rw [h0, add_zero]
  rfl

/-- A product sum against the concatenation of two rows is the sum of the two half product sums. -/
theorem sum_concat {M : ℕ} (ar or_ : Fin M → EReal) (W : Fin (M + M) → EReal) :
    ∑ k : Fin (M + M), (if h : k.val < M then ar ⟨k.val, h⟩ else or_ ⟨k.val - M, by omega⟩) * W k
      = (∑ k : Fin M, ar k * W (Fin.castAdd M k)) + ∑ k : Fin M, or_ k * W (Fin.natAdd M k) := by
  rw [Fin.sum_univ_add]
  congr 1
  · refine Finset.sum_congr rfl fun k _ => ?_
    have hk : (Fin.castAdd M k).val < M := by simp
    rw [dif_pos hk]
    rfl
  · refine Finset.sum_congr rfl fun k _ => ?_
    have hk : ¬ (Fin.natAdd M k).val < M := by simp
    rw [dif_neg hk]
    congr 2
    apply Fin.ext
    simp

/-- One-pass normalisation over a zero-padded row, at a true lane: it is the normalisation of the true row
    (the constant c is the same on both sides: the reciprocal of the true length). -/
theorem lnK_pad_lo {M N : ℕ} (hMN : M ≤ N) (c eps : EReal) (xK gK bK : Fin N → EReal) (xR gR bR : Fin M → EReal)
    (hx_lo : ∀ i, xK (Fin.castLE hMN i) = xR i) (hx_hi : ∀ j : Fin N, M ≤ j.val → xK j = 0)
    (hg_lo : ∀ i, gK (Fin.castLE hMN i) = gR i) (hb_lo : ∀ i, bK (Fin.castLE hMN i) = bR i) (i : Fin M) :
    Cert.Spec.lnK c eps xK gK bK (Fin.castLE hMN i) = Cert.Spec.lnK c eps xR gR bR i := by
  have hS : ∑ j, xK j = ∑ i, xR i := by
    rw [sum_pad hMN xK hx_hi]
    exact Finset.sum_congr rfl fun i _ => hx_lo i
  have hQ : ∑ j, xK j * xK j = ∑ i, xR i * xR i := by
    rw [sum_pad hMN (fun j => xK j * xK j) fun j hj => by rw [hx_hi j hj, mul_zero]]
    exact Finset.sum_congr rfl fun i _ => by rw [hx_lo i]
  unfold Cert.Spec.lnK
  rw [hS, hQ, hx_lo i, hg_lo i, hb_lo i]

/-- At a pad lane, where the row, the scale and the shift are zero, it is zero. -/
theorem lnK_pad_hi {N : ℕ} (c eps : EReal) (xK gK bK : Fin N → EReal) (j : Fin N)
    (hg : gK j = 0) (hb : bK j = 0) :
    Cert.Spec.lnK c eps xK gK bK j = 0 := by
  unfold Cert.Spec.lnK
  rw [hg, hb, mul_zero, add_zero]

/-- The core of the pair stage, from the padded pre-activation on. -/
theorem pair_core (e : ℝ) (he : 0 < e) (preK g1p be1p : Fin 1024 → EReal) (preR g1 be1 : Fin 1000 → EReal)
    (w2p : Fin 1024 → Fin 800 → EReal) (w2 : Fin 1000 → Fin 800 → EReal) (b2 gn bn img : Fin 800 → EReal)
    (hle : 1000 ≤ 1024)
    (hpre_lo : ∀ i, preK (Fin.castLE hle i) = preR i) (hpre_hi : ∀ j : Fin 1024, 1000 ≤ j.val → preK j = 0)
    (hg_lo : ∀ i, g1p (Fin.castLE hle i) = g1 i) (hg_hi : ∀ j : Fin 1024, 1000 ≤ j.val → g1p j = 0)
    (hbe_lo : ∀ i, be1p (Fin.castLE hle i) = be1 i) (hbe_hi : ∀ j : Fin 1024, 1000 ≤ j.val → be1p j = 0)
    (hw2_lo : ∀ i q, w2p (Fin.castLE hle i) q = w2 i q)
    (hpreR : ∀ i, IsReal (preR i)) (hg1 : ∀ i, IsReal (g1 i)) (hbe1 : ∀ i, IsReal (be1 i))
    (hw2 : ∀ i q, IsReal (w2 i q)) (hb2 : ∀ q, IsReal (b2 q)) :
    (∑ q, img q * Cert.Spec.lnK (((1 / 800 : ℝ)) : EReal) (e : EReal)
        (fun q => Cert.Spec.mm (fun j => max (Cert.Spec.lnK (((1 / 1000 : ℝ)) : EReal) (e : EReal) preK g1p be1p j) 0)
          (fun j => w2p j q) + b2 q) gn bn q)
      = ∑ q, img q * Cert.Spec.lnR (((800 : ℝ)) : EReal) (e : EReal)
        (fun q => Cert.Spec.mm (fun j => max (Cert.Spec.lnR (((1000 : ℝ)) : EReal) (e : EReal) preR g1 be1 j) 0)
          (fun j => w2 j q) + b2 q) gn bn q := by
  -- the activated first layer, lane by lane
  have hu_lo : ∀ i, max (Cert.Spec.lnK (((1 / 1000 : ℝ)) : EReal) (e : EReal) preK g1p be1p (Fin.castLE hle i)) 0
      = max (Cert.Spec.lnR (((1000 : ℝ)) : EReal) (e : EReal) preR g1 be1 i) 0 := fun i => by
    rw [lnK_pad_lo hle _ _ preK g1p be1p preR g1 be1 hpre_lo hpre_hi hg_lo hbe_lo i,
      lnK_eq_lnR_1000 preR g1 be1 hpreR e he i]
  have hu_hi : ∀ j : Fin 1024, 1000 ≤ j.val →
      max (Cert.Spec.lnK (((1 / 1000 : ℝ)) : EReal) (e : EReal) preK g1p be1p j) 0 = 0 := fun j hj => by
    rw [lnK_pad_hi _ _ preK g1p be1p j (hg_hi j hj) (hbe_hi j hj)]
    exact max_self 0
  have huR : ∀ i, IsReal (max (Cert.Spec.lnR (((1000 : ℝ)) : EReal) (e : EReal) preR g1 be1 i) 0) := fun i =>
    (isReal_lnR_1000 preR g1 be1 hpreR hg1 hbe1 e he i).max IsReal.zero
  -- the second layer
  have hpn : (fun q => Cert.Spec.mm
        (fun j => max (Cert.Spec.lnK (((1 / 1000 : ℝ)) : EReal) (e : EReal) preK g1p be1p j) 0) (fun j => w2p j q) + b2 q)
      = fun q => Cert.Spec.mm
        (fun j => max (Cert.Spec.lnR (((1000 : ℝ)) : EReal) (e : EReal) preR g1 be1 j) 0) (fun j => w2 j q) + b2 q := by
    funext q
    congr 1
    unfold Cert.Spec.mm
    beta_reduce
    rw [sum_pad hle _ fun j hj => by beta_reduce; rw [hu_hi j hj, zero_mul]]
    exact Finset.sum_congr rfl fun i _ => by beta_reduce; rw [hu_lo i, hw2_lo i q]
  rw [hpn]
  have hpnR := isReal_dense _ w2 b2 huR hw2 hb2
  exact Finset.sum_congr rfl fun q _ => by rw [lnK_eq_lnR_800 _ gn bn hpnR e he q]

/-- The pair score: padded and split arrangement equals the concatenated arrangement, on real data. -/
theorem pairK_eq_pairR (e : ℝ) (he : 0 < e) (ar or_ : Fin 512 → EReal)
    (W1 : Fin 1024 → Fin 1000 → EReal) (b1 g1 be1 : Fin 1000 → EReal)
    (w2 : Fin 1000 → Fin 800 → EReal) (b2 gn bn img : Fin 800 → EReal)
    (A B : Fin 512 → Fin 1024 → EReal) (b1p g1p be1p : Fin 1024 → EReal) (w2p : Fin 1024 → Fin 800 → EReal)
    (hA_lo : ∀ (k : Fin 512) (j : Fin 1024) (h : j.val < 1000), A k j = W1 ⟨k.val, by omega⟩ ⟨j.val, h⟩)
    (hA_hi : ∀ (k : Fin 512) (j : Fin 1024), 1000 ≤ j.val → A k j = 0)
    (hB_lo : ∀ (k : Fin 512) (j : Fin 1024) (h : j.val < 1000), B k j = W1 ⟨512 + k.val, by omega⟩ ⟨j.val, h⟩)
    (hB_hi : ∀ (k : Fin 512) (j : Fin 1024), 1000 ≤ j.val → B k j = 0)
    (hb1p_lo : ∀ (j : Fin 1024) (h : j.val < 1000), b1p j = b1 ⟨j.val, h⟩)
    (hb1p_hi : ∀ j : Fin 1024, 1000 ≤ j.val → b1p j = 0)
    (hg1p_lo : ∀ (j : Fin 1024) (h : j.val < 1000), g1p j = g1 ⟨j.val, h⟩)
    (hg1p_hi : ∀ j : Fin 1024, 1000 ≤ j.val → g1p j = 0)
    (hbe1p_lo : ∀ (j : Fin 1024) (h : j.val < 1000), be1p j = be1 ⟨j.val, h⟩)
    (hbe1p_hi : ∀ j : Fin 1024, 1000 ≤ j.val → be1p j = 0)
    (hw2p_lo : ∀ (j : Fin 1024) (h : j.val < 1000) (q : Fin 800), w2p j q = w2 ⟨j.val, h⟩ q)
    (har : ∀ k, IsReal (ar k)) (hor : ∀ k, IsReal (or_ k)) (hW1 : ∀ k j, IsReal (W1 k j))
    (hb1 : ∀ j, IsReal (b1 j)) (hg1 : ∀ j, IsReal (g1 j)) (hbe1 : ∀ j, IsReal (be1 j))
    (hw2 : ∀ j q, IsReal (w2 j q)) (hb2 : ∀ q, IsReal (b2 q)) :
    Cert.Spec.pairK (((1 / 1000 : ℝ)) : EReal) (((1 / 800 : ℝ)) : EReal) (e : EReal)
        (fun j => ∑ k, ar k * A k j) (fun j => ∑ k, or_ k * B k j) b1p g1p be1p w2p b2 gn bn img
      = Cert.Spec.pairR (((1000 : ℝ)) : EReal) (((800 : ℝ)) : EReal) (e : EReal)
        (fun k : Fin 1024 => if h : k.val < 512 then ar ⟨k.val, h⟩ else or_ ⟨k.val - 512, by omega⟩)
        W1 b1 g1 be1 w2 b2 gn bn img := by
  have hle : 1000 ≤ 1024 := by norm_num
  -- the concatenated row is real
  have hpr : ∀ k : Fin 1024, IsReal
      ((fun k : Fin 1024 => if h : k.val < 512 then ar ⟨k.val, h⟩ else or_ ⟨k.val - 512, by omega⟩) k) := fun k => by
    by_cases h : k.val < 512
    · simp only [dif_pos h]; exact har _
    · simp only [dif_neg h]; exact hor _
  -- the pre-activation at a true lane
  have hpre_lo : ∀ i : Fin 1000,
      ((∑ k, ar k * A k (Fin.castLE hle i)) + (∑ k, or_ k * B k (Fin.castLE hle i))) + b1p (Fin.castLE hle i)
        = Cert.Spec.mm (fun k : Fin 1024 => if h : k.val < 512 then ar ⟨k.val, h⟩ else or_ ⟨k.val - 512, by omega⟩)
            (fun k => W1 k i) + b1 i := fun i => by
    have hc := sum_concat (M := 512) ar or_ (fun k => W1 k i)
    unfold Cert.Spec.mm
    rw [show (∑ k : Fin 1024, (if h : k.val < 512 then ar ⟨k.val, h⟩ else or_ ⟨k.val - 512, by omega⟩) * W1 k i)
        = (∑ k : Fin 512, ar k * W1 (Fin.castAdd 512 k) i) + ∑ k : Fin 512, or_ k * W1 (Fin.natAdd 512 k) i from hc]
    rw [hb1p_lo (Fin.castLE hle i) i.isLt]
    congr 2
    · exact Finset.sum_congr rfl fun k _ => by rw [hA_lo k (Fin.castLE hle i) i.isLt]; rfl
    · exact Finset.sum_congr rfl fun k _ => by rw [hB_lo k (Fin.castLE hle i) i.isLt]; rfl
  -- and at a pad lane
  have hpre_hi : ∀ j : Fin 1024, 1000 ≤ j.val →
      ((∑ k, ar k * A k j) + (∑ k, or_ k * B k j)) + b1p j = 0 := fun j hj => by
    have h1 : ∑ k, ar k * A k j = 0 := Finset.sum_eq_zero fun k _ => by rw [hA_hi k j hj, mul_zero]
    have h2 : ∑ k, or_ k * B k j = 0 := Finset.sum_eq_zero fun k _ => by rw [hB_hi k j hj, mul_zero]
    rw [h1, h2, hb1p_hi j hj, add_zero, add_zero]
  have hpreR := isReal_dense _ W1 b1 hpr hW1 hb1
  exact pair_core e he (fun j => ((∑ k, ar k * A k j) + (∑ k, or_ k * B k j)) + b1p j) g1p be1p
    (fun j => Cert.Spec.mm (fun k : Fin 1024 => if h : k.val < 512 then ar ⟨k.val, h⟩ else or_ ⟨k.val - 512, by omega⟩)
      (fun k => W1 k j) + b1 j) g1 be1 w2p w2 b2 gn bn img hle hpre_lo hpre_hi
    (fun i => hg1p_lo _ i.isLt) hg1p_hi (fun i => hbe1p_lo _ i.isLt) hbe1p_hi (fun i q => hw2p_lo _ i.isLt q)
    hpreR hg1 hbe1 hw2 hb2

end Cert.PairScore

end
-- ==== Proof.Consts.lean ====
/-
  The constants of the two programs as real numbers: the small positive number added to a variance, the row
  lengths 800 and 1000 the reference divides by, and the kernel's two named reciprocals 1/800 and 1/1000.
-/
import proofs.«101777_j1108101562624_2_alg».proof.KernelIdeal
import Idealize.ShloMosaic.PureOps.Ideal.Laws
import Idealize.ShloMosaic.PureOps.IdealRules

namespace Cert.Consts

open Idealize.ShloMosaic

/-- The variance's additive constant is a positive real number. -/
theorem eps_word : ∃ e : ℝ, 0 < e ∧ Ideal.ofBits .f32 0x3727C5AC#32 = (e : EReal) := by
  refine ⟨_, ?_, by simp [Ideal.ofBits, Ideal.ieee]; rfl⟩
  positivity

/-- The word of 800.0 denotes 800. -/
theorem w800 : Ideal.ofBits .f32 0x44480000#32 = ((800 : ℝ) : EReal) := by
  simp [Ideal.ofBits, Ideal.ieee]
  rw [← EReal.coe_mul]
  norm_num

/-- The word of 1000.0 denotes 1000. -/
theorem w1000 : Ideal.ofBits .f32 0x447A0000#32 = ((1000 : ℝ) : EReal) := by
  simp [Ideal.ofBits, Ideal.ieee]
  rw [← EReal.coe_mul]
  norm_num

/-- The named reciprocal of 800 denotes 1/800, by the certificate's table. -/
theorem inv800 : Named.named (F := Ideal) Cert.KernelIdeal.κ "inv_800" (φ := .f32) 0x3AA3D70A#32 = ((1 / 800 : ℝ) : EReal) :=
  IdealRules.named_const.ideal_named_scalar _ _ _ _ rfl

/-- The named reciprocal of 1000 denotes 1/1000, by the certificate's table. -/
theorem inv1000 : Named.named (F := Ideal) Cert.KernelIdeal.κ "inv_1000" (φ := .f32) 0x3A83126F#32 = ((1 / 1000 : ℝ) : EReal) :=
  IdealRules.named_const.ideal_named_scalar _ _ _ _ rfl

end Cert.Consts
-- ==== Proof.ScoreCore.lean ====
/-
  One entry of the score block in the reference's arrangement.  The block's entry (b, a, r) is the kernel's score
  function of the attribute half Σ_k attr(a,k)·A(k,·), the object half Σ_k obj(r,k)·B(k,·) and the padded first-layer
  bias, scale and shift; when A, B and the padded rows are the zero-padded halves of the first-layer weight W1 and of
  b1, g1, be1, and the second-layer weight is w2 on its first 1000 rows, and every entry is a real number, this is the
  reference's score of the concatenated row (attr(a,·), obj(r,·)).
-/
import proofs.«101777_j1108101562624_2_alg».proof.Proof.ScoreBlock
import proofs.«101777_j1108101562624_2_alg».proof.Proof.PairScore
import proofs.«101777_j1108101562624_2_alg».proof.Proof.Consts

noncomputable section

namespace Cert.ScoreCore

open Idealize.ShloMosaic Idealize.ShloMosaic.ValueIdx Cert.KernelIdeal Cert.KernelIdeal.Gen
open Cert.RealSums
open scoped BigOperators

theorem score_core
    (x0 : Vec Ideal S8x512 .bf16) (x1 : Vec Ideal S512x1024 .bf16) (x2 x3 x4 : Vec Ideal S1x1024 .f32)
    (x5 : Vec Ideal S512x1024 .f32) (x6 : Vec Ideal S1024x800 .bf16) (x7 x8 x9 : Vec Ideal S1x800 .f32)
    (x10 : Vec Ideal S256x800 .bf16) (b : Fin 256) (a : Fin 8) (r : Fin 512)
    (ar or_ : Fin 512 → EReal) (B : Fin 512 → Fin 1024 → EReal)
    (W1 : Fin 1024 → Fin 1000 → EReal) (b1 g1 be1 : Fin 1000 → EReal) (w2 : Fin 1000 → Fin 800 → EReal)
    (b2 gn bn img : Fin 800 → EReal)
    (h0 : ∀ k, x0 (ix2 a k) = ar k)
    (h5 : ∀ j, x5 (ix2 r j) = ∑ k, or_ k * B k j)
    (hA_lo : ∀ (k : Fin 512) (j : Fin 1024) (h : j.val < 1000), x1 (ix2 k j) = W1 ⟨k.val, by omega⟩ ⟨j.val, h⟩)
    (hA_hi : ∀ (k : Fin 512) (j : Fin 1024), 1000 ≤ j.val → x1 (ix2 k j) = 0)
    (hB_lo : ∀ (k : Fin 512) (j : Fin 1024) (h : j.val < 1000), B k j = W1 ⟨512 + k.val, by omega⟩ ⟨j.val, h⟩)
    (hB_hi : ∀ (k : Fin 512) (j : Fin 1024), 1000 ≤ j.val → B k j = 0)
    (h2_lo : ∀ (j : Fin 1024) (h : j.val < 1000), x2 (ix2 (0 : Fin 1) j) = b1 ⟨j.val, h⟩)
    (h2_hi : ∀ j : Fin 1024, 1000 ≤ j.val → x2 (ix2 (0 : Fin 1) j) = 0)
    (h3_lo : ∀ (j : Fin 1024) (h : j.val < 1000), x3 (ix2 (0 : Fin 1) j) = g1 ⟨j.val, h⟩)
    (h3_hi : ∀ j : Fin 1024, 1000 ≤ j.val → x3 (ix2 (0 : Fin 1) j) = 0)
    (h4_lo : ∀ (j : Fin 1024) (h : j.val < 1000), x4 (ix2 (0 : Fin 1) j) = be1 ⟨j.val, h⟩)
    (h4_hi : ∀ j : Fin 1024, 1000 ≤ j.val → x4 (ix2 (0 : Fin 1) j) = 0)
    (h6_lo : ∀ (j : Fin 1024) (h : j.val < 1000) (q : Fin 800), x6 (ix2 j q) = w2 ⟨j.val, h⟩ q)
    (h7 : ∀ q, x7 (ix2 (0 : Fin 1) q) = b2 q) (h8 : ∀ q, x8 (ix2 (0 : Fin 1) q) = gn q)
    (h9 : ∀ q, x9 (ix2 (0 : Fin 1) q) = bn q) (h10 : ∀ q, x10 (ix2 b q) = img q)
    (har : ∀ k, IsReal (ar k)) (hor : ∀ k, IsReal (or_ k)) (hW1 : ∀ k j, IsReal (W1 k j)) (hb1 : ∀ j, IsReal (b1 j))
    (hg1 : ∀ j, IsReal (g1 j)) (hbe1 : ∀ j, IsReal (be1 j)) (hw2 : ∀ j q, IsReal (w2 j q)) (hb2 : ∀ q, IsReal (b2 q)) :
    out4_11 (F := Ideal) x0 x1 x2 x3 x4 x5 x6 x7 x8 x9 x10 (ix3 b a r)
      = Cert.Spec.pairR (Ideal.ofBits .f32 0x447A0000#32) (Ideal.ofBits .f32 0x44480000#32) (Ideal.ofBits .f32 0x3727C5AC#32)
          (fun k : Fin 1024 => if h : k.val < 512 then ar ⟨k.val, h⟩ else or_ ⟨k.val - 512, by omega⟩)
          W1 b1 g1 be1 w2 b2 gn bn img := by
  obtain ⟨e, he, hE⟩ := Cert.Consts.eps_word
  rw [Cert.ScoreBlock.out_entry]
  have e1 : (fun j => ∑ k : Fin 512, x0 (ix2 a k) * x1 (ix2 k j)) = fun j => ∑ k : Fin 512, ar k * (fun k j => x1 (ix2 k j)) k j :=
    funext fun j => Finset.sum_congr rfl fun k _ => by rw [h0 k]
  have e5 : (fun j => x5 (ix2 r j)) = fun j => ∑ k, or_ k * B k j := funext h5
  have e7 : (fun q => x7 (ix2 (0 : Fin 1) q)) = b2 := funext h7
  have e8 : (fun q => x8 (ix2 (0 : Fin 1) q)) = gn := funext h8
  have e9 : (fun q => x9 (ix2 (0 : Fin 1) q)) = bn := funext h9
  have e10 : (fun q => x10 (ix2 b q)) = img := funext h10
  rw [e1, e5, e7, e8, e9, e10]
  show Cert.Spec.pairK (Named.named (F := Ideal) Cert.KernelIdeal.κ "inv_1000" (φ := .f32) 0x3A83126F#32)
      (Named.named (F := Ideal) Cert.KernelIdeal.κ "inv_800" (φ := .f32) 0x3AA3D70A#32) (Ideal.ofBits .f32 0x3727C5AC#32) _ _ _ _ _ _ _ _ _ _ = _
  rw [Cert.Consts.inv1000, Cert.Consts.inv800, Cert.Consts.w1000, Cert.Consts.w800, hE]
  exact Cert.PairScore.pairK_eq_pairR e he ar or_ W1 b1 g1 be1 w2 b2 gn bn img (fun k j => x1 (ix2 k j)) B
    (fun j => x2 (ix2 (0 : Fin 1) j)) (fun j => x3 (ix2 (0 : Fin 1) j)) (fun j => x4 (ix2 (0 : Fin 1) j)) (fun j q => x6 (ix2 j q))
    hA_lo hA_hi hB_lo hB_hi h2_lo h2_hi h3_lo h3_hi h4_lo h4_hi h6_lo har hor hW1 hb1 hg1 hbe1 hw2 hb2

end Cert.ScoreCore

end
-- ==== Proof.KScores.lean ====
/-
  One entry of the idealized kernel program's score matrix, unwound to the node embeddings, the image features and
  the pair layers' arguments, in the reference's arrangement: entry (b, a·500 + o) is the reference's score of the
  concatenated row (node a's embedding, node 200+o's embedding) against image b's features.  The last host stretch
  cuts the score region's [256, 200, 512] output to its first 500 object lanes and regroups it; the region's output at
  (b, a, o) is the body's block entry at point a / 8; the host stretches before the region feed it the zero-padded
  halves of the first-layer weight, the padded bias, scale and shift, the padded second-layer weight and the node
  embeddings' two parts, and the region before it the object half's product.
-/
import proofs.«101777_j1108101562624_2_alg».proof.Proof.Region4Array
import proofs.«101777_j1108101562624_2_alg».proof.Proof.KScoreReads
import proofs.«101777_j1108101562624_2_alg».proof.Proof.HostGlue
import proofs.«101777_j1108101562624_2_alg».proof.Proof.ScoreCore

set_option maxRecDepth 16384

noncomputable section

namespace Cert.KernelIdeal.KScores

open Idealize.ShloMosaic Idealize.ShloMosaic.TcCoe Idealize.ShloMosaic.ValueIdx
open Cert.KernelIdeal Cert.KernelIdeal.Gen Cert.RealSums
open Cert.KernelIdeal.Region4Array Cert.KernelIdeal.HostGlue
open scoped BigOperators

variable (m : (ℓ : Loc nD τ sig) → Buf (Elt Ideal) ℓ) (ρ : Dev nD → PrngReg) (c : Dev nD)

theorem score_entry
    (NODES : S700x512.Idx → EReal) (hNODES : NODES = W6 m ρ c (Proc.devRef .tc main_v45))
    (IMG : S256x800.Idx → EReal) (hIMG : IMG = W6 m ρ c (Proc.devRef .tc main_v55))
    (L21 : S1024x1000.Idx → EReal) (hL21 : L21 = m ((c : Thread nD τ).loc main_arg21))
    (L22 : S1000.Idx → EReal) (hL22 : L22 = m ((c : Thread nD τ).loc main_arg22))
    (L23 : S1000.Idx → EReal) (hL23 : L23 = m ((c : Thread nD τ).loc main_arg23))
    (L24 : S1000.Idx → EReal) (hL24 : L24 = m ((c : Thread nD τ).loc main_arg24))
    (L25 : S1000x800.Idx → EReal) (hL25 : L25 = m ((c : Thread nD τ).loc main_arg25))
    (L26 : S800.Idx → EReal) (hL26 : L26 = m ((c : Thread nD τ).loc main_arg26))
    (L27 : S800.Idx → EReal) (hL27 : L27 = m ((c : Thread nD τ).loc main_arg27))
    (L28 : S800.Idx → EReal) (hL28 : L28 = m ((c : Thread nD τ).loc main_arg28))
    (rN : ∀ i, IsReal (NODES i)) (r21 : ∀ i, IsReal (L21 i)) (r22 : ∀ i, IsReal (L22 i)) (r23 : ∀ i, IsReal (L23 i))
    (r24 : ∀ i, IsReal (L24 i)) (r25 : ∀ i, IsReal (L25 i)) (r26 : ∀ i, IsReal (L26 i))
    (b : Fin 256) (a : Fin 200) (o : Fin 500) :
    (W24 m ρ c (Proc.devRef .tc main_v82) : S256x100000.Idx → EReal)
        (ix2 b (⟨a.val * 500 + o.val, by have := a.isLt; have := o.isLt; omega⟩ : Fin 100000))
      = Cert.Spec.pairR (Ideal.ofBits .f32 0x447A0000#32) (Ideal.ofBits .f32 0x44480000#32) (Ideal.ofBits .f32 0x3727C5AC#32)
          (fun k : Fin 1024 => if h : k.val < 512 then (fun k : Fin 512 => NODES (ix2 (⟨a.val, by have := a.isLt; omega⟩ : Fin 700) k)) ⟨k.val, h⟩
            else (fun k : Fin 512 => NODES (ix2 (⟨200 + o.val, by have := o.isLt; omega⟩ : Fin 700) k)) ⟨k.val - 512, by have := k.isLt; omega⟩)
          (fun k j => L21 (ix2 k j)) (fun j => L22 (ix1 j)) (fun j => L23 (ix1 j)) (fun j => L24 (ix1 j))
          (fun j q => L25 (ix2 j q)) (fun q => L26 (ix1 q)) (fun q => L27 (ix1 q)) (fun q => L28 (ix1 q))
          (fun q => IMG (ix2 b q)) := by
  subst hNODES hIMG hL21 hL22 hL23 hL24 hL25 hL26 hL27 hL28
  have ha : a.val < 200 := a.isLt
  have ho : o.val < 500 := o.isLt
  rw [Cert.KernelIdeal.KScoreReads.scores_apply m ρ c b a o]
  have hW : W23 m ρ c (Proc.devRef .tc main_v80) = G (V22 m ρ) c :=
    (W23_arr m ρ c 11).trans (arr4 (V22 m ρ) c)
  rw [hW]
  show body4 (V22 m ρ) c (attrBlk (V22 m ρ) c (ptOf (ix3 b a (⟨o.val, by omega⟩ : Fin 512))))
      (ix3 b (⟨a.val % 8, Nat.mod_lt _ (by decide)⟩ : Fin 8) (⟨o.val, by omega⟩ : Fin 512)) = _
  unfold body4
  refine Cert.ScoreCore.score_core _ _ _ _ _ _ _ _ _ _ _ b _ _
    (fun k : Fin 512 => (W6 m ρ c (Proc.devRef .tc main_v45) : S700x512.Idx → EReal) (ix2 (⟨a.val, by omega⟩ : Fin 700) k))
    (fun k : Fin 512 => (W6 m ρ c (Proc.devRef .tc main_v45) : S700x512.Idx → EReal) (ix2 (⟨200 + o.val, by omega⟩ : Fin 700) k))
    (fun k j => (V21 m ρ c main_v63 : S512x1024.Idx → EReal) (ix2 k j))
    (fun k j => (m ((c : Thread nD τ).loc main_arg21) : S1024x1000.Idx → EReal) (ix2 k j))
    (fun j => (m ((c : Thread nD τ).loc main_arg22) : S1000.Idx → EReal) (ix1 j))
    (fun j => (m ((c : Thread nD τ).loc main_arg23) : S1000.Idx → EReal) (ix1 j))
    (fun j => (m ((c : Thread nD τ).loc main_arg24) : S1000.Idx → EReal) (ix1 j))
    (fun j q => (m ((c : Thread nD τ).loc main_arg25) : S1000x800.Idx → EReal) (ix2 j q))
    (fun q => (m ((c : Thread nD τ).loc main_arg26) : S800.Idx → EReal) (ix1 q))
    (fun q => (m ((c : Thread nD τ).loc main_arg27) : S800.Idx → EReal) (ix1 q))
    (fun q => (m ((c : Thread nD τ).loc main_arg28) : S800.Idx → EReal) (ix1 q))
    (fun q => (W6 m ρ c (Proc.devRef .tc main_v55) : S256x800.Idx → EReal) (ix2 b q))
    ?h0 ?h5 ?hA_lo ?hA_hi ?hB_lo ?hB_hi ?h2_lo ?h2_hi ?h3_lo ?h3_hi ?h4_lo ?h4_hi ?h6_lo ?h7 ?h8 ?h9 ?h10
    (fun k => rN _) (fun k => rN _) (fun k j => r21 _) (fun j => r22 _) (fun j => r23 _) (fun j => r24 _)
    (fun j q => r25 _) (fun q => r26 _)
  case h0 =>
    intro k
    refine (attrBlk_apply (V22 m ρ) c _ _ k (⟨a.val, ha⟩ : Fin 200) ?_).trans (v75_apply m ρ c ⟨a.val, ha⟩ k)
    show a.val = 8 * (a.val / 8) + a.val % 8
    omega
  case h5 =>
    intro j
    rw [Cert.KernelIdeal.KScoreReads.objProduct_apply m ρ c (⟨o.val, by omega⟩ : Fin 512) j _ _ rfl rfl]
    refine Finset.sum_congr rfl fun k _ => ?_
    rw [v77_apply m ρ c (⟨o.val, by omega⟩ : Fin 512) k, dif_pos (show o.val < 500 from ho)]
  case hA_lo => exact fun k j h => (v61_apply m ρ c k j).trans (dif_pos h)
  case hA_hi => exact fun k j h => (v61_apply m ρ c k j).trans (dif_neg (by omega))
  case hB_lo => exact fun k j h => (v63_apply m ρ c k j).trans (dif_pos h)
  case hB_hi => exact fun k j h => (v63_apply m ρ c k j).trans (dif_neg (by omega))
  case h2_lo => exact fun j h => (v65_apply m ρ c j).trans (dif_pos h)
  case h2_hi => exact fun j h => (v65_apply m ρ c j).trans (dif_neg (by omega))
  case h3_lo => exact fun j h => (v67_apply m ρ c j).trans (dif_pos h)
  case h3_hi => exact fun j h => (v67_apply m ρ c j).trans (dif_neg (by omega))
  case h4_lo => exact fun j h => (v69_apply m ρ c j).trans (dif_pos h)
  case h4_hi => exact fun j h => (v69_apply m ρ c j).trans (dif_neg (by omega))
  case h6_lo => exact fun j h q => (v71_apply m ρ c j q).trans (dif_pos h)
  case h7 => exact fun q => v72_apply m ρ c q
  case h8 => exact fun q => v73_apply m ρ c q
  case h9 => exact fun q => v74_apply m ρ c q
  case h10 => exact fun q => congrFun (v78_eq m ρ c) (ix2 b q)

end Cert.KernelIdeal.KScores

end
-- ==== Proof.ImgDense.lean ====
/-
  One dense layer of the image tower read at an entry.

  The layer's product is taken in three passes over operands cut to the narrow float format, each pass accumulated
  into the zero array: x·w, then x·(w − w), then (x − x)·w, and the three are added.  On the extended reals a change
  of float format is the identity, so entry (p, q) of the sum is the three-pass product sum of row p of x against
  column q of w (`mm3_entry`, for any sizes and any dimension record that contracts the left operand's columns with
  the right operand's rows).  The one-row bias, recast to its own shape and spread over the rows, adds its lane q.
-/
import proofs.«101777_j1108101562624_2_alg».proof.Proof.Spec
import proofs.«101777_j1108101562624_2_alg».proof.Proof.LibMatmulIx
import proofs.«101777_j1108101562624_2_alg».proof.Proof.Gen.KernelIdeal.Skeleton
import Idealize.ShloMosaic.Lib.ValueLayout
import Idealize.ShloMosaic.Lib.Pipeline.Value

noncomputable section

namespace Cert.ImgDense

open Idealize.ShloMosaic Idealize.ShloMosaic.ValueIdx
open scoped BigOperators

variable {a K b : ℕ}

/-- The three passes of a product, added, at the entry (p, q): the three-pass product sum of row p against column q. -/
theorem mm3_entry (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : FVec Ideal ⟨2, ![a, K]⟩ .f32) (w : FVec Ideal ⟨2, ![K, b]⟩ .f32) (h : FTy.bf16.bits < FTy.f32.bits)
    (p : Fin a) (q : Fin b) :
    addf (addf (matmul D none (truncf .bf16 x h) (truncf .bf16 w h) (constant (F := Ideal) ⟨2, ![a, b]⟩ .f32 0x00000000#32))
               (matmul D none (truncf .bf16 x h) (truncf .bf16 (subf w w) h) (constant (F := Ideal) ⟨2, ![a, b]⟩ .f32 0x00000000#32)))
         (matmul D none (truncf .bf16 (subf x x) h) (truncf .bf16 w h) (constant (F := Ideal) ⟨2, ![a, b]⟩ .f32 0x00000000#32))
         (ix2 p q)
      = Cert.Spec.mm3 (fun k => x (ix2 p k)) (fun k => w (ix2 k q)) := by
  rw [addf_apply, addf_apply,
    MatmulIx.matmul_zero_ix2 D hr hs hl0 hl1 hr0 hr1 none _ _ p q,
    MatmulIx.matmul_zero_ix2 D hr hs hl0 hl1 hr0 hr1 none _ _ p q,
    MatmulIx.matmul_zero_ix2 D hr hs hl0 hl1 hr0 hr1 none _ _ p q]
  rfl

open Cert.KernelIdeal Cert.KernelIdeal.Facts₀ Cert.KernelIdeal.Gen

/-! The record of the [256, 512] × [512, 800] product: its left index keeps the row and takes the contracted coordinate
    as column, its right index takes the contracted coordinate as row and keeps the column. -/

theorem d1_l0 (i : S256x800.Idx) (q : dot_S256x512_S512x800_S256x800_1_0_0_1_n_n.contr.Idx) :
    (dot_S256x512_S512x800_S256x800_1_0_0_1_n_n.lhsIdx i q 0).val = (i 0).val := by
  unfold DotDims.lhsIdx
  rw [dif_neg (show ¬(0 : Fin S256x512.rank) ∈ dot_S256x512_S512x800_S256x800_1_0_0_1_n_n.lhsBatch by decide), dif_pos (show (0 : Fin S256x512.rank) ∈ dot_S256x512_S512x800_S256x800_1_0_0_1_n_n.lhsNonContracting by decide)]
  rfl

theorem d1_l1 (i : S256x800.Idx) (q : dot_S256x512_S512x800_S256x800_1_0_0_1_n_n.contr.Idx) :
    (dot_S256x512_S512x800_S256x800_1_0_0_1_n_n.lhsIdx i q 1).val = (q ⟨0, by decide⟩).val :=
  dot_S256x512_S512x800_S256x800_1_0_0_1_n_n.lhsIdx_val_of_single rfl i q

theorem d1_r0 (i : S256x800.Idx) (q : dot_S256x512_S512x800_S256x800_1_0_0_1_n_n.contr.Idx) :
    (dot_S256x512_S512x800_S256x800_1_0_0_1_n_n.rhsIdx i q 0).val = (q ⟨0, by decide⟩).val :=
  dot_S256x512_S512x800_S256x800_1_0_0_1_n_n.rhsIdx_val_of_single rfl i q

theorem d1_r1 (i : S256x800.Idx) (q : dot_S256x512_S512x800_S256x800_1_0_0_1_n_n.contr.Idx) :
    (dot_S256x512_S512x800_S256x800_1_0_0_1_n_n.rhsIdx i q 1).val = (i 1).val := by
  unfold DotDims.rhsIdx
  rw [dif_neg (show ¬(1 : Fin S512x800.rank) ∈ dot_S256x512_S512x800_S256x800_1_0_0_1_n_n.rhsBatch by decide), dif_pos (show (1 : Fin S512x800.rank) ∈ dot_S256x512_S512x800_S256x800_1_0_0_1_n_n.rhsNonContracting by decide)]
  rfl

/-- The first dense layer at the entry (p, q): the three-pass product sum of row p of the input against column q of
    the weight, plus lane q of the bias. -/
theorem pay2_entry (v0 : Vec Ideal S256x512 .f32) (v1 : Vec Ideal S512x800 .f32) (v15 : Vec Ideal S1x800 .f32)
    (p : Fin 256) (q : Fin 800) :
    k2_pay2 (F := Ideal) v0 v1 v15 (ix2 p q)
      = Cert.Spec.mm3 (fun k => v0 (ix2 p k)) (fun k => v1 (ix2 k q)) + v15 (ix2 0 q) := by
  unfold k2_pay2
  rw [addf_apply, mm3_entry _ rfl rfl d1_l0 d1_l1 d1_r0 d1_r1, shapeCast_self, broadcastTo_1b_ab_apply]

/-! The record of the [256, 800] × [800, 1000] product: its left index keeps the row and takes the contracted coordinate
    as column, its right index takes the contracted coordinate as row and keeps the column. -/

theorem d2_l0 (i : S256x1000.Idx) (q : dot_S256x800_S800x1000_S256x1000_1_0_0_1_n_n.contr.Idx) :
    (dot_S256x800_S800x1000_S256x1000_1_0_0_1_n_n.lhsIdx i q 0).val = (i 0).val := by
  unfold DotDims.lhsIdx
  rw [dif_neg (show ¬(0 : Fin S256x800.rank) ∈ dot_S256x800_S800x1000_S256x1000_1_0_0_1_n_n.lhsBatch by decide), dif_pos (show (0 : Fin S256x800.rank) ∈ dot_S256x800_S800x1000_S256x1000_1_0_0_1_n_n.lhsNonContracting by decide)]
  rfl

theorem d2_l1 (i : S256x1000.Idx) (q : dot_S256x800_S800x1000_S256x1000_1_0_0_1_n_n.contr.Idx) :
    (dot_S256x800_S800x1000_S256x1000_1_0_0_1_n_n.lhsIdx i q 1).val = (q ⟨0, by decide⟩).val :=
  dot_S256x800_S800x1000_S256x1000_1_0_0_1_n_n.lhsIdx_val_of_single rfl i q

theorem d2_r0 (i : S256x1000.Idx) (q : dot_S256x800_S800x1000_S256x1000_1_0_0_1_n_n.contr.Idx) :
    (dot_S256x800_S800x1000_S256x1000_1_0_0_1_n_n.rhsIdx i q 0).val = (q ⟨0, by decide⟩).val :=
  dot_S256x800_S800x1000_S256x1000_1_0_0_1_n_n.rhsIdx_val_of_single rfl i q

theorem d2_r1 (i : S256x1000.Idx) (q : dot_S256x800_S800x1000_S256x1000_1_0_0_1_n_n.contr.Idx) :
    (dot_S256x800_S800x1000_S256x1000_1_0_0_1_n_n.rhsIdx i q 1).val = (i 1).val := by
  unfold DotDims.rhsIdx
  rw [dif_neg (show ¬(1 : Fin S800x1000.rank) ∈ dot_S256x800_S800x1000_S256x1000_1_0_0_1_n_n.rhsBatch by decide), dif_pos (show (1 : Fin S800x1000.rank) ∈ dot_S256x800_S800x1000_S256x1000_1_0_0_1_n_n.rhsNonContracting by decide)]
  rfl

/-! The record of the [256, 1000] × [1000, 800] product: its left index keeps the row and takes the contracted coordinate
    as column, its right index takes the contracted coordinate as row and keeps the column. -/

theorem d3_l0 (i : S256x800.Idx) (q : dot_S256x1000_S1000x800_S256x800_1_0_0_1_n_n.contr.Idx) :
    (dot_S256x1000_S1000x800_S256x800_1_0_0_1_n_n.lhsIdx i q 0).val = (i 0).val := by
  unfold DotDims.lhsIdx
  rw [dif_neg (show ¬(0 : Fin S256x1000.rank) ∈ dot_S256x1000_S1000x800_S256x800_1_0_0_1_n_n.lhsBatch by decide), dif_pos (show (0 : Fin S256x1000.rank) ∈ dot_S256x1000_S1000x800_S256x800_1_0_0_1_n_n.lhsNonContracting by decide)]
  rfl

theorem d3_l1 (i : S256x800.Idx) (q : dot_S256x1000_S1000x800_S256x800_1_0_0_1_n_n.contr.Idx) :
    (dot_S256x1000_S1000x800_S256x800_1_0_0_1_n_n.lhsIdx i q 1).val = (q ⟨0, by decide⟩).val :=
  dot_S256x1000_S1000x800_S256x800_1_0_0_1_n_n.lhsIdx_val_of_single rfl i q

theorem d3_r0 (i : S256x800.Idx) (q : dot_S256x1000_S1000x800_S256x800_1_0_0_1_n_n.contr.Idx) :
    (dot_S256x1000_S1000x800_S256x800_1_0_0_1_n_n.rhsIdx i q 0).val = (q ⟨0, by decide⟩).val :=
  dot_S256x1000_S1000x800_S256x800_1_0_0_1_n_n.rhsIdx_val_of_single rfl i q

theorem d3_r1 (i : S256x800.Idx) (q : dot_S256x1000_S1000x800_S256x800_1_0_0_1_n_n.contr.Idx) :
    (dot_S256x1000_S1000x800_S256x800_1_0_0_1_n_n.rhsIdx i q 1).val = (i 1).val := by
  unfold DotDims.rhsIdx
  rw [dif_neg (show ¬(1 : Fin S1000x800.rank) ∈ dot_S256x1000_S1000x800_S256x800_1_0_0_1_n_n.rhsBatch by decide), dif_pos (show (1 : Fin S1000x800.rank) ∈ dot_S256x1000_S1000x800_S256x800_1_0_0_1_n_n.rhsNonContracting by decide)]
  rfl

end Cert.ImgDense

end
-- ==== Proof.ImgNorm.lean ====
/-
  The row statistics of a layer normalisation read at an entry.

  A sum along the rows of an [a, b] array, kept as the column [a, 1], reads at row p the sum of that row's entries
  (`rowSumCol_entry`); multiplied by a scalar spread over the column it is that sum times the scalar
  (`rowSumScaled_entry`): with the scalar the reciprocal of the row length this is the row's mean, and of the
  squared entries the row's second moment.  A reciprocal square root taken entry by entry reads, at an index, the
  reciprocal square root of the entry there (`rsqrt_apply`).
-/
import proofs.«101777_j1108101562624_2_alg».proof.Proof.LibLayout
import Idealize.ShloMosaic.Lib.ValueLayout

noncomputable section

namespace Cert.ImgNorm

open Idealize.ShloMosaic Idealize.ShloMosaic.ValueIdx Cert.Attn.Layout
open scoped BigOperators

variable {a b : ℕ}

/-- The entrywise reciprocal square root at an index. -/
theorem rsqrt_apply {s : Shape} {φ : FTy} (x : FVec Ideal s φ) (i : s.Idx) : rsqrt x i = Ideal.rsqrt (x i) := rfl

/-- A row sum kept as a column, at row p: the sum of the row's entries. -/
theorem rowSumCol_entry (t : FVec Ideal ⟨2, ![a, b]⟩ .f32) (hred : (⟨2, ![a, b]⟩ : Shape).Reduces [1] (⟨1, ![a]⟩ : Shape))
    (hcast : (⟨1, ![a]⟩ : Shape).ShapeCasts ⟨2, ![a, 1]⟩) (p : Fin a) (u : Fin 1) :
    shapeCast ⟨2, ![a, 1]⟩ (multiReduction (F := Ideal) .add [1] (⟨1, ![a]⟩ : Shape) t 0x00000000#32 hred (.inl rfl) rfl) hcast (ix2 p u)
      = ∑ k : Fin b, t (ix2 p k) := by
  rw [shapeCast_a_a1_apply]
  exact rowSum_apply t hred (.inl rfl) rfl p

/-- A row sum kept as a column and multiplied by a scalar spread over the column, at row p. -/
theorem rowSumScaled_entry (t : FVec Ideal ⟨2, ![a, b]⟩ .f32) (hred : (⟨2, ![a, b]⟩ : Shape).Reduces [1] (⟨1, ![a]⟩ : Shape))
    (hcast : (⟨1, ![a]⟩ : Shape).ShapeCasts ⟨2, ![a, 1]⟩) (c : Ideal .f32) (p : Fin a) (u : Fin 1) :
    mulf (shapeCast ⟨2, ![a, 1]⟩ (multiReduction (F := Ideal) .add [1] (⟨1, ![a]⟩ : Shape) t 0x00000000#32 hred (.inl rfl) rfl) hcast)
        (broadcast ⟨2, ![a, 1]⟩ c) (ix2 p u)
      = (∑ k : Fin b, t (ix2 p k)) * c := by
  rw [mulf_apply, broadcast_apply, rowSumCol_entry]

end Cert.ImgNorm

end
-- ==== Proof.ImgTower.lean ====
/-
  The image tower's payloads read at an entry.

  Each payload of the tower's body is read at the entry (p, q) (a column [256, 1] at (p, u)) as a scalar expression
  in its operands' entries: a dense layer as the three-pass product sum plus the bias lane, a mean as the row sum
  times the reciprocal row length, a centred row as the entry minus the row's mean, a variance as the maximum of the
  second moment minus the squared mean with 0, plus the small constant, and a normalised, scaled, shifted and
  clipped row feeding the next dense layer.
-/
import proofs.«101777_j1108101562624_2_alg».proof.Proof.ImgDense
import proofs.«101777_j1108101562624_2_alg».proof.Proof.ImgNorm

noncomputable section

namespace Cert.ImgTower

open Idealize.ShloMosaic Idealize.ShloMosaic.ValueIdx Cert.Attn.Layout
open Cert.KernelIdeal Cert.KernelIdeal.Facts₀ Cert.KernelIdeal.Gen Cert.ImgDense Cert.ImgNorm
open scoped BigOperators

/-! ## The first normalisation's statistics -/

/-- The first layer's row mean: the row sum of the pre-activation times the reciprocal of 800. -/
theorem pay5_entry (v0 : Vec Ideal S256x512 .f32) (v1 : Vec Ideal S512x800 .f32) (v15 : Vec Ideal S1x800 .f32)
    (p : Fin 256) (u : Fin 1) :
    k2_pay5 (F := Ideal) v0 v1 v15 (ix2 p u)
      = (∑ k : Fin 800, k2_pay2 (F := Ideal) v0 v1 v15 (ix2 p k)) * Named.named (F := Ideal) κ "inv_800" (φ := .f32) 0x3AA3D70A#32 := by
  unfold k2_pay5
  rw [rowSumScaled_entry]

/-- The first layer's centred row: the pre-activation minus its row's mean. -/
theorem pay6_entry (v0 : Vec Ideal S256x512 .f32) (v1 : Vec Ideal S512x800 .f32) (v15 : Vec Ideal S1x800 .f32)
    (p : Fin 256) (q : Fin 800) :
    k2_pay6 (F := Ideal) v0 v1 v15 (ix2 p q)
      = k2_pay2 (F := Ideal) v0 v1 v15 (ix2 p q) - k2_pay5 (F := Ideal) v0 v1 v15 (ix2 p (0 : Fin 1)) := by
  unfold k2_pay6
  rw [subf_apply, broadcastTo_a1_ab_apply]

/-- The first layer's variance plus the small constant: the second moment minus the squared mean, not below 0. -/
theorem pay7_entry (v0 : Vec Ideal S256x512 .f32) (v1 : Vec Ideal S512x800 .f32) (v15 : Vec Ideal S1x800 .f32)
    (p : Fin 256) (u : Fin 1) :
    k2_pay7 (F := Ideal) v0 v1 v15 (ix2 p u)
      = max ((∑ k : Fin 800, k2_pay2 (F := Ideal) v0 v1 v15 (ix2 p k) * k2_pay2 (F := Ideal) v0 v1 v15 (ix2 p k)) * Named.named (F := Ideal) κ "inv_800" (φ := .f32) 0x3AA3D70A#32
              - k2_pay5 (F := Ideal) v0 v1 v15 (ix2 p u) * k2_pay5 (F := Ideal) v0 v1 v15 (ix2 p u)) 0
          + Ideal.ofBits .f32 0x3727C5AC#32 := by
  unfold k2_pay7
  rw [addf_apply, maximumf_apply, subf_apply, rowSumScaled_entry, mulf_apply, broadcast_apply, broadcast_apply]
  simp only [mulf_apply]
  rw [show (Scalar.ofBits (F := Ideal) .f32 0x00000000#32) = (0 : EReal) from Ideal.ofBits_zero_f32]
  rfl

/-! ## The second layer -/

/-- The second dense layer at (p, q): its input row is the first layer's centred row times the reciprocal square root
    of its variance term, scaled, shifted and clipped at 0. -/
theorem pay8_entry (v20 v22 : FVec Ideal S1x800 .f32) (v37 : FVec Ideal S256x800 .f32) (v39 : FVec Ideal S256x1 .f32)
    (v49 : Vec Ideal S800x1000 .f32) (v63 : Vec Ideal S1x1000 .f32) (p : Fin 256) (q : Fin 1000) :
    k2_pay8 (F := Ideal) v20 v22 v37 v39 v49 v63 (ix2 p q)
      = Cert.Spec.mm3 (fun k : Fin 800 => max ((v37 (ix2 p k) * Ideal.rsqrt (v39 (ix2 p (0 : Fin 1)))) * v20 (ix2 (0 : Fin 1) k)
              + v22 (ix2 (0 : Fin 1) k)) 0)
          (fun k => v49 (ix2 k q)) + v63 (ix2 0 q) := by
  unfold k2_pay8
  rw [addf_apply, mm3_entry _ rfl rfl d2_l0 d2_l1 d2_r0 d2_r1, shapeCast_self, broadcastTo_1b_ab_apply]
  simp only [maximumf_apply, addf_apply, mulf_apply, broadcast_apply, broadcastTo_a1_ab_apply, broadcastTo_1b_ab_apply, rsqrt_apply]
  rw [show (Scalar.ofBits (F := Ideal) .f32 0x00000000#32) = (0 : EReal) from Ideal.ofBits_zero_f32]

/-- The second layer's row mean. -/
theorem pay11_entry (v20 v22 : FVec Ideal S1x800 .f32) (v37 : FVec Ideal S256x800 .f32) (v39 : FVec Ideal S256x1 .f32)
    (v49 : Vec Ideal S800x1000 .f32) (v63 : Vec Ideal S1x1000 .f32) (p : Fin 256) (u : Fin 1) :
    k2_pay11 (F := Ideal) v20 v22 v37 v39 v49 v63 (ix2 p u)
      = (∑ k : Fin 1000, k2_pay8 (F := Ideal) v20 v22 v37 v39 v49 v63 (ix2 p k)) * Named.named (F := Ideal) κ "inv_1000" (φ := .f32) 0x3A83126F#32 := by
  unfold k2_pay11
  rw [rowSumScaled_entry]

/-- The second layer's second moment minus its squared mean. -/
theorem pay12_entry (v20 v22 : FVec Ideal S1x800 .f32) (v37 : FVec Ideal S256x800 .f32) (v39 : FVec Ideal S256x1 .f32)
    (v49 : Vec Ideal S800x1000 .f32) (v63 : Vec Ideal S1x1000 .f32) (p : Fin 256) (u : Fin 1) :
    k2_pay12 (F := Ideal) v20 v22 v37 v39 v49 v63 (ix2 p u)
      = (∑ k : Fin 1000, k2_pay8 (F := Ideal) v20 v22 v37 v39 v49 v63 (ix2 p k) * k2_pay8 (F := Ideal) v20 v22 v37 v39 v49 v63 (ix2 p k)) * Named.named (F := Ideal) κ "inv_1000" (φ := .f32) 0x3A83126F#32
          - k2_pay11 (F := Ideal) v20 v22 v37 v39 v49 v63 (ix2 p u) * k2_pay11 (F := Ideal) v20 v22 v37 v39 v49 v63 (ix2 p u) := by
  unfold k2_pay12
  rw [subf_apply, rowSumScaled_entry, mulf_apply]
  simp only [mulf_apply]

/-- The column of zeros the variance is clipped against. -/
theorem pay13_entry (p : Fin 256) (u : Fin 1) : k2_pay13 (F := Ideal) (ix2 p u) = 0 := by
  unfold k2_pay13
  rw [broadcast_apply]
  exact Ideal.ofBits_zero_f32

/-! ## The third layer -/

/-- The third dense layer at (p, q): its input row is the second layer's pre-activation minus its mean, times the
    reciprocal square root of the clipped variance plus the small constant, scaled, shifted and clipped at 0. -/
theorem pay14_entry (v66 : FVec Ideal S256x1000 .f32) (v68 v70 : FVec Ideal S1x1000 .f32) (v74 v81 v82 : FVec Ideal S256x1 .f32)
    (v97 : Vec Ideal S1000x800 .f32) (v111 : Vec Ideal S1x800 .f32) (p : Fin 256) (q : Fin 800) :
    k2_pay14 (F := Ideal) v66 v68 v70 v74 v81 v82 v97 v111 (ix2 p q)
      = Cert.Spec.mm3 (fun k : Fin 1000 =>
            max (((v66 (ix2 p k) - v74 (ix2 p (0 : Fin 1)))
                    * Ideal.rsqrt (max (v81 (ix2 p (0 : Fin 1))) (v82 (ix2 p (0 : Fin 1))) + Ideal.ofBits .f32 0x3727C5AC#32))
                  * v68 (ix2 (0 : Fin 1) k) + v70 (ix2 (0 : Fin 1) k)) 0)
          (fun k => v97 (ix2 k q)) + v111 (ix2 0 q) := by
  unfold k2_pay14
  rw [addf_apply, mm3_entry _ rfl rfl d3_l0 d3_l1 d3_r0 d3_r1, shapeCast_self, broadcastTo_1b_ab_apply]
  simp only [maximumf_apply, addf_apply, subf_apply, mulf_apply, broadcast_apply, broadcastTo_a1_ab_apply, broadcastTo_1b_ab_apply, rsqrt_apply]
  rw [show (Scalar.ofBits (F := Ideal) .f32 0x00000000#32) = (0 : EReal) from Ideal.ofBits_zero_f32]
  rfl

/-- The third layer's row mean. -/
theorem pay17_entry (v66 : FVec Ideal S256x1000 .f32) (v68 v70 : FVec Ideal S1x1000 .f32) (v74 v81 v82 : FVec Ideal S256x1 .f32)
    (v97 : Vec Ideal S1000x800 .f32) (v111 : Vec Ideal S1x800 .f32) (p : Fin 256) (u : Fin 1) :
    k2_pay17 (F := Ideal) v66 v68 v70 v74 v81 v82 v97 v111 (ix2 p u)
      = (∑ k : Fin 800, k2_pay14 (F := Ideal) v66 v68 v70 v74 v81 v82 v97 v111 (ix2 p k)) * Named.named (F := Ideal) κ "inv_800" (φ := .f32) 0x3AA3D70A#32 := by
  unfold k2_pay17
  rw [rowSumScaled_entry]

/-- The third layer's row sum of squares. -/
theorem pay18_entry (v66 : FVec Ideal S256x1000 .f32) (v68 v70 : FVec Ideal S1x1000 .f32) (v74 v81 v82 : FVec Ideal S256x1 .f32)
    (v97 : Vec Ideal S1000x800 .f32) (v111 : Vec Ideal S1x800 .f32) (p : Fin 256) (u : Fin 1) :
    k2_pay18 (F := Ideal) v66 v68 v70 v74 v81 v82 v97 v111 (ix2 p u)
      = ∑ k : Fin 800, k2_pay14 (F := Ideal) v66 v68 v70 v74 v81 v82 v97 v111 (ix2 p k) * k2_pay14 (F := Ideal) v66 v68 v70 v74 v81 v82 v97 v111 (ix2 p k) := by
  unfold k2_pay18
  rw [rowSumCol_entry]
  simp only [mulf_apply]

/-- The last normalisation at (p, q), from the pre-activation, the scale and shift rows, the mean column, the column
    of row sums of squares and the reciprocal row length. -/
theorem pay1_entry (v114 : FVec Ideal S256x800 .f32) (v116 v118 : FVec Ideal S1x800 .f32) (v122 v125 : FVec Ideal S256x1 .f32)
    (c : Ideal .f32) (p : Fin 256) (q : Fin 800) :
    k2_pay1 (F := Ideal) v114 v116 v118 v122 v125 c (ix2 p q)
      = ((v114 (ix2 p q) - v122 (ix2 p (0 : Fin 1)))
            * Ideal.rsqrt (max (v125 (ix2 p (0 : Fin 1)) * c - v122 (ix2 p (0 : Fin 1)) * v122 (ix2 p (0 : Fin 1))) 0 + Ideal.ofBits .f32 0x3727C5AC#32))
          * v116 (ix2 (0 : Fin 1) q) + v118 (ix2 (0 : Fin 1) q) := by
  unfold k2_pay1
  simp only [maximumf_apply, addf_apply, subf_apply, mulf_apply, broadcast_apply, broadcastTo_a1_ab_apply, broadcastTo_1b_ab_apply, rsqrt_apply]
  rw [show (Scalar.ofBits (F := Ideal) .f32 0x00000000#32) = (0 : EReal) from Ideal.ofBits_zero_f32]
  rfl

end Cert.ImgTower

end
-- ==== Proof.ImgTowerOut.lean ====
/-
  The image tower's output block read at an entry.

  The body stores one payload over the whole [256, 800] block and loads every operand whole, so the block is that
  payload of the operands themselves.  Row p of the block is then followed stage by stage: the first dense layer's
  row t1, its one-pass normalisation clipped at 0 (a1), the second dense layer's row t2, its normalisation clipped at
  0 (a2), the third dense layer's row t3, and the last normalisation — which is the tower's entry as specified.
-/
import proofs.«101777_j1108101562624_2_alg».proof.Proof.ImgTower
import proofs.«101777_j1108101562624_2_alg».proof.Proof.Gen.KernelIdeal.Frame

noncomputable section

namespace Cert.ImgTowerOut

open Idealize.ShloMosaic Idealize.ShloMosaic.ValueIdx
open Cert.KernelIdeal Cert.KernelIdeal.Facts₀ Cert.KernelIdeal.Gen Cert.ImgDense Cert.ImgNorm Cert.ImgTower
open scoped BigOperators

/-- The offsets of a whole block. -/
theorem hz : (![0, 0] : Fin 2 → Nat) = fun _ => 0 := funext fun a => by fin_cases a <;> rfl

/-! A one-row array recast to its own shape is itself. -/

theorem pay3_eq (v : Vec Ideal S1x800 .f32) : k2_pay3 (F := Ideal) v = v := by
  unfold k2_pay3
  exact shapeCast_self _ _

theorem pay4_eq (v : Vec Ideal S1x800 .f32) : k2_pay4 (F := Ideal) v = v := by
  unfold k2_pay4
  exact shapeCast_self _ _

theorem pay9_eq (v : Vec Ideal S1x1000 .f32) : k2_pay9 (F := Ideal) v = v := by
  unfold k2_pay9
  exact shapeCast_self _ _

theorem pay10_eq (v : Vec Ideal S1x1000 .f32) : k2_pay10 (F := Ideal) v = v := by
  unfold k2_pay10
  exact shapeCast_self _ _

theorem pay15_eq (v : Vec Ideal S1x800 .f32) : k2_pay15 (F := Ideal) v = v := by
  unfold k2_pay15
  exact shapeCast_self _ _

theorem pay16_eq (v : Vec Ideal S1x800 .f32) : k2_pay16 (F := Ideal) v = v := by
  unfold k2_pay16
  exact shapeCast_self _ _

/-- Entry (p, q) of the tower's output block: the specified tower on row p of the image block, at lane q. -/
theorem out2_13_entry (x0 : Vec Ideal S256x512 .f32) (x1 : Vec Ideal S512x800 .f32) (x2 x3 x4 : Vec Ideal S1x800 .f32)
    (x5 : Vec Ideal S800x1000 .f32) (x6 x7 x8 : Vec Ideal S1x1000 .f32) (x9 : Vec Ideal S1000x800 .f32)
    (x10 x11 x12 : Vec Ideal S1x800 .f32) (p : Fin 256) (q : Fin 800) :
    out2_13 (F := Ideal) x0 x1 x2 x3 x4 x5 x6 x7 x8 x9 x10 x11 x12 (ix2 p q)
      = Cert.Spec.imgK (Named.named (F := Ideal) κ "inv_800" (φ := .f32) 0x3AA3D70A#32) (Named.named (F := Ideal) κ "inv_1000" (φ := .f32) 0x3A83126F#32) (Ideal.ofBits .f32 0x3727C5AC#32)
          (fun k => x0 (ix2 p k)) (fun k j => x1 (ix2 k j)) (fun j => x2 (ix2 0 j)) (fun j => x3 (ix2 0 j)) (fun j => x4 (ix2 0 j))
          (fun k j => x5 (ix2 k j)) (fun j => x6 (ix2 0 j)) (fun j => x7 (ix2 0 j)) (fun j => x8 (ix2 0 j))
          (fun k j => x9 (ix2 k j)) (fun j => x10 (ix2 0 j)) (fun j => x11 (ix2 0 j)) (fun j => x12 (ix2 0 j)) q := by
  unfold out2_13
  rw [View.canon_unit_zero hz]
  simp only [View.ld_unit_zero (S := S256x512) hz, View.ld_unit_zero (S := S512x800) hz, View.ld_unit_zero (S := S1x800) hz,
    View.ld_unit_zero (S := S800x1000) hz, View.ld_unit_zero (S := S1x1000) hz, View.ld_unit_zero (S := S1000x800) hz,
    pay3_eq, pay4_eq, pay9_eq, pay10_eq, pay15_eq, pay16_eq]
  -- the first layer's row and its statistics
  obtain ⟨t1, ht1⟩ : ∃ t1 : Fin 800 → EReal,
      t1 = fun j => Cert.Spec.mm3 (fun k => x0 (ix2 p k)) (fun k => x1 (ix2 k j)) + x2 (ix2 0 j) := ⟨_, rfl⟩
  have h2 : ∀ j : Fin 800, k2_pay2 (F := Ideal) x0 x1 x2 (ix2 p j) = t1 j := fun j => by
    rw [ht1]; exact pay2_entry x0 x1 x2 p j
  have h5 : k2_pay5 (F := Ideal) x0 x1 x2 (ix2 p (0 : Fin 1)) = (∑ i, t1 i) * Named.named (F := Ideal) κ "inv_800" (φ := .f32) 0x3AA3D70A#32 := by
    rw [pay5_entry]; simp only [h2]
  have h6 : ∀ j : Fin 800, (k2_pay6 (F := Ideal) x0 x1 x2) (ix2 p j) = t1 j - (∑ i, t1 i) * Named.named (F := Ideal) κ "inv_800" (φ := .f32) 0x3AA3D70A#32 := fun j => by
    rw [pay6_entry, h2, h5]
  have h7 : (k2_pay7 (F := Ideal) x0 x1 x2) (ix2 p (0 : Fin 1))
      = max ((∑ i, t1 i * t1 i) * Named.named (F := Ideal) κ "inv_800" (φ := .f32) 0x3AA3D70A#32 - ((∑ i, t1 i) * Named.named (F := Ideal) κ "inv_800" (φ := .f32) 0x3AA3D70A#32) * ((∑ i, t1 i) * Named.named (F := Ideal) κ "inv_800" (φ := .f32) 0x3AA3D70A#32)) 0 + Ideal.ofBits .f32 0x3727C5AC#32 := by
    rw [pay7_entry, h5]; simp only [h2]
  -- the second layer's row and its statistics
  obtain ⟨a1, ha1⟩ : ∃ a1 : Fin 800 → EReal,
      a1 = fun j => max (Cert.Spec.lnK (Named.named (F := Ideal) κ "inv_800" (φ := .f32) 0x3AA3D70A#32) (Ideal.ofBits .f32 0x3727C5AC#32) t1 (fun j => x3 (ix2 0 j)) (fun j => x4 (ix2 0 j)) j) 0 := ⟨_, rfl⟩
  obtain ⟨t2, ht2⟩ : ∃ t2 : Fin 1000 → EReal,
      t2 = fun j => Cert.Spec.mm3 a1 (fun k => x5 (ix2 k j)) + x6 (ix2 0 j) := ⟨_, rfl⟩
  have h8 : ∀ j : Fin 1000, (k2_pay8 (F := Ideal) x3 x4 (k2_pay6 (F := Ideal) x0 x1 x2) (k2_pay7 (F := Ideal) x0 x1 x2) x5 x6) (ix2 p j) = t2 j := fun j => by
    rw [pay8_entry, ht2, ha1]
    simp only [h6, h7]
    rfl
  have h11 : (k2_pay11 (F := Ideal) x3 x4 (k2_pay6 (F := Ideal) x0 x1 x2) (k2_pay7 (F := Ideal) x0 x1 x2) x5 x6) (ix2 p (0 : Fin 1)) = (∑ i, t2 i) * Named.named (F := Ideal) κ "inv_1000" (φ := .f32) 0x3A83126F#32 := by
    rw [pay11_entry]; simp only [h8]
  have h12 : (k2_pay12 (F := Ideal) x3 x4 (k2_pay6 (F := Ideal) x0 x1 x2) (k2_pay7 (F := Ideal) x0 x1 x2) x5 x6) (ix2 p (0 : Fin 1))
      = (∑ i, t2 i * t2 i) * Named.named (F := Ideal) κ "inv_1000" (φ := .f32) 0x3A83126F#32 - ((∑ i, t2 i) * Named.named (F := Ideal) κ "inv_1000" (φ := .f32) 0x3A83126F#32) * ((∑ i, t2 i) * Named.named (F := Ideal) κ "inv_1000" (φ := .f32) 0x3A83126F#32) := by
    rw [pay12_entry, h11]; simp only [h8]
  -- the third layer's row and its statistics
  obtain ⟨a2, ha2⟩ : ∃ a2 : Fin 1000 → EReal,
      a2 = fun j => max (Cert.Spec.lnK (Named.named (F := Ideal) κ "inv_1000" (φ := .f32) 0x3A83126F#32) (Ideal.ofBits .f32 0x3727C5AC#32) t2 (fun j => x7 (ix2 0 j)) (fun j => x8 (ix2 0 j)) j) 0 := ⟨_, rfl⟩
  obtain ⟨t3, ht3⟩ : ∃ t3 : Fin 800 → EReal,
      t3 = fun j => Cert.Spec.mm3 a2 (fun k => x9 (ix2 k j)) + x10 (ix2 0 j) := ⟨_, rfl⟩
  have h14 : ∀ j : Fin 800, (k2_pay14 (F := Ideal) (k2_pay8 (F := Ideal) x3 x4 (k2_pay6 (F := Ideal) x0 x1 x2) (k2_pay7 (F := Ideal) x0 x1 x2) x5 x6) x7 x8 (k2_pay11 (F := Ideal) x3 x4 (k2_pay6 (F := Ideal) x0 x1 x2) (k2_pay7 (F := Ideal) x0 x1 x2) x5 x6) (k2_pay12 (F := Ideal) x3 x4 (k2_pay6 (F := Ideal) x0 x1 x2) (k2_pay7 (F := Ideal) x0 x1 x2) x5 x6) (k2_pay13 (F := Ideal)) x9 x10) (ix2 p j) = t3 j := fun j => by
    rw [pay14_entry, ht3, ha2]
    simp only [h8, h11, h12, pay13_entry]
    rfl
  have h17 : (k2_pay17 (F := Ideal) (k2_pay8 (F := Ideal) x3 x4 (k2_pay6 (F := Ideal) x0 x1 x2) (k2_pay7 (F := Ideal) x0 x1 x2) x5 x6) x7 x8 (k2_pay11 (F := Ideal) x3 x4 (k2_pay6 (F := Ideal) x0 x1 x2) (k2_pay7 (F := Ideal) x0 x1 x2) x5 x6) (k2_pay12 (F := Ideal) x3 x4 (k2_pay6 (F := Ideal) x0 x1 x2) (k2_pay7 (F := Ideal) x0 x1 x2) x5 x6) (k2_pay13 (F := Ideal)) x9 x10) (ix2 p (0 : Fin 1)) = (∑ i, t3 i) * Named.named (F := Ideal) κ "inv_800" (φ := .f32) 0x3AA3D70A#32 := by
    rw [pay17_entry]; simp only [h14]
  have h18 : (k2_pay18 (F := Ideal) (k2_pay8 (F := Ideal) x3 x4 (k2_pay6 (F := Ideal) x0 x1 x2) (k2_pay7 (F := Ideal) x0 x1 x2) x5 x6) x7 x8 (k2_pay11 (F := Ideal) x3 x4 (k2_pay6 (F := Ideal) x0 x1 x2) (k2_pay7 (F := Ideal) x0 x1 x2) x5 x6) (k2_pay12 (F := Ideal) x3 x4 (k2_pay6 (F := Ideal) x0 x1 x2) (k2_pay7 (F := Ideal) x0 x1 x2) x5 x6) (k2_pay13 (F := Ideal)) x9 x10) (ix2 p (0 : Fin 1)) = ∑ i, t3 i * t3 i := by
    rw [pay18_entry]; simp only [h14]
  -- the last normalisation
  rw [pay1_entry, h14, h17, h18]
  subst ht3 ha2 ht2 ha1 ht1
  rfl

end Cert.ImgTowerOut

end
-- ==== Proof.KImage.lean ====
/-
  The idealized kernel program's image features, unwound to the arguments and put in the reference's arrangement.

  The image features are the third region's output array: the tower's body on the image block, the three weights, and
  the three biases and three scale and shift pairs, each of the nine vectors recast to a row by the host operations
  before the region.  None of the thirteen arguments is written before that region, so each buffer holds its argument
  there.  Read at an entry, the block is the tower in its three-pass, one-pass-normalisation arrangement; on real data,
  with the two reciprocals and the small positive constant as real numbers, that is the tower with plain products and
  two-pass normalisations over the arguments themselves, and a real number.
-/
import proofs.«101777_j1108101562624_2_alg».proof.Proof.Gen.KernelIdeal.Frame
import proofs.«101777_j1108101562624_2_alg».proof.Proof.LibStretch
import proofs.«101777_j1108101562624_2_alg».proof.Proof.RegionArrays
import proofs.«101777_j1108101562624_2_alg».proof.Proof.ImgTowerOut
import proofs.«101777_j1108101562624_2_alg».proof.Proof.TowerRows
import proofs.«101777_j1108101562624_2_alg».proof.Proof.Consts
import Idealize.ShloMosaic.Lib.ValueLayout

set_option maxRecDepth 16384

noncomputable section

namespace Cert.KernelIdeal.KImage

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg) (c : Dev nD)

/-! ## The arguments are still in their buffers at the third region's entry

Neither of the first two regions has an argument of the tower among its arrays, and no host operation before the
third region writes one. -/

theorem W4_arg0 : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := by
          show StableHlo.after hostOps1 (W2 m ρ c) (Proc.devRef .tc main_arg0) = _
          unwritten hostOps1
    _ = W1 m ρ c (Proc.devRef .tc main_arg0) := W2_of_ne m ρ c main_arg0 (by decide)
    _ = m ((c : Thread nD τ).loc main_arg0) := by
          show StableHlo.after hostOps0 (W0 m ρ c) (Proc.devRef .tc main_arg0) = _
          unwritten hostOps0

theorem W4_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by
          show StableHlo.after hostOps1 (W2 m ρ c) (Proc.devRef .tc main_arg9) = _
          unwritten hostOps1
    _ = W1 m ρ c (Proc.devRef .tc main_arg9) := W2_of_ne m ρ c main_arg9 (by decide)
    _ = m ((c : Thread nD τ).loc main_arg9) := by
          show StableHlo.after hostOps0 (W0 m ρ c) (Proc.devRef .tc main_arg9) = _
          unwritten hostOps0

theorem W4_arg10 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by
          show StableHlo.after hostOps1 (W2 m ρ c) (Proc.devRef .tc main_arg10) = _
          unwritten hostOps1
    _ = W1 m ρ c (Proc.devRef .tc main_arg10) := W2_of_ne m ρ c main_arg10 (by decide)
    _ = m ((c : Thread nD τ).loc main_arg10) := by
          show StableHlo.after hostOps0 (W0 m ρ c) (Proc.devRef .tc main_arg10) = _
          unwritten hostOps0

theorem W4_arg11 : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by
          show StableHlo.after hostOps1 (W2 m ρ c) (Proc.devRef .tc main_arg11) = _
          unwritten hostOps1
    _ = W1 m ρ c (Proc.devRef .tc main_arg11) := W2_of_ne m ρ c main_arg11 (by decide)
    _ = m ((c : Thread nD τ).loc main_arg11) := by
          show StableHlo.after hostOps0 (W0 m ρ c) (Proc.devRef .tc main_arg11) = _
          unwritten hostOps0

theorem W4_arg12 : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by
          show StableHlo.after hostOps1 (W2 m ρ c) (Proc.devRef .tc main_arg12) = _
          unwritten hostOps1
    _ = W1 m ρ c (Proc.devRef .tc main_arg12) := W2_of_ne m ρ c main_arg12 (by decide)
    _ = m ((c : Thread nD τ).loc main_arg12) := by
          show StableHlo.after hostOps0 (W0 m ρ c) (Proc.devRef .tc main_arg12) = _
          unwritten hostOps0

theorem W4_arg13 : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := by
          show StableHlo.after hostOps1 (W2 m ρ c) (Proc.devRef .tc main_arg13) = _
          unwritten hostOps1
    _ = W1 m ρ c (Proc.devRef .tc main_arg13) := W2_of_ne m ρ c main_arg13 (by decide)
    _ = m ((c : Thread nD τ).loc main_arg13) := by
          show StableHlo.after hostOps0 (W0 m ρ c) (Proc.devRef .tc main_arg13) = _
          unwritten hostOps0

theorem W4_arg14 : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := by
          show StableHlo.after hostOps1 (W2 m ρ c) (Proc.devRef .tc main_arg14) = _
          unwritten hostOps1
    _ = W1 m ρ c (Proc.devRef .tc main_arg14) := W2_of_ne m ρ c main_arg14 (by decide)
    _ = m ((c : Thread nD τ).loc main_arg14) := by
          show StableHlo.after hostOps0 (W0 m ρ c) (Proc.devRef .tc main_arg14) = _
          unwritten hostOps0

theorem W4_arg15 : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := by
          show StableHlo.after hostOps1 (W2 m ρ c) (Proc.devRef .tc main_arg15) = _
          unwritten hostOps1
    _ = W1 m ρ c (Proc.devRef .tc main_arg15) := W2_of_ne m ρ c main_arg15 (by decide)
    _ = m ((c : Thread nD τ).loc main_arg15) := by
          show StableHlo.after hostOps0 (W0 m ρ c) (Proc.devRef .tc main_arg15) = _
          unwritten hostOps0

theorem W4_arg16 : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := by
          show StableHlo.after hostOps1 (W2 m ρ c) (Proc.devRef .tc main_arg16) = _
          unwritten hostOps1
    _ = W1 m ρ c (Proc.devRef .tc main_arg16) := W2_of_ne m ρ c main_arg16 (by decide)
    _ = m ((c : Thread nD τ).loc main_arg16) := by
          show StableHlo.after hostOps0 (W0 m ρ c) (Proc.devRef .tc main_arg16) = _
          unwritten hostOps0

theorem W4_arg17 : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := by
          show StableHlo.after hostOps1 (W2 m ρ c) (Proc.devRef .tc main_arg17) = _
          unwritten hostOps1
    _ = W1 m ρ c (Proc.devRef .tc main_arg17) := W2_of_ne m ρ c main_arg17 (by decide)
    _ = m ((c : Thread nD τ).loc main_arg17) := by
          show StableHlo.after hostOps0 (W0 m ρ c) (Proc.devRef .tc main_arg17) = _
          unwritten hostOps0

theorem W4_arg18 : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := by
          show StableHlo.after hostOps1 (W2 m ρ c) (Proc.devRef .tc main_arg18) = _
          unwritten hostOps1
    _ = W1 m ρ c (Proc.devRef .tc main_arg18) := W2_of_ne m ρ c main_arg18 (by decide)
    _ = m ((c : Thread nD τ).loc main_arg18) := by
          show StableHlo.after hostOps0 (W0 m ρ c) (Proc.devRef .tc main_arg18) = _
          unwritten hostOps0

theorem W4_arg19 : W4 m ρ c (Proc.devRef .tc main_arg19) = m ((c : Thread nD τ).loc main_arg19) :=
  calc W4 m ρ c (Proc.devRef .tc main_arg19)
    _ = W3 m ρ c (Proc.devRef .tc main_arg19) := W4_of_ne m ρ c main_arg19 (by decide)
    _ = W2 m ρ c (Proc.devRef .tc main_arg19) := by
          show StableHlo.after hostOps1 (W2 m ρ c) (Proc.devRef .tc main_arg19) = _
          unwritten hostOps1
    _ = W1 m ρ c (Proc.devRef .tc main_arg19) := W2_of_ne m ρ c main_arg19 (by decide)
    _ = m ((c : Thread nD τ).loc main_arg19) := by
          show StableHlo.after hostOps0 (W0 m ρ c) (Proc.devRef .tc main_arg19) = _
          unwritten hostOps0

theorem W4_arg20 : W4 m ρ c (Proc.devRef .tc main_arg20) = m ((c : Thread nD τ).loc main_arg20) :=
  calc W4 m ρ c (Proc.devRef .tc main_arg20)
    _ = W3 m ρ c (Proc.devRef .tc main_arg20) := W4_of_ne m ρ c main_arg20 (by decide)
    _ = W2 m ρ c (Proc.devRef .tc main_arg20) := by
          show StableHlo.after hostOps1 (W2 m ρ c) (Proc.devRef .tc main_arg20) = _
          unwritten hostOps1
    _ = W1 m ρ c (Proc.devRef .tc main_arg20) := W2_of_ne m ρ c main_arg20 (by decide)
    _ = m ((c : Thread nD τ).loc main_arg20) := by
          show StableHlo.after hostOps0 (W0 m ρ c) (Proc.devRef .tc main_arg20) = _
          unwritten hostOps0

/-! ## The third region's inputs -/

theorem V5_arg0 : V5 m ρ c main_arg0 = m ((c : Thread nD τ).loc main_arg0) := by
  rw [← W4_arg0 m ρ c]
  show StableHlo.after hostOps2 (W4 m ρ c) (Proc.devRef .tc main_arg0) = _
  unwritten hostOps2

theorem V5_arg9 : V5 m ρ c main_arg9 = m ((c : Thread nD τ).loc main_arg9) := by
  rw [← W4_arg9 m ρ c]
  show StableHlo.after hostOps2 (W4 m ρ c) (Proc.devRef .tc main_arg9) = _
  unwritten hostOps2

theorem V5_arg13 : V5 m ρ c main_arg13 = m ((c : Thread nD τ).loc main_arg13) := by
  rw [← W4_arg13 m ρ c]
  show StableHlo.after hostOps2 (W4 m ρ c) (Proc.devRef .tc main_arg13) = _
  unwritten hostOps2

theorem V5_arg17 : V5 m ρ c main_arg17 = m ((c : Thread nD τ).loc main_arg17) := by
  rw [← W4_arg17 m ρ c]
  show StableHlo.after hostOps2 (W4 m ρ c) (Proc.devRef .tc main_arg17) = _
  unwritten hostOps2

theorem V5_v46 : (V5 m ρ c main_v46 : S1x800.Idx → EReal)
    = shapeCast S1x800 (m ((c : Thread nD τ).loc main_arg10)) shapeCasts_S800_S1x800 := by
  rw [← W4_arg10 m ρ c]
  show StableHlo.after hostOps2 (W4 m ρ c) (Proc.devRef .tc main_v46) = _
  read_stretch

theorem V5_v47 : (V5 m ρ c main_v47 : S1x800.Idx → EReal)
    = shapeCast S1x800 (m ((c : Thread nD τ).loc main_arg11)) shapeCasts_S800_S1x800 := by
  rw [← W4_arg11 m ρ c]
  show StableHlo.after hostOps2 (W4 m ρ c) (Proc.devRef .tc main_v47) = _
  read_stretch

theorem V5_v48 : (V5 m ρ c main_v48 : S1x800.Idx → EReal)
    = shapeCast S1x800 (m ((c : Thread nD τ).loc main_arg12)) shapeCasts_S800_S1x800 := by
  rw [← W4_arg12 m ρ c]
  show StableHlo.after hostOps2 (W4 m ρ c) (Proc.devRef .tc main_v48) = _
  read_stretch

theorem V5_v49 : (V5 m ρ c main_v49 : S1x1000.Idx → EReal)
    = shapeCast S1x1000 (m ((c : Thread nD τ).loc main_arg14)) shapeCasts_S1000_S1x1000 := by
  rw [← W4_arg14 m ρ c]
  show StableHlo.after hostOps2 (W4 m ρ c) (Proc.devRef .tc main_v49) = _
  read_stretch

theorem V5_v50 : (V5 m ρ c main_v50 : S1x1000.Idx → EReal)
    = shapeCast S1x1000 (m ((c : Thread nD τ).loc main_arg15)) shapeCasts_S1000_S1x1000 := by
  rw [← W4_arg15 m ρ c]
  show StableHlo.after hostOps2 (W4 m ρ c) (Proc.devRef .tc main_v50) = _
  read_stretch

theorem V5_v51 : (V5 m ρ c main_v51 : S1x1000.Idx → EReal)
    = shapeCast S1x1000 (m ((c : Thread nD τ).loc main_arg16)) shapeCasts_S1000_S1x1000 := by
  rw [← W4_arg16 m ρ c]
  show StableHlo.after hostOps2 (W4 m ρ c) (Proc.devRef .tc main_v51) = _
  read_stretch

theorem V5_v52 : (V5 m ρ c main_v52 : S1x800.Idx → EReal)
    = shapeCast S1x800 (m ((c : Thread nD τ).loc main_arg18)) shapeCasts_S800_S1x800 := by
  rw [← W4_arg18 m ρ c]
  show StableHlo.after hostOps2 (W4 m ρ c) (Proc.devRef .tc main_v52) = _
  read_stretch

theorem V5_v53 : (V5 m ρ c main_v53 : S1x800.Idx → EReal)
    = shapeCast S1x800 (m ((c : Thread nD τ).loc main_arg19)) shapeCasts_S800_S1x800 := by
  rw [← W4_arg19 m ρ c]
  show StableHlo.after hostOps2 (W4 m ρ c) (Proc.devRef .tc main_v53) = _
  read_stretch

theorem V5_v54 : (V5 m ρ c main_v54 : S1x800.Idx → EReal)
    = shapeCast S1x800 (m ((c : Thread nD τ).loc main_arg20)) shapeCasts_S800_S1x800 := by
  rw [← W4_arg20 m ρ c]
  show StableHlo.after hostOps2 (W4 m ρ c) (Proc.devRef .tc main_v54) = _
  read_stretch

/-! ## The image features' block -/

/-- The image features' buffer at the third region's exit: the tower's body on the arguments, the nine vectors as rows. -/
theorem img_block : W6 m ρ c (Proc.devRef .tc main_v55)
    = out2_13 (F := Ideal) (m ((c : Thread nD τ).loc main_arg0)) (m ((c : Thread nD τ).loc main_arg9))
      (shapeCast S1x800 (m ((c : Thread nD τ).loc main_arg10)) shapeCasts_S800_S1x800) (shapeCast S1x800 (m ((c : Thread nD τ).loc main_arg11)) shapeCasts_S800_S1x800) (shapeCast S1x800 (m ((c : Thread nD τ).loc main_arg12)) shapeCasts_S800_S1x800)
      (m ((c : Thread nD τ).loc main_arg13)) (shapeCast S1x1000 (m ((c : Thread nD τ).loc main_arg14)) shapeCasts_S1000_S1x1000) (shapeCast S1x1000 (m ((c : Thread nD τ).loc main_arg15)) shapeCasts_S1000_S1x1000) (shapeCast S1x1000 (m ((c : Thread nD τ).loc main_arg16)) shapeCasts_S1000_S1x1000)
      (m ((c : Thread nD τ).loc main_arg17)) (shapeCast S1x800 (m ((c : Thread nD τ).loc main_arg18)) shapeCasts_S800_S1x800) (shapeCast S1x800 (m ((c : Thread nD τ).loc main_arg19)) shapeCasts_S800_S1x800) (shapeCast S1x800 (m ((c : Thread nD τ).loc main_arg20)) shapeCasts_S800_S1x800) := by
  rw [W6_arr m ρ c 13, Cert.KernelIdeal.RegionArrays.arr2 (V5 m ρ) c, V5_arg0, V5_arg9, V5_v46, V5_v47, V5_v48, V5_arg13,
    V5_v49, V5_v50, V5_v51, V5_arg17, V5_v52, V5_v53, V5_v54]

/-- A vector of 800 entries recast to a row reads, at (0, j), the vector at j. -/
theorem row800 (v : S800.Idx → EReal) (j : Fin 800) :
    shapeCast S1x800 v shapeCasts_S800_S1x800 (ix2 (0 : Fin 1) j) = v (ix1 j) := shapeCast_a_1a_apply v _ 0 j

/-- A vector of 1000 entries recast to a row reads, at (0, j), the vector at j. -/
theorem row1000 (v : S1000.Idx → EReal) (j : Fin 1000) :
    shapeCast S1x1000 v shapeCasts_S1000_S1x1000 (ix2 (0 : Fin 1) j) = v (ix1 j) := shapeCast_a_1a_apply v _ 0 j

/-- Entry (b, q) of the image features on real arguments: the tower with plain products and two-pass normalisations on
    row b of the image block. -/
theorem img_entry
    (h0 : ∀ i : S256x512.Idx, Cert.RealSums.IsReal (((m ((c : Thread nD τ).loc main_arg0)) : S256x512.Idx → EReal) i))
    (h9 : ∀ i : S512x800.Idx, Cert.RealSums.IsReal (((m ((c : Thread nD τ).loc main_arg9)) : S512x800.Idx → EReal) i))
    (h10 : ∀ i : S800.Idx, Cert.RealSums.IsReal (((m ((c : Thread nD τ).loc main_arg10)) : S800.Idx → EReal) i))
    (h11 : ∀ i : S800.Idx, Cert.RealSums.IsReal (((m ((c : Thread nD τ).loc main_arg11)) : S800.Idx → EReal) i))
    (h12 : ∀ i : S800.Idx, Cert.RealSums.IsReal (((m ((c : Thread nD τ).loc main_arg12)) : S800.Idx → EReal) i))
    (h13 : ∀ i : S800x1000.Idx, Cert.RealSums.IsReal (((m ((c : Thread nD τ).loc main_arg13)) : S800x1000.Idx → EReal) i))
    (h14 : ∀ i : S1000.Idx, Cert.RealSums.IsReal (((m ((c : Thread nD τ).loc main_arg14)) : S1000.Idx → EReal) i))
    (h15 : ∀ i : S1000.Idx, Cert.RealSums.IsReal (((m ((c : Thread nD τ).loc main_arg15)) : S1000.Idx → EReal) i))
    (h16 : ∀ i : S1000.Idx, Cert.RealSums.IsReal (((m ((c : Thread nD τ).loc main_arg16)) : S1000.Idx → EReal) i))
    (h17 : ∀ i : S1000x800.Idx, Cert.RealSums.IsReal (((m ((c : Thread nD τ).loc main_arg17)) : S1000x800.Idx → EReal) i))
    (h18 : ∀ i : S800.Idx, Cert.RealSums.IsReal (((m ((c : Thread nD τ).loc main_arg18)) : S800.Idx → EReal) i))
    (b : Fin 256) (q : Fin 800) :
    (W6 m ρ c (Proc.devRef .tc main_v55) : S256x800.Idx → EReal) (ix2 b q)
      = Cert.Spec.imgR (Ideal.ofBits .f32 0x44480000#32) (Ideal.ofBits .f32 0x447A0000#32) (Ideal.ofBits .f32 0x3727C5AC#32)
          (fun k => ((m ((c : Thread nD τ).loc main_arg0)) : S256x512.Idx → EReal) (ix2 b k)) (fun k j => ((m ((c : Thread nD τ).loc main_arg9)) : S512x800.Idx → EReal) (ix2 k j))
          (fun j => ((m ((c : Thread nD τ).loc main_arg10)) : S800.Idx → EReal) (ix1 j)) (fun j => ((m ((c : Thread nD τ).loc main_arg11)) : S800.Idx → EReal) (ix1 j)) (fun j => ((m ((c : Thread nD τ).loc main_arg12)) : S800.Idx → EReal) (ix1 j))
          (fun k j => ((m ((c : Thread nD τ).loc main_arg13)) : S800x1000.Idx → EReal) (ix2 k j)) (fun j => ((m ((c : Thread nD τ).loc main_arg14)) : S1000.Idx → EReal) (ix1 j)) (fun j => ((m ((c : Thread nD τ).loc main_arg15)) : S1000.Idx → EReal) (ix1 j)) (fun j => ((m ((c : Thread nD τ).loc main_arg16)) : S1000.Idx → EReal) (ix1 j))
          (fun k j => ((m ((c : Thread nD τ).loc main_arg17)) : S1000x800.Idx → EReal) (ix2 k j)) (fun j => ((m ((c : Thread nD τ).loc main_arg18)) : S800.Idx → EReal) (ix1 j)) (fun j => ((m ((c : Thread nD τ).loc main_arg19)) : S800.Idx → EReal) (ix1 j)) (fun j => ((m ((c : Thread nD τ).loc main_arg20)) : S800.Idx → EReal) (ix1 j)) q := by
  obtain ⟨e, he, hw⟩ := Cert.Consts.eps_word
  rw [img_block, Cert.ImgTowerOut.out2_13_entry, Cert.Consts.inv800, Cert.Consts.inv1000, Cert.Consts.w800, Cert.Consts.w1000, hw]
  simp only [row800, row1000]
  exact Cert.TowerRows.imgK_eq_imgR e he _ _ _ _ _ _ _ _ _ _ _ _ _ q
      (fun k => h0 _) (fun k j => h9 _) (fun j => h10 _) (fun j => h11 _) (fun j => h12 _)
      (fun k j => h13 _) (fun j => h14 _) (fun j => h15 _) (fun j => h16 _) (fun k j => h17 _) (fun j => h18 _)

/-- The same entry is a real number. -/
theorem img_entry_real
    (h0 : ∀ i : S256x512.Idx, Cert.RealSums.IsReal (((m ((c : Thread nD τ).loc main_arg0)) : S256x512.Idx → EReal) i))
    (h9 : ∀ i : S512x800.Idx, Cert.RealSums.IsReal (((m ((c : Thread nD τ).loc main_arg9)) : S512x800.Idx → EReal) i))
    (h10 : ∀ i : S800.Idx, Cert.RealSums.IsReal (((m ((c : Thread nD τ).loc main_arg10)) : S800.Idx → EReal) i))
    (h11 : ∀ i : S800.Idx, Cert.RealSums.IsReal (((m ((c : Thread nD τ).loc main_arg11)) : S800.Idx → EReal) i))
    (h12 : ∀ i : S800.Idx, Cert.RealSums.IsReal (((m ((c : Thread nD τ).loc main_arg12)) : S800.Idx → EReal) i))
    (h13 : ∀ i : S800x1000.Idx, Cert.RealSums.IsReal (((m ((c : Thread nD τ).loc main_arg13)) : S800x1000.Idx → EReal) i))
    (h14 : ∀ i : S1000.Idx, Cert.RealSums.IsReal (((m ((c : Thread nD τ).loc main_arg14)) : S1000.Idx → EReal) i))
    (h15 : ∀ i : S1000.Idx, Cert.RealSums.IsReal (((m ((c : Thread nD τ).loc main_arg15)) : S1000.Idx → EReal) i))
    (h16 : ∀ i : S1000.Idx, Cert.RealSums.IsReal (((m ((c : Thread nD τ).loc main_arg16)) : S1000.Idx → EReal) i))
    (h17 : ∀ i : S1000x800.Idx, Cert.RealSums.IsReal (((m ((c : Thread nD τ).loc main_arg17)) : S1000x800.Idx → EReal) i))
    (h18 : ∀ i : S800.Idx, Cert.RealSums.IsReal (((m ((c : Thread nD τ).loc main_arg18)) : S800.Idx → EReal) i))
    (h19 : ∀ i : S800.Idx, Cert.RealSums.IsReal (((m ((c : Thread nD τ).loc main_arg19)) : S800.Idx → EReal) i))
    (h20 : ∀ i : S800.Idx, Cert.RealSums.IsReal (((m ((c : Thread nD τ).loc main_arg20)) : S800.Idx → EReal) i))
    (b : Fin 256) (q : Fin 800) :
    Cert.RealSums.IsReal ((W6 m ρ c (Proc.devRef .tc main_v55) : S256x800.Idx → EReal) (ix2 b q)) := by
  rw [img_entry m ρ c h0 h9 h10 h11 h12 h13 h14 h15 h16 h17 h18 b q]
  obtain ⟨e, he, hw⟩ := Cert.Consts.eps_word
  rw [Cert.Consts.w800, Cert.Consts.w1000, hw]
  exact Cert.TowerRows.isReal_imgR e he _ _ _ _ _ _ _ _ _ _ _ _ _ q
      (fun k => h0 _) (fun k j => h9 _) (fun j => h10 _) (fun j => h11 _) (fun j => h12 _)
      (fun k j => h13 _) (fun j => h14 _) (fun j => h15 _) (fun j => h16 _) (fun k j => h17 _) (fun j => h18 _) (fun j => h19 _) (fun j => h20 _)

end Cert.KernelIdeal.KImage

end
-- ==== Proof.PairRefLayers.lean ====
/-
  The reference program's pair tower, layer by layer, each entry as a function of the layer's input row.

  Two dense layers over the 100000 attribute-object pairs (a plain product sum plus a bias), each followed by a
  two-pass layer normalisation, the first also by a maximum with 0.  The first layer's input is the pair's
  concatenated row, kept here as the stage the program builds it in.
-/
import proofs.«101777_j1108101562624_2_alg».proof.Proof.RefStages
import proofs.«101777_j1108101562624_2_alg».proof.Proof.Spec

noncomputable section

namespace Cert.PairRefLayers

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo
open scoped BigOperators

variable (x1 : (⟨S700x512, .f32⟩ : BufTy).Contents (Elt Ideal)) (x2 : (⟨S2x50000, .i32⟩ : BufTy).Contents (Elt Ideal))
  (x3 : (⟨S512x2048, .f32⟩ : BufTy).Contents (Elt Ideal)) (x4 : (⟨S2048, .f32⟩ : BufTy).Contents (Elt Ideal))
  (x5 : (⟨S512x2048, .f32⟩ : BufTy).Contents (Elt Ideal)) (x6 : (⟨S2048x512, .f32⟩ : BufTy).Contents (Elt Ideal))
  (x7 : (⟨S512, .f32⟩ : BufTy).Contents (Elt Ideal)) (x8 : (⟨S2048x512, .f32⟩ : BufTy).Contents (Elt Ideal))
variable (x21 : (⟨S1024x1000, .f32⟩ : BufTy).Contents (Elt Ideal)) (x22 x23 x24 : (⟨S1000, .f32⟩ : BufTy).Contents (Elt Ideal))
  (x25 : (⟨S1000x800, .f32⟩ : BufTy).Contents (Elt Ideal)) (x26 x27 x28 : (⟨S800, .f32⟩ : BufTy).Contents (Elt Ideal))

/-! ## First layer: 1024 → 1000 -/

/-- The pair tower's first dense layer on the concatenated row. -/
theorem dense4 (b : Fin 100000) (j : Fin 1000) :
    val_main_v152 (F := Ideal) x1 x2 x3 x4 x5 x6 x7 x8 x21 x22 (ix2 b j)
      = Cert.Spec.mm (fun k : Fin 1024 => (val_main_v148 (F := Ideal) x1 x2 x3 x4 x5 x6 x7 x8) (ix2 b k)) (fun k => x21 (ix2 k j)) + x22 (ix1 j) := by
  have el : ∀ k : Fin 1024, lidx_main_v149 (ix2 b j) k = ix2 b k := fun k => funext fun a => Fin.ext (by
    match a with
    | ⟨0, _⟩ => rfl
    | ⟨1, _⟩ => rfl)
  have er : ∀ k : Fin 1024, ridx_main_v149 (ix2 b j) k = ix2 k j := fun k => funext fun a => Fin.ext (by
    match a with
    | ⟨0, _⟩ => rfl
    | ⟨1, _⟩ => rfl)
  have eb : idx_main_v150 (idx_main_v151 (ix2 b j)) = ix1 j := funext fun a => Fin.ext (by
    match a with
    | ⟨0, _⟩ => rfl)
  rw [val_main_v152_apply, val_main_v149_apply, val_main_v151_apply, val_main_v150_apply, eb]
  simp only [el, er]
  rfl

/-! ### The layer normalisation of the pair tower's first dense layer's rows -/

/-- The row sum. -/
theorem ln4_sum (b : Fin 100000) : val_main_v153 (F := Ideal) x1 x2 x3 x4 x5 x6 x7 x8 x21 x22 (ix1 b) = ∑ i : Fin 1000, (val_main_v152 (F := Ideal) x1 x2 x3 x4 x5 x6 x7 x8 x21 x22) (ix2 b i) := by
  have e : ∀ k : Fin 1000, idx_main_v153 (ix1 b) k = ix2 b k := fun k => funext fun a => Fin.ext (by
    match a with
    | ⟨0, _⟩ => rfl
    | ⟨1, _⟩ => rfl)
  rw [val_main_v153_apply, val_main_cst_25_apply]
  simp only [e, Ideal.ofBits_def, Ideal.ofBits_zero_f32, zero_add]

/-- The row mean: the sum divided by the row length. -/
theorem ln4_mean (b : Fin 100000) (c : Fin 1) : val_main_v156 (F := Ideal) x1 x2 x3 x4 x5 x6 x7 x8 x21 x22 (ix2 b c) = Ideal.div (∑ i : Fin 1000, (val_main_v152 (F := Ideal) x1 x2 x3 x4 x5 x6 x7 x8 x21 x22) (ix2 b i)) (Ideal.ofBits .f32 0x447A0000#32) := by
  have e : idx_main_v154 (ix2 b c) = ix1 b := funext fun a => Fin.ext (by
    match a with
    | ⟨0, _⟩ => rfl)
  rw [val_main_v156_apply, val_main_v154_apply, e, ln4_sum, val_main_v155_apply, val_main_cst_26_apply]
  rfl

/-- The deviation from the mean. -/
theorem ln4_dev (b : Fin 100000) (k : Fin 1000) : val_main_v158 (F := Ideal) x1 x2 x3 x4 x5 x6 x7 x8 x21 x22 (ix2 b k) = (val_main_v152 (F := Ideal) x1 x2 x3 x4 x5 x6 x7 x8 x21 x22) (ix2 b k) - Ideal.div (∑ i : Fin 1000, (val_main_v152 (F := Ideal) x1 x2 x3 x4 x5 x6 x7 x8 x21 x22) (ix2 b i)) (Ideal.ofBits .f32 0x447A0000#32) := by
  have e : idx_main_v157 (ix2 b k) = ix2 b (0 : Fin 1) := funext fun a => Fin.ext (by
    match a with
    | ⟨0, _⟩ => rfl
    | ⟨1, _⟩ => rfl)
  rw [val_main_v158_apply, val_main_v157_apply, e, ln4_mean]
  rfl

/-- The row variance: the mean of the squared deviations. -/
theorem ln4_var (b : Fin 100000) (c : Fin 1) :
    val_main_v163 (F := Ideal) x1 x2 x3 x4 x5 x6 x7 x8 x21 x22 (ix2 b c)
      = Ideal.div (∑ k : Fin 1000, ((val_main_v152 (F := Ideal) x1 x2 x3 x4 x5 x6 x7 x8 x21 x22) (ix2 b k) - Ideal.div (∑ i : Fin 1000, (val_main_v152 (F := Ideal) x1 x2 x3 x4 x5 x6 x7 x8 x21 x22) (ix2 b i)) (Ideal.ofBits .f32 0x447A0000#32)) * ((val_main_v152 (F := Ideal) x1 x2 x3 x4 x5 x6 x7 x8 x21 x22) (ix2 b k) - Ideal.div (∑ i : Fin 1000, (val_main_v152 (F := Ideal) x1 x2 x3 x4 x5 x6 x7 x8 x21 x22) (ix2 b i)) (Ideal.ofBits .f32 0x447A0000#32))) (Ideal.ofBits .f32 0x447A0000#32) := by
  have e1 : idx_main_v161 (ix2 b c) = ix1 b := funext fun a => Fin.ext (by
    match a with
    | ⟨0, _⟩ => rfl)
  have e2 : ∀ k : Fin 1000, idx_main_v160 (ix1 b) k = ix2 b k := fun k => funext fun a => Fin.ext (by
    match a with
    | ⟨0, _⟩ => rfl
    | ⟨1, _⟩ => rfl)
  have hs : ∀ k : Fin 1000, val_main_v159 (F := Ideal) x1 x2 x3 x4 x5 x6 x7 x8 x21 x22 (idx_main_v160 (ix1 b) k)
      = ((val_main_v152 (F := Ideal) x1 x2 x3 x4 x5 x6 x7 x8 x21 x22) (ix2 b k) - Ideal.div (∑ i : Fin 1000, (val_main_v152 (F := Ideal) x1 x2 x3 x4 x5 x6 x7 x8 x21 x22) (ix2 b i)) (Ideal.ofBits .f32 0x447A0000#32)) * ((val_main_v152 (F := Ideal) x1 x2 x3 x4 x5 x6 x7 x8 x21 x22) (ix2 b k) - Ideal.div (∑ i : Fin 1000, (val_main_v152 (F := Ideal) x1 x2 x3 x4 x5 x6 x7 x8 x21 x22) (ix2 b i)) (Ideal.ofBits .f32 0x447A0000#32)) := fun k => by
    rw [e2 k, val_main_v159_apply, ln4_dev]
    rfl
  rw [val_main_v163_apply, val_main_v161_apply, e1, val_main_v160_apply, val_main_cst_27_apply, val_main_v162_apply, val_main_cst_28_apply]
  simp only [hs, Ideal.ofBits_def, Ideal.ofBits_zero_f32, zero_add, Ideal.hostDivf_def]

/-- The normalised, scaled and shifted row, entry `j`. -/
theorem ln4_out (b : Fin 100000) (j : Fin 1000) :
    val_main_v176 (F := Ideal) x1 x2 x3 x4 x5 x6 x7 x8 x21 x22 x23 x24 (ix2 b j)
      = Cert.Spec.lnR (Ideal.ofBits .f32 0x447A0000#32) (Ideal.ofBits .f32 0x3727C5AC#32) (fun i : Fin 1000 => (val_main_v152 (F := Ideal) x1 x2 x3 x4 x5 x6 x7 x8 x21 x22) (ix2 b i))
          (fun i => x23 (ix1 i)) (fun i => x24 (ix1 i)) j := by
  have e70 : idx_main_v164 (ix2 b j) = ix2 b (0 : Fin 1) := funext fun a => Fin.ext (by
    match a with
    | ⟨0, _⟩ => rfl
    | ⟨1, _⟩ => rfl)
  have e75 : idx_main_v169 (ix2 b j) = ix2 b (0 : Fin 1) := funext fun a => Fin.ext (by
    match a with
    | ⟨0, _⟩ => rfl
    | ⟨1, _⟩ => rfl)
  have e78 : idx_main_v171 (idx_main_v172 (ix2 b j)) = ix1 j := funext fun a => Fin.ext (by
    match a with
    | ⟨0, _⟩ => rfl)
  have e81 : idx_main_v174 (idx_main_v175 (ix2 b j)) = ix1 j := funext fun a => Fin.ext (by
    match a with
    | ⟨0, _⟩ => rfl)
  rw [val_main_v176_apply, val_main_v173_apply, val_main_v170_apply, val_main_v165_apply, val_main_v164_apply, e70, ln4_mean,
    val_main_v169_apply, e75, val_main_v168_apply, val_main_v167_apply, ln4_var, val_main_v166_apply, val_main_cst_29_apply,
    val_main_v172_apply, val_main_v171_apply, e78, val_main_v175_apply, val_main_v174_apply, e81]
  rfl

/-- The pair tower's activation: the maximum with 0. -/
theorem act4 (b : Fin 100000) (j : Fin 1000) :
    val_main_v177 (F := Ideal) x1 x2 x3 x4 x5 x6 x7 x8 x21 x22 x23 x24 (ix2 b j) = max (val_main_v176 (F := Ideal) x1 x2 x3 x4 x5 x6 x7 x8 x21 x22 x23 x24 (ix2 b j)) 0 := by
  rw [val_main_v177_apply, val_main_call3_v0_apply, val_main_call3_cst_apply]
  simp only [Ideal.maximumf_def, Ideal.ofBits_def, Ideal.ofBits_zero_f32]

/-! ## Second layer: 1000 → 800 -/

/-- The pair tower's second dense layer on the activation. -/
theorem dense5 (b : Fin 100000) (j : Fin 800) :
    val_main_v181 (F := Ideal) x1 x2 x3 x4 x5 x6 x7 x8 x21 x22 x23 x24 x25 x26 (ix2 b j)
      = Cert.Spec.mm (fun k : Fin 1000 => (val_main_v177 (F := Ideal) x1 x2 x3 x4 x5 x6 x7 x8 x21 x22 x23 x24) (ix2 b k)) (fun k => x25 (ix2 k j)) + x26 (ix1 j) := by
  have el : ∀ k : Fin 1000, lidx_main_v178 (ix2 b j) k = ix2 b k := fun k => funext fun a => Fin.ext (by
    match a with
    | ⟨0, _⟩ => rfl
    | ⟨1, _⟩ => rfl)
  have er : ∀ k : Fin 1000, ridx_main_v178 (ix2 b j) k = ix2 k j := fun k => funext fun a => Fin.ext (by
    match a with
    | ⟨0, _⟩ => rfl
    | ⟨1, _⟩ => rfl)
  have eb : idx_main_v179 (idx_main_v180 (ix2 b j)) = ix1 j := funext fun a => Fin.ext (by
    match a with
    | ⟨0, _⟩ => rfl)
  rw [val_main_v181_apply, val_main_v178_apply, val_main_v180_apply, val_main_v179_apply, eb]
  simp only [el, er]
  rfl

/-! ### The layer normalisation of the pair tower's second dense layer's rows -/

/-- The row sum. -/
theorem ln5_sum (b : Fin 100000) : val_main_v182 (F := Ideal) x1 x2 x3 x4 x5 x6 x7 x8 x21 x22 x23 x24 x25 x26 (ix1 b) = ∑ i : Fin 800, (val_main_v181 (F := Ideal) x1 x2 x3 x4 x5 x6 x7 x8 x21 x22 x23 x24 x25 x26) (ix2 b i) := by
  have e : ∀ k : Fin 800, idx_main_v182 (ix1 b) k = ix2 b k := fun k => funext fun a => Fin.ext (by
    match a with
    | ⟨0, _⟩ => rfl
    | ⟨1, _⟩ => rfl)
  rw [val_main_v182_apply, val_main_cst_30_apply]
  simp only [e, Ideal.ofBits_def, Ideal.ofBits_zero_f32, zero_add]

/-- The row mean: the sum divided by the row length. -/
theorem ln5_mean (b : Fin 100000) (c : Fin 1) : val_main_v185 (F := Ideal) x1 x2 x3 x4 x5 x6 x7 x8 x21 x22 x23 x24 x25 x26 (ix2 b c) = Ideal.div (∑ i : Fin 800, (val_main_v181 (F := Ideal) x1 x2 x3 x4 x5 x6 x7 x8 x21 x22 x23 x24 x25 x26) (ix2 b i)) (Ideal.ofBits .f32 0x44480000#32) := by
  have e : idx_main_v183 (ix2 b c) = ix1 b := funext fun a => Fin.ext (by
    match a with
    | ⟨0, _⟩ => rfl)
  rw [val_main_v185_apply, val_main_v183_apply, e, ln5_sum, val_main_v184_apply, val_main_cst_31_apply]
  rfl

/-- The deviation from the mean. -/
theorem ln5_dev (b : Fin 100000) (k : Fin 800) : val_main_v187 (F := Ideal) x1 x2 x3 x4 x5 x6 x7 x8 x21 x22 x23 x24 x25 x26 (ix2 b k) = (val_main_v181 (F := Ideal) x1 x2 x3 x4 x5 x6 x7 x8 x21 x22 x23 x24 x25 x26) (ix2 b k) - Ideal.div (∑ i : Fin 800, (val_main_v181 (F := Ideal) x1 x2 x3 x4 x5 x6 x7 x8 x21 x22 x23 x24 x25 x26) (ix2 b i)) (Ideal.ofBits .f32 0x44480000#32) := by
  have e : idx_main_v186 (ix2 b k) = ix2 b (0 : Fin 1) := funext fun a => Fin.ext (by
    match a with
    | ⟨0, _⟩ => rfl
    | ⟨1, _⟩ => rfl)
  rw [val_main_v187_apply, val_main_v186_apply, e, ln5_mean]
  rfl

/-- The row variance: the mean of the squared deviations. -/
theorem ln5_var (b : Fin 100000) (c : Fin 1) :
    val_main_v192 (F := Ideal) x1 x2 x3 x4 x5 x6 x7 x8 x21 x22 x23 x24 x25 x26 (ix2 b c)
      = Ideal.div (∑ k : Fin 800, ((val_main_v181 (F := Ideal) x1 x2 x3 x4 x5 x6 x7 x8 x21 x22 x23 x24 x25 x26) (ix2 b k) - Ideal.div (∑ i : Fin 800, (val_main_v181 (F := Ideal) x1 x2 x3 x4 x5 x6 x7 x8 x21 x22 x23 x24 x25 x26) (ix2 b i)) (Ideal.ofBits .f32 0x44480000#32)) * ((val_main_v181 (F := Ideal) x1 x2 x3 x4 x5 x6 x7 x8 x21 x22 x23 x24 x25 x26) (ix2 b k) - Ideal.div (∑ i : Fin 800, (val_main_v181 (F := Ideal) x1 x2 x3 x4 x5 x6 x7 x8 x21 x22 x23 x24 x25 x26) (ix2 b i)) (Ideal.ofBits .f32 0x44480000#32))) (Ideal.ofBits .f32 0x44480000#32) := by
  have e1 : idx_main_v190 (ix2 b c) = ix1 b := funext fun a => Fin.ext (by
    match a with
    | ⟨0, _⟩ => rfl)
  have e2 : ∀ k : Fin 800, idx_main_v189 (ix1 b) k = ix2 b k := fun k => funext fun a => Fin.ext (by
    match a with
    | ⟨0, _⟩ => rfl
    | ⟨1, _⟩ => rfl)
  have hs : ∀ k : Fin 800, val_main_v188 (F := Ideal) x1 x2 x3 x4 x5 x6 x7 x8 x21 x22 x23 x24 x25 x26 (idx_main_v189 (ix1 b) k)
      = ((val_main_v181 (F := Ideal) x1 x2 x3 x4 x5 x6 x7 x8 x21 x22 x23 x24 x25 x26) (ix2 b k) - Ideal.div (∑ i : Fin 800, (val_main_v181 (F := Ideal) x1 x2 x3 x4 x5 x6 x7 x8 x21 x22 x23 x24 x25 x26) (ix2 b i)) (Ideal.ofBits .f32 0x44480000#32)) * ((val_main_v181 (F := Ideal) x1 x2 x3 x4 x5 x6 x7 x8 x21 x22 x23 x24 x25 x26) (ix2 b k) - Ideal.div (∑ i : Fin 800, (val_main_v181 (F := Ideal) x1 x2 x3 x4 x5 x6 x7 x8 x21 x22 x23 x24 x25 x26) (ix2 b i)) (Ideal.ofBits .f32 0x44480000#32)) := fun k => by
    rw [e2 k, val_main_v188_apply, ln5_dev]
    rfl
  rw [val_main_v192_apply, val_main_v190_apply, e1, val_main_v189_apply, val_main_cst_32_apply, val_main_v191_apply, val_main_cst_33_apply]
  simp only [hs, Ideal.ofBits_def, Ideal.ofBits_zero_f32, zero_add, Ideal.hostDivf_def]

/-- The normalised, scaled and shifted row, entry `j`. -/
theorem ln5_out (b : Fin 100000) (j : Fin 800) :
    val_main_v205 (F := Ideal) x1 x2 x3 x4 x5 x6 x7 x8 x21 x22 x23 x24 x25 x26 x27 x28 (ix2 b j)
      = Cert.Spec.lnR (Ideal.ofBits .f32 0x44480000#32) (Ideal.ofBits .f32 0x3727C5AC#32) (fun i : Fin 800 => (val_main_v181 (F := Ideal) x1 x2 x3 x4 x5 x6 x7 x8 x21 x22 x23 x24 x25 x26) (ix2 b i))
          (fun i => x27 (ix1 i)) (fun i => x28 (ix1 i)) j := by
  have e70 : idx_main_v193 (ix2 b j) = ix2 b (0 : Fin 1) := funext fun a => Fin.ext (by
    match a with
    | ⟨0, _⟩ => rfl
    | ⟨1, _⟩ => rfl)
  have e75 : idx_main_v198 (ix2 b j) = ix2 b (0 : Fin 1) := funext fun a => Fin.ext (by
    match a with
    | ⟨0, _⟩ => rfl
    | ⟨1, _⟩ => rfl)
  have e78 : idx_main_v200 (idx_main_v201 (ix2 b j)) = ix1 j := funext fun a => Fin.ext (by
    match a with
    | ⟨0, _⟩ => rfl)
  have e81 : idx_main_v203 (idx_main_v204 (ix2 b j)) = ix1 j := funext fun a => Fin.ext (by
    match a with
    | ⟨0, _⟩ => rfl)
  rw [val_main_v205_apply, val_main_v202_apply, val_main_v199_apply, val_main_v194_apply, val_main_v193_apply, e70, ln5_mean,
    val_main_v198_apply, e75, val_main_v197_apply, val_main_v196_apply, ln5_var, val_main_v195_apply, val_main_cst_34_apply,
    val_main_v201_apply, val_main_v200_apply, e78, val_main_v204_apply, val_main_v203_apply, e81]
  rfl

end Cert.PairRefLayers

end
-- ==== Proof.PairRef.lean ====
/-
  The reference program's scores, one entry as a function of the pair's concatenated row and the image features:
  the product over the 800 lanes of the image row with the pair tower's output row.
-/
import proofs.«101777_j1108101562624_2_alg».proof.Proof.RefStages
import proofs.«101777_j1108101562624_2_alg».proof.Proof.Spec
import proofs.«101777_j1108101562624_2_alg».proof.Proof.PairRefLayers

noncomputable section

namespace Cert.PairRef

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo
open scoped BigOperators

variable (x0 : (⟨S256x512, .f32⟩ : BufTy).Contents (Elt Ideal)) (x9 : (⟨S512x800, .f32⟩ : BufTy).Contents (Elt Ideal)) (x10 x11 x12 : (⟨S800, .f32⟩ : BufTy).Contents (Elt Ideal))
  (x13 : (⟨S800x1000, .f32⟩ : BufTy).Contents (Elt Ideal)) (x14 x15 x16 : (⟨S1000, .f32⟩ : BufTy).Contents (Elt Ideal))
  (x17 : (⟨S1000x800, .f32⟩ : BufTy).Contents (Elt Ideal)) (x18 x19 x20 : (⟨S800, .f32⟩ : BufTy).Contents (Elt Ideal))

variable (x1 : (⟨S700x512, .f32⟩ : BufTy).Contents (Elt Ideal)) (x2 : (⟨S2x50000, .i32⟩ : BufTy).Contents (Elt Ideal))
  (x3 : (⟨S512x2048, .f32⟩ : BufTy).Contents (Elt Ideal)) (x4 : (⟨S2048, .f32⟩ : BufTy).Contents (Elt Ideal))
  (x5 : (⟨S512x2048, .f32⟩ : BufTy).Contents (Elt Ideal)) (x6 : (⟨S2048x512, .f32⟩ : BufTy).Contents (Elt Ideal))
  (x7 : (⟨S512, .f32⟩ : BufTy).Contents (Elt Ideal)) (x8 : (⟨S2048x512, .f32⟩ : BufTy).Contents (Elt Ideal))
variable (x21 : (⟨S1024x1000, .f32⟩ : BufTy).Contents (Elt Ideal)) (x22 x23 x24 : (⟨S1000, .f32⟩ : BufTy).Contents (Elt Ideal))
  (x25 : (⟨S1000x800, .f32⟩ : BufTy).Contents (Elt Ideal)) (x26 x27 x28 : (⟨S800, .f32⟩ : BufTy).Contents (Elt Ideal))

open Cert.PairRefLayers

/-- The score of image `b` against pair `p`, from the pair's concatenated row (the stage the program builds it in)
    and the image features (the stage that feeds the last product). -/
theorem scores_apply (b : Fin 256) (p : Fin 100000) :
    val_main_v207 (F := Ideal) x0 x1 x2 x3 x4 x5 x6 x7 x8 x9 x10 x11 x12 x13 x14 x15 x16 x17 x18 x19 x20 x21 x22 x23 x24 x25 x26 x27 x28 (ix2 b p)
      = Cert.Spec.pairR (Ideal.ofBits .f32 0x447A0000#32) (Ideal.ofBits .f32 0x44480000#32) (Ideal.ofBits .f32 0x3727C5AC#32)
          (fun k : Fin 1024 => val_main_v148 (F := Ideal) x1 x2 x3 x4 x5 x6 x7 x8 (ix2 p k))
          (fun k j => x21 (ix2 k j)) (fun j => x22 (ix1 j)) (fun j => x23 (ix1 j)) (fun j => x24 (ix1 j))
          (fun j e => x25 (ix2 j e)) (fun e => x26 (ix1 e)) (fun e => x27 (ix1 e)) (fun e => x28 (ix1 e))
          (fun e => val_main_v140 (F := Ideal) x0 x9 x10 x11 x12 x13 x14 x15 x16 x17 x18 x19 x20 (ix2 b e)) := by
  have el : ∀ k : Fin 800, lidx_main_v207 (ix2 b p) k = ix2 b k := fun k => funext fun a => Fin.ext (by
    match a with
    | ⟨0, _⟩ => rfl
    | ⟨1, _⟩ => rfl)
  have er : ∀ k : Fin 800, idx_main_v206 (ridx_main_v207 (ix2 b p) k) = ix2 p k := fun k => funext fun a => Fin.ext (by
    match a with
    | ⟨0, _⟩ => rfl
    | ⟨1, _⟩ => rfl)
  rw [val_main_v207_apply]
  simp only [el, val_main_v206_apply, er, Cert.Spec.pairR, ln5_out, dense5, act4, ln4_out, dense4]

end Cert.PairRef

end
-- ==== Proof.PairRow.lean ====
/-
  The pair's concatenated row in the reference program.  Pair number a·500 + o (attribute a of 200, object o of
  500) has the 1024-lane row whose first 512 lanes are the node embedding of node a and whose last 512 lanes are
  the node embedding of node 200 + o: the program repeats each attribute row 500 times, tiles the object rows 200
  times, and joins the two arrays along the lanes.
-/
import proofs.«101777_j1108101562624_2_alg».proof.Proof.RefStages
import proofs.«101777_j1108101562624_2_alg».proof.Proof.Spec

noncomputable section

namespace Cert.PairRow

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo
open scoped BigOperators

variable (x1 : (⟨S700x512, .f32⟩ : BufTy).Contents (Elt Ideal)) (x2 : (⟨S2x50000, .i32⟩ : BufTy).Contents (Elt Ideal))
  (x3 : (⟨S512x2048, .f32⟩ : BufTy).Contents (Elt Ideal)) (x4 : (⟨S2048, .f32⟩ : BufTy).Contents (Elt Ideal))
  (x5 : (⟨S512x2048, .f32⟩ : BufTy).Contents (Elt Ideal)) (x6 : (⟨S2048x512, .f32⟩ : BufTy).Contents (Elt Ideal))
  (x7 : (⟨S512, .f32⟩ : BufTy).Contents (Elt Ideal)) (x8 : (⟨S2048x512, .f32⟩ : BufTy).Contents (Elt Ideal))

/-- The row of pair (a, o) over a table of node rows: attribute node a's lanes, then object node 200 + o's. -/
def pairRow (nodes : Fin 700 → Fin 512 → EReal) (a : Fin 200) (o : Fin 500) (k : Fin 1024) : EReal :=
  if h : k.val < 512 then nodes ⟨a.val, by omega⟩ ⟨k.val, h⟩ else nodes ⟨200 + o.val, by omega⟩ ⟨k.val - 512, by omega⟩

/-- The first 512 lanes of a pair's row: the attribute node's embedding. -/
theorem row_attr (a : Fin 200) (o : Fin 500) (c : Fin 512) :
    val_main_v148 (F := Ideal) x1 x2 x3 x4 x5 x6 x7 x8 (ix2 (⟨a.val * 500 + o.val, by omega⟩ : Fin 100000) (⟨c.val, by omega⟩ : Fin 1024))
      = val_main_v54 (F := Ideal) x1 x2 x3 x4 x5 x6 x7 x8 (ix2 (⟨a.val, by omega⟩ : Fin 700) c) := by
  have ha := a.isLt
  have ho := o.isLt
  have hc := c.isLt
  have e : idx_main_v141 (idx_main_v143 (idx_main_v144 (ix2 (⟨a.val * 500 + o.val, by omega⟩ : Fin 100000) c)))
      = ix2 (⟨a.val, by omega⟩ : Fin 700) c := funext fun d => Fin.ext (by
    match d with
    | ⟨0, _⟩ => show ((a.val * 500 + o.val) * 512 + c.val) / 256000 = a.val; omega
    | ⟨1, _⟩ => show ((a.val * 500 + o.val) * 512 + c.val) % 512 = c.val; omega)
  unfold val_main_v148
  refine (concatenate_pair_apply_left 1 _ _ concatenates_S100000x512_S100000x512_S100000x1024_d1 _ rfl
    (ix2 (⟨a.val * 500 + o.val, by omega⟩ : Fin 100000) c) (fun d => by
      match d with
      | ⟨0, _⟩ => rfl
      | ⟨1, _⟩ => rfl)).trans ?_
  rw [val_main_v144_apply, val_main_v143_apply, val_main_v141_apply, e]

/-- The last 512 lanes of a pair's row: the object node's embedding. -/
theorem row_obj (a : Fin 200) (o : Fin 500) (c : Fin 512) :
    val_main_v148 (F := Ideal) x1 x2 x3 x4 x5 x6 x7 x8 (ix2 (⟨a.val * 500 + o.val, by omega⟩ : Fin 100000) (⟨512 + c.val, by omega⟩ : Fin 1024))
      = val_main_v54 (F := Ideal) x1 x2 x3 x4 x5 x6 x7 x8 (ix2 (⟨200 + o.val, by omega⟩ : Fin 700) c) := by
  have ha := a.isLt
  have ho := o.isLt
  have hc := c.isLt
  have e : idx_main_v142 (idx_main_v145 (idx_main_v146 (idx_main_v147 (ix2 (⟨a.val * 500 + o.val, by omega⟩ : Fin 100000) c))))
      = ix2 (⟨200 + o.val, by omega⟩ : Fin 700) c := funext fun d => Fin.ext (by
    match d with
    | ⟨0, _⟩ =>
      show 200 + (((0 * 500 + ((a.val * 500 + o.val) * 512 + c.val) / 512 % 500) * 1 + 0) * 512
        + ((a.val * 500 + o.val) * 512 + c.val) % 512) / 512 = 200 + o.val
      omega
    | ⟨1, _⟩ =>
      show (((0 * 500 + ((a.val * 500 + o.val) * 512 + c.val) / 512 % 500) * 1 + 0) * 512
        + ((a.val * 500 + o.val) * 512 + c.val) % 512) % 512 = c.val
      omega)
  unfold val_main_v148
  refine (concatenate_pair_apply_right 1 _ _ concatenates_S100000x512_S100000x512_S100000x1024_d1 _ rfl rfl
    (ix2 (⟨a.val * 500 + o.val, by omega⟩ : Fin 100000) c) (fun d hd => by
      match d, hd with
      | ⟨0, _⟩, _ => rfl
      | ⟨1, _⟩, hd => exact absurd rfl hd)
    (by show c.val + 512 = 512 + c.val; omega)).trans ?_
  rw [val_main_v147_apply, val_main_v146_apply, val_main_v145_apply, val_main_v142_apply, e]

/-- A pair's whole row, lane by lane. -/
theorem row_apply (a : Fin 200) (o : Fin 500) (k : Fin 1024) :
    val_main_v148 (F := Ideal) x1 x2 x3 x4 x5 x6 x7 x8 (ix2 (⟨a.val * 500 + o.val, by omega⟩ : Fin 100000) k)
      = pairRow (fun n c => val_main_v54 (F := Ideal) x1 x2 x3 x4 x5 x6 x7 x8 (ix2 n c)) a o k := by
  unfold pairRow
  by_cases h : k.val < 512
  · rw [dif_pos h]
    exact row_attr x1 x2 x3 x4 x5 x6 x7 x8 a o ⟨k.val, h⟩
  · rw [dif_neg h]
    have hk := k.isLt
    have e : k = (⟨512 + (k.val - 512), by omega⟩ : Fin 1024) := Fin.ext (by show k.val = 512 + (k.val - 512); omega)
    exact (congrArg (fun kk : Fin 1024 => val_main_v148 (F := Ideal) x1 x2 x3 x4 x5 x6 x7 x8 (ix2 (⟨a.val * 500 + o.val, by omega⟩ : Fin 100000) kk)) e).trans
      (row_obj x1 x2 x3 x4 x5 x6 x7 x8 a o ⟨k.val - 512, by omega⟩)

end Cert.PairRow

end
-- ==== Proof.ScoresRef.lean ====
/-
  The reference program's score of an image against the pair (attribute a, object o), from the node embeddings and
  the image features: the pair tower of the specification on the row that joins attribute node a's embedding with
  object node 200 + o's, multiplied lane by lane with the image row and summed.
-/
import proofs.«101777_j1108101562624_2_alg».proof.Proof.RefStages
import proofs.«101777_j1108101562624_2_alg».proof.Proof.Spec
import proofs.«101777_j1108101562624_2_alg».proof.Proof.PairRef
import proofs.«101777_j1108101562624_2_alg».proof.Proof.PairRow

noncomputable section

namespace Cert.ScoresRef

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo
open scoped BigOperators

variable (x0 : (⟨S256x512, .f32⟩ : BufTy).Contents (Elt Ideal)) (x9 : (⟨S512x800, .f32⟩ : BufTy).Contents (Elt Ideal)) (x10 x11 x12 : (⟨S800, .f32⟩ : BufTy).Contents (Elt Ideal))
  (x13 : (⟨S800x1000, .f32⟩ : BufTy).Contents (Elt Ideal)) (x14 x15 x16 : (⟨S1000, .f32⟩ : BufTy).Contents (Elt Ideal))
  (x17 : (⟨S1000x800, .f32⟩ : BufTy).Contents (Elt Ideal)) (x18 x19 x20 : (⟨S800, .f32⟩ : BufTy).Contents (Elt Ideal))

variable (x1 : (⟨S700x512, .f32⟩ : BufTy).Contents (Elt Ideal)) (x2 : (⟨S2x50000, .i32⟩ : BufTy).Contents (Elt Ideal))
  (x3 : (⟨S512x2048, .f32⟩ : BufTy).Contents (Elt Ideal)) (x4 : (⟨S2048, .f32⟩ : BufTy).Contents (Elt Ideal))
  (x5 : (⟨S512x2048, .f32⟩ : BufTy).Contents (Elt Ideal)) (x6 : (⟨S2048x512, .f32⟩ : BufTy).Contents (Elt Ideal))
  (x7 : (⟨S512, .f32⟩ : BufTy).Contents (Elt Ideal)) (x8 : (⟨S2048x512, .f32⟩ : BufTy).Contents (Elt Ideal))
variable (x21 : (⟨S1024x1000, .f32⟩ : BufTy).Contents (Elt Ideal)) (x22 x23 x24 : (⟨S1000, .f32⟩ : BufTy).Contents (Elt Ideal))
  (x25 : (⟨S1000x800, .f32⟩ : BufTy).Contents (Elt Ideal)) (x26 x27 x28 : (⟨S800, .f32⟩ : BufTy).Contents (Elt Ideal))

open Cert.PairRef Cert.PairRow

/-- The score of image `b` against pair number a·500 + o. -/
theorem scores_pair_apply (b : Fin 256) (a : Fin 200) (o : Fin 500) :
    val_main_v207 (F := Ideal) x0 x1 x2 x3 x4 x5 x6 x7 x8 x9 x10 x11 x12 x13 x14 x15 x16 x17 x18 x19 x20 x21 x22 x23 x24 x25 x26 x27 x28 (ix2 b (⟨a.val * 500 + o.val, by omega⟩ : Fin 100000))
      = Cert.Spec.pairR (Ideal.ofBits .f32 0x447A0000#32) (Ideal.ofBits .f32 0x44480000#32) (Ideal.ofBits .f32 0x3727C5AC#32)
          (pairRow (fun n c => val_main_v54 (F := Ideal) x1 x2 x3 x4 x5 x6 x7 x8 (ix2 n c)) a o)
          (fun k j => x21 (ix2 k j)) (fun j => x22 (ix1 j)) (fun j => x23 (ix1 j)) (fun j => x24 (ix1 j))
          (fun j e => x25 (ix2 j e)) (fun e => x26 (ix1 e)) (fun e => x27 (ix1 e)) (fun e => x28 (ix1 e))
          (fun e => val_main_v140 (F := Ideal) x0 x9 x10 x11 x12 x13 x14 x15 x16 x17 x18 x19 x20 (ix2 b e)) := by
  have hrow : (fun k : Fin 1024 => val_main_v148 (F := Ideal) x1 x2 x3 x4 x5 x6 x7 x8 (ix2 (⟨a.val * 500 + o.val, by omega⟩ : Fin 100000) k))
      = pairRow (fun n c => val_main_v54 (F := Ideal) x1 x2 x3 x4 x5 x6 x7 x8 (ix2 n c)) a o :=
    funext fun k => row_apply x1 x2 x3 x4 x5 x6 x7 x8 a o k
  rw [scores_apply, hrow]

end Cert.ScoresRef

end
-- ==== Proof.ImgRefLayers.lean ====
/-
  The reference program's image tower, layer by layer, each entry as a function of the layer's input row.

  Three dense layers (a plain product sum plus a bias), each followed by a two-pass layer normalisation — the row
  mean is the row sum divided by the row length, the variance the mean of the squared deviations, the result
  (x − mean)·rsqrt(variance + ε)·γ + β — and the first two also by a maximum with 0.
-/
import proofs.«101777_j1108101562624_2_alg».proof.Proof.RefStages
import proofs.«101777_j1108101562624_2_alg».proof.Proof.Spec

noncomputable section

namespace Cert.ImgRefLayers

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo
open scoped BigOperators

variable (x0 : (⟨S256x512, .f32⟩ : BufTy).Contents (Elt Ideal)) (x9 : (⟨S512x800, .f32⟩ : BufTy).Contents (Elt Ideal)) (x10 x11 x12 : (⟨S800, .f32⟩ : BufTy).Contents (Elt Ideal))
  (x13 : (⟨S800x1000, .f32⟩ : BufTy).Contents (Elt Ideal)) (x14 x15 x16 : (⟨S1000, .f32⟩ : BufTy).Contents (Elt Ideal))
  (x17 : (⟨S1000x800, .f32⟩ : BufTy).Contents (Elt Ideal)) (x18 x19 x20 : (⟨S800, .f32⟩ : BufTy).Contents (Elt Ideal))

/-! ## First layer: 512 → 800 -/

/-- The first dense layer: the image row times the first weight matrix, plus the bias. -/
theorem dense1 (b : Fin 256) (j : Fin 800) :
    val_main_v58 (F := Ideal) x0 x9 x10 (ix2 b j)
      = Cert.Spec.mm (fun k : Fin 512 => x0 (ix2 b k)) (fun k => x9 (ix2 k j)) + x10 (ix1 j) := by
  have el : ∀ k : Fin 512, lidx_main_v55 (ix2 b j) k = ix2 b k := fun k => funext fun a => Fin.ext (by
    match a with
    | ⟨0, _⟩ => rfl
    | ⟨1, _⟩ => rfl)
  have er : ∀ k : Fin 512, ridx_main_v55 (ix2 b j) k = ix2 k j := fun k => funext fun a => Fin.ext (by
    match a with
    | ⟨0, _⟩ => rfl
    | ⟨1, _⟩ => rfl)
  have eb : idx_main_v56 (idx_main_v57 (ix2 b j)) = ix1 j := funext fun a => Fin.ext (by
    match a with
    | ⟨0, _⟩ => rfl)
  rw [val_main_v58_apply, val_main_v55_apply, val_main_v57_apply, val_main_v56_apply, eb]
  simp only [el, er]
  rfl

/-! ### The layer normalisation of the first dense layer's rows -/

/-- The row sum. -/
theorem ln1_sum (b : Fin 256) : val_main_v59 (F := Ideal) x0 x9 x10 (ix1 b) = ∑ i : Fin 800, (val_main_v58 (F := Ideal) x0 x9 x10) (ix2 b i) := by
  have e : ∀ k : Fin 800, idx_main_v59 (ix1 b) k = ix2 b k := fun k => funext fun a => Fin.ext (by
    match a with
    | ⟨0, _⟩ => rfl
    | ⟨1, _⟩ => rfl)
  rw [val_main_v59_apply, val_main_cst_10_apply]
  simp only [e, Ideal.ofBits_def, Ideal.ofBits_zero_f32, zero_add]

/-- The row mean: the sum divided by the row length. -/
theorem ln1_mean (b : Fin 256) (c : Fin 1) : val_main_v62 (F := Ideal) x0 x9 x10 (ix2 b c) = Ideal.div (∑ i : Fin 800, (val_main_v58 (F := Ideal) x0 x9 x10) (ix2 b i)) (Ideal.ofBits .f32 0x44480000#32) := by
  have e : idx_main_v60 (ix2 b c) = ix1 b := funext fun a => Fin.ext (by
    match a with
    | ⟨0, _⟩ => rfl)
  rw [val_main_v62_apply, val_main_v60_apply, e, ln1_sum, val_main_v61_apply, val_main_cst_11_apply]
  rfl

/-- The deviation from the mean. -/
theorem ln1_dev (b : Fin 256) (k : Fin 800) : val_main_v64 (F := Ideal) x0 x9 x10 (ix2 b k) = (val_main_v58 (F := Ideal) x0 x9 x10) (ix2 b k) - Ideal.div (∑ i : Fin 800, (val_main_v58 (F := Ideal) x0 x9 x10) (ix2 b i)) (Ideal.ofBits .f32 0x44480000#32) := by
  have e : idx_main_v63 (ix2 b k) = ix2 b (0 : Fin 1) := funext fun a => Fin.ext (by
    match a with
    | ⟨0, _⟩ => rfl
    | ⟨1, _⟩ => rfl)
  rw [val_main_v64_apply, val_main_v63_apply, e, ln1_mean]
  rfl

/-- The row variance: the mean of the squared deviations. -/
theorem ln1_var (b : Fin 256) (c : Fin 1) :
    val_main_v69 (F := Ideal) x0 x9 x10 (ix2 b c)
      = Ideal.div (∑ k : Fin 800, ((val_main_v58 (F := Ideal) x0 x9 x10) (ix2 b k) - Ideal.div (∑ i : Fin 800, (val_main_v58 (F := Ideal) x0 x9 x10) (ix2 b i)) (Ideal.ofBits .f32 0x44480000#32)) * ((val_main_v58 (F := Ideal) x0 x9 x10) (ix2 b k) - Ideal.div (∑ i : Fin 800, (val_main_v58 (F := Ideal) x0 x9 x10) (ix2 b i)) (Ideal.ofBits .f32 0x44480000#32))) (Ideal.ofBits .f32 0x44480000#32) := by
  have e1 : idx_main_v67 (ix2 b c) = ix1 b := funext fun a => Fin.ext (by
    match a with
    | ⟨0, _⟩ => rfl)
  have e2 : ∀ k : Fin 800, idx_main_v66 (ix1 b) k = ix2 b k := fun k => funext fun a => Fin.ext (by
    match a with
    | ⟨0, _⟩ => rfl
    | ⟨1, _⟩ => rfl)
  have hs : ∀ k : Fin 800, val_main_v65 (F := Ideal) x0 x9 x10 (idx_main_v66 (ix1 b) k)
      = ((val_main_v58 (F := Ideal) x0 x9 x10) (ix2 b k) - Ideal.div (∑ i : Fin 800, (val_main_v58 (F := Ideal) x0 x9 x10) (ix2 b i)) (Ideal.ofBits .f32 0x44480000#32)) * ((val_main_v58 (F := Ideal) x0 x9 x10) (ix2 b k) - Ideal.div (∑ i : Fin 800, (val_main_v58 (F := Ideal) x0 x9 x10) (ix2 b i)) (Ideal.ofBits .f32 0x44480000#32)) := fun k => by
    rw [e2 k, val_main_v65_apply, ln1_dev]
    rfl
  rw [val_main_v69_apply, val_main_v67_apply, e1, val_main_v66_apply, val_main_cst_12_apply, val_main_v68_apply, val_main_cst_13_apply]
  simp only [hs, Ideal.ofBits_def, Ideal.ofBits_zero_f32, zero_add, Ideal.hostDivf_def]

/-- The normalised, scaled and shifted row, entry `j`. -/
theorem ln1_out (b : Fin 256) (j : Fin 800) :
    val_main_v82 (F := Ideal) x0 x9 x10 x11 x12 (ix2 b j)
      = Cert.Spec.lnR (Ideal.ofBits .f32 0x44480000#32) (Ideal.ofBits .f32 0x3727C5AC#32) (fun i : Fin 800 => (val_main_v58 (F := Ideal) x0 x9 x10) (ix2 b i))
          (fun i => x11 (ix1 i)) (fun i => x12 (ix1 i)) j := by
  have e70 : idx_main_v70 (ix2 b j) = ix2 b (0 : Fin 1) := funext fun a => Fin.ext (by
    match a with
    | ⟨0, _⟩ => rfl
    | ⟨1, _⟩ => rfl)
  have e75 : idx_main_v75 (ix2 b j) = ix2 b (0 : Fin 1) := funext fun a => Fin.ext (by
    match a with
    | ⟨0, _⟩ => rfl
    | ⟨1, _⟩ => rfl)
  have e78 : idx_main_v77 (idx_main_v78 (ix2 b j)) = ix1 j := funext fun a => Fin.ext (by
    match a with
    | ⟨0, _⟩ => rfl)
  have e81 : idx_main_v80 (idx_main_v81 (ix2 b j)) = ix1 j := funext fun a => Fin.ext (by
    match a with
    | ⟨0, _⟩ => rfl)
  rw [val_main_v82_apply, val_main_v79_apply, val_main_v76_apply, val_main_v71_apply, val_main_v70_apply, e70, ln1_mean,
    val_main_v75_apply, e75, val_main_v74_apply, val_main_v73_apply, ln1_var, val_main_v72_apply, val_main_cst_14_apply,
    val_main_v78_apply, val_main_v77_apply, e78, val_main_v81_apply, val_main_v80_apply, e81]
  rfl

/-- The first activation: the maximum with 0. -/
theorem act1 (b : Fin 256) (j : Fin 800) :
    val_main_v83 (F := Ideal) x0 x9 x10 x11 x12 (ix2 b j) = max (val_main_v82 (F := Ideal) x0 x9 x10 x11 x12 (ix2 b j)) 0 := by
  rw [val_main_v83_apply, val_main_call1_v0_apply, val_main_call1_cst_apply]
  simp only [Ideal.maximumf_def, Ideal.ofBits_def, Ideal.ofBits_zero_f32]

/-! ## Second layer: 800 → 1000 -/

/-- The second dense layer on the first activation. -/
theorem dense2 (b : Fin 256) (j : Fin 1000) :
    val_main_v87 (F := Ideal) x0 x9 x10 x11 x12 x13 x14 (ix2 b j)
      = Cert.Spec.mm (fun k : Fin 800 => (val_main_v83 (F := Ideal) x0 x9 x10 x11 x12) (ix2 b k)) (fun k => x13 (ix2 k j)) + x14 (ix1 j) := by
  have el : ∀ k : Fin 800, lidx_main_v84 (ix2 b j) k = ix2 b k := fun k => funext fun a => Fin.ext (by
    match a with
    | ⟨0, _⟩ => rfl
    | ⟨1, _⟩ => rfl)
  have er : ∀ k : Fin 800, ridx_main_v84 (ix2 b j) k = ix2 k j := fun k => funext fun a => Fin.ext (by
    match a with
    | ⟨0, _⟩ => rfl
    | ⟨1, _⟩ => rfl)
  have eb : idx_main_v85 (idx_main_v86 (ix2 b j)) = ix1 j := funext fun a => Fin.ext (by
    match a with
    | ⟨0, _⟩ => rfl)
  rw [val_main_v87_apply, val_main_v84_apply, val_main_v86_apply, val_main_v85_apply, eb]
  simp only [el, er]
  rfl

/-! ### The layer normalisation of the second dense layer's rows -/

/-- The row sum. -/
theorem ln2_sum (b : Fin 256) : val_main_v88 (F := Ideal) x0 x9 x10 x11 x12 x13 x14 (ix1 b) = ∑ i : Fin 1000, (val_main_v87 (F := Ideal) x0 x9 x10 x11 x12 x13 x14) (ix2 b i) := by
  have e : ∀ k : Fin 1000, idx_main_v88 (ix1 b) k = ix2 b k := fun k => funext fun a => Fin.ext (by
    match a with
    | ⟨0, _⟩ => rfl
    | ⟨1, _⟩ => rfl)
  rw [val_main_v88_apply, val_main_cst_15_apply]
  simp only [e, Ideal.ofBits_def, Ideal.ofBits_zero_f32, zero_add]

/-- The row mean: the sum divided by the row length. -/
theorem ln2_mean (b : Fin 256) (c : Fin 1) : val_main_v91 (F := Ideal) x0 x9 x10 x11 x12 x13 x14 (ix2 b c) = Ideal.div (∑ i : Fin 1000, (val_main_v87 (F := Ideal) x0 x9 x10 x11 x12 x13 x14) (ix2 b i)) (Ideal.ofBits .f32 0x447A0000#32) := by
  have e : idx_main_v89 (ix2 b c) = ix1 b := funext fun a => Fin.ext (by
    match a with
    | ⟨0, _⟩ => rfl)
  rw [val_main_v91_apply, val_main_v89_apply, e, ln2_sum, val_main_v90_apply, val_main_cst_16_apply]
  rfl

/-- The deviation from the mean. -/
theorem ln2_dev (b : Fin 256) (k : Fin 1000) : val_main_v93 (F := Ideal) x0 x9 x10 x11 x12 x13 x14 (ix2 b k) = (val_main_v87 (F := Ideal) x0 x9 x10 x11 x12 x13 x14) (ix2 b k) - Ideal.div (∑ i : Fin 1000, (val_main_v87 (F := Ideal) x0 x9 x10 x11 x12 x13 x14) (ix2 b i)) (Ideal.ofBits .f32 0x447A0000#32) := by
  have e : idx_main_v92 (ix2 b k) = ix2 b (0 : Fin 1) := funext fun a => Fin.ext (by
    match a with
    | ⟨0, _⟩ => rfl
    | ⟨1, _⟩ => rfl)
  rw [val_main_v93_apply, val_main_v92_apply, e, ln2_mean]
  rfl

/-- The row variance: the mean of the squared deviations. -/
theorem ln2_var (b : Fin 256) (c : Fin 1) :
    val_main_v98 (F := Ideal) x0 x9 x10 x11 x12 x13 x14 (ix2 b c)
      = Ideal.div (∑ k : Fin 1000, ((val_main_v87 (F := Ideal) x0 x9 x10 x11 x12 x13 x14) (ix2 b k) - Ideal.div (∑ i : Fin 1000, (val_main_v87 (F := Ideal) x0 x9 x10 x11 x12 x13 x14) (ix2 b i)) (Ideal.ofBits .f32 0x447A0000#32)) * ((val_main_v87 (F := Ideal) x0 x9 x10 x11 x12 x13 x14) (ix2 b k) - Ideal.div (∑ i : Fin 1000, (val_main_v87 (F := Ideal) x0 x9 x10 x11 x12 x13 x14) (ix2 b i)) (Ideal.ofBits .f32 0x447A0000#32))) (Ideal.ofBits .f32 0x447A0000#32) := by
  have e1 : idx_main_v96 (ix2 b c) = ix1 b := funext fun a => Fin.ext (by
    match a with
    | ⟨0, _⟩ => rfl)
  have e2 : ∀ k : Fin 1000, idx_main_v95 (ix1 b) k = ix2 b k := fun k => funext fun a => Fin.ext (by
    match a with
    | ⟨0, _⟩ => rfl
    | ⟨1, _⟩ => rfl)
  have hs : ∀ k : Fin 1000, val_main_v94 (F := Ideal) x0 x9 x10 x11 x12 x13 x14 (idx_main_v95 (ix1 b) k)
      = ((val_main_v87 (F := Ideal) x0 x9 x10 x11 x12 x13 x14) (ix2 b k) - Ideal.div (∑ i : Fin 1000, (val_main_v87 (F := Ideal) x0 x9 x10 x11 x12 x13 x14) (ix2 b i)) (Ideal.ofBits .f32 0x447A0000#32)) * ((val_main_v87 (F := Ideal) x0 x9 x10 x11 x12 x13 x14) (ix2 b k) - Ideal.div (∑ i : Fin 1000, (val_main_v87 (F := Ideal) x0 x9 x10 x11 x12 x13 x14) (ix2 b i)) (Ideal.ofBits .f32 0x447A0000#32)) := fun k => by
    rw [e2 k, val_main_v94_apply, ln2_dev]
    rfl
  rw [val_main_v98_apply, val_main_v96_apply, e1, val_main_v95_apply, val_main_cst_17_apply, val_main_v97_apply, val_main_cst_18_apply]
  simp only [hs, Ideal.ofBits_def, Ideal.ofBits_zero_f32, zero_add, Ideal.hostDivf_def]

/-- The normalised, scaled and shifted row, entry `j`. -/
theorem ln2_out (b : Fin 256) (j : Fin 1000) :
    val_main_v111 (F := Ideal) x0 x9 x10 x11 x12 x13 x14 x15 x16 (ix2 b j)
      = Cert.Spec.lnR (Ideal.ofBits .f32 0x447A0000#32) (Ideal.ofBits .f32 0x3727C5AC#32) (fun i : Fin 1000 => (val_main_v87 (F := Ideal) x0 x9 x10 x11 x12 x13 x14) (ix2 b i))
          (fun i => x15 (ix1 i)) (fun i => x16 (ix1 i)) j := by
  have e70 : idx_main_v99 (ix2 b j) = ix2 b (0 : Fin 1) := funext fun a => Fin.ext (by
    match a with
    | ⟨0, _⟩ => rfl
    | ⟨1, _⟩ => rfl)
  have e75 : idx_main_v104 (ix2 b j) = ix2 b (0 : Fin 1) := funext fun a => Fin.ext (by
    match a with
    | ⟨0, _⟩ => rfl
    | ⟨1, _⟩ => rfl)
  have e78 : idx_main_v106 (idx_main_v107 (ix2 b j)) = ix1 j := funext fun a => Fin.ext (by
    match a with
    | ⟨0, _⟩ => rfl)
  have e81 : idx_main_v109 (idx_main_v110 (ix2 b j)) = ix1 j := funext fun a => Fin.ext (by
    match a with
    | ⟨0, _⟩ => rfl)
  rw [val_main_v111_apply, val_main_v108_apply, val_main_v105_apply, val_main_v100_apply, val_main_v99_apply, e70, ln2_mean,
    val_main_v104_apply, e75, val_main_v103_apply, val_main_v102_apply, ln2_var, val_main_v101_apply, val_main_cst_19_apply,
    val_main_v107_apply, val_main_v106_apply, e78, val_main_v110_apply, val_main_v109_apply, e81]
  rfl

/-- The second activation: the maximum with 0. -/
theorem act2 (b : Fin 256) (j : Fin 1000) :
    val_main_v112 (F := Ideal) x0 x9 x10 x11 x12 x13 x14 x15 x16 (ix2 b j) = max (val_main_v111 (F := Ideal) x0 x9 x10 x11 x12 x13 x14 x15 x16 (ix2 b j)) 0 := by
  rw [val_main_v112_apply, val_main_call2_v0_apply, val_main_call2_cst_apply]
  simp only [Ideal.maximumf_def, Ideal.ofBits_def, Ideal.ofBits_zero_f32]

/-! ## Third layer: 1000 → 800 -/

/-- The third dense layer on the second activation. -/
theorem dense3 (b : Fin 256) (j : Fin 800) :
    val_main_v116 (F := Ideal) x0 x9 x10 x11 x12 x13 x14 x15 x16 x17 x18 (ix2 b j)
      = Cert.Spec.mm (fun k : Fin 1000 => (val_main_v112 (F := Ideal) x0 x9 x10 x11 x12 x13 x14 x15 x16) (ix2 b k)) (fun k => x17 (ix2 k j)) + x18 (ix1 j) := by
  have el : ∀ k : Fin 1000, lidx_main_v113 (ix2 b j) k = ix2 b k := fun k => funext fun a => Fin.ext (by
    match a with
    | ⟨0, _⟩ => rfl
    | ⟨1, _⟩ => rfl)
  have er : ∀ k : Fin 1000, ridx_main_v113 (ix2 b j) k = ix2 k j := fun k => funext fun a => Fin.ext (by
    match a with
    | ⟨0, _⟩ => rfl
    | ⟨1, _⟩ => rfl)
  have eb : idx_main_v114 (idx_main_v115 (ix2 b j)) = ix1 j := funext fun a => Fin.ext (by
    match a with
    | ⟨0, _⟩ => rfl)
  rw [val_main_v116_apply, val_main_v113_apply, val_main_v115_apply, val_main_v114_apply, eb]
  simp only [el, er]
  rfl

/-! ### The layer normalisation of the third dense layer's rows -/

/-- The row sum. -/
theorem ln3_sum (b : Fin 256) : val_main_v117 (F := Ideal) x0 x9 x10 x11 x12 x13 x14 x15 x16 x17 x18 (ix1 b) = ∑ i : Fin 800, (val_main_v116 (F := Ideal) x0 x9 x10 x11 x12 x13 x14 x15 x16 x17 x18) (ix2 b i) := by
  have e : ∀ k : Fin 800, idx_main_v117 (ix1 b) k = ix2 b k := fun k => funext fun a => Fin.ext (by
    match a with
    | ⟨0, _⟩ => rfl
    | ⟨1, _⟩ => rfl)
  rw [val_main_v117_apply, val_main_cst_20_apply]
  simp only [e, Ideal.ofBits_def, Ideal.ofBits_zero_f32, zero_add]

/-- The row mean: the sum divided by the row length. -/
theorem ln3_mean (b : Fin 256) (c : Fin 1) : val_main_v120 (F := Ideal) x0 x9 x10 x11 x12 x13 x14 x15 x16 x17 x18 (ix2 b c) = Ideal.div (∑ i : Fin 800, (val_main_v116 (F := Ideal) x0 x9 x10 x11 x12 x13 x14 x15 x16 x17 x18) (ix2 b i)) (Ideal.ofBits .f32 0x44480000#32) := by
  have e : idx_main_v118 (ix2 b c) = ix1 b := funext fun a => Fin.ext (by
    match a with
    | ⟨0, _⟩ => rfl)
  rw [val_main_v120_apply, val_main_v118_apply, e, ln3_sum, val_main_v119_apply, val_main_cst_21_apply]
  rfl

/-- The deviation from the mean. -/
theorem ln3_dev (b : Fin 256) (k : Fin 800) : val_main_v122 (F := Ideal) x0 x9 x10 x11 x12 x13 x14 x15 x16 x17 x18 (ix2 b k) = (val_main_v116 (F := Ideal) x0 x9 x10 x11 x12 x13 x14 x15 x16 x17 x18) (ix2 b k) - Ideal.div (∑ i : Fin 800, (val_main_v116 (F := Ideal) x0 x9 x10 x11 x12 x13 x14 x15 x16 x17 x18) (ix2 b i)) (Ideal.ofBits .f32 0x44480000#32) := by
  have e : idx_main_v121 (ix2 b k) = ix2 b (0 : Fin 1) := funext fun a => Fin.ext (by
    match a with
    | ⟨0, _⟩ => rfl
    | ⟨1, _⟩ => rfl)
  rw [val_main_v122_apply, val_main_v121_apply, e, ln3_mean]
  rfl

/-- The row variance: the mean of the squared deviations. -/
theorem ln3_var (b : Fin 256) (c : Fin 1) :
    val_main_v127 (F := Ideal) x0 x9 x10 x11 x12 x13 x14 x15 x16 x17 x18 (ix2 b c)
      = Ideal.div (∑ k : Fin 800, ((val_main_v116 (F := Ideal) x0 x9 x10 x11 x12 x13 x14 x15 x16 x17 x18) (ix2 b k) - Ideal.div (∑ i : Fin 800, (val_main_v116 (F := Ideal) x0 x9 x10 x11 x12 x13 x14 x15 x16 x17 x18) (ix2 b i)) (Ideal.ofBits .f32 0x44480000#32)) * ((val_main_v116 (F := Ideal) x0 x9 x10 x11 x12 x13 x14 x15 x16 x17 x18) (ix2 b k) - Ideal.div (∑ i : Fin 800, (val_main_v116 (F := Ideal) x0 x9 x10 x11 x12 x13 x14 x15 x16 x17 x18) (ix2 b i)) (Ideal.ofBits .f32 0x44480000#32))) (Ideal.ofBits .f32 0x44480000#32) := by
  have e1 : idx_main_v125 (ix2 b c) = ix1 b := funext fun a => Fin.ext (by
    match a with
    | ⟨0, _⟩ => rfl)
  have e2 : ∀ k : Fin 800, idx_main_v124 (ix1 b) k = ix2 b k := fun k => funext fun a => Fin.ext (by
    match a with
    | ⟨0, _⟩ => rfl
    | ⟨1, _⟩ => rfl)
  have hs : ∀ k : Fin 800, val_main_v123 (F := Ideal) x0 x9 x10 x11 x12 x13 x14 x15 x16 x17 x18 (idx_main_v124 (ix1 b) k)
      = ((val_main_v116 (F := Ideal) x0 x9 x10 x11 x12 x13 x14 x15 x16 x17 x18) (ix2 b k) - Ideal.div (∑ i : Fin 800, (val_main_v116 (F := Ideal) x0 x9 x10 x11 x12 x13 x14 x15 x16 x17 x18) (ix2 b i)) (Ideal.ofBits .f32 0x44480000#32)) * ((val_main_v116 (F := Ideal) x0 x9 x10 x11 x12 x13 x14 x15 x16 x17 x18) (ix2 b k) - Ideal.div (∑ i : Fin 800, (val_main_v116 (F := Ideal) x0 x9 x10 x11 x12 x13 x14 x15 x16 x17 x18) (ix2 b i)) (Ideal.ofBits .f32 0x44480000#32)) := fun k => by
    rw [e2 k, val_main_v123_apply, ln3_dev]
    rfl
  rw [val_main_v127_apply, val_main_v125_apply, e1, val_main_v124_apply, val_main_cst_22_apply, val_main_v126_apply, val_main_cst_23_apply]
  simp only [hs, Ideal.ofBits_def, Ideal.ofBits_zero_f32, zero_add, Ideal.hostDivf_def]

/-- The normalised, scaled and shifted row, entry `j`. -/
theorem ln3_out (b : Fin 256) (j : Fin 800) :
    val_main_v140 (F := Ideal) x0 x9 x10 x11 x12 x13 x14 x15 x16 x17 x18 x19 x20 (ix2 b j)
      = Cert.Spec.lnR (Ideal.ofBits .f32 0x44480000#32) (Ideal.ofBits .f32 0x3727C5AC#32) (fun i : Fin 800 => (val_main_v116 (F := Ideal) x0 x9 x10 x11 x12 x13 x14 x15 x16 x17 x18) (ix2 b i))
          (fun i => x19 (ix1 i)) (fun i => x20 (ix1 i)) j := by
  have e70 : idx_main_v128 (ix2 b j) = ix2 b (0 : Fin 1) := funext fun a => Fin.ext (by
    match a with
    | ⟨0, _⟩ => rfl
    | ⟨1, _⟩ => rfl)
  have e75 : idx_main_v133 (ix2 b j) = ix2 b (0 : Fin 1) := funext fun a => Fin.ext (by
    match a with
    | ⟨0, _⟩ => rfl
    | ⟨1, _⟩ => rfl)
  have e78 : idx_main_v135 (idx_main_v136 (ix2 b j)) = ix1 j := funext fun a => Fin.ext (by
    match a with
    | ⟨0, _⟩ => rfl)
  have e81 : idx_main_v138 (idx_main_v139 (ix2 b j)) = ix1 j := funext fun a => Fin.ext (by
    match a with
    | ⟨0, _⟩ => rfl)
  rw [val_main_v140_apply, val_main_v137_apply, val_main_v134_apply, val_main_v129_apply, val_main_v128_apply, e70, ln3_mean,
    val_main_v133_apply, e75, val_main_v132_apply, val_main_v131_apply, ln3_var, val_main_v130_apply, val_main_cst_24_apply,
    val_main_v136_apply, val_main_v135_apply, e78, val_main_v139_apply, val_main_v138_apply, e81]
  rfl

end Cert.ImgRefLayers

end
-- ==== Proof.ImgRef.lean ====
/-
  The reference program's image features, one entry as a function of the program's arguments: the three-layer
  tower of the specification with plain product sums and two-pass normalisations, the row lengths 800 and 1000 and
  the ε as the words the program holds.
-/
import proofs.«101777_j1108101562624_2_alg».proof.Proof.RefStages
import proofs.«101777_j1108101562624_2_alg».proof.Proof.Spec
import proofs.«101777_j1108101562624_2_alg».proof.Proof.ImgRefLayers

noncomputable section

namespace Cert.ImgRef

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo
open scoped BigOperators

variable (x0 : (⟨S256x512, .f32⟩ : BufTy).Contents (Elt Ideal)) (x9 : (⟨S512x800, .f32⟩ : BufTy).Contents (Elt Ideal)) (x10 x11 x12 : (⟨S800, .f32⟩ : BufTy).Contents (Elt Ideal))
  (x13 : (⟨S800x1000, .f32⟩ : BufTy).Contents (Elt Ideal)) (x14 x15 x16 : (⟨S1000, .f32⟩ : BufTy).Contents (Elt Ideal))
  (x17 : (⟨S1000x800, .f32⟩ : BufTy).Contents (Elt Ideal)) (x18 x19 x20 : (⟨S800, .f32⟩ : BufTy).Contents (Elt Ideal))

open Cert.ImgRefLayers

/-- The image features (the left operand of the program's last product) at image `b` and lane `q`. -/
theorem img_feats_apply (b : Fin 256) (q : Fin 800) :
    val_main_v140 (F := Ideal) x0 x9 x10 x11 x12 x13 x14 x15 x16 x17 x18 x19 x20 (ix2 b q)
      = Cert.Spec.imgR (Ideal.ofBits .f32 0x44480000#32) (Ideal.ofBits .f32 0x447A0000#32) (Ideal.ofBits .f32 0x3727C5AC#32)
          (fun k => x0 (ix2 b k))
          (fun k j => x9 (ix2 k j)) (fun j => x10 (ix1 j)) (fun j => x11 (ix1 j)) (fun j => x12 (ix1 j))
          (fun k j => x13 (ix2 k j)) (fun j => x14 (ix1 j)) (fun j => x15 (ix1 j)) (fun j => x16 (ix1 j))
          (fun k j => x17 (ix2 k j)) (fun j => x18 (ix1 j)) (fun j => x19 (ix1 j)) (fun j => x20 (ix1 j)) q := by
  simp only [Cert.Spec.imgR, ln3_out, dense3, act2, ln2_out, dense2, act1, ln1_out, dense1]

end Cert.ImgRef

end
-- ==== Proof.LibFiniteReal.lean ====
/-
  "Every entry is finite", read back at the ideal reading: every entry is a real number.

  A precondition that says an array holds finite floats is stated as: take absolute values, compare each with the
  infinity word by "less than", and fold the one-bit answers by "and" from one; the claim states that the result is one.
  At the ideal reading a float is an extended real, the infinity word is `+∞`, the absolute value of `x` is the larger of
  `x` and `−x`, and the comparison is the order's.  So the fold being one says `max x (−x) < +∞` of every entry, and an
  extended real with that property is neither infinity: it is a real number.  This is the step that lets an identity
  proved over the real numbers be used under a finiteness precondition, for an array of any shape.  The companion
  read-back of "every entry is greater than zero" is stated the same way.
-/
import Idealize.ShloMosaic.PureOps.Ideal
import Idealize.ShloMosaic.Lib.ReduceAll
import Idealize.ShloMosaic.Lib.Pipeline.Value

noncomputable section

open Idealize.ShloMosaic

namespace Cert.FiniteReal

/-- The infinity word denotes `+∞`. -/
theorem inf_word : Ideal.ofBits .f32 0x7F800000#32 = (⊤ : EReal) := by simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The absolute value and the comparison at the ideal reading, on any two extended reals. -/
theorem absf_ideal (x : EReal) : FloatOps.absf (F := Ideal) (φ := .f32) x = max x (-x) := rfl
theorem cmpf_ideal (p : CmpFPredicate) (x y : EReal) : FloatOps.cmpf (F := Ideal) (φ := .f32) p x y = Ideal.cmp p x y := rfl

/-- One entry: if "its absolute value is less than the infinity word" is the word one, the entry is a real number. -/
theorem real_of_finite_word (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [Ideal.hostAbsf_def, absf_ideal, cmpf_ideal, inf_word] at h
  apply real_of_abs_lt_top
  by_contra hn
  unfold Ideal.cmp at h
  simp [hn] at h

section Generic

variable {F : FTy → Type} [FloatOps F] {s : Shape}

/-- The entrywise comparison of the absolute values with a spread scalar, opened at an index. -/
theorem finite_test_open (x : FVec F s .f32) (hb : (⟨0, ![]⟩ : Shape).BroadcastsInDim s (![] : Fin 0 → Fin s.rank))
    (c : FVec F ⟨0, ![]⟩ .f32) (i : s.Idx) :
    cmpf .olt (Host.absf x) (broadcastInDim s ![] hb c) i
      = FloatOps.cmpf .olt (FloatOps.hostAbsf (x i)) (broadcastInDim s ![] hb c i) := rfl

end Generic

/-- All entries: if the fold by "and" of "absolute value less than the infinity word" over the whole array is one, every
    entry of the array is a real number. -/
theorem real_of_all_finite {s u : Shape} {axes : List (Fin s.rank)} (x : FVec Ideal s .f32)
    (hb : (⟨0, ![]⟩ : Shape).BroadcastsInDim s (![] : Fin 0 → Fin s.rank)) (init : u.Idx → BitVec 1)
    (h : s.ReducesTo axes ⟨0, ![]⟩) (hu : 0 < u.numel) (j : (⟨0, ![]⟩ : Shape).Idx)
    (e : Host.reduce IntOp.andi
        (cmpf .olt (Host.absf x) (broadcastInDim s ![] hb (constant (F := Ideal) ⟨0, ![]⟩ .f32 0x7F800000#32))) init h hu j = 1#1)
    (i : s.Idx) : ∃ r : ℝ, x i = (r : EReal) := by
  haveI : Subsingleton (⟨0, ![]⟩ : Shape).Idx := ⟨fun a b => funext fun d => d.elim0⟩
  have e1 := Host.reduce_andi_all _ init h hu j e i
  rw [finite_test_open,
    broadcastInDim_apply ![] hb (constant (F := Ideal) ⟨0, ![]⟩ .f32 0x7F800000#32) i (fun a => a.elim0) (fun a => a.elim0)] at e1
  exact real_of_finite_word (x i) e1

section GenericGt

variable {F : FTy → Type} [FloatOps F] {s : Shape}

/-- The entrywise comparison "greater than" with a spread scalar, opened at an index. -/
theorem gt_test_open (v : FVec F s .f32) (hb : (⟨0, ![]⟩ : Shape).BroadcastsInDim s (![] : Fin 0 → Fin s.rank))
    (c : FVec F ⟨0, ![]⟩ .f32) (i : s.Idx) :
    cmpf .ogt v (broadcastInDim s ![] hb c) i = FloatOps.cmpf .ogt (v i) (broadcastInDim s ![] hb c i) := rfl

end GenericGt

/-- "Every entry is greater than zero", read back: if the fold by "and" of "greater than the zero word" over the whole
    array is one, every entry of the array is positive. -/
theorem pos_of_all_gt_zero {s u : Shape} {axes : List (Fin s.rank)} (v : FVec Ideal s .f32)
    (hb : (⟨0, ![]⟩ : Shape).BroadcastsInDim s (![] : Fin 0 → Fin s.rank)) (init : u.Idx → BitVec 1)
    (h : s.ReducesTo axes ⟨0, ![]⟩) (hu : 0 < u.numel) (j : (⟨0, ![]⟩ : Shape).Idx)
    (e : Host.reduce IntOp.andi
        (cmpf .ogt v (broadcastInDim s ![] hb (constant (F := Ideal) ⟨0, ![]⟩ .f32 0x00000000#32))) init h hu j = 1#1)
    (i : s.Idx) : 0 < v i := by
  haveI : Subsingleton (⟨0, ![]⟩ : Shape).Idx := ⟨fun a b => funext fun d => d.elim0⟩
  have e1 := Host.reduce_andi_all _ init h hu j e i
  rw [gt_test_open,
    broadcastInDim_apply ![] hb (constant (F := Ideal) ⟨0, ![]⟩ .f32 0x00000000#32) i (fun a => a.elim0) (fun a => a.elim0),
    cmpf_ideal] at e1
  have hz : (constant (F := Ideal) ⟨0, ![]⟩ .f32 0x00000000#32) (fun a => a.elim0) = (0 : EReal) := by
    show Ideal.ofBits .f32 0x00000000#32 = 0
    simp [Ideal.ofBits, Ideal.ieee]
  rw [hz] at e1
  by_contra hn
  unfold Ideal.cmp at e1
  simp [hn] at e1

end Cert.FiniteReal

end
-- ==== Proof.FiniteArgs.lean ====
/-
  From "every argument array holds finite floats" to "every entry of every float argument is a real number".

  The precondition is the conjunction, by "and" of one-bit words, of one test per float argument: the fold by "and" over
  the whole array of "the absolute value of the entry is less than the infinity word".  The conjunction being the word
  one gives each test the word one; a test being one says every entry x of that array has max(x, −x) < +∞ at the ideal
  reading, so x is neither infinity: it is a real number.  The integer argument (the edge list) has no test and no claim.
-/
import proofs.«101777_j1108101562624_2_alg».proof.Defs
import proofs.«101777_j1108101562624_2_alg».proof.Pre_finite_inputs
import proofs.«101777_j1108101562624_2_alg».proof.Proof.LibFiniteReal
import Idealize.ShloMosaic.Lib.ValueIdx
import proofs.«101777_j1108101562624_2_alg».proof.Proof.LibRealSums

noncomputable section

namespace Cert.FiniteArgs

open Idealize.ShloMosaic Idealize.SL.Sem
open Cert.RealSums
open Cert.Pre_finite_inputs

variable [Cert.Pre_finite_inputs.Facts]

/-- The test function on any argument arrays: if its word is one, every entry of every float argument is real. -/
theorem fn_real (a0 : FVec Ideal S256x512 .f32) (a1 : FVec Ideal S700x512 .f32) (a2 : IVec S2x50000 32) (a3 : FVec Ideal S512x2048 .f32) (a4 : FVec Ideal S2048 .f32) (a5 : FVec Ideal S512x2048 .f32) (a6 : FVec Ideal S2048x512 .f32) (a7 : FVec Ideal S512 .f32) (a8 : FVec Ideal S2048x512 .f32) (a9 : FVec Ideal S512x800 .f32) (a10 : FVec Ideal S800 .f32) (a11 : FVec Ideal S800 .f32) (a12 : FVec Ideal S800 .f32) (a13 : FVec Ideal S800x1000 .f32) (a14 : FVec Ideal S1000 .f32) (a15 : FVec Ideal S1000 .f32) (a16 : FVec Ideal S1000 .f32) (a17 : FVec Ideal S1000x800 .f32) (a18 : FVec Ideal S800 .f32) (a19 : FVec Ideal S800 .f32) (a20 : FVec Ideal S800 .f32) (a21 : FVec Ideal S1024x1000 .f32) (a22 : FVec Ideal S1000 .f32) (a23 : FVec Ideal S1000 .f32) (a24 : FVec Ideal S1000 .f32) (a25 : FVec Ideal S1000x800 .f32) (a26 : FVec Ideal S800 .f32) (a27 : FVec Ideal S800 .f32) (a28 : FVec Ideal S800 .f32)
    (h : Cert.Pre_finite_inputs.fn (F := Ideal) a0 a1 a2 a3 a4 a5 a6 a7 a8 a9 a10 a11 a12 a13 a14 a15 a16 a17 a18 a19 a20 a21 a22 a23 a24 a25 a26 a27 a28 ValueIdx.ix0 = 1#1) :
    (∀ i, IsReal (a0 i)) ∧
      (∀ i, IsReal (a1 i)) ∧
      (∀ i, IsReal (a3 i)) ∧
      (∀ i, IsReal (a4 i)) ∧
      (∀ i, IsReal (a5 i)) ∧
      (∀ i, IsReal (a6 i)) ∧
      (∀ i, IsReal (a7 i)) ∧
      (∀ i, IsReal (a8 i)) ∧
      (∀ i, IsReal (a9 i)) ∧
      (∀ i, IsReal (a10 i)) ∧
      (∀ i, IsReal (a11 i)) ∧
      (∀ i, IsReal (a12 i)) ∧
      (∀ i, IsReal (a13 i)) ∧
      (∀ i, IsReal (a14 i)) ∧
      (∀ i, IsReal (a15 i)) ∧
      (∀ i, IsReal (a16 i)) ∧
      (∀ i, IsReal (a17 i)) ∧
      (∀ i, IsReal (a18 i)) ∧
      (∀ i, IsReal (a19 i)) ∧
      (∀ i, IsReal (a20 i)) ∧
      (∀ i, IsReal (a21 i)) ∧
      (∀ i, IsReal (a22 i)) ∧
      (∀ i, IsReal (a23 i)) ∧
      (∀ i, IsReal (a24 i)) ∧
      (∀ i, IsReal (a25 i)) ∧
      (∀ i, IsReal (a26 i)) ∧
      (∀ i, IsReal (a27 i)) ∧
      (∀ i, IsReal (a28 i)) := by
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8,
    Idealize.ShloMosaic.andi] at h
  obtain ⟨h, h28⟩ := IntOp.andi_eq_one.1 h
  obtain ⟨h, h27⟩ := IntOp.andi_eq_one.1 h
  obtain ⟨h, h26⟩ := IntOp.andi_eq_one.1 h
  obtain ⟨h, h25⟩ := IntOp.andi_eq_one.1 h
  obtain ⟨h, h24⟩ := IntOp.andi_eq_one.1 h
  obtain ⟨h, h23⟩ := IntOp.andi_eq_one.1 h
  obtain ⟨h, h22⟩ := IntOp.andi_eq_one.1 h
  obtain ⟨h, h21⟩ := IntOp.andi_eq_one.1 h
  obtain ⟨h, h20⟩ := IntOp.andi_eq_one.1 h
  obtain ⟨h, h19⟩ := IntOp.andi_eq_one.1 h
  obtain ⟨h, h18⟩ := IntOp.andi_eq_one.1 h
  obtain ⟨h, h17⟩ := IntOp.andi_eq_one.1 h
  obtain ⟨h, h16⟩ := IntOp.andi_eq_one.1 h
  obtain ⟨h, h15⟩ := IntOp.andi_eq_one.1 h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h1⟩ := IntOp.andi_eq_one.1 h
  exact ⟨fun i => Cert.FiniteReal.real_of_all_finite a0 _ _ _ _ _ h0 i,
    fun i => Cert.FiniteReal.real_of_all_finite a1 _ _ _ _ _ h1 i,
    fun i => Cert.FiniteReal.real_of_all_finite a3 _ _ _ _ _ h3 i,
    fun i => Cert.FiniteReal.real_of_all_finite a4 _ _ _ _ _ h4 i,
    fun i => Cert.FiniteReal.real_of_all_finite a5 _ _ _ _ _ h5 i,
    fun i => Cert.FiniteReal.real_of_all_finite a6 _ _ _ _ _ h6 i,
    fun i => Cert.FiniteReal.real_of_all_finite a7 _ _ _ _ _ h7 i,
    fun i => Cert.FiniteReal.real_of_all_finite a8 _ _ _ _ _ h8 i,
    fun i => Cert.FiniteReal.real_of_all_finite a9 _ _ _ _ _ h9 i,
    fun i => Cert.FiniteReal.real_of_all_finite a10 _ _ _ _ _ h10 i,
    fun i => Cert.FiniteReal.real_of_all_finite a11 _ _ _ _ _ h11 i,
    fun i => Cert.FiniteReal.real_of_all_finite a12 _ _ _ _ _ h12 i,
    fun i => Cert.FiniteReal.real_of_all_finite a13 _ _ _ _ _ h13 i,
    fun i => Cert.FiniteReal.real_of_all_finite a14 _ _ _ _ _ h14 i,
    fun i => Cert.FiniteReal.real_of_all_finite a15 _ _ _ _ _ h15 i,
    fun i => Cert.FiniteReal.real_of_all_finite a16 _ _ _ _ _ h16 i,
    fun i => Cert.FiniteReal.real_of_all_finite a17 _ _ _ _ _ h17 i,
    fun i => Cert.FiniteReal.real_of_all_finite a18 _ _ _ _ _ h18 i,
    fun i => Cert.FiniteReal.real_of_all_finite a19 _ _ _ _ _ h19 i,
    fun i => Cert.FiniteReal.real_of_all_finite a20 _ _ _ _ _ h20 i,
    fun i => Cert.FiniteReal.real_of_all_finite a21 _ _ _ _ _ h21 i,
    fun i => Cert.FiniteReal.real_of_all_finite a22 _ _ _ _ _ h22 i,
    fun i => Cert.FiniteReal.real_of_all_finite a23 _ _ _ _ _ h23 i,
    fun i => Cert.FiniteReal.real_of_all_finite a24 _ _ _ _ _ h24 i,
    fun i => Cert.FiniteReal.real_of_all_finite a25 _ _ _ _ _ h25 i,
    fun i => Cert.FiniteReal.real_of_all_finite a26 _ _ _ _ _ h26 i,
    fun i => Cert.FiniteReal.real_of_all_finite a27 _ _ _ _ _ h27 i,
    fun i => Cert.FiniteReal.real_of_all_finite a28 _ _ _ _ _ h28 i⟩

/-- Under the precondition, on every core, every entry of every float argument buffer is a real number
    (in argument order; argument 2, the integer edge list, is left out). -/
theorem real_args (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0)) i)) ∧
      (∀ i, IsReal ((m ((c.tc : Thread Cert.KernelIdeal.nD Cert.KernelIdeal.τ).loc Cert.KernelIdeal.main_arg1)) i)) ∧
      (∀ i, IsReal ((m ((c.tc : Thread Cert.KernelIdeal.nD Cert.KernelIdeal.τ).loc Cert.KernelIdeal.main_arg3)) i)) ∧
      (∀ i, IsReal ((m ((c.tc : Thread Cert.KernelIdeal.nD Cert.KernelIdeal.τ).loc Cert.KernelIdeal.main_arg4)) i)) ∧
      (∀ i, IsReal ((m ((c.tc : Thread Cert.KernelIdeal.nD Cert.KernelIdeal.τ).loc Cert.KernelIdeal.main_arg5)) i)) ∧
      (∀ i, IsReal ((m ((c.tc : Thread Cert.KernelIdeal.nD Cert.KernelIdeal.τ).loc Cert.KernelIdeal.main_arg6)) i)) ∧
      (∀ i, IsReal ((m ((c.tc : Thread Cert.KernelIdeal.nD Cert.KernelIdeal.τ).loc Cert.KernelIdeal.main_arg7)) i)) ∧
      (∀ i, IsReal ((m ((c.tc : Thread Cert.KernelIdeal.nD Cert.KernelIdeal.τ).loc Cert.KernelIdeal.main_arg8)) i)) ∧
      (∀ i, IsReal ((m ((c.tc : Thread Cert.KernelIdeal.nD Cert.KernelIdeal.τ).loc Cert.KernelIdeal.main_arg9)) i)) ∧
      (∀ i, IsReal ((m ((c.tc : Thread Cert.KernelIdeal.nD Cert.KernelIdeal.τ).loc Cert.KernelIdeal.main_arg10)) i)) ∧
      (∀ i, IsReal ((m ((c.tc : Thread Cert.KernelIdeal.nD Cert.KernelIdeal.τ).loc Cert.KernelIdeal.main_arg11)) i)) ∧
      (∀ i, IsReal ((m ((c.tc : Thread Cert.KernelIdeal.nD Cert.KernelIdeal.τ).loc Cert.KernelIdeal.main_arg12)) i)) ∧
      (∀ i, IsReal ((m ((c.tc : Thread Cert.KernelIdeal.nD Cert.KernelIdeal.τ).loc Cert.KernelIdeal.main_arg13)) i)) ∧
      (∀ i, IsReal ((m ((c.tc : Thread Cert.KernelIdeal.nD Cert.KernelIdeal.τ).loc Cert.KernelIdeal.main_arg14)) i)) ∧
      (∀ i, IsReal ((m ((c.tc : Thread Cert.KernelIdeal.nD Cert.KernelIdeal.τ).loc Cert.KernelIdeal.main_arg15)) i)) ∧
      (∀ i, IsReal ((m ((c.tc : Thread Cert.KernelIdeal.nD Cert.KernelIdeal.τ).loc Cert.KernelIdeal.main_arg16)) i)) ∧
      (∀ i, IsReal ((m ((c.tc : Thread Cert.KernelIdeal.nD Cert.KernelIdeal.τ).loc Cert.KernelIdeal.main_arg17)) i)) ∧
      (∀ i, IsReal ((m ((c.tc : Thread Cert.KernelIdeal.nD Cert.KernelIdeal.τ).loc Cert.KernelIdeal.main_arg18)) i)) ∧
      (∀ i, IsReal ((m ((c.tc : Thread Cert.KernelIdeal.nD Cert.KernelIdeal.τ).loc Cert.KernelIdeal.main_arg19)) i)) ∧
      (∀ i, IsReal ((m ((c.tc : Thread Cert.KernelIdeal.nD Cert.KernelIdeal.τ).loc Cert.KernelIdeal.main_arg20)) i)) ∧
      (∀ i, IsReal ((m ((c.tc : Thread Cert.KernelIdeal.nD Cert.KernelIdeal.τ).loc Cert.KernelIdeal.main_arg21)) i)) ∧
      (∀ i, IsReal ((m ((c.tc : Thread Cert.KernelIdeal.nD Cert.KernelIdeal.τ).loc Cert.KernelIdeal.main_arg22)) i)) ∧
      (∀ i, IsReal ((m ((c.tc : Thread Cert.KernelIdeal.nD Cert.KernelIdeal.τ).loc Cert.KernelIdeal.main_arg23)) i)) ∧
      (∀ i, IsReal ((m ((c.tc : Thread Cert.KernelIdeal.nD Cert.KernelIdeal.τ).loc Cert.KernelIdeal.main_arg24)) i)) ∧
      (∀ i, IsReal ((m ((c.tc : Thread Cert.KernelIdeal.nD Cert.KernelIdeal.τ).loc Cert.KernelIdeal.main_arg25)) i)) ∧
      (∀ i, IsReal ((m ((c.tc : Thread Cert.KernelIdeal.nD Cert.KernelIdeal.τ).loc Cert.KernelIdeal.main_arg26)) i)) ∧
      (∀ i, IsReal ((m ((c.tc : Thread Cert.KernelIdeal.nD Cert.KernelIdeal.τ).loc Cert.KernelIdeal.main_arg27)) i)) ∧
      (∀ i, IsReal ((m ((c.tc : Thread Cert.KernelIdeal.nD Cert.KernelIdeal.τ).loc Cert.KernelIdeal.main_arg28)) i)) :=
  fn_real _ _ _ _ _ _ _ _ _ _ _ _ _ _ _ _ _ _ _ _ _ _ _ _ _ _ _ _ _ (congrFun (h c) ValueIdx.ix0)

/-- Argument 0: every entry is a real number. -/
theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg0)) i) :=
  (real_args m h c).1

/-- Argument 1: every entry is a real number. -/
theorem real_arg1 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg1)) i) :=
  (real_args m h c).2.1

/-- Argument 3: every entry is a real number. -/
theorem real_arg3 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg3)) i) :=
  (real_args m h c).2.2.1

/-- Argument 4: every entry is a real number. -/
theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg4)) i) :=
  (real_args m h c).2.2.2.1

/-- Argument 5: every entry is a real number. -/
theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg5)) i) :=
  (real_args m h c).2.2.2.2.1

/-- Argument 6: every entry is a real number. -/
theorem real_arg6 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg6)) i) :=
  (real_args m h c).2.2.2.2.2.1

/-- Argument 7: every entry is a real number. -/
theorem real_arg7 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg7)) i) :=
  (real_args m h c).2.2.2.2.2.2.1

/-- Argument 8: every entry is a real number. -/
theorem real_arg8 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg8)) i) :=
  (real_args m h c).2.2.2.2.2.2.2.1

/-- Argument 9: every entry is a real number. -/
theorem real_arg9 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg9)) i) :=
  (real_args m h c).2.2.2.2.2.2.2.2.1

/-- Argument 10: every entry is a real number. -/
theorem real_arg10 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg10)) i) :=
  (real_args m h c).2.2.2.2.2.2.2.2.2.1

/-- Argument 11: every entry is a real number. -/
theorem real_arg11 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg11)) i) :=
  (real_args m h c).2.2.2.2.2.2.2.2.2.2.1

/-- Argument 12: every entry is a real number. -/
theorem real_arg12 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg12)) i) :=
  (real_args m h c).2.2.2.2.2.2.2.2.2.2.2.1

/-- Argument 13: every entry is a real number. -/
theorem real_arg13 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg13)) i) :=
  (real_args m h c).2.2.2.2.2.2.2.2.2.2.2.2.1

/-- Argument 14: every entry is a real number. -/
theorem real_arg14 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg14)) i) :=
  (real_args m h c).2.2.2.2.2.2.2.2.2.2.2.2.2.1

/-- Argument 15: every entry is a real number. -/
theorem real_arg15 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg15)) i) :=
  (real_args m h c).2.2.2.2.2.2.2.2.2.2.2.2.2.2.1

/-- Argument 16: every entry is a real number. -/
theorem real_arg16 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg16)) i) :=
  (real_args m h c).2.2.2.2.2.2.2.2.2.2.2.2.2.2.2.1

/-- Argument 17: every entry is a real number. -/
theorem real_arg17 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg17)) i) :=
  (real_args m h c).2.2.2.2.2.2.2.2.2.2.2.2.2.2.2.2.1

/-- Argument 18: every entry is a real number. -/
theorem real_arg18 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg18)) i) :=
  (real_args m h c).2.2.2.2.2.2.2.2.2.2.2.2.2.2.2.2.2.1

/-- Argument 19: every entry is a real number. -/
theorem real_arg19 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg19)) i) :=
  (real_args m h c).2.2.2.2.2.2.2.2.2.2.2.2.2.2.2.2.2.2.1

/-- Argument 20: every entry is a real number. -/
theorem real_arg20 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg20)) i) :=
  (real_args m h c).2.2.2.2.2.2.2.2.2.2.2.2.2.2.2.2.2.2.2.1

/-- Argument 21: every entry is a real number. -/
theorem real_arg21 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg21)) i) :=
  (real_args m h c).2.2.2.2.2.2.2.2.2.2.2.2.2.2.2.2.2.2.2.2.1

/-- Argument 22: every entry is a real number. -/
theorem real_arg22 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg22)) i) :=
  (real_args m h c).2.2.2.2.2.2.2.2.2.2.2.2.2.2.2.2.2.2.2.2.2.1

/-- Argument 23: every entry is a real number. -/
theorem real_arg23 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg23)) i) :=
  (real_args m h c).2.2.2.2.2.2.2.2.2.2.2.2.2.2.2.2.2.2.2.2.2.2.1

/-- Argument 24: every entry is a real number. -/
theorem real_arg24 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg24)) i) :=
  (real_args m h c).2.2.2.2.2.2.2.2.2.2.2.2.2.2.2.2.2.2.2.2.2.2.2.1

/-- Argument 25: every entry is a real number. -/
theorem real_arg25 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg25)) i) :=
  (real_args m h c).2.2.2.2.2.2.2.2.2.2.2.2.2.2.2.2.2.2.2.2.2.2.2.2.1

/-- Argument 26: every entry is a real number. -/
theorem real_arg26 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg26)) i) :=
  (real_args m h c).2.2.2.2.2.2.2.2.2.2.2.2.2.2.2.2.2.2.2.2.2.2.2.2.2.1

/-- Argument 27: every entry is a real number. -/
theorem real_arg27 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg27)) i) :=
  (real_args m h c).2.2.2.2.2.2.2.2.2.2.2.2.2.2.2.2.2.2.2.2.2.2.2.2.2.2.1

/-- Argument 28: every entry is a real number. -/
theorem real_arg28 (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg28)) i) :=
  (real_args m h c).2.2.2.2.2.2.2.2.2.2.2.2.2.2.2.2.2.2.2.2.2.2.2.2.2.2.2

end Cert.FiniteArgs

end
-- ==== Proof.ScoresEq.lean ====
/-
  The kernel program's score matrix is the reference's stage of it at the kernel's arguments: at entry
  (b, a·500 + o) both are the reference's score of the concatenated row (node a, node 200 + o) against image b's
  features, the node embeddings and the image features being equal on the two sides.
-/
import proofs.«101777_j1108101562624_2_alg».proof.Proof.Gen.Pre_finite_inputs
import proofs.«101777_j1108101562624_2_alg».proof.Proof.KScores
import proofs.«101777_j1108101562624_2_alg».proof.Proof.KNodes
import proofs.«101777_j1108101562624_2_alg».proof.Proof.KImage
import proofs.«101777_j1108101562624_2_alg».proof.Proof.NodesEq
import proofs.«101777_j1108101562624_2_alg».proof.Proof.ScoresRef
import proofs.«101777_j1108101562624_2_alg».proof.Proof.ImgRef
import proofs.«101777_j1108101562624_2_alg».proof.Proof.FiniteArgs

set_option maxRecDepth 16384

noncomputable section

namespace Cert.ScoresEq

open Idealize.ShloMosaic Idealize.ShloMosaic.TcCoe Idealize.ShloMosaic.ValueIdx
open Cert.KernelIdeal Cert.KernelIdeal.Gen Cert.FiniteArgs Cert.RealSums
open Cert.ReferenceIdeal.Read

variable (m : (ℓ : Loc nD τ sig) → Buf (Elt Ideal) ℓ) (ρ : Dev nD → PrngReg)

/-- The node embeddings held when the score stage starts are the reference's stage of them. -/
theorem nodes_mid (hpre : Cert.Pre_KernelIdeal m) (c : Dev nD) :
    val_main_v54 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = W6 m ρ c (Proc.devRef .tc main_v45) :=
  ((Cert.KernelIdeal.KNodes.W6_nodes m ρ c).trans
    (Cert.NodesEq.nodes_eq _ _ _ _ _ _ _ _ (real_arg1 m hpre c) (real_arg3 m hpre c) (real_arg4 m hpre c) (real_arg5 m hpre c)
      (real_arg6 m hpre c) (real_arg8 m hpre c))).symm

/-- Every entry of the node embeddings is a real number. -/
theorem nodes_real (hpre : Cert.Pre_KernelIdeal m) (c : Dev nD) :
    ∀ i, IsReal (val_main_v54 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) i) := by
  rw [← Cert.NodesEq.nodes_eq _ _ _ _ _ _ _ _ (real_arg1 m hpre c) (real_arg3 m hpre c) (real_arg4 m hpre c) (real_arg5 m hpre c)
      (real_arg6 m hpre c) (real_arg8 m hpre c)]
  exact Cert.SageValue.nodes_real _ _ _ _ _ _ _ _ (real_arg1 m hpre c) (real_arg3 m hpre c) (real_arg4 m hpre c) (real_arg5 m hpre c)
      (real_arg6 m hpre c) (real_arg7 m hpre c) (real_arg8 m hpre c)

/-- The image features held when the score stage starts are the reference's stage of them. -/
theorem img_mid (hpre : Cert.Pre_KernelIdeal m) (c : Dev nD) :
    val_main_v140 (F := Ideal) (m ((c.tc : Thread nD τ).loc main_arg0)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) = W6 m ρ c (Proc.devRef .tc main_v55) := by
  funext i
  obtain ⟨b, q, rfl⟩ : ∃ (b : Fin 256) (q : Fin 800), i = ix2 b q := ⟨i 0, i 1, eq_ix2 i⟩
  exact (Cert.ImgRef.img_feats_apply _ _ _ _ _ _ _ _ _ _ _ _ _ b q).trans
    (Cert.KernelIdeal.KImage.img_entry m ρ c (real_arg0 m hpre c) (real_arg9 m hpre c) (real_arg10 m hpre c) (real_arg11 m hpre c)
      (real_arg12 m hpre c) (real_arg13 m hpre c) (real_arg14 m hpre c) (real_arg15 m hpre c) (real_arg16 m hpre c)
      (real_arg17 m hpre c) (real_arg18 m hpre c) b q).symm

/-- The score matrix. -/
theorem scores_stage (hpre : Cert.Pre_KernelIdeal m) (c : Dev nD) :
    W24 m ρ c (Proc.devRef .tc main_v82) = val_main_v207 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) := by
  funext i
  obtain ⟨b, p, rfl⟩ : ∃ (b : Fin 256) (p : Fin 100000), i = ix2 b p := ⟨i 0, i 1, eq_ix2 i⟩
  have hp : p.val < 100000 := p.isLt
  obtain ⟨a, o, hpa⟩ : ∃ (a : Fin 200) (o : Fin 500), p = (⟨a.val * 500 + o.val, by have := a.isLt; have := o.isLt; omega⟩ : Fin 100000) :=
    ⟨⟨p.val / 500, by omega⟩, ⟨p.val % 500, Nat.mod_lt _ (by decide)⟩, Fin.ext (by show p.val = p.val / 500 * 500 + p.val % 500; omega)⟩
  rw [hpa]
  refine (Cert.KernelIdeal.KScores.score_entry m ρ c _ (nodes_mid m ρ hpre c) _ (img_mid m ρ hpre c) _ rfl _ rfl _ rfl _ rfl _ rfl _ rfl _ rfl _ rfl
    (nodes_real m hpre c) (real_arg21 m hpre c) (real_arg22 m hpre c) (real_arg23 m hpre c) (real_arg24 m hpre c)
    (real_arg25 m hpre c) (real_arg26 m hpre c) b a o).trans ?_
  exact (Cert.ScoresRef.scores_pair_apply (m ((c.tc : Thread nD τ).loc main_arg0)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) b a o).symm

end Cert.ScoresEq

end
-- ==== Proof.Algebraic.lean ====
/-
  The two idealized programs, run from memories that agree on the 29 arguments, end with equal results.  The kernel
  program's results are the contents its buffers hold at the last boundary of the fold through @main; the reference's
  are its operations' composed terms.  Under the precondition every float argument entry is a real number, and then
  the node embeddings agree (the three-pass products are plain products) and so do the scores (the one-pass layer
  normalisations are the two-pass ones, the named reciprocals are exact, the zero-padded lanes contribute nothing and
  the split first-layer product is the product over the concatenated row).
-/
import proofs.«101777_j1108101562624_2_alg».proof.Defs
import proofs.«101777_j1108101562624_2_alg».proof.Proof.Gen.KernelIdeal
import proofs.«101777_j1108101562624_2_alg».proof.Proof.Gen.ReferenceIdeal
import proofs.«101777_j1108101562624_2_alg».proof.Proof.Gen.Pre_finite_inputs
import proofs.«101777_j1108101562624_2_alg».proof.Proof.KRun
import proofs.«101777_j1108101562624_2_alg».proof.Proof.KNodes
import proofs.«101777_j1108101562624_2_alg».proof.Proof.NodesEq
import proofs.«101777_j1108101562624_2_alg».proof.Proof.ScoresEq
import proofs.«101777_j1108101562624_2_alg».proof.Proof.RefRunP
import proofs.«101777_j1108101562624_2_alg».proof.Proof.RefRunEq
import proofs.«101777_j1108101562624_2_alg».proof.Proof.FiniteArgs

set_option maxRecDepth 16384

noncomputable section

namespace Cert.Proof.Algebraic

open Idealize.ShloMosaic Idealize.ShloMosaic.TcCoe Idealize.SL.Sem
open Cert.KernelIdeal Cert.KernelIdeal.Gen Cert.FiniteArgs

variable (m : (ℓ : Loc Cert.KernelIdeal.nD Cert.KernelIdeal.τ Cert.KernelIdeal.sig) → Buf (Elt Ideal) ℓ)
  (ρ : Dev Cert.KernelIdeal.nD → PrngReg)

/-- The kernel program's node embeddings are the reference's stage of them, at the kernel's arguments. -/
theorem nodes_stage (hpre : Cert.Pre_KernelIdeal m) (c : Dev Cert.KernelIdeal.nD) :
    W24 m ρ c (Proc.devRef .tc main_v45)
      = Cert.ReferenceIdeal.Read.val_main_v54 (F := Ideal)
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) :=
  (Cert.KernelIdeal.KNodes.nodes_value m ρ c).trans
    (Cert.NodesEq.nodes_eq _ _ _ _ _ _ _ _ (real_arg1 m hpre c) (real_arg3 m hpre c) (real_arg4 m hpre c) (real_arg5 m hpre c)
      (real_arg6 m hpre c) (real_arg8 m hpre c))

theorem algebraic : Cert.algebraic_KernelIdeal_ReferenceIdeal := by
  intro m ρ m' ρ' hpre hagree
  refine ⟨fun c => W24 m ρ c (Proc.devRef .tc main_v82), fun c => W24 m ρ c (Proc.devRef .tc main_v45),
    Cert.KernelIdeal.KRun.run_results m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18, a19, a20, a21, a22, a23, a24, a25, a26, a27, a28⟩ := hagree c
    rw [Cert.ReferenceIdeal.Read.val_main_v207_eq m' c, a0, a1, a2, a3, a4, a5, a6, a7, a8, a9, a10, a11, a12, a13, a14, a15, a16, a17, a18, a19, a20, a21, a22, a23, a24, a25, a26, a27, a28]
    exact (Cert.ScoresEq.scores_stage m ρ hpre c).symm
  · obtain ⟨a0, a1, a2, a3, a4, a5, a6, a7, a8, a9, a10, a11, a12, a13, a14, a15, a16, a17, a18, a19, a20, a21, a22, a23, a24, a25, a26, a27, a28⟩ := hagree c
    rw [Cert.ReferenceIdeal.Read.val_main_v54_eq m' c, a1, a2, a3, a4, a5, a6, a7, a8]
    exact (nodes_stage m ρ hpre c).symm

end Cert.Proof.Algebraic

end
-- ==== Proof.lean ====
/-
  The certificate of a graph auto-encoder's scoring kernel against its plain reference.

  The kernel program computes, over 700 graph nodes (200 attributes then 500 objects) and 256 images:
  two graph-convolution layers (neighbour mean · Wl + bl + x · Wr, a maximum with 0 after the first), each in its own
  one-point region with every product taken in three narrow passes; a three-layer image tower with a layer
  normalisation after each layer, in one region, the normalisations in one pass (mean μ, second moment, variance
  max(E[x²] − μ², 0), the row lengths' reciprocals as named constants); the object half of the pair layer's first
  product; and, in a region of 25 points over blocks of 8 attributes, the pair scores: first-layer pre-activation as
  attribute half + object half + bias over 1024 zero-padded lanes, one-pass normalisation, maximum with 0, the second
  layer, a second normalisation, and the product with the image features.  The reference computes the same scores from
  the concatenated rows (attribute embedding, object embedding) with plain products and two-pass normalisations.

  At the ideal values a change of float format is the identity.  Under the precondition every float argument entry
  is a real number; then every intermediate entry is real, the correction terms of a three-pass product vanish
  (x − x = 0), the one-pass variance is the two-pass one (E[x²] − μ² is the mean squared deviation, non-negative),
  the named reciprocals are 1/800 and 1/1000 exactly, the padded lanes contribute 0, and the product over the
  concatenated row splits into its two halves: the two programs' results agree entry by entry.

  The three frames: the two kernel programs' by their generated frame certificates; the reference's from its run.
-/
import proofs.«101777_j1108101562624_2_alg».proof.Defs
import proofs.«101777_j1108101562624_2_alg».proof.Proof.Gen.Kernel
import proofs.«101777_j1108101562624_2_alg».proof.Proof.Gen.Kernel.Skeleton
import proofs.«101777_j1108101562624_2_alg».proof.Proof.Gen.Kernel.Launch
import proofs.«101777_j1108101562624_2_alg».proof.Proof.Gen.Kernel.Points
import proofs.«101777_j1108101562624_2_alg».proof.Proof.Gen.Kernel.Frame
import proofs.«101777_j1108101562624_2_alg».proof.Proof.Gen.KernelIdeal
import proofs.«101777_j1108101562624_2_alg».proof.Proof.Gen.KernelIdeal.Skeleton
import proofs.«101777_j1108101562624_2_alg».proof.Proof.Gen.KernelIdeal.Launch
import proofs.«101777_j1108101562624_2_alg».proof.Proof.Gen.KernelIdeal.Points
import proofs.«101777_j1108101562624_2_alg».proof.Proof.Gen.KernelIdeal.Frame
import proofs.«101777_j1108101562624_2_alg».proof.Proof.Gen.ReferenceIdeal
import proofs.«101777_j1108101562624_2_alg».proof.Proof.Gen.Pre_finite_inputs
import proofs.«101777_j1108101562624_2_alg».proof.Proof.RefRunP
import proofs.«101777_j1108101562624_2_alg».proof.Proof.Preserves
import proofs.«101777_j1108101562624_2_alg».proof.Proof.Algebraic
import Idealize.ShloMosaic.Adequacy
import Idealize.ShloMosaic.Init

noncomputable section

namespace Cert.Proof

open Idealize.ShloMosaic Idealize.SL.Sem Cert.Kernel

/-- The reference's frame: its run with the two results dropped. -/
theorem frame_ref : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  Cert.Proof.Preserves.preserves,
  Cert.Proof.Algebraic.algebraic⟩

end Cert.Proof

end
